-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64000x3 : Shape := ⟨2, ![64000, 3]⟩
abbrev S64000 : Shape := ⟨1, ![64000]⟩
abbrev S64 : Shape := ⟨1, ![64]⟩
abbrev S_ : Shape := ⟨0, ![]⟩

class Facts : Prop where
  bcast_S_S64000x3 : S_.BroadcastsInDim S64000x3 (![] : Fin 0 → Fin S64000x3.rank)
  reducesTo_S64000x3_S_d0_1 : S64000x3.ReducesTo [0, 1] S_
  h_S_ : 0 < S_.numel

variable [Facts]

def fn {F : FTy → Type} [FloatOps F] (main_arg0 : FVec F S64000x3 .f32) (main_arg1 : IVec S64000 32) (main_arg2 : IVec S64 32) : IVec S_ 1 :=
  let main_v0 : FVec F S64000x3 .f32 := Host.absf main_arg0
  let main_cst : FVec F S_ .f32 := constant S_ .f32 0x7F800000#32
  let main_v1 : FVec F S64000x3 .f32 := broadcastInDim S64000x3 ![] bcast_S_S64000x3 main_cst
  let main_v2 : IVec S64000x3 1 := cmpf .olt main_v0 main_v1
  let main_c : IVec S_ 1 := constantI S_ 1 1#1
  let main_v3 : IVec S_ 1 := (fun x v => Host.reduce IntOp.andi x v reducesTo_S64000x3_S_d0_1 h_S_) main_v2 main_c
  main_v3
-- ==== Kernel.lean ====
abbrev S64000x3 : Shape := ⟨2, ![64000, 3]⟩
abbrev S64000 : Shape := ⟨1, ![64000]⟩
abbrev S64 : Shape := ⟨1, ![64]⟩
abbrev S64x1000x3 : Shape := ⟨3, ![64, 1000, 3]⟩
abbrev S64x1000x1000 : Shape := ⟨3, ![64, 1000, 1000]⟩
abbrev S1x1000x3 : Shape := ⟨3, ![1, 1000, 3]⟩
abbrev S1x1000x1000 : Shape := ⟨3, ![1, 1000, 1000]⟩
abbrev S1000x3 : Shape := ⟨2, ![1000, 3]⟩
abbrev S3x1000 : Shape := ⟨2, ![3, 1000]⟩
abbrev S1000 : Shape := ⟨1, ![1000]⟩
abbrev S1000x1 : Shape := ⟨2, ![1000, 1]⟩
abbrev S1000x1000 : Shape := ⟨2, ![1000, 1000]⟩
abbrev S1x1000 : Shape := ⟨2, ![1, 1000]⟩
abbrev S64000000 : Shape := ⟨1, ![64000000]⟩
abbrev S_ : Shape := ⟨0, ![]⟩
abbrev S2200000 : Shape := ⟨1, ![2200000]⟩
abbrev S64000000x1 : Shape := ⟨2, ![64000000, 1]⟩
abbrev S2200000x1 : Shape := ⟨2, ![2200000, 1]⟩
abbrev S4400000 : Shape := ⟨1, ![4400000]⟩

abbrev nBuf : Space → Nat
  | .hbm => 153
  | .vmem => 4
  | .smem => 0
  | _ => 0

abbrev hbmTy0_0 (i : Nat) : BufTy := match i % 128 with
  | 0 => ⟨S64000x3, .f32⟩
  | 1 => ⟨S64000, .i32⟩
  | 2 => ⟨S64, .i32⟩
  | 3 => ⟨S64x1000x3, .f32⟩
  | 4 => ⟨S64x1000x1000, .f32⟩
  | 5 => ⟨S64000000, .f32⟩
  | 6 => ⟨S_, .f32⟩
  | 7 => ⟨S64000000, .f32⟩
  | 8 => ⟨S64000000, .i1⟩
  | 9 => ⟨S64000000, .i32⟩
  | 10 => ⟨S_, .i32⟩
  | 11 => ⟨S_, .i32⟩
  | 12 => ⟨S64000000, .i32⟩
  | 13 => ⟨S_, .i32⟩
  | 14 => ⟨S_, .i32⟩
  | 15 => ⟨S64000000, .i32⟩
  | 16 => ⟨S_, .i32⟩
  | 17 => ⟨S64000000, .i32⟩
  | 18 => ⟨S64000000, .i32⟩
  | 19 => ⟨S_, .i32⟩
  | 20 => ⟨S_, .i32⟩
  | 21 => ⟨S64000000, .i32⟩
  | 22 => ⟨S64000000, .i32⟩
  | 23 => ⟨S64000000, .i32⟩
  | 24 => ⟨S_, .i32⟩
  | 25 => ⟨S2200000, .i32⟩
  | 26 => ⟨S_, .i32⟩
  | 27 => ⟨S64000000, .i32⟩
  | 28 => ⟨S64000000, .i1⟩
  | 29 => ⟨S_, .i32⟩
  | 30 => ⟨S64000000, .i32⟩
  | 31 => ⟨S64000000, .i32⟩
  | 32 => ⟨S64000000, .i32⟩
  | 33 => ⟨S64000000x1, .i32⟩
  | 34 => ⟨S2200000, .i32⟩
  | 35 => ⟨S_, .i32⟩
  | 36 => ⟨S2200000, .i32⟩
  | 37 => ⟨S2200000, .i1⟩
  | 38 => ⟨S_, .i32⟩
  | 39 => ⟨S2200000, .i32⟩
  | 40 => ⟨S2200000, .i32⟩
  | 41 => ⟨S_, .i32⟩
  | 42 => ⟨S_, .i32⟩
  | 43 => ⟨S2200000, .i32⟩
  | 44 => ⟨S2200000, .i32⟩
  | 45 => ⟨S2200000, .i32⟩
  | 46 => ⟨S_, .i32⟩
  | 47 => ⟨S2200000, .i32⟩
  | 48 => ⟨S2200000, .i1⟩
  | 49 => ⟨S2200000, .i32⟩
  | 50 => ⟨S2200000, .i32⟩
  | 51 => ⟨S_, .i32⟩
  | 52 => ⟨S2200000, .i32⟩
  | 53 => ⟨S2200000, .i1⟩
  | 54 => ⟨S2200000, .i1⟩
  | 55 => ⟨S_, .i32⟩
  | 56 => ⟨S2200000, .i32⟩
  | 57 => ⟨S2200000, .i32⟩
  | 58 => ⟨S2200000, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S2200000, .i32⟩
  | 66 => ⟨S2200000, .i32⟩
  | 67 => ⟨S_, .i32⟩
  | 68 => ⟨S2200000, .i32⟩
  | 69 => ⟨S2200000, .i1⟩
  | 70 => ⟨S_, .i32⟩
  | 71 => ⟨S2200000, .i32⟩
  | 72 => ⟨S2200000, .i1⟩
  | 73 => ⟨S_, .i32⟩
  | 74 => ⟨S_, .i1⟩
  | 75 => ⟨S2200000, .i1⟩
  | 76 => ⟨S2200000, .i1⟩
  | 77 => ⟨S2200000, .i1⟩
  | 78 => ⟨S2200000, .i32⟩
  | 79 => ⟨S2200000, .i32⟩
  | 80 => ⟨S2200000, .i32⟩
  | 81 => ⟨S_, .i32⟩
  | 82 => ⟨S_, .i32⟩
  | 83 => ⟨S2200000, .i32⟩
  | 84 => ⟨S2200000, .i32⟩
  | 85 => ⟨S2200000, .i32⟩
  | 86 => ⟨S_, .i32⟩
  | 87 => ⟨S2200000, .i32⟩
  | 88 => ⟨S2200000, .i1⟩
  | 89 => ⟨S2200000, .i32⟩
  | 90 => ⟨S2200000, .i32⟩
  | 91 => ⟨S_, .i32⟩
  | 92 => ⟨S2200000, .i32⟩
  | 93 => ⟨S2200000, .i1⟩
  | 94 => ⟨S2200000, .i1⟩
  | 95 => ⟨S_, .i32⟩
  | 96 => ⟨S2200000, .i32⟩
  | 97 => ⟨S2200000, .i32⟩
  | 98 => ⟨S2200000, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S2200000, .i32⟩
  | 106 => ⟨S2200000, .i32⟩
  | 107 => ⟨S_, .i32⟩
  | 108 => ⟨S2200000, .i32⟩
  | 109 => ⟨S2200000, .i1⟩
  | 110 => ⟨S_, .i32⟩
  | 111 => ⟨S2200000, .i32⟩
  | 112 => ⟨S2200000, .i1⟩
  | 113 => ⟨S_, .i32⟩
  | 114 => ⟨S_, .i1⟩
  | 115 => ⟨S2200000, .i1⟩
  | 116 => ⟨S2200000, .i1⟩
  | 117 => ⟨S2200000, .i1⟩
  | 118 => ⟨S2200000, .i32⟩
  | 119 => ⟨S2200000, .i32⟩
  | 120 => ⟨S2200000, .i32⟩
  | 121 => ⟨S_, .i32⟩
  | 122 => ⟨S2200000, .i32⟩
  | 123 => ⟨S2200000, .i32⟩
  | 124 => ⟨S2200000, .i32⟩
  | 125 => ⟨S_, .i32⟩
  | 126 => ⟨S_, .i32⟩
  | 127 => ⟨S2200000, .i32⟩
  | _ => ⟨S64000x3, .f32⟩

abbrev hbmTy0_1 (i : Nat) : BufTy := match i % 128 with
  | 0 => ⟨S2200000, .i32⟩
  | 1 => ⟨S_, .i32⟩
  | 2 => ⟨S2200000, .i32⟩
  | 3 => ⟨S2200000, .i32⟩
  | 4 => ⟨S2200000, .i32⟩
  | 5 => ⟨S_, .i32⟩
  | 6 => ⟨S_, .i32⟩
  | 7 => ⟨S2200000, .i32⟩
  | 8 => ⟨S2200000, .i32⟩
  | 9 => ⟨S_, .i32⟩
  | 10 => ⟨S2200000, .i32⟩
  | 11 => ⟨S2200000, .i1⟩
  | 12 => ⟨S_, .i32⟩
  | 13 => ⟨S2200000, .i32⟩
  | 14 => ⟨S2200000, .i32⟩
  | 15 => ⟨S2200000, .i32⟩
  | 16 => ⟨S2200000x1, .i32⟩
  | 17 => ⟨S2200000, .f32⟩
  | 18 => ⟨S_, .f32⟩
  | 19 => ⟨S_, .f32⟩
  | 20 => ⟨S2200000, .f32⟩
  | 21 => ⟨S2200000, .f32⟩
  | 22 => ⟨S4400000, .i32⟩
  | 23 => ⟨S4400000, .i32⟩
  | 24 => ⟨S4400000, .f32⟩
  | _ => ⟨S64000x3, .f32⟩

abbrev hbmTy (i : Nat) : BufTy := match i / 128 with
  | 0 => hbmTy0_0 i
  | 1 => hbmTy0_1 i
  | _ => ⟨S64000x3, .f32⟩

abbrev bufTy : (tb : Table) → Fin (tcTables nBuf tb) → BufTy
  | .hbm, ⟨i, _⟩ => hbmTy i
  | .local _ .vmem, ⟨0, _⟩ => ⟨S1x1000x3, .f32⟩
  | .local _ .vmem, ⟨1, _⟩ => ⟨S1x1000x3, .f32⟩
  | .local _ .vmem, ⟨2, _⟩ => ⟨S1x1000x1000, .f32⟩
  | .local _ .vmem, ⟨3, _⟩ => ⟨S1x1000x1000, .f32⟩
  | _, _ => ⟨S64000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call1_v0 : Ref sig .tc := ⟨.hbm, 20, rfl⟩
abbrev main_call1_v1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_v25 : Ref sig .tc := ⟨.hbm, 58, rfl⟩
abbrev main_c_8 : Ref sig .tc := ⟨.hbm, 59, rfl⟩
abbrev main_call3_v0 : Ref sig .tc := ⟨.hbm, 60, rfl⟩
abbrev main_call3_c : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_c_1 : Ref sig .tc := ⟨.hbm, 67, rfl⟩
abbrev main_call3_v5 : Ref sig .tc := ⟨.hbm, 68, rfl⟩
abbrev main_call3_v6 : Ref sig .tc := ⟨.hbm, 69, rfl⟩
abbrev main_call3_c_2 : Ref sig .tc := ⟨.hbm, 70, rfl⟩
abbrev main_call3_v7 : Ref sig .tc := ⟨.hbm, 71, rfl⟩
abbrev main_call3_v8 : Ref sig .tc := ⟨.hbm, 72, rfl⟩
abbrev main_call3_c_3 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_v12 : Ref sig .tc := ⟨.hbm, 77, rfl⟩
abbrev main_call3_v13 : Ref sig .tc := ⟨.hbm, 78, rfl⟩
abbrev main_call3_v14 : Ref sig .tc := ⟨.hbm, 79, rfl⟩
abbrev main_v26 : Ref sig .tc := ⟨.hbm, 80, rfl⟩
abbrev main_c_9 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_c : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_0 : Ref sig .tc := ⟨.hbm, 95, rfl⟩
abbrev main_call4_v12 : Ref sig .tc := ⟨.hbm, 96, rfl⟩
abbrev main_call4_v13 : Ref sig .tc := ⟨.hbm, 97, rfl⟩
abbrev main_v27 : Ref sig .tc := ⟨.hbm, 98, rfl⟩
abbrev main_c_10 : Ref sig .tc := ⟨.hbm, 99, rfl⟩
abbrev main_call5_v0 : Ref sig .tc := ⟨.hbm, 100, rfl⟩
abbrev main_call5_c : Ref sig .tc := ⟨.hbm, 101, rfl⟩
abbrev main_call5_v1 : Ref sig .tc := ⟨.hbm, 102, rfl⟩
abbrev main_call5_c_0 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_c_1 : Ref sig .tc := ⟨.hbm, 107, rfl⟩
abbrev main_call5_v5 : Ref sig .tc := ⟨.hbm, 108, rfl⟩
abbrev main_call5_v6 : Ref sig .tc := ⟨.hbm, 109, rfl⟩
abbrev main_call5_c_2 : Ref sig .tc := ⟨.hbm, 110, rfl⟩
abbrev main_call5_v7 : Ref sig .tc := ⟨.hbm, 111, rfl⟩
abbrev main_call5_v8 : Ref sig .tc := ⟨.hbm, 112, rfl⟩
abbrev main_call5_c_3 : Ref sig .tc := ⟨.hbm, 113, rfl⟩
abbrev main_call5_v9 : Ref sig .tc := ⟨.hbm, 114, rfl⟩
abbrev main_call5_v10 : Ref sig .tc := ⟨.hbm, 115, rfl⟩
abbrev main_call5_v11 : Ref sig .tc := ⟨.hbm, 116, rfl⟩
abbrev main_call5_v12 : Ref sig .tc := ⟨.hbm, 117, rfl⟩
abbrev main_call5_v13 : Ref sig .tc := ⟨.hbm, 118, rfl⟩
abbrev main_call5_v14 : Ref sig .tc := ⟨.hbm, 119, rfl⟩
abbrev main_v28 : Ref sig .tc := ⟨.hbm, 120, rfl⟩
abbrev main_c_11 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_c_12 : Ref sig .tc := ⟨.hbm, 125, rfl⟩
abbrev main_call6_v0 : Ref sig .tc := ⟨.hbm, 126, rfl⟩
abbrev main_call6_v1 : Ref sig .tc := ⟨.hbm, 127, rfl⟩
abbrev main_v32 : Ref sig .tc := ⟨.hbm, 128, rfl⟩
abbrev main_c_13 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_c_14 : Ref sig .tc := ⟨.hbm, 133, rfl⟩
abbrev main_call7_v0 : Ref sig .tc := ⟨.hbm, 134, rfl⟩
abbrev main_call7_v1 : Ref sig .tc := ⟨.hbm, 135, rfl⟩
abbrev main_v36 : Ref sig .tc := ⟨.hbm, 136, rfl⟩
abbrev main_c_15 : Ref sig .tc := ⟨.hbm, 137, rfl⟩
abbrev main_v37 : Ref sig .tc := ⟨.hbm, 138, rfl⟩
abbrev main_v38 : Ref sig .tc := ⟨.hbm, 139, rfl⟩
abbrev main_c_16 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_cst_17 : Ref sig .tc := ⟨.hbm, 146, rfl⟩
abbrev main_call8_v0 : Ref sig .tc := ⟨.hbm, 147, rfl⟩
abbrev main_call8_v1 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64000x3_S64x1000x3 : S64000x3.ShapeCasts S64x1000x3
  inb_S1x1000x3_S1x1000x3_0_0_0 : ∀ a, (![0, 0, 0] : Fin 3 → Nat) a + S1x1000x3.size a ≤ S1x1000x3.size a
  h_S1x1000x3 : 0 < S1x1000x3.numel
  shapeCasts_S1x1000x3_S1000x3 : S1x1000x3.ShapeCasts S1000x3
  transposes_S1000x3_p1_0_S3x1000 : S1000x3.Transposes [1, 0] S3x1000
  reduces_S1000x3_S1000 : S1000x3.Reduces [1] S1000
  shapeCasts_S1000_S1000x1 : S1000.ShapeCasts S1000x1
  transposes_S1000x1_p1_0_S1x1000 : S1000x1.Transposes [1, 0] S1x1000
  broadcasts_S1000x1_S1000x1000 : S1000x1.Broadcasts S1000x1000
  broadcasts_S1x1000_S1000x1000 : S1x1000.Broadcasts S1000x1000
  iota_S1000x1000_d0_w32 : S1000x1000.Iotas .tc 32 [0]
  iota_S1000x1000_d1_w32 : S1000x1000.Iotas .tc 32 [1]
  inb_S1x1000x1000_S1x1000x1000_0_0_0 : ∀ a, (![0, 0, 0] : Fin 3 → Nat) a + S1x1000x1000.size a ≤ S1x1000x1000.size a
  h_S1x1000x1000 : 0 < S1x1000x1000.numel
  shapeCasts_S1x1000x1000_S1000x1000 : S1x1000x1000.ShapeCasts S1000x1000
  shapeCasts_S1000x1000_S1x1000x1000 : S1000x1000.ShapeCasts S1x1000x1000
  shapeCasts_S64x1000x1000_S64000000 : S64x1000x1000.ShapeCasts S64000000
  bcast_S_S64000000 : S_.BroadcastsInDim S64000000 (![] : Fin 0 → Fin S64000000.rank)
  natLt_1_32 : 1 < 32
  reducesTo_S64000000_S_d0 : S64000000.ReducesTo [0] S_
  h_S_ : 0 < S_.numel
  bcast_S_S_ : S_.BroadcastsInDim S_ (![] : Fin 0 → Fin S_.rank)
  reduceWindows_S64000000_S64000000_w64000000s1p63999999_0 : S64000000.ReduceWindows (![64000000] : Fin 1 → Nat) ![1] ![63999999] ![0] S64000000
  bcast_S_S2200000 : S_.BroadcastsInDim S2200000 (![] : Fin 0 → Fin S2200000.rank)
  bcast_S64000000_S64000000x1_0 : S64000000.BroadcastsInDim S64000000x1 (![0] : Fin 1 → Fin S64000000x1.rank)
  bcast_S2200000_S2200000x1_0 : S2200000.BroadcastsInDim S2200000x1 (![0] : Fin 1 → Fin S2200000x1.rank)
  concatenates_S2200000_S2200000_S4400000_d0 : Shape.Concatenates [S2200000, S2200000] S4400000 0
  dot_S1000x3_S3x1000_S1000x1000_1_0_0_1_n_n_wf : DotDims.WF S1000x3 S3x1000 S1000x1000 [1] [0] [0] [1] [] []
  scatter_S2200000_S64000000x1_S64000000_n_0_0_1_wf : ScatterDims.WF S2200000 S64000000x1 S64000000 [] [0] [0] 1
  gather_S64000000_S2200000x1_S2200000_n_0_n_n_0_1_1_wf : GatherDims.WF S64000000 S2200000x1 S2200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x3.size a ≤ S64x1000x3.size a
  hwx0_0 : ∀ i : grid0.Coords, EltTy.bits .f32 = 32 ∨ (Rect.block (s := S64x1000x3) S1x1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x1000.size a ≤ S64x1000x1000.size a
  hwx0_1 : ∀ i : grid0.Coords, EltTy.bits .f32 = 32 ∨ (Rect.block (s := S64x1000x1000) S1x1000x1000.size (cc0_transform_1 i) (hinb0_1 i)).WholeWords (EltTy.packing .f32)

variable [Facts₀]

def dot_S1000x3_S3x1000_S1000x1000_1_0_0_1_n_n : DotDims S1000x3 S3x1000 S1000x1000 where
  lhsContracting := [1]
  rhsContracting := [0]
  lhsNonContracting := [0]
  rhsNonContracting := [1]
  lhsBatch := []
  rhsBatch := []
  wf := dot_S1000x3_S3x1000_S1000x1000_1_0_0_1_n_n_wf
def scatter_S2200000_S64000000x1_S64000000_n_0_0_1 : ScatterDims S2200000 S64000000x1 S64000000 where
  updateWindowDims := []
  insertedWindowDims := [0]
  scatterDimsToOperandDims := [0]
  indexVectorDim := 1
  wf := scatter_S2200000_S64000000x1_S64000000_n_0_0_1_wf
def gather_S64000000_S2200000x1_S2200000_n_0_n_n_0_1_1 : GatherDims S64000000 S2200000x1 S2200000 where
  offsetDims := []
  collapsedSliceDims := [0]
  operandBatchingDims := []
  startIndicesBatchingDims := []
  startIndexMap := [0]
  indexVectorDim := 1
  sliceSizes := ![1]
  wf := gather_S64000000_S2200000x1_S2200000_n_0_n_n_0_1_1_wf

abbrev win0_0 : Pipeline.Window sig grid0 :=
  Pipeline.Window.ofSpec (Memref.whole main_v0) S1x1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1000x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64000x3 : Shape := ⟨2, ![64000, 3]⟩
abbrev S64000 : Shape := ⟨1, ![64000]⟩
abbrev S64 : Shape := ⟨1, ![64]⟩
abbrev S64x1000x3 : Shape := ⟨3, ![64, 1000, 3]⟩
abbrev S_ : Shape := ⟨0, ![]⟩
abbrev S64x1000 : Shape := ⟨2, ![64, 1000]⟩
abbrev S64x1000x1000 : Shape := ⟨3, ![64, 1000, 1000]⟩
abbrev S64x1000x1 : Shape := ⟨3, ![64, 1000, 1]⟩
abbrev S64x1x1000 : Shape := ⟨3, ![64, 1, 1000]⟩
abbrev S1000x1000 : Shape := ⟨2, ![1000, 1000]⟩
abbrev S1x1000x1000 : Shape := ⟨3, ![1, 1000, 1000]⟩
abbrev S64000000 : Shape := ⟨1, ![64000000]⟩
abbrev S2200000 : Shape := ⟨1, ![2200000]⟩
abbrev S64000000x1 : Shape := ⟨2, ![64000000, 1]⟩
abbrev S2200000x1 : Shape := ⟨2, ![2200000, 1]⟩
abbrev S4400000 : Shape := ⟨1, ![4400000]⟩

abbrev nBuf : Space → Nat
  | .hbm => 179
  | .vmem => 0
  | .smem => 0
  | _ => 0

abbrev hbmTy0_0 (i : Nat) : BufTy := match i % 128 with
  | 0 => ⟨S64000x3, .f32⟩
  | 1 => ⟨S64000, .i32⟩
  | 2 => ⟨S64, .i32⟩
  | 3 => ⟨S64x1000x3, .f32⟩
  | 4 => ⟨S64x1000x3, .f32⟩
  | 5 => ⟨S_, .f32⟩
  | 6 => ⟨S64x1000, .f32⟩
  | 7 => ⟨S64x1000x1000, .f32⟩
  | 8 => ⟨S64x1000x1, .f32⟩
  | 9 => ⟨S64x1x1000, .f32⟩
  | 10 => ⟨S64x1000x1000, .f32⟩
  | 11 => ⟨S64x1000x1000, .f32⟩
  | 12 => ⟨S64x1000x1000, .f32⟩
  | 13 => ⟨S_, .f32⟩
  | 14 => ⟨S64x1000x1000, .f32⟩
  | 15 => ⟨S64x1000x1000, .f32⟩
  | 16 => ⟨S64x1000x1000, .f32⟩
  | 17 => ⟨S_, .i1⟩
  | 18 => ⟨S1000x1000, .i1⟩
  | 19 => ⟨S1000x1000, .i32⟩
  | 20 => ⟨S_, .i32⟩
  | 21 => ⟨S1000x1000, .i32⟩
  | 22 => ⟨S1000x1000, .i32⟩
  | 23 => ⟨S1000x1000, .i32⟩
  | 24 => ⟨S1000x1000, .i1⟩
  | 25 => ⟨S_, .i1⟩
  | 26 => ⟨S1000x1000, .i1⟩
  | 27 => ⟨S1000x1000, .i1⟩
  | 28 => ⟨S_, .f32⟩
  | 29 => ⟨S64x1000x1000, .f32⟩
  | 30 => ⟨S64x1000x1000, .i1⟩
  | 31 => ⟨S1x1000x1000, .i1⟩
  | 32 => ⟨S64x1000x1000, .i1⟩
  | 33 => ⟨S64x1000x1000, .i1⟩
  | 34 => ⟨S64000000, .i1⟩
  | 35 => ⟨S64000000, .i32⟩
  | 36 => ⟨S_, .i32⟩
  | 37 => ⟨S_, .i32⟩
  | 38 => ⟨S64000000, .i32⟩
  | 39 => ⟨S_, .i32⟩
  | 40 => ⟨S_, .i32⟩
  | 41 => ⟨S64000000, .i32⟩
  | 42 => ⟨S_, .i32⟩
  | 43 => ⟨S64000000, .i32⟩
  | 44 => ⟨S64000000, .i32⟩
  | 45 => ⟨S_, .i32⟩
  | 46 => ⟨S_, .i32⟩
  | 47 => ⟨S64000000, .i32⟩
  | 48 => ⟨S64000000, .i32⟩
  | 49 => ⟨S64000000, .i32⟩
  | 50 => ⟨S_, .i32⟩
  | 51 => ⟨S2200000, .i32⟩
  | 52 => ⟨S_, .i32⟩
  | 53 => ⟨S64000000, .i32⟩
  | 54 => ⟨S64000000, .i1⟩
  | 55 => ⟨S_, .i32⟩
  | 56 => ⟨S64000000, .i32⟩
  | 57 => ⟨S64000000, .i32⟩
  | 58 => ⟨S64000000, .i32⟩
  | 59 => ⟨S64000000x1, .i32⟩
  | 60 => ⟨S2200000, .i32⟩
  | 61 => ⟨S_, .i32⟩
  | 62 => ⟨S2200000, .i32⟩
  | 63 => ⟨S2200000, .i1⟩
  | 64 => ⟨S_, .i32⟩
  | 65 => ⟨S2200000, .i32⟩
  | 66 => ⟨S2200000, .i32⟩
  | 67 => ⟨S_, .i32⟩
  | 68 => ⟨S_, .i32⟩
  | 69 => ⟨S2200000, .i32⟩
  | 70 => ⟨S2200000, .i32⟩
  | 71 => ⟨S2200000, .i32⟩
  | 72 => ⟨S_, .i32⟩
  | 73 => ⟨S2200000, .i32⟩
  | 74 => ⟨S2200000, .i1⟩
  | 75 => ⟨S2200000, .i32⟩
  | 76 => ⟨S2200000, .i32⟩
  | 77 => ⟨S_, .i32⟩
  | 78 => ⟨S2200000, .i32⟩
  | 79 => ⟨S2200000, .i1⟩
  | 80 => ⟨S2200000, .i1⟩
  | 81 => ⟨S_, .i32⟩
  | 82 => ⟨S2200000, .i32⟩
  | 83 => ⟨S2200000, .i32⟩
  | 84 => ⟨S2200000, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S2200000, .i32⟩
  | 92 => ⟨S2200000, .i32⟩
  | 93 => ⟨S_, .i32⟩
  | 94 => ⟨S2200000, .i32⟩
  | 95 => ⟨S2200000, .i1⟩
  | 96 => ⟨S_, .i32⟩
  | 97 => ⟨S2200000, .i32⟩
  | 98 => ⟨S2200000, .i1⟩
  | 99 => ⟨S_, .i32⟩
  | 100 => ⟨S_, .i1⟩
  | 101 => ⟨S2200000, .i1⟩
  | 102 => ⟨S2200000, .i1⟩
  | 103 => ⟨S2200000, .i1⟩
  | 104 => ⟨S2200000, .i32⟩
  | 105 => ⟨S2200000, .i32⟩
  | 106 => ⟨S2200000, .i32⟩
  | 107 => ⟨S_, .i32⟩
  | 108 => ⟨S_, .i32⟩
  | 109 => ⟨S2200000, .i32⟩
  | 110 => ⟨S2200000, .i32⟩
  | 111 => ⟨S2200000, .i32⟩
  | 112 => ⟨S_, .i32⟩
  | 113 => ⟨S2200000, .i32⟩
  | 114 => ⟨S2200000, .i1⟩
  | 115 => ⟨S2200000, .i32⟩
  | 116 => ⟨S2200000, .i32⟩
  | 117 => ⟨S_, .i32⟩
  | 118 => ⟨S2200000, .i32⟩
  | 119 => ⟨S2200000, .i1⟩
  | 120 => ⟨S2200000, .i1⟩
  | 121 => ⟨S_, .i32⟩
  | 122 => ⟨S2200000, .i32⟩
  | 123 => ⟨S2200000, .i32⟩
  | 124 => ⟨S2200000, .i32⟩
  | 125 => ⟨S_, .i32⟩
  | 126 => ⟨S_, .i32⟩
  | 127 => ⟨S_, .i32⟩
  | _ => ⟨S64000x3, .f32⟩

abbrev hbmTy0_1 (i : Nat) : BufTy := match i % 128 with
  | 0 => ⟨S_, .i1⟩
  | 1 => ⟨S_, .i32⟩
  | 2 => ⟨S_, .i32⟩
  | 3 => ⟨S2200000, .i32⟩
  | 4 => ⟨S2200000, .i32⟩
  | 5 => ⟨S_, .i32⟩
  | 6 => ⟨S2200000, .i32⟩
  | 7 => ⟨S2200000, .i1⟩
  | 8 => ⟨S_, .i32⟩
  | 9 => ⟨S2200000, .i32⟩
  | 10 => ⟨S2200000, .i1⟩
  | 11 => ⟨S_, .i32⟩
  | 12 => ⟨S_, .i1⟩
  | 13 => ⟨S2200000, .i1⟩
  | 14 => ⟨S2200000, .i1⟩
  | 15 => ⟨S2200000, .i1⟩
  | 16 => ⟨S2200000, .i32⟩
  | 17 => ⟨S2200000, .i32⟩
  | 18 => ⟨S2200000, .i32⟩
  | 19 => ⟨S_, .i32⟩
  | 20 => ⟨S2200000, .i32⟩
  | 21 => ⟨S2200000, .i32⟩
  | 22 => ⟨S2200000, .i32⟩
  | 23 => ⟨S_, .i32⟩
  | 24 => ⟨S_, .i32⟩
  | 25 => ⟨S2200000, .i32⟩
  | 26 => ⟨S2200000, .i32⟩
  | 27 => ⟨S_, .i32⟩
  | 28 => ⟨S2200000, .i32⟩
  | 29 => ⟨S2200000, .i32⟩
  | 30 => ⟨S2200000, .i32⟩
  | 31 => ⟨S_, .i32⟩
  | 32 => ⟨S_, .i32⟩
  | 33 => ⟨S2200000, .i32⟩
  | 34 => ⟨S2200000, .i32⟩
  | 35 => ⟨S64000000, .f32⟩
  | 36 => ⟨S_, .i32⟩
  | 37 => ⟨S2200000, .i32⟩
  | 38 => ⟨S2200000, .i1⟩
  | 39 => ⟨S_, .i32⟩
  | 40 => ⟨S2200000, .i32⟩
  | 41 => ⟨S2200000, .i32⟩
  | 42 => ⟨S2200000, .i32⟩
  | 43 => ⟨S2200000x1, .i32⟩
  | 44 => ⟨S2200000, .f32⟩
  | 45 => ⟨S_, .f32⟩
  | 46 => ⟨S2200000, .f32⟩
  | 47 => ⟨S2200000, .f32⟩
  | 48 => ⟨S4400000, .i32⟩
  | 49 => ⟨S4400000, .i32⟩
  | 50 => ⟨S4400000, .f32⟩
  | _ => ⟨S64000x3, .f32⟩

abbrev hbmTy (i : Nat) : BufTy := match i / 128 with
  | 0 => hbmTy0_0 i
  | 1 => hbmTy0_1 i
  | _ => ⟨S64000x3, .f32⟩

abbrev bufTy : (tb : Table) → Fin (tcTables nBuf tb) → BufTy
  | .hbm, ⟨i, _⟩ => hbmTy i
  | _, _ => ⟨S64000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_call1_call0_c : Ref sig .tc := ⟨.hbm, 39, rfl⟩
abbrev main_call1_call0_v0 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_call2_v0 : Ref sig .tc := ⟨.hbm, 46, rfl⟩
abbrev main_call2_v1 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_c : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_0 : Ref sig .tc := ⟨.hbm, 81, rfl⟩
abbrev main_call3_v12 : Ref sig .tc := ⟨.hbm, 82, rfl⟩
abbrev main_call3_v13 : Ref sig .tc := ⟨.hbm, 83, rfl⟩
abbrev main_v40 : Ref sig .tc := ⟨.hbm, 84, rfl⟩
abbrev main_c_11 : Ref sig .tc := ⟨.hbm, 85, rfl⟩
abbrev main_call4_v0 : Ref sig .tc := ⟨.hbm, 86, rfl⟩
abbrev main_call4_c : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_c_1 : Ref sig .tc := ⟨.hbm, 93, rfl⟩
abbrev main_call4_v5 : Ref sig .tc := ⟨.hbm, 94, rfl⟩
abbrev main_call4_v6 : Ref sig .tc := ⟨.hbm, 95, rfl⟩
abbrev main_call4_c_2 : Ref sig .tc := ⟨.hbm, 96, rfl⟩
abbrev main_call4_v7 : Ref sig .tc := ⟨.hbm, 97, rfl⟩
abbrev main_call4_v8 : Ref sig .tc := ⟨.hbm, 98, rfl⟩
abbrev main_call4_c_3 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_v41 : Ref sig .tc := ⟨.hbm, 106, rfl⟩
abbrev main_c_12 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_call5_v5 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_c : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_call5_c_0 : Ref sig .tc := ⟨.hbm, 121, rfl⟩
abbrev main_call5_v12 : Ref sig .tc := ⟨.hbm, 122, rfl⟩
abbrev main_call5_v13 : Ref sig .tc := ⟨.hbm, 123, rfl⟩
abbrev main_v42 : Ref sig .tc := ⟨.hbm, 124, rfl⟩
abbrev main_c_13 : Ref sig .tc := ⟨.hbm, 125, rfl⟩
abbrev main_call6_v0 : Ref sig .tc := ⟨.hbm, 126, rfl⟩
abbrev main_call6_c : Ref sig .tc := ⟨.hbm, 127, rfl⟩
abbrev main_call6_v1 : Ref sig .tc := ⟨.hbm, 128, rfl⟩
abbrev main_call6_c_0 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_call6_c_1 : Ref sig .tc := ⟨.hbm, 133, rfl⟩
abbrev main_call6_v5 : Ref sig .tc := ⟨.hbm, 134, rfl⟩
abbrev main_call6_v6 : Ref sig .tc := ⟨.hbm, 135, rfl⟩
abbrev main_call6_c_2 : Ref sig .tc := ⟨.hbm, 136, rfl⟩
abbrev main_call6_v7 : Ref sig .tc := ⟨.hbm, 137, rfl⟩
abbrev main_call6_v8 : Ref sig .tc := ⟨.hbm, 138, rfl⟩
abbrev main_call6_c_3 : Ref sig .tc := ⟨.hbm, 139, rfl⟩
abbrev main_call6_v9 : Ref sig .tc := ⟨.hbm, 140, rfl⟩
abbrev main_call6_v10 : Ref sig .tc := ⟨.hbm, 141, rfl⟩
abbrev main_call6_v11 : Ref sig .tc := ⟨.hbm, 142, rfl⟩
abbrev main_call6_v12 : Ref sig .tc := ⟨.hbm, 143, rfl⟩
abbrev main_call6_v13 : Ref sig .tc := ⟨.hbm, 144, rfl⟩
abbrev main_call6_v14 : Ref sig .tc := ⟨.hbm, 145, rfl⟩
abbrev main_v43 : Ref sig .tc := ⟨.hbm, 146, rfl⟩
abbrev main_c_14 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_c_15 : Ref sig .tc := ⟨.hbm, 151, rfl⟩
abbrev main_call7_v0 : Ref sig .tc := ⟨.hbm, 152, rfl⟩
abbrev main_call7_v1 : Ref sig .tc := ⟨.hbm, 153, rfl⟩
abbrev main_v47 : Ref sig .tc := ⟨.hbm, 154, rfl⟩
abbrev main_c_16 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_c_17 : Ref sig .tc := ⟨.hbm, 159, rfl⟩
abbrev main_call8_v0 : Ref sig .tc := ⟨.hbm, 160, rfl⟩
abbrev main_call8_v1 : Ref sig .tc := ⟨.hbm, 161, rfl⟩
abbrev main_v51 : Ref sig .tc := ⟨.hbm, 162, rfl⟩
abbrev main_v52 : Ref sig .tc := ⟨.hbm, 163, rfl⟩
abbrev main_c_18 : Ref sig .tc := ⟨.hbm, 164, rfl⟩
abbrev main_v53 : Ref sig .tc := ⟨.hbm, 165, rfl⟩
abbrev main_v54 : Ref sig .tc := ⟨.hbm, 166, rfl⟩
abbrev main_c_19 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_cst_20 : Ref sig .tc := ⟨.hbm, 173, rfl⟩
abbrev main_call9_v0 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩

abbrev nD : Nat := 1
abbrev τ : Topo := Topo.v7x

variable {F : FTy → Type} [FloatOps F]

class Facts₀ : Prop where
  shapeCasts_S64000x3_S64x1000x3 : S64000x3.ShapeCasts S64x1000x3
  reducesTo_S64x1000x3_S64x1000_d2 : S64x1000x3.ReducesTo [2] S64x1000
  h_S_ : 0 < S_.numel
  bcast_S64x1000_S64x1000x1_0_1 : S64x1000.BroadcastsInDim S64x1000x1 (![0, 1] : Fin 2 → Fin S64x1000x1.rank)
  bcast_S64x1000_S64x1x1000_0_2 : S64x1000.BroadcastsInDim S64x1x1000 (![0, 2] : Fin 2 → Fin S64x1x1000.rank)
  bcast_S64x1000x1_S64x1000x1000_0_1_2 : S64x1000x1.BroadcastsInDim S64x1000x1000 (![0, 1, 2] : Fin 3 → Fin S64x1000x1000.rank)
  bcast_S64x1x1000_S64x1000x1000_0_1_2 : S64x1x1000.BroadcastsInDim S64x1000x1000 (![0, 1, 2] : Fin 3 → Fin S64x1000x1000.rank)
  bcast_S_S64x1000x1000 : S_.BroadcastsInDim S64x1000x1000 (![] : Fin 0 → Fin S64x1000x1000.rank)
  bcast_S_S1000x1000 : S_.BroadcastsInDim S1000x1000 (![] : Fin 0 → Fin S1000x1000.rank)
  bcast_S1000x1000_S1x1000x1000_1_2 : S1000x1000.BroadcastsInDim S1x1000x1000 (![1, 2] : Fin 2 → Fin S1x1000x1000.rank)
  bcast_S1x1000x1000_S64x1000x1000_0_1_2 : S1x1000x1000.BroadcastsInDim S64x1000x1000 (![0, 1, 2] : Fin 3 → Fin S64x1000x1000.rank)
  shapeCasts_S64x1000x1000_S64000000 : S64x1000x1000.ShapeCasts S64000000
  natLt_1_32 : 1 < 32
  reducesTo_S64000000_S_d0 : S64000000.ReducesTo [0] S_
  bcast_S_S_ : S_.BroadcastsInDim S_ (![] : Fin 0 → Fin S_.rank)
  reduceWindows_S64000000_S64000000_w64000000s1p63999999_0 : S64000000.ReduceWindows (![64000000] : Fin 1 → Nat) ![1] ![63999999] ![0] S64000000
  bcast_S_S64000000 : S_.BroadcastsInDim S64000000 (![] : Fin 0 → Fin S64000000.rank)
  bcast_S_S2200000 : S_.BroadcastsInDim S2200000 (![] : Fin 0 → Fin S2200000.rank)
  bcast_S64000000_S64000000x1_0 : S64000000.BroadcastsInDim S64000000x1 (![0] : Fin 1 → Fin S64000000x1.rank)
  bcast_S2200000_S2200000x1_0 : S2200000.BroadcastsInDim S2200000x1 (![0] : Fin 1 → Fin S2200000x1.rank)
  concatenates_S2200000_S2200000_S4400000_d0 : Shape.Concatenates [S2200000, S2200000] S4400000 0
  dot_S64x1000x3_S64x1000x3_S64x1000x1000_2_2_1_1_0_0_wf : DotDims.WF S64x1000x3 S64x1000x3 S64x1000x1000 [2] [2] [1] [1] [0] [0]
  scatter_S2200000_S64000000x1_S64000000_n_0_0_1_wf : ScatterDims.WF S2200000 S64000000x1 S64000000 [] [0] [0] 1
  gather_S64000000_S2200000x1_S2200000_n_0_n_n_0_1_1_wf : GatherDims.WF S64000000 S2200000x1 S2200000 [] [0] [] [0] [] 1 ![1]

variable [Facts₀]

def dot_S64x1000x3_S64x1000x3_S64x1000x1000_2_2_1_1_0_0 : DotDims S64x1000x3 S64x1000x3 S64x1000x1000 where
  lhsContracting := [2]
  rhsContracting := [2]
  lhsNonContracting := [1]
  rhsNonContracting := [1]
  lhsBatch := [0]
  rhsBatch := [0]
  wf := dot_S64x1000x3_S64x1000x3_S64x1000x1000_2_2_1_1_0_0_wf
def scatter_S2200000_S64000000x1_S64000000_n_0_0_1 : ScatterDims S2200000 S64000000x1 S64000000 where
  updateWindowDims := []
  insertedWindowDims := [0]
  scatterDimsToOperandDims := [0]
  indexVectorDim := 1
  wf := scatter_S2200000_S64000000x1_S64000000_n_0_0_1_wf
def gather_S64000000_S2200000x1_S2200000_n_0_n_n_0_1_1 : GatherDims S64000000 S2200000x1 S2200000 where
  offsetDims := []
  collapsedSliceDims := [0]
  operandBatchingDims := []
  startIndicesBatchingDims := []
  startIndexMap := [0]
  indexVectorDim := 1
  sliceSizes := ![1]
  wf := gather_S64000000_S2200000x1_S2200000_n_0_n_n_0_1_1_wf

class Facts : Prop extends Facts₀ where

variable [Facts]
-- ==== Proof.KernelFrame.lean ====
/-
  The frame of `Kernel`'s @main, written out in the form of a frame certificate of a one-region program whose body loads and
  stores whole staging buffers: the one host line before the region (the reshape of the coordinates to [64, 1000, 3]), the
  region — at grid point `t` the body reads system `t`'s block of coordinates and stores the whole [1, 1000, 1000] block of
  masked squared distances, a function `out0_1` of that input block alone —, and the 148 host lines after it, none of which
  writes the region's two arrays or an argument. From the run: every weakly fair execution terminates without fault, the
  three arguments end as launched, and every other buffer ends at the later lines' fold over the region's output array.
-/
import proofs.«164187_j65910568124749_1_alg».proof.Proof.KernelLaunchP
import proofs.«164187_j65910568124749_1_alg».proof.Proof.Gen.Kernel.Skeleton
import proofs.«164187_j65910568124749_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.FrameH

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]

/-- Core `c`'s buffer contents when the region is entered: after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor

/-- @main is the line before the region, the region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch TensorCore references only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop

/-- The five buffers no later line writes: the region's two arrays and the three arguments. -/
abbrev kept : List (Ref sig .tc) := [main_v0, main_v1, main_arg0, main_arg1, main_arg2]

theorem hostOps1_nw : (hostOps1 : List (HloOp τ sig (Elt F))).Forall fun op => ∀ r ∈ kept, Proc.devRef (τ := τ) .tc r ∉ op.writes := by
  simp only [hostOps1, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_nw : (hostOps1_1 : List (HloOp τ sig (Elt F))).Forall fun op => ∀ r ∈ kept, Proc.devRef (τ := τ) .tc r ∉ op.writes := by
  simp only [hostOps1_1, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_nw : (hostOps1_2 : List (HloOp τ sig (Elt F))).Forall fun op => ∀ r ∈ kept, Proc.devRef (τ := τ) .tc r ∉ op.writes := by
  simp only [hostOps1_2, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_nw : (hostOps1_3 : List (HloOp τ sig (Elt F))).Forall fun op => ∀ r ∈ kept, Proc.devRef (τ := τ) .tc r ∉ op.writes := by
  simp only [hostOps1_3, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_nw : (hostOps1_4 : List (HloOp τ sig (Elt F))).Forall fun op => ∀ r ∈ kept, Proc.devRef (τ := τ) .tc r ∉ op.writes := by
  simp only [hostOps1_4, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_nw : (hostOps1_5 : List (HloOp τ sig (Elt F))).Forall fun op => ∀ r ∈ kept, Proc.devRef (τ := τ) .tc r ∉ op.writes := by
  simp only [hostOps1_5, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_nw : (hostOps1_6 : List (HloOp τ sig (Elt F))).Forall fun op => ∀ r ∈ kept, Proc.devRef (τ := τ) .tc r ∉ op.writes := by
  simp only [hostOps1_6, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_nw : (hostOps1_7 : List (HloOp τ sig (Elt F))).Forall fun op => ∀ r ∈ kept, Proc.devRef (τ := τ) .tc r ∉ op.writes := by
  simp only [hostOps1_7, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_nw : (hostOps1_8 : List (HloOp τ sig (Elt F))).Forall fun op => ∀ r ∈ kept, Proc.devRef (τ := τ) .tc r ∉ op.writes := by
  simp only [hostOps1_8, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_nw : (hostOps1_9 : List (HloOp τ sig (Elt F))).Forall fun op => ∀ r ∈ kept, Proc.devRef (τ := τ) .tc r ∉ op.writes := by
  simp only [hostOps1_9, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_nw : (hostOps1_10 : List (HloOp τ sig (Elt F))).Forall fun op => ∀ r ∈ kept, Proc.devRef (τ := τ) .tc r ∉ op.writes := by
  simp only [hostOps1_10, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_nw : (hostOps1_11 : List (HloOp τ sig (Elt F))).Forall fun op => ∀ r ∈ kept, Proc.devRef (τ := τ) .tc r ∉ op.writes := by
  simp only [hostOps1_11, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_nw : (hostOps1_12 : List (HloOp τ sig (Elt F))).Forall fun op => ∀ r ∈ kept, Proc.devRef (τ := τ) .tc r ∉ op.writes := by
  simp only [hostOps1_12, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_nw : (hostOps1_13 : List (HloOp τ sig (Elt F))).Forall fun op => ∀ r ∈ kept, Proc.devRef (τ := τ) .tc r ∉ op.writes := by
  simp only [hostOps1_13, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_14_nw : (hostOps1_14 : List (HloOp τ sig (Elt F))).Forall fun op => ∀ r ∈ kept, Proc.devRef (τ := τ) .tc r ∉ op.writes := by
  simp only [hostOps1_14, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_15_nw : (hostOps1_15 : List (HloOp τ sig (Elt F))).Forall fun op => ∀ r ∈ kept, Proc.devRef (τ := τ) .tc r ∉ op.writes := by
  simp only [hostOps1_15, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_16_nw : (hostOps1_16 : List (HloOp τ sig (Elt F))).Forall fun op => ∀ r ∈ kept, Proc.devRef (τ := τ) .tc r ∉ op.writes := by
  simp only [hostOps1_16, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_17_nw : (hostOps1_17 : List (HloOp τ sig (Elt F))).Forall fun op => ∀ r ∈ kept, Proc.devRef (τ := τ) .tc r ∉ op.writes := by
  simp only [hostOps1_17, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_18_nw : (hostOps1_18 : List (HloOp τ sig (Elt F))).Forall fun op => ∀ r ∈ kept, Proc.devRef (τ := τ) .tc r ∉ op.writes := by
  simp only [hostOps1_18, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- Each later line writes only its own result buffer, which is none of the five. -/
theorem tail_nw : ∀ ops ∈ (tailOps : List (List (HloOp τ sig (Elt F)))), ∀ op ∈ ops, ∀ r ∈ kept, Proc.devRef (τ := τ) .tc r ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl
  · exact (List.forall_iff_forall_mem.mp hostOps1_nw) op hop
  · exact (List.forall_iff_forall_mem.mp hostOps1_1_nw) op hop
  · exact (List.forall_iff_forall_mem.mp hostOps1_2_nw) op hop
  · exact (List.forall_iff_forall_mem.mp hostOps1_3_nw) op hop
  · exact (List.forall_iff_forall_mem.mp hostOps1_4_nw) op hop
  · exact (List.forall_iff_forall_mem.mp hostOps1_5_nw) op hop
  · exact (List.forall_iff_forall_mem.mp hostOps1_6_nw) op hop
  · exact (List.forall_iff_forall_mem.mp hostOps1_7_nw) op hop
  · exact (List.forall_iff_forall_mem.mp hostOps1_8_nw) op hop
  · exact (List.forall_iff_forall_mem.mp hostOps1_9_nw) op hop
  · exact (List.forall_iff_forall_mem.mp hostOps1_10_nw) op hop
  · exact (List.forall_iff_forall_mem.mp hostOps1_11_nw) op hop
  · exact (List.forall_iff_forall_mem.mp hostOps1_12_nw) op hop
  · exact (List.forall_iff_forall_mem.mp hostOps1_13_nw) op hop
  · exact (List.forall_iff_forall_mem.mp hostOps1_14_nw) op hop
  · exact (List.forall_iff_forall_mem.mp hostOps1_15_nw) op hop
  · exact (List.forall_iff_forall_mem.mp hostOps1_16_nw) op hop
  · exact (List.forall_iff_forall_mem.mp hostOps1_17_nw) op hop
  · exact (List.forall_iff_forall_mem.mp hostOps1_18_nw) op hop

/-- And so write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_nw ops hops op hop main_v0 (by simp only [kept, List.mem_cons, true_or])
  · exact tail_nw ops hops op hop main_v1 (by simp only [kept, List.mem_cons, true_or, or_true])

/-- A kept buffer holds after the later lines what it held before them. -/
theorem after_tail_kept (W : Valuation τ sig (Elt F)) (r : Ref sig .tc) (hr : r ∈ kept) :
    StableHlo.after (tailOps (F := F)).flatten W (Proc.devRef .tc r) = W (Proc.devRef .tc r) :=
  StableHlo.after_of_forall_not_mem (b := Proc.devRef .tc r) _ _ (fun op hop => by
    obtain ⟨ops, hops, hop'⟩ := List.mem_flatten.mp hop
    exact tail_nw ops hops op hop' r hr)

/-- The line before the region does not write `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [after_tail_kept _ main_arg0 (by simp only [kept, List.mem_cons, true_or, or_true]),
    Pipeline.withArrays_of_ne _ c (V0 m c) _ main_arg0 (by exact (by decide : ∀ w, Pipeline.arrRef spec0 w ≠ main_arg0))]
  exact V_main_arg0 m c

/-- The line before the region does not write `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [after_tail_kept _ main_arg1 (by simp only [kept, List.mem_cons, true_or, or_true]),
    Pipeline.withArrays_of_ne _ c (V0 m c) _ main_arg1 (by exact (by decide : ∀ w, Pipeline.arrRef spec0 w ≠ main_arg1))]
  exact V_main_arg1 m c

/-- The line before the region does not write `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [after_tail_kept _ main_arg2 (by simp only [kept, List.mem_cons, true_or, or_true]),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is `V`'s and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole input block, and the whole output block. -/
abbrev r0_0 : Rect S1x1000x3 := Rect.unit (s := S1x1000x3) ![0, 0, 0] S1x1000x3.size inb_S1x1000x3_S1x1000x3_0_0_0
abbrev r1_0 : Rect S1x1000x1000 := Rect.unit (s := S1x1000x1000) ![0, 0, 0] S1x1000x1000.size inb_S1x1000x1000_S1x1000x1000_0_0_0

/-- The output window's staging buffer after the body, from the input block: its one store, of the masked squared distances. -/
def out0_1 (x0 : Vec F S1x1000x3 .f32) : Vec F S1x1000x1000 .f32 :=
  View.canon [⟨r1_0, k0_pay1 (View.ld x0 r0_0)⟩]

/-- The one store is the whole block, so it covers it. -/
theorem cover0_1 (p0 : Vec F S1x1000x1000 .f32) (y : S1x1000x1000.Idx) :
    ∃ pc ∈ ([⟨r1_0, p0⟩] : List (View.Piece (Elt F) S1x1000x1000 .f32)), y ∈ pc.1.set :=
  View.cover_of_tiled [⟨r1_0, p0⟩] S1x1000x1000.size (by rfl) y

set_option maxHeartbeats 1000000 in
/-- The body on whole staging memrefs, the input's at contents `x0` and the output's at anything, runs to the continuation
    holding the input's as it was and the output's at `out0_1 x0`. -/
theorem sound_kernel (c : Dev nD) (E : Set ℕ) (i : grid0.Coords) (arg1 : Memref sig .tc .vmem S1x1000x3 .f32) (harg1 : arg1.IsWhole) (arg2 : Memref sig .tc .vmem S1x1000x1000 .f32) (harg2 : arg2.IsWhole)
    (x0 : Vec F S1x1000x3 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The arrays as the region finds them; after the body at point `t` the input's buffer at its block and the output's at
    `out0_1` of it; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the region's arrays at what the proof data
    computes and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the run ends, and the three arguments are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

end Cert.Kernel.FrameH

end
-- ==== Proof.KernelIdealFrame.lean ====
/-
  The frame of `KernelIdeal`'s @main, written out in the form of a frame certificate of a one-region program whose body loads and
  stores whole staging buffers: the one host line before the region (the reshape of the coordinates to [64, 1000, 3]), the
  region — at grid point `t` the body reads system `t`'s block of coordinates and stores the whole [1, 1000, 1000] block of
  masked squared distances, a function `out0_1` of that input block alone —, and the 148 host lines after it, none of which
  writes the region's two arrays or an argument. From the run: every weakly fair execution terminates without fault, the
  three arguments end as launched, and every other buffer ends at the later lines' fold over the region's output array.
-/
import proofs.«164187_j65910568124749_1_alg».proof.Proof.KernelIdealLaunchP
import proofs.«164187_j65910568124749_1_alg».proof.Proof.Gen.KernelIdeal.Skeleton
import proofs.«164187_j65910568124749_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.FrameH

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]

/-- Core `c`'s buffer contents when the region is entered: after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor

/-- @main is the line before the region, the region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch TensorCore references only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop

/-- The five buffers no later line writes: the region's two arrays and the three arguments. -/
abbrev kept : List (Ref sig .tc) := [main_v0, main_v1, main_arg0, main_arg1, main_arg2]

theorem hostOps1_nw : (hostOps1 : List (HloOp τ sig (Elt F))).Forall fun op => ∀ r ∈ kept, Proc.devRef (τ := τ) .tc r ∉ op.writes := by
  simp only [hostOps1, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_nw : (hostOps1_1 : List (HloOp τ sig (Elt F))).Forall fun op => ∀ r ∈ kept, Proc.devRef (τ := τ) .tc r ∉ op.writes := by
  simp only [hostOps1_1, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_nw : (hostOps1_2 : List (HloOp τ sig (Elt F))).Forall fun op => ∀ r ∈ kept, Proc.devRef (τ := τ) .tc r ∉ op.writes := by
  simp only [hostOps1_2, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_nw : (hostOps1_3 : List (HloOp τ sig (Elt F))).Forall fun op => ∀ r ∈ kept, Proc.devRef (τ := τ) .tc r ∉ op.writes := by
  simp only [hostOps1_3, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_nw : (hostOps1_4 : List (HloOp τ sig (Elt F))).Forall fun op => ∀ r ∈ kept, Proc.devRef (τ := τ) .tc r ∉ op.writes := by
  simp only [hostOps1_4, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_nw : (hostOps1_5 : List (HloOp τ sig (Elt F))).Forall fun op => ∀ r ∈ kept, Proc.devRef (τ := τ) .tc r ∉ op.writes := by
  simp only [hostOps1_5, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_nw : (hostOps1_6 : List (HloOp τ sig (Elt F))).Forall fun op => ∀ r ∈ kept, Proc.devRef (τ := τ) .tc r ∉ op.writes := by
  simp only [hostOps1_6, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_nw : (hostOps1_7 : List (HloOp τ sig (Elt F))).Forall fun op => ∀ r ∈ kept, Proc.devRef (τ := τ) .tc r ∉ op.writes := by
  simp only [hostOps1_7, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_nw : (hostOps1_8 : List (HloOp τ sig (Elt F))).Forall fun op => ∀ r ∈ kept, Proc.devRef (τ := τ) .tc r ∉ op.writes := by
  simp only [hostOps1_8, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_nw : (hostOps1_9 : List (HloOp τ sig (Elt F))).Forall fun op => ∀ r ∈ kept, Proc.devRef (τ := τ) .tc r ∉ op.writes := by
  simp only [hostOps1_9, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_nw : (hostOps1_10 : List (HloOp τ sig (Elt F))).Forall fun op => ∀ r ∈ kept, Proc.devRef (τ := τ) .tc r ∉ op.writes := by
  simp only [hostOps1_10, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_nw : (hostOps1_11 : List (HloOp τ sig (Elt F))).Forall fun op => ∀ r ∈ kept, Proc.devRef (τ := τ) .tc r ∉ op.writes := by
  simp only [hostOps1_11, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_nw : (hostOps1_12 : List (HloOp τ sig (Elt F))).Forall fun op => ∀ r ∈ kept, Proc.devRef (τ := τ) .tc r ∉ op.writes := by
  simp only [hostOps1_12, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_nw : (hostOps1_13 : List (HloOp τ sig (Elt F))).Forall fun op => ∀ r ∈ kept, Proc.devRef (τ := τ) .tc r ∉ op.writes := by
  simp only [hostOps1_13, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_14_nw : (hostOps1_14 : List (HloOp τ sig (Elt F))).Forall fun op => ∀ r ∈ kept, Proc.devRef (τ := τ) .tc r ∉ op.writes := by
  simp only [hostOps1_14, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_15_nw : (hostOps1_15 : List (HloOp τ sig (Elt F))).Forall fun op => ∀ r ∈ kept, Proc.devRef (τ := τ) .tc r ∉ op.writes := by
  simp only [hostOps1_15, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_16_nw : (hostOps1_16 : List (HloOp τ sig (Elt F))).Forall fun op => ∀ r ∈ kept, Proc.devRef (τ := τ) .tc r ∉ op.writes := by
  simp only [hostOps1_16, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_17_nw : (hostOps1_17 : List (HloOp τ sig (Elt F))).Forall fun op => ∀ r ∈ kept, Proc.devRef (τ := τ) .tc r ∉ op.writes := by
  simp only [hostOps1_17, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_18_nw : (hostOps1_18 : List (HloOp τ sig (Elt F))).Forall fun op => ∀ r ∈ kept, Proc.devRef (τ := τ) .tc r ∉ op.writes := by
  simp only [hostOps1_18, List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- Each later line writes only its own result buffer, which is none of the five. -/
theorem tail_nw : ∀ ops ∈ (tailOps : List (List (HloOp τ sig (Elt F)))), ∀ op ∈ ops, ∀ r ∈ kept, Proc.devRef (τ := τ) .tc r ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl
  · exact (List.forall_iff_forall_mem.mp hostOps1_nw) op hop
  · exact (List.forall_iff_forall_mem.mp hostOps1_1_nw) op hop
  · exact (List.forall_iff_forall_mem.mp hostOps1_2_nw) op hop
  · exact (List.forall_iff_forall_mem.mp hostOps1_3_nw) op hop
  · exact (List.forall_iff_forall_mem.mp hostOps1_4_nw) op hop
  · exact (List.forall_iff_forall_mem.mp hostOps1_5_nw) op hop
  · exact (List.forall_iff_forall_mem.mp hostOps1_6_nw) op hop
  · exact (List.forall_iff_forall_mem.mp hostOps1_7_nw) op hop
  · exact (List.forall_iff_forall_mem.mp hostOps1_8_nw) op hop
  · exact (List.forall_iff_forall_mem.mp hostOps1_9_nw) op hop
  · exact (List.forall_iff_forall_mem.mp hostOps1_10_nw) op hop
  · exact (List.forall_iff_forall_mem.mp hostOps1_11_nw) op hop
  · exact (List.forall_iff_forall_mem.mp hostOps1_12_nw) op hop
  · exact (List.forall_iff_forall_mem.mp hostOps1_13_nw) op hop
  · exact (List.forall_iff_forall_mem.mp hostOps1_14_nw) op hop
  · exact (List.forall_iff_forall_mem.mp hostOps1_15_nw) op hop
  · exact (List.forall_iff_forall_mem.mp hostOps1_16_nw) op hop
  · exact (List.forall_iff_forall_mem.mp hostOps1_17_nw) op hop
  · exact (List.forall_iff_forall_mem.mp hostOps1_18_nw) op hop

/-- And so write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_nw ops hops op hop main_v0 (by simp only [kept, List.mem_cons, true_or])
  · exact tail_nw ops hops op hop main_v1 (by simp only [kept, List.mem_cons, true_or, or_true])

/-- A kept buffer holds after the later lines what it held before them. -/
theorem after_tail_kept (W : Valuation τ sig (Elt F)) (r : Ref sig .tc) (hr : r ∈ kept) :
    StableHlo.after (tailOps (F := F)).flatten W (Proc.devRef .tc r) = W (Proc.devRef .tc r) :=
  StableHlo.after_of_forall_not_mem (b := Proc.devRef .tc r) _ _ (fun op hop => by
    obtain ⟨ops, hops, hop'⟩ := List.mem_flatten.mp hop
    exact tail_nw ops hops op hop' r hr)

/-- The line before the region does not write `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [after_tail_kept _ main_arg0 (by simp only [kept, List.mem_cons, true_or, or_true]),
    Pipeline.withArrays_of_ne _ c (V0 m c) _ main_arg0 (by exact (by decide : ∀ w, Pipeline.arrRef spec0 w ≠ main_arg0))]
  exact V_main_arg0 m c

/-- The line before the region does not write `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [after_tail_kept _ main_arg1 (by simp only [kept, List.mem_cons, true_or, or_true]),
    Pipeline.withArrays_of_ne _ c (V0 m c) _ main_arg1 (by exact (by decide : ∀ w, Pipeline.arrRef spec0 w ≠ main_arg1))]
  exact V_main_arg1 m c

/-- The line before the region does not write `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [after_tail_kept _ main_arg2 (by simp only [kept, List.mem_cons, true_or, or_true]),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is `V`'s and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole input block, and the whole output block. -/
abbrev r0_0 : Rect S1x1000x3 := Rect.unit (s := S1x1000x3) ![0, 0, 0] S1x1000x3.size inb_S1x1000x3_S1x1000x3_0_0_0
abbrev r1_0 : Rect S1x1000x1000 := Rect.unit (s := S1x1000x1000) ![0, 0, 0] S1x1000x1000.size inb_S1x1000x1000_S1x1000x1000_0_0_0

/-- The output window's staging buffer after the body, from the input block: its one store, of the masked squared distances. -/
def out0_1 (x0 : Vec F S1x1000x3 .f32) : Vec F S1x1000x1000 .f32 :=
  View.canon [⟨r1_0, k0_pay1 (View.ld x0 r0_0)⟩]

/-- The one store is the whole block, so it covers it. -/
theorem cover0_1 (p0 : Vec F S1x1000x1000 .f32) (y : S1x1000x1000.Idx) :
    ∃ pc ∈ ([⟨r1_0, p0⟩] : List (View.Piece (Elt F) S1x1000x1000 .f32)), y ∈ pc.1.set :=
  View.cover_of_tiled [⟨r1_0, p0⟩] S1x1000x1000.size (by rfl) y

set_option maxHeartbeats 1000000 in
/-- The body on whole staging memrefs, the input's at contents `x0` and the output's at anything, runs to the continuation
    holding the input's as it was and the output's at `out0_1 x0`. -/
theorem sound_kernel (c : Dev nD) (E : Set ℕ) (i : grid0.Coords) (arg1 : Memref sig .tc .vmem S1x1000x3 .f32) (harg1 : arg1.IsWhole) (arg2 : Memref sig .tc .vmem S1x1000x1000 .f32) (harg2 : arg2.IsWhole)
    (x0 : Vec F S1x1000x3 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The arrays as the region finds them; after the body at point `t` the input's buffer at its block and the output's at
    `out0_1` of it; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the region's arrays at what the proof data
    computes and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the run ends, and the three arguments are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

end Cert.KernelIdeal.FrameH

end
-- ==== Proof.RefRun.lean ====
/- The reference program's @main as a straight line of operations, and its run.

   @main calls module-local functions, some of which call others in turn. A call executes the callee's body on
   the operands, each value of the body in a buffer of that call's own record, so @main is one straight line of
   host operations once every call is replaced by its callee's operations over the call's record. This file
   lists that line (window by window, as the program is printed), proves @main equal to it, and reads the run
   back: every weakly fair execution terminates with each buffer at the fold of the operations' results over
   the launch contents, and the three argument buffers, which no operation writes, keep their contents. -/
import proofs.«164187_j65910568124749_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main as their 144 operations, in order: the calls of @triu, @cumsum (through
    @cumsum_0), @_where, @floor_divide (through @_where_1, twice) and @remainder (through @_where_2, twice)
    each replaced by the callee's operations over that call's buffers, an argument by the operand's buffer. -/
abbrev ops0 : List (HloOp τ sig (Elt F)) :=
  [ StableHlo.reshape main_arg0 main_v0 rfl shapeCasts_S64000x3_S64x1000x3,
    StableHlo.binary main_v0 main_v0 main_v1 (mulf : (⟨S64x1000x3, .f32⟩ : BufTy).Contents (Elt F) → (⟨S64x1000x3, .f32⟩ : BufTy).Contents (Elt F) → (⟨S64x1000x3, .f32⟩ : BufTy).Contents (Elt F)),
    StableHlo.nullary main_cst (constant S_ .f32 0x00000000#32),
    StableHlo.binary main_v1 main_cst main_v2 ((fun x v => Host.reduceAdd x v reducesTo_S64x1000x3_S64x1000_d2 h_S_) : (⟨S64x1000x3, .f32⟩ : BufTy).Contents (Elt F) → (⟨S_, .f32⟩ : BufTy).Contents (Elt F) → (⟨S64x1000, .f32⟩ : BufTy).Contents (Elt F)),
    StableHlo.binary main_v0 main_v0 main_v3 ((fun l r => Host.dotGeneral dot_S64x1000x3_S64x1000x3_S64x1000x1000_2_2_1_1_0_0 none l r) : (⟨S64x1000x3, .f32⟩ : BufTy).Contents (Elt F) → (⟨S64x1000x3, .f32⟩ : BufTy).Contents (Elt F) → (⟨S64x1000x1000, .f32⟩ : BufTy).Contents (Elt F)),
    StableHlo.unary main_v2 main_v4 (broadcastInDim S64x1000x1 ![0, 1] bcast_S64x1000_S64x1000x1_0_1 : (⟨S64x1000, .f32⟩ : BufTy).Contents (Elt F) → (⟨S64x1000x1, .f32⟩ : BufTy).Contents (Elt F)),
    StableHlo.unary main_v2 main_v5 (broadcastInDim S64x1x1000 ![0, 2] bcast_S64x1000_S64x1x1000_0_2 : (⟨S64x1000, .f32⟩ : BufTy).Contents (Elt F) → (⟨S64x1x1000, .f32⟩ : BufTy).Contents (Elt F)),
    StableHlo.unary main_v4 main_v6 (broadcastInDim S64x1000x1000 ![0, 1, 2] bcast_S64x1000x1_S64x1000x1000_0_1_2 : (⟨S64x1000x1, .f32⟩ : BufTy).Contents (Elt F) → (⟨S64x1000x1000, .f32⟩ : BufTy).Contents (Elt F)),
    StableHlo.unary main_v5 main_v7 (broadcastInDim S64x1000x1000 ![0, 1, 2] bcast_S64x1x1000_S64x1000x1000_0_1_2 : (⟨S64x1x1000, .f32⟩ : BufTy).Contents (Elt F) → (⟨S64x1000x1000, .f32⟩ : BufTy).Contents (Elt F)),
    StableHlo.binary main_v6 main_v7 main_v8 (addf : (⟨S64x1000x1000, .f32⟩ : BufTy).Contents (Elt F) → (⟨S64x1000x1000, .f32⟩ : BufTy).Contents (Elt F) → (⟨S64x1000x1000, .f32⟩ : BufTy).Contents (Elt F)),
    StableHlo.nullary main_cst_0 (constant S_ .f32 0x40000000#32),
    StableHlo.unary main_cst_0 main_v9 (broadcastInDim S64x1000x1000 ![] bcast_S_S64x1000x1000 : (⟨S_, .f32⟩ : BufTy).Contents (Elt F) → (⟨S64x1000x1000, .f32⟩ : BufTy).Contents (Elt F)),
    StableHlo.binary main_v9 main_v3 main_v10 (mulf : (⟨S64x1000x1000, .f32⟩ : BufTy).Contents (Elt F) → (⟨S64x1000x1000, .f32⟩ : BufTy).Contents (Elt F) → (⟨S64x1000x1000, .f32⟩ : BufTy).Contents (Elt F)),
    StableHlo.binary main_v8 main_v10 main_v11 (subf : (⟨S64x1000x1000, .f32⟩ : BufTy).Contents (Elt F) → (⟨S64x1000x1000, .f32⟩ : BufTy).Contents (Elt F) → (⟨S64x1000x1000, .f32⟩ : BufTy).Contents (Elt F)),
    StableHlo.nullary main_c (constantI S_ 1 1#1),
    StableHlo.unary main_c main_v12 (broadcastInDim S1000x1000 ![] bcast_S_S1000x1000 : (⟨S_, .i1⟩ : BufTy).Contents (Elt F) → (⟨S1000x1000, .i1⟩ : BufTy).Contents (Elt F)),
    StableHlo.TRef.nullary (.of main_call0_v0 : StableHlo.TRef sig ⟨S1000x1000, .i32⟩) (iotaInDim S1000x1000 32 0),
    StableHlo.TRef.nullary (.of main_call0_c : StableHlo.TRef sig ⟨S_, .i32⟩) (constantI S_ 32 0#32),
    StableHlo.TRef.unary (.of main_call0_c : StableHlo.TRef sig ⟨S_, .i32⟩) (.of main_call0_v1 : StableHlo.TRef sig ⟨S1000x1000, .i32⟩) (broadcastInDim S1000x1000 ![] bcast_S_S1000x1000),
    StableHlo.TRef.binary (.of main_call0_v0 : StableHlo.TRef sig ⟨S1000x1000, .i32⟩) (.of main_call0_v1 : StableHlo.TRef sig ⟨S1000x1000, .i32⟩) (.of main_call0_v2 : StableHlo.TRef sig ⟨S1000x1000, .i32⟩) addi,
    StableHlo.TRef.nullary (.of main_call0_v3 : StableHlo.TRef sig ⟨S1000x1000, .i32⟩) (iotaInDim S1000x1000 32 1),
    StableHlo.TRef.binary (.of main_call0_v2 : StableHlo.TRef sig ⟨S1000x1000, .i32⟩) (.of main_call0_v3 : StableHlo.TRef sig ⟨S1000x1000, .i32⟩) (.of main_call0_v4 : StableHlo.TRef sig ⟨S1000x1000, .i1⟩) (cmpi .sge),
    StableHlo.TRef.nullary (.of main_call0_c_0 : StableHlo.TRef sig ⟨S_, .i1⟩) (constantI S_ 1 0#1),
    StableHlo.TRef.unary (.of main_call0_c_0 : StableHlo.TRef sig ⟨S_, .i1⟩) (.of main_call0_v5 : StableHlo.TRef sig ⟨S1000x1000, .i1⟩) (broadcastInDim S1000x1000 ![] bcast_S_S1000x1000),
    StableHlo.TRef.ternary (.of main_call0_v4 : StableHlo.TRef sig ⟨S1000x1000, .i1⟩) (.of main_call0_v5 : StableHlo.TRef sig ⟨S1000x1000, .i1⟩) (.of main_v12 : StableHlo.TRef sig ⟨S1000x1000, .i1⟩) (.of main_v13 : StableHlo.TRef sig ⟨S1000x1000, .i1⟩) select,
    StableHlo.nullary main_cst_1 (constant S_ .f32 0x41C80000#32),
    StableHlo.unary main_cst_1 main_v14 (broadcastInDim S64x1000x1000 ![] bcast_S_S64x1000x1000 : (⟨S_, .f32⟩ : BufTy).Contents (Elt F) → (⟨S64x1000x1000, .f32⟩ : BufTy).Contents (Elt F)),
    StableHlo.binary main_v11 main_v14 main_v15 (cmpf .olt : (⟨S64x1000x1000, .f32⟩ : BufTy).Contents (Elt F) → (⟨S64x1000x1000, .f32⟩ : BufTy).Contents (Elt F) → (⟨S64x1000x1000, .i1⟩ : BufTy).Contents (Elt F)),
    StableHlo.unary main_v13 main_v16 (broadcastInDim S1x1000x1000 ![1, 2] bcast_S1000x1000_S1x1000x1000_1_2 : (⟨S1000x1000, .i1⟩ : BufTy).Contents (Elt F) → (⟨S1x1000x1000, .i1⟩ : BufTy).Contents (Elt F)),
    StableHlo.unary main_v16 main_v17 (broadcastInDim S64x1000x1000 ![0, 1, 2] bcast_S1x1000x1000_S64x1000x1000_0_1_2 : (⟨S1x1000x1000, .i1⟩ : BufTy).Contents (Elt F) → (⟨S64x1000x1000, .i1⟩ : BufTy).Contents (Elt F)),
    StableHlo.binary main_v15 main_v17 main_v18 (andi : (⟨S64x1000x1000, .i1⟩ : BufTy).Contents (Elt F) → (⟨S64x1000x1000, .i1⟩ : BufTy).Contents (Elt F) → (⟨S64x1000x1000, .i1⟩ : BufTy).Contents (Elt F)),
    StableHlo.reshape main_v18 main_v19 rfl shapeCasts_S64x1000x1000_S64000000,
    StableHlo.unary main_v19 main_v20 ((extui 32 · natLt_1_32) : (⟨S64000000, .i1⟩ : BufTy).Contents (Elt F) → (⟨S64000000, .i32⟩ : BufTy).Contents (Elt F)),
    StableHlo.nullary main_c_2 (constantI S_ 32 0#32),
    StableHlo.binary main_v20 main_c_2 main_v21 ((fun x v => Host.reduce IntOp.addi x v reducesTo_S64000000_S_d0 h_S_) : (⟨S64000000, .i32⟩ : BufTy).Contents (Elt F) → (⟨S_, .i32⟩ : BufTy).Contents (Elt F) → (⟨S_, .i32⟩ : BufTy).Contents (Elt F)),
    StableHlo.unary main_v19 main_v22 ((extui 32 · natLt_1_32) : (⟨S64000000, .i1⟩ : BufTy).Contents (Elt F) → (⟨S64000000, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v22 : StableHlo.TRef sig ⟨S64000000, .i32⟩) (.of main_call1_call0_v0 : StableHlo.TRef sig ⟨S_, .i32⟩) (.of main_v23 : StableHlo.TRef sig ⟨S64000000, .i32⟩) (fun x v => Host.reduceWindow IntOp.addi ![64000000] ![1] ![63999999] ![0] x v reduceWindows_S64000000_S64000000_w64000000s1p63999999_0 h_S_),
    StableHlo.nullary main_c_3 (constantI S_ 32 1#32),
    StableHlo.unary main_c_3 main_v24 (broadcastInDim S64000000 ![] bcast_S_S64000000 : (⟨S_, .i32⟩ : BufTy).Contents (Elt F) → (⟨S64000000, .i32⟩ : BufTy).Contents (Elt F)),
    StableHlo.binary main_v23 main_v24 main_v25 (subi : (⟨S64000000, .i32⟩ : BufTy).Contents (Elt F) → (⟨S64000000, .i32⟩ : BufTy).Contents (Elt F) → (⟨S64000000, .i32⟩ : BufTy).Contents (Elt F)),
    StableHlo.nullary main_c_4 (constantI S_ 32 2200000#32),
    StableHlo.TRef.unary (.of main_c_4 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S64000000, .i32⟩) (broadcastInDim S64000000 ![] bcast_S_S64000000),
    StableHlo.TRef.ternary (.of main_v19 : StableHlo.TRef sig ⟨S64000000, .i1⟩) (.of main_v25 : StableHlo.TRef sig ⟨S64000000, .i32⟩) (.of main_call2_v1 : StableHlo.TRef sig ⟨S64000000, .i32⟩) (.of main_v26 : StableHlo.TRef sig ⟨S64000000, .i32⟩) select,
    StableHlo.nullary main_v27 (iotaInDim S64000000 32 0),
    StableHlo.nullary main_c_5 (constantI S_ 32 4294967295#32),
    StableHlo.unary main_c_5 main_v28 (broadcastInDim S2200000 ![] bcast_S_S2200000 : (⟨S_, .i32⟩ : BufTy).Contents (Elt F) → (⟨S2200000, .i32⟩ : BufTy).Contents (Elt F)),
    StableHlo.nullary main_c_6 (constantI S_ 32 0#32),
    StableHlo.unary main_c_6 main_v29 (broadcastInDim S64000000 ![] bcast_S_S64000000 : (⟨S_, .i32⟩ : BufTy).Contents (Elt F) → (⟨S64000000, .i32⟩ : BufTy).Contents (Elt F)),
    StableHlo.binary main_v26 main_v29 main_v30 (cmpi .slt : (⟨S64000000, .i32⟩ : BufTy).Contents (Elt F) → (⟨S64000000, .i32⟩ : BufTy).Contents (Elt F) → (⟨S64000000, .i1⟩ : BufTy).Contents (Elt F)),
    StableHlo.nullary main_c_7 (constantI S_ 32 2200000#32),
    StableHlo.unary main_c_7 main_v31 (broadcastInDim S64000000 ![] bcast_S_S64000000 : (⟨S_, .i32⟩ : BufTy).Contents (Elt F) → (⟨S64000000, .i32⟩ : BufTy).Contents (Elt F)),
    StableHlo.binary main_v26 main_v31 main_v32 (addi : (⟨S64000000, .i32⟩ : BufTy).Contents (Elt F) → (⟨S64000000, .i32⟩ : BufTy).Contents (Elt F) → (⟨S64000000, .i32⟩ : BufTy).Contents (Elt F)),
    StableHlo.ternary main_v30 main_v32 main_v26 main_v33 (select : (⟨S64000000, .i1⟩ : BufTy).Contents (Elt F) → (⟨S64000000, .i32⟩ : BufTy).Contents (Elt F) → (⟨S64000000, .i32⟩ : BufTy).Contents (Elt F) → (⟨S64000000, .i32⟩ : BufTy).Contents (Elt F)),
    StableHlo.unary main_v33 main_v34 (broadcastInDim S64000000x1 ![0] bcast_S64000000_S64000000x1_0 : (⟨S64000000, .i32⟩ : BufTy).Contents (Elt F) → (⟨S64000000x1, .i32⟩ : BufTy).Contents (Elt F)),
    StableHlo.ternary main_v28 main_v34 main_v27 main_v35 ((fun x i u => Host.scatter scatter_S2200000_S64000000x1_S64000000_n_0_0_1 (fun _ b => b) x i u) : (⟨S2200000, .i32⟩ : BufTy).Contents (Elt F) → (⟨S64000000x1, .i32⟩ : BufTy).Contents (Elt F) → (⟨S64000000, .i32⟩ : BufTy).Contents (Elt F) → (⟨S2200000, .i32⟩ : BufTy).Contents (Elt F)),
    StableHlo.nullary main_c_8 (constantI S_ 32 0#32),
    StableHlo.unary main_c_8 main_v36 (broadcastInDim S2200000 ![] bcast_S_S2200000 : (⟨S_, .i32⟩ : BufTy).Contents (Elt F) → (⟨S2200000, .i32⟩ : BufTy).Contents (Elt F)),
    StableHlo.binary main_v35 main_v36 main_v37 (cmpi .sge : (⟨S2200000, .i32⟩ : BufTy).Contents (Elt F) → (⟨S2200000, .i32⟩ : BufTy).Contents (Elt F) → (⟨S2200000, .i1⟩ : BufTy).Contents (Elt F)),
    StableHlo.nullary main_c_9 (constantI S_ 32 0#32),
    StableHlo.unary main_c_9 main_v38 (broadcastInDim S2200000 ![] bcast_S_S2200000 : (⟨S_, .i32⟩ : BufTy).Contents (Elt F) → (⟨S2200000, .i32⟩ : BufTy).Contents (Elt F)),
    StableHlo.binary main_v35 main_v38 main_v39 (maxsi : (⟨S2200000, .i32⟩ : BufTy).Contents (Elt F) → (⟨S2200000, .i32⟩ : BufTy).Contents (Elt F) → (⟨S2200000, .i32⟩ : BufTy).Contents (Elt F)),
    StableHlo.nullary main_c_10 (constantI S_ 32 1000000#32),
    StableHlo.TRef.unary (.of main_c_10 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S2200000, .i32⟩) (broadcastInDim S2200000 ![] bcast_S_S2200000),
    StableHlo.TRef.binary (.of main_v39 : StableHlo.TRef sig ⟨S2200000, .i32⟩) (.of main_call3_v1 : StableHlo.TRef sig ⟨S2200000, .i32⟩) (.of main_call3_v2 : StableHlo.TRef sig ⟨S2200000, .i32⟩) Host.divsi,
    StableHlo.TRef.unary (.of main_v39 : StableHlo.TRef sig ⟨S2200000, .i32⟩) (.of main_call3_v3 : StableHlo.TRef sig ⟨S2200000, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S2200000, .i32⟩) (broadcastInDim S2200000 ![] bcast_S_S2200000),
    StableHlo.TRef.binary (.of main_call3_v3 : StableHlo.TRef sig ⟨S2200000, .i32⟩) (.of main_call3_v5 : StableHlo.TRef sig ⟨S2200000, .i32⟩) (.of main_call3_v6 : StableHlo.TRef sig ⟨S2200000, .i1⟩) (cmpi .ne),
    StableHlo.TRef.unary (.of main_call3_v0 : StableHlo.TRef sig ⟨S_, .i32⟩) (.of main_call3_v7 : StableHlo.TRef sig ⟨S2200000, .i32⟩) (broadcastInDim S2200000 ![] bcast_S_S2200000),
    StableHlo.TRef.binary (.of main_v39 : StableHlo.TRef sig ⟨S2200000, .i32⟩) (.of main_call3_v7 : StableHlo.TRef sig ⟨S2200000, .i32⟩) (.of main_call3_v8 : StableHlo.TRef sig ⟨S2200000, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S2200000, .i32⟩) (broadcastInDim S2200000 ![] bcast_S_S2200000),
    StableHlo.TRef.binary (.of main_call3_v8 : StableHlo.TRef sig ⟨S2200000, .i32⟩) (.of main_call3_v9 : StableHlo.TRef sig ⟨S2200000, .i32⟩) (.of main_call3_v10 : StableHlo.TRef sig ⟨S2200000, .i1⟩) (cmpi .ne),
    StableHlo.TRef.binary (.of main_call3_v6 : StableHlo.TRef sig ⟨S2200000, .i1⟩) (.of main_call3_v10 : StableHlo.TRef sig ⟨S2200000, .i1⟩) (.of main_call3_v11 : StableHlo.TRef sig ⟨S2200000, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S2200000, .i32⟩) (broadcastInDim S2200000 ![] bcast_S_S2200000),
    StableHlo.TRef.binary (.of main_call3_v2 : StableHlo.TRef sig ⟨S2200000, .i32⟩) (.of main_call3_v12 : StableHlo.TRef sig ⟨S2200000, .i32⟩) (.of main_call3_v13 : StableHlo.TRef sig ⟨S2200000, .i32⟩) subi,
    StableHlo.TRef.ternary (.of main_call3_v11 : StableHlo.TRef sig ⟨S2200000, .i1⟩) (.of main_call3_v13 : StableHlo.TRef sig ⟨S2200000, .i32⟩) (.of main_call3_v2 : StableHlo.TRef sig ⟨S2200000, .i32⟩) (.of main_v40 : StableHlo.TRef sig ⟨S2200000, .i32⟩) select,
    StableHlo.nullary main_c_11 (constantI S_ 32 1000000#32),
    StableHlo.TRef.unary (.of main_c_11 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S2200000, .i32⟩) (broadcastInDim S2200000 ![] bcast_S_S2200000),
    StableHlo.TRef.binary (.of main_v39 : StableHlo.TRef sig ⟨S2200000, .i32⟩) (.of main_call4_v3 : StableHlo.TRef sig ⟨S2200000, .i32⟩) (.of main_call4_v4 : StableHlo.TRef sig ⟨S2200000, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S2200000, .i32⟩) (broadcastInDim S2200000 ![] bcast_S_S2200000),
    StableHlo.TRef.binary (.of main_call4_v4 : StableHlo.TRef sig ⟨S2200000, .i32⟩) (.of main_call4_v5 : StableHlo.TRef sig ⟨S2200000, .i32⟩) (.of main_call4_v6 : StableHlo.TRef sig ⟨S2200000, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S2200000, .i32⟩) (broadcastInDim S2200000 ![] bcast_S_S2200000),
    StableHlo.TRef.binary (.of main_call4_v4 : StableHlo.TRef sig ⟨S2200000, .i32⟩) (.of main_call4_v7 : StableHlo.TRef sig ⟨S2200000, .i32⟩) (.of main_call4_v8 : StableHlo.TRef sig ⟨S2200000, .i1⟩) (cmpi .slt),
    StableHlo.TRef.nullary (.of main_call4_c_3 : StableHlo.TRef sig ⟨S_, .i32⟩) (constantI S_ 32 0#32),
    StableHlo.TRef.binary (.of main_call4_v2 : StableHlo.TRef sig ⟨S_, .i32⟩) (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S2200000, .i1⟩) (broadcastInDim S2200000 ![] bcast_S_S2200000),
    StableHlo.TRef.binary (.of main_call4_v8 : StableHlo.TRef sig ⟨S2200000, .i1⟩) (.of main_call4_v10 : StableHlo.TRef sig ⟨S2200000, .i1⟩) (.of main_call4_v11 : StableHlo.TRef sig ⟨S2200000, .i1⟩) (cmpi .ne),
    StableHlo.TRef.binary (.of main_call4_v11 : StableHlo.TRef sig ⟨S2200000, .i1⟩) (.of main_call4_v6 : StableHlo.TRef sig ⟨S2200000, .i1⟩) (.of main_call4_v12 : StableHlo.TRef sig ⟨S2200000, .i1⟩) andi,
    StableHlo.TRef.unary (.of main_call4_v2 : StableHlo.TRef sig ⟨S_, .i32⟩) (.of main_call4_v13 : StableHlo.TRef sig ⟨S2200000, .i32⟩) (broadcastInDim S2200000 ![] bcast_S_S2200000),
    StableHlo.TRef.binary (.of main_call4_v4 : StableHlo.TRef sig ⟨S2200000, .i32⟩) (.of main_call4_v13 : StableHlo.TRef sig ⟨S2200000, .i32⟩) (.of main_call4_v14 : StableHlo.TRef sig ⟨S2200000, .i32⟩) addi,
    StableHlo.TRef.ternary (.of main_call4_v12 : StableHlo.TRef sig ⟨S2200000, .i1⟩) (.of main_call4_v14 : StableHlo.TRef sig ⟨S2200000, .i32⟩) (.of main_call4_v4 : StableHlo.TRef sig ⟨S2200000, .i32⟩) (.of main_v41 : StableHlo.TRef sig ⟨S2200000, .i32⟩) select,
    StableHlo.nullary main_c_12 (constantI S_ 32 1000#32),
    StableHlo.TRef.unary (.of main_c_12 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S2200000, .i32⟩) (broadcastInDim S2200000 ![] bcast_S_S2200000),
    StableHlo.TRef.binary (.of main_v41 : StableHlo.TRef sig ⟨S2200000, .i32⟩) (.of main_call5_v1 : StableHlo.TRef sig ⟨S2200000, .i32⟩) (.of main_call5_v2 : StableHlo.TRef sig ⟨S2200000, .i32⟩) Host.divsi,
    StableHlo.TRef.unary (.of main_v41 : StableHlo.TRef sig ⟨S2200000, .i32⟩) (.of main_call5_v3 : StableHlo.TRef sig ⟨S2200000, .i32⟩) signi,
    StableHlo.TRef.unary (.of main_call5_v0 : StableHlo.TRef sig ⟨S_, .i32⟩) (.of main_call5_v4 : StableHlo.TRef sig ⟨S_, .i32⟩) signi,
    StableHlo.TRef.unary (.of main_call5_v4 : StableHlo.TRef sig ⟨S_, .i32⟩) (.of main_call5_v5 : StableHlo.TRef sig ⟨S2200000, .i32⟩) (broadcastInDim S2200000 ![] bcast_S_S2200000),
    StableHlo.TRef.binary (.of main_call5_v3 : StableHlo.TRef sig ⟨S2200000, .i32⟩) (.of main_call5_v5 : StableHlo.TRef sig ⟨S2200000, .i32⟩) (.of main_call5_v6 : StableHlo.TRef sig ⟨S2200000, .i1⟩) (cmpi .ne),
    StableHlo.TRef.unary (.of main_call5_v0 : StableHlo.TRef sig ⟨S_, .i32⟩) (.of main_call5_v7 : StableHlo.TRef sig ⟨S2200000, .i32⟩) (broadcastInDim S2200000 ![] bcast_S_S2200000),
    StableHlo.TRef.binary (.of main_v41 : StableHlo.TRef sig ⟨S2200000, .i32⟩) (.of main_call5_v7 : StableHlo.TRef sig ⟨S2200000, .i32⟩) (.of main_call5_v8 : StableHlo.TRef sig ⟨S2200000, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v9 : StableHlo.TRef sig ⟨S2200000, .i32⟩) (broadcastInDim S2200000 ![] bcast_S_S2200000),
    StableHlo.TRef.binary (.of main_call5_v8 : StableHlo.TRef sig ⟨S2200000, .i32⟩) (.of main_call5_v9 : StableHlo.TRef sig ⟨S2200000, .i32⟩) (.of main_call5_v10 : StableHlo.TRef sig ⟨S2200000, .i1⟩) (cmpi .ne),
    StableHlo.TRef.binary (.of main_call5_v6 : StableHlo.TRef sig ⟨S2200000, .i1⟩) (.of main_call5_v10 : StableHlo.TRef sig ⟨S2200000, .i1⟩) (.of main_call5_v11 : StableHlo.TRef sig ⟨S2200000, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v12 : StableHlo.TRef sig ⟨S2200000, .i32⟩) (broadcastInDim S2200000 ![] bcast_S_S2200000),
    StableHlo.TRef.binary (.of main_call5_v2 : StableHlo.TRef sig ⟨S2200000, .i32⟩) (.of main_call5_v12 : StableHlo.TRef sig ⟨S2200000, .i32⟩) (.of main_call5_v13 : StableHlo.TRef sig ⟨S2200000, .i32⟩) subi,
    StableHlo.TRef.ternary (.of main_call5_v11 : StableHlo.TRef sig ⟨S2200000, .i1⟩) (.of main_call5_v13 : StableHlo.TRef sig ⟨S2200000, .i32⟩) (.of main_call5_v2 : StableHlo.TRef sig ⟨S2200000, .i32⟩) (.of main_v42 : StableHlo.TRef sig ⟨S2200000, .i32⟩) select,
    StableHlo.nullary main_c_13 (constantI S_ 32 1000#32),
    StableHlo.TRef.unary (.of main_c_13 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S2200000, .i32⟩) (broadcastInDim S2200000 ![] bcast_S_S2200000),
    StableHlo.TRef.binary (.of main_v41 : StableHlo.TRef sig ⟨S2200000, .i32⟩) (.of main_call6_v3 : StableHlo.TRef sig ⟨S2200000, .i32⟩) (.of main_call6_v4 : StableHlo.TRef sig ⟨S2200000, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S2200000, .i32⟩) (broadcastInDim S2200000 ![] bcast_S_S2200000),
    StableHlo.TRef.binary (.of main_call6_v4 : StableHlo.TRef sig ⟨S2200000, .i32⟩) (.of main_call6_v5 : StableHlo.TRef sig ⟨S2200000, .i32⟩) (.of main_call6_v6 : StableHlo.TRef sig ⟨S2200000, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S2200000, .i32⟩) (broadcastInDim S2200000 ![] bcast_S_S2200000),
    StableHlo.TRef.binary (.of main_call6_v4 : StableHlo.TRef sig ⟨S2200000, .i32⟩) (.of main_call6_v7 : StableHlo.TRef sig ⟨S2200000, .i32⟩) (.of main_call6_v8 : StableHlo.TRef sig ⟨S2200000, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S2200000, .i1⟩) (broadcastInDim S2200000 ![] bcast_S_S2200000),
    StableHlo.TRef.binary (.of main_call6_v8 : StableHlo.TRef sig ⟨S2200000, .i1⟩) (.of main_call6_v10 : StableHlo.TRef sig ⟨S2200000, .i1⟩) (.of main_call6_v11 : StableHlo.TRef sig ⟨S2200000, .i1⟩) (cmpi .ne),
    StableHlo.TRef.binary (.of main_call6_v11 : StableHlo.TRef sig ⟨S2200000, .i1⟩) (.of main_call6_v6 : StableHlo.TRef sig ⟨S2200000, .i1⟩) (.of main_call6_v12 : StableHlo.TRef sig ⟨S2200000, .i1⟩) andi,
    StableHlo.TRef.unary (.of main_call6_v2 : StableHlo.TRef sig ⟨S_, .i32⟩) (.of main_call6_v13 : StableHlo.TRef sig ⟨S2200000, .i32⟩) (broadcastInDim S2200000 ![] bcast_S_S2200000),
    StableHlo.TRef.binary (.of main_call6_v4 : StableHlo.TRef sig ⟨S2200000, .i32⟩) (.of main_call6_v13 : StableHlo.TRef sig ⟨S2200000, .i32⟩) (.of main_call6_v14 : StableHlo.TRef sig ⟨S2200000, .i32⟩) addi,
    StableHlo.TRef.ternary (.of main_call6_v12 : StableHlo.TRef sig ⟨S2200000, .i1⟩) (.of main_call6_v14 : StableHlo.TRef sig ⟨S2200000, .i32⟩) (.of main_call6_v4 : StableHlo.TRef sig ⟨S2200000, .i32⟩) (.of main_v43 : StableHlo.TRef sig ⟨S2200000, .i32⟩) select ]

/-- Statements 61 … 88 of @main as their 32 operations, in order: the two calls of @_where_3 and the call of
    @_where_4 each replaced by the callee's operations over that call's buffers. -/
abbrev ops1 : List (HloOp τ sig (Elt F)) :=
  [ StableHlo.nullary main_c_14 (constantI S_ 32 1000#32),
    StableHlo.unary main_c_14 main_v44 (broadcastInDim S2200000 ![] bcast_S_S2200000 : (⟨S_, .i32⟩ : BufTy).Contents (Elt F) → (⟨S2200000, .i32⟩ : BufTy).Contents (Elt F)),
    StableHlo.binary main_v40 main_v44 main_v45 (muli : (⟨S2200000, .i32⟩ : BufTy).Contents (Elt F) → (⟨S2200000, .i32⟩ : BufTy).Contents (Elt F) → (⟨S2200000, .i32⟩ : BufTy).Contents (Elt F)),
    StableHlo.binary main_v45 main_v42 main_v46 (addi : (⟨S2200000, .i32⟩ : BufTy).Contents (Elt F) → (⟨S2200000, .i32⟩ : BufTy).Contents (Elt F) → (⟨S2200000, .i32⟩ : BufTy).Contents (Elt F)),
    StableHlo.nullary main_c_15 (constantI S_ 32 64000#32),
    StableHlo.TRef.unary (.of main_c_15 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S2200000, .i32⟩) (broadcastInDim S2200000 ![] bcast_S_S2200000),
    StableHlo.TRef.ternary (.of main_v37 : StableHlo.TRef sig ⟨S2200000, .i1⟩) (.of main_v46 : StableHlo.TRef sig ⟨S2200000, .i32⟩) (.of main_call7_v1 : StableHlo.TRef sig ⟨S2200000, .i32⟩) (.of main_v47 : StableHlo.TRef sig ⟨S2200000, .i32⟩) select,
    StableHlo.nullary main_c_16 (constantI S_ 32 1000#32),
    StableHlo.unary main_c_16 main_v48 (broadcastInDim S2200000 ![] bcast_S_S2200000 : (⟨S_, .i32⟩ : BufTy).Contents (Elt F) → (⟨S2200000, .i32⟩ : BufTy).Contents (Elt F)),
    StableHlo.binary main_v40 main_v48 main_v49 (muli : (⟨S2200000, .i32⟩ : BufTy).Contents (Elt F) → (⟨S2200000, .i32⟩ : BufTy).Contents (Elt F) → (⟨S2200000, .i32⟩ : BufTy).Contents (Elt F)),
    StableHlo.binary main_v49 main_v43 main_v50 (addi : (⟨S2200000, .i32⟩ : BufTy).Contents (Elt F) → (⟨S2200000, .i32⟩ : BufTy).Contents (Elt F) → (⟨S2200000, .i32⟩ : BufTy).Contents (Elt F)),
    StableHlo.nullary main_c_17 (constantI S_ 32 64000#32),
    StableHlo.TRef.unary (.of main_c_17 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S2200000, .i32⟩) (broadcastInDim S2200000 ![] bcast_S_S2200000),
    StableHlo.TRef.ternary (.of main_v37 : StableHlo.TRef sig ⟨S2200000, .i1⟩) (.of main_v50 : StableHlo.TRef sig ⟨S2200000, .i32⟩) (.of main_call8_v1 : StableHlo.TRef sig ⟨S2200000, .i32⟩) (.of main_v51 : StableHlo.TRef sig ⟨S2200000, .i32⟩) select,
    StableHlo.reshape main_v11 main_v52 rfl shapeCasts_S64x1000x1000_S64000000,
    StableHlo.nullary main_c_18 (constantI S_ 32 0#32),
    StableHlo.unary main_c_18 main_v53 (broadcastInDim S2200000 ![] bcast_S_S2200000 : (⟨S_, .i32⟩ : BufTy).Contents (Elt F) → (⟨S2200000, .i32⟩ : BufTy).Contents (Elt F)),
    StableHlo.binary main_v39 main_v53 main_v54 (cmpi .slt : (⟨S2200000, .i32⟩ : BufTy).Contents (Elt F) → (⟨S2200000, .i32⟩ : BufTy).Contents (Elt F) → (⟨S2200000, .i1⟩ : BufTy).Contents (Elt F)),
    StableHlo.nullary main_c_19 (constantI S_ 32 64000000#32),
    StableHlo.unary main_c_19 main_v55 (broadcastInDim S2200000 ![] bcast_S_S2200000 : (⟨S_, .i32⟩ : BufTy).Contents (Elt F) → (⟨S2200000, .i32⟩ : BufTy).Contents (Elt F)),
    StableHlo.binary main_v39 main_v55 main_v56 (addi : (⟨S2200000, .i32⟩ : BufTy).Contents (Elt F) → (⟨S2200000, .i32⟩ : BufTy).Contents (Elt F) → (⟨S2200000, .i32⟩ : BufTy).Contents (Elt F)),
    StableHlo.ternary main_v54 main_v56 main_v39 main_v57 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)),
    StableHlo.unary main_v57 main_v58 (broadcastInDim S2200000x1 ![0] bcast_S2200000_S2200000x1_0 : (⟨S2200000, .i32⟩ : BufTy).Contents (Elt F) → (⟨S2200000x1, .i32⟩ : BufTy).Contents (Elt F)),
    StableHlo.binary main_v52 main_v58 main_v59 ((fun x i => Host.gather gather_S64000000_S2200000x1_S2200000_n_0_n_n_0_1_1 x i) : (⟨S64000000, .f32⟩ : BufTy).Contents (Elt F) → (⟨S2200000x1, .i32⟩ : BufTy).Contents (Elt F) → (⟨S2200000, .f32⟩ : BufTy).Contents (Elt F)),
    StableHlo.nullary main_cst_20 (constant S_ .f32 0x41C80000#32),
    StableHlo.TRef.unary (.of main_cst_20 : StableHlo.TRef sig ⟨S_, .f32⟩) (.of main_call9_v0 : StableHlo.TRef sig ⟨S2200000, .f32⟩) (broadcastInDim S2200000 ![] bcast_S_S2200000),
    StableHlo.TRef.ternary (.of main_v37 : StableHlo.TRef sig ⟨S2200000, .i1⟩) (.of main_v59 : StableHlo.TRef sig ⟨S2200000, .f32⟩) (.of main_call9_v0 : StableHlo.TRef sig ⟨S2200000, .f32⟩) (.of main_v60 : StableHlo.TRef sig ⟨S2200000, .f32⟩) select,
    StableHlo.binary main_v47 main_v51 main_v61 ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)),
    StableHlo.binary main_v51 main_v47 main_v62 ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)),
    StableHlo.binary main_v60 main_v60 main_v63 ((fun a b => concatenate S4400000 0 [⟨S2200000, a⟩, ⟨S2200000, b⟩] concatenates_S2200000_S2200000_S4400000_d0) : (⟨S2200000, .f32⟩ : BufTy).Contents (Elt F) → (⟨S2200000, .f32⟩ : BufTy).Contents (Elt F) → (⟨S4400000, .f32⟩ : BufTy).Contents (Elt F)) ]

/-- @main's 176 operations, in order. -/
abbrev ops : List (HloOp τ sig (Elt F)) := ops0 ++ ops1

set_option maxRecDepth 8192 in
set_option maxHeartbeats 4000000 in
/-- The first window is its line: the functions' definitions unfolded at their calls, both sides are one chain
    of steps once sequencing is reassociated. -/
theorem main_part0_eq (c : Dev nD) : main_part0 (F := F) c = seq ops0 := by
  unfold main_part0
  simp only [StableHlo.seq, fn_triu.body, fn_cumsum.body, fn_cumsum_0.body, fn_where.body, fn_floor_divide.body, fn_where_1.body,
    fn_remainder.body, fn_where_2.body, fn_where_3.body, fn_where_4.body, bind_assoc, pure_bind]

set_option maxRecDepth 8192 in
set_option maxHeartbeats 4000000 in
/-- The second window is its line, likewise. -/
theorem main_part1_eq (c : Dev nD) : main_part1 (F := F) c = seq ops1 := by
  unfold main_part1
  simp only [StableHlo.seq, fn_triu.body, fn_cumsum.body, fn_cumsum_0.body, fn_where.body, fn_floor_divide.body, fn_where_1.body,
    fn_remainder.body, fn_where_2.body, fn_where_3.body, fn_where_4.body, bind_assoc, pure_bind]

/-- @main runs its two windows in order, and two lines run in order are their concatenation run as one. -/
theorem main_eq (c : Dev nD) : main (F := F) c = seq ops := by
  show (main_part0 c >>= fun _ => main_part1 c) = _
  rw [main_part0_eq, main_part1_eq, ← StableHlo.seq_append]

/-! ## The run -/

/-- Each operation of the first window touches TensorCore references only. -/
theorem ops0_sub : (ops0 : List (HloOp τ sig (Elt F))).Forall fun op => op.bufs ⊆ tcRefs τ sig :=
  ⟨reshape_bufs_sub .., binary_bufs_sub .., nullary_bufs_sub .., binary_bufs_sub .., binary_bufs_sub .., unary_bufs_sub ..,
    unary_bufs_sub .., unary_bufs_sub .., unary_bufs_sub .., binary_bufs_sub .., nullary_bufs_sub .., unary_bufs_sub ..,
    binary_bufs_sub .., binary_bufs_sub .., nullary_bufs_sub .., unary_bufs_sub .., nullary_bufs_sub .., nullary_bufs_sub ..,
    unary_bufs_sub .., binary_bufs_sub .., nullary_bufs_sub .., binary_bufs_sub .., nullary_bufs_sub .., unary_bufs_sub ..,
    ternary_bufs_sub .., nullary_bufs_sub .., unary_bufs_sub .., binary_bufs_sub .., unary_bufs_sub .., unary_bufs_sub ..,
    binary_bufs_sub .., reshape_bufs_sub .., unary_bufs_sub .., nullary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., ternary_bufs_sub .., nullary_bufs_sub .., unary_bufs_sub ..,
    binary_bufs_sub .., nullary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..⟩

/-- Each operation of the second window touches TensorCore references only. -/
theorem ops1_sub : (ops1 : List (HloOp τ sig (Elt F))).Forall fun op => op.bufs ⊆ tcRefs τ sig :=
  ⟨nullary_bufs_sub .., unary_bufs_sub .., binary_bufs_sub .., binary_bufs_sub .., nullary_bufs_sub .., unary_bufs_sub ..,
    unary_bufs_sub .., ternary_bufs_sub .., nullary_bufs_sub .., unary_bufs_sub .., binary_bufs_sub .., binary_bufs_sub ..,
    nullary_bufs_sub .., unary_bufs_sub .., unary_bufs_sub .., ternary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., ternary_bufs_sub .., binary_bufs_sub ..,
    binary_bufs_sub .., binary_bufs_sub ..⟩

/-- Each operation of @main touches TensorCore references only. -/
theorem ops_sub : (ops : List (HloOp τ sig (Elt F))).Forall fun op => op.bufs ⊆ tcRefs τ sig :=
  List.forall_append.2 ⟨ops0_sub, ops1_sub⟩

/-- Every operation of the first window determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

/-- Every operation of the second window determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

/-- Every operation of @main determines what it writes. -/
theorem ops_fresh : ∀ op ∈ (ops : List (HloOp τ sig (Elt F))), op.fresh = ∅ :=
  List.forall_iff_forall_mem.1 (List.forall_append.2 ⟨ops0_fresh, ops1_fresh⟩)

/-- The signature scopes no buffer of the TensorCore. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- On every device, for any float values, from any memory with zero counters: every weakly fair execution of
    @main terminates, and every final state has each TensorCore buffer at the fold of the operations' results
    over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## The arguments are not written

Every operation writes one buffer, its result's, and no result's buffer is an argument's: told apart as
references, window by window. -/

theorem ops0_not_arg0 : (ops0 : List (HloOp τ sig (Elt F))).Forall fun op => (Proc.devRef .tc main_arg0 : DevRef τ sig) ∉ op.writes := by
  simp only [ops0, List.Forall, nullary_writes, unary_writes, binary_writes, ternary_writes, reshape_writes, Finset.mem_singleton]
  repeat' apply And.intro
  all_goals exact devRef_ne_of_ne (by decide)

theorem ops0_not_arg1 : (ops0 : List (HloOp τ sig (Elt F))).Forall fun op => (Proc.devRef .tc main_arg1 : DevRef τ sig) ∉ op.writes := by
  simp only [ops0, List.Forall, nullary_writes, unary_writes, binary_writes, ternary_writes, reshape_writes, Finset.mem_singleton]
  repeat' apply And.intro
  all_goals exact devRef_ne_of_ne (by decide)

theorem ops0_not_arg2 : (ops0 : List (HloOp τ sig (Elt F))).Forall fun op => (Proc.devRef .tc main_arg2 : DevRef τ sig) ∉ op.writes := by
  simp only [ops0, List.Forall, nullary_writes, unary_writes, binary_writes, ternary_writes, reshape_writes, Finset.mem_singleton]
  repeat' apply And.intro
  all_goals exact devRef_ne_of_ne (by decide)

theorem ops1_not_arg0 : (ops1 : List (HloOp τ sig (Elt F))).Forall fun op => (Proc.devRef .tc main_arg0 : DevRef τ sig) ∉ op.writes := by
  simp only [ops1, List.Forall, nullary_writes, unary_writes, binary_writes, ternary_writes, reshape_writes, Finset.mem_singleton]
  repeat' apply And.intro
  all_goals exact devRef_ne_of_ne (by decide)

theorem ops1_not_arg1 : (ops1 : List (HloOp τ sig (Elt F))).Forall fun op => (Proc.devRef .tc main_arg1 : DevRef τ sig) ∉ op.writes := by
  simp only [ops1, List.Forall, nullary_writes, unary_writes, binary_writes, ternary_writes, reshape_writes, Finset.mem_singleton]
  repeat' apply And.intro
  all_goals exact devRef_ne_of_ne (by decide)

theorem ops1_not_arg2 : (ops1 : List (HloOp τ sig (Elt F))).Forall fun op => (Proc.devRef .tc main_arg2 : DevRef τ sig) ∉ op.writes := by
  simp only [ops1, List.Forall, nullary_writes, unary_writes, binary_writes, ternary_writes, reshape_writes, Finset.mem_singleton]
  repeat' apply And.intro
  all_goals exact devRef_ne_of_ne (by decide)

/-- @main leaves argument 0's buffer as it finds it. -/
theorem after_arg0 (V : Valuation τ sig (Elt F)) :
    after ops V (Proc.devRef .tc main_arg0) = V (Proc.devRef .tc main_arg0) :=
  after_of_forall_not_mem ops V (List.forall_iff_forall_mem.1 (List.forall_append.2 ⟨ops0_not_arg0, ops1_not_arg0⟩))

/-- @main leaves argument 1's buffer as it finds it. -/
theorem after_arg1 (V : Valuation τ sig (Elt F)) :
    after ops V (Proc.devRef .tc main_arg1) = V (Proc.devRef .tc main_arg1) :=
  after_of_forall_not_mem ops V (List.forall_iff_forall_mem.1 (List.forall_append.2 ⟨ops0_not_arg1, ops1_not_arg1⟩))

/-- @main leaves argument 2's buffer as it finds it. -/
theorem after_arg2 (V : Valuation τ sig (Elt F)) :
    after ops V (Proc.devRef .tc main_arg2) = V (Proc.devRef .tc main_arg2) :=
  after_of_forall_not_mem ops V (List.forall_iff_forall_mem.1 (List.forall_append.2 ⟨ops0_not_arg2, ops1_not_arg2⟩))

/-- THE FRAME: on every device, for any float values, from any memory with zero counters, every weakly fair
    execution of @main terminates with the three argument buffers holding what they held at launch. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0).trans (after_arg0 _), (h c main_arg1).trans (after_arg1 _),
      (h c main_arg2).trans (after_arg2 _)⟩)
    (run_ops m ρ)

end Cert.ReferenceIdeal.RefRun

end
-- ==== Proof.KernelIdealTailDefs.lean ====
/-
  The host lines after the distances are known, one definition per buffer: what each line computes from the flag array `mf`
  (which of the 64·1000·1000 ordered pairs are kept, flattened) and the flattened array `D` of distances the kept pairs' values
  are taken from.  Positions of kept pairs are numbered by a running count, scattered into a list of 2200000 slots that
  starts at −1, and the slots' pair numbers are decoded back into atom numbers and used to fetch the distances.
-/
import proofs.«164187_j65910568124749_1_alg».proof.Proof.Gen.KernelIdeal
import Idealize.ShloMosaic.Lib.StableHlo

noncomputable section

namespace Cert.KernelIdeal.Tail

open Cert.KernelIdeal Cert.KernelIdeal.Gen
open Idealize.ShloMosaic Idealize.ShloMosaic.StableHlo

variable {F : FTy → Type} [FloatOps F]

noncomputable def t_main_v5 (mf : (⟨S64000000, .i1⟩ : BufTy).Contents (Elt F)) (D : (⟨S64000000, .f32⟩ : BufTy).Contents (Elt F)) : (⟨S64000000, .i32⟩ : BufTy).Contents (Elt F) :=
  ((extui 32 · natLt_1_32) : (⟨S64000000, .i1⟩ : BufTy).Contents (Elt F) → (⟨S64000000, .i32⟩ : BufTy).Contents (Elt F)) mf
noncomputable def t_main_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v6 (mf : (⟨S64000000, .i1⟩ : BufTy).Contents (Elt F)) (D : (⟨S64000000, .f32⟩ : BufTy).Contents (Elt F)) : (⟨S_, .i32⟩ : BufTy).Contents (Elt F) :=
  ((fun x v => Host.reduce IntOp.addi x v reducesTo_S64000000_S_d0 h_S_) : (⟨S64000000, .i32⟩ : BufTy).Contents (Elt F) → (⟨S_, .i32⟩ : BufTy).Contents (Elt F) → (⟨S_, .i32⟩ : BufTy).Contents (Elt F)) (t_main_v5 mf D) (t_main_c mf D)
noncomputable def t_main_v7 (mf : (⟨S64000000, .i1⟩ : BufTy).Contents (Elt F)) (D : (⟨S64000000, .f32⟩ : BufTy).Contents (Elt F)) : (⟨S64000000, .i32⟩ : BufTy).Contents (Elt F) :=
  ((extui 32 · natLt_1_32) : (⟨S64000000, .i1⟩ : BufTy).Contents (Elt F) → (⟨S64000000, .i32⟩ : BufTy).Contents (Elt F)) mf
noncomputable def t_main_call0_call0_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call0_call0_v0 (mf : (⟨S64000000, .i1⟩ : BufTy).Contents (Elt F)) (D : (⟨S64000000, .f32⟩ : BufTy).Contents (Elt F)) : (⟨S_, .i32⟩ : BufTy).Contents (Elt F) :=
  (broadcastInDim S_ ![] bcast_S_S_) (t_main_call0_call0_c mf D)
noncomputable def t_main_v8 (mf : (⟨S64000000, .i1⟩ : BufTy).Contents (Elt F)) (D : (⟨S64000000, .f32⟩ : BufTy).Contents (Elt F)) : (⟨S64000000, .i32⟩ : BufTy).Contents (Elt F) :=
  (fun x v => Host.reduceWindow IntOp.addi ![64000000] ![1] ![63999999] ![0] x v reduceWindows_S64000000_S64000000_w64000000s1p63999999_0 h_S_) (t_main_v7 mf D) (t_main_call0_call0_v0 mf D)
noncomputable def t_main_c_0 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_v9 (mf : (⟨S64000000, .i1⟩ : BufTy).Contents (Elt F)) (D : (⟨S64000000, .f32⟩ : BufTy).Contents (Elt F)) : (⟨S64000000, .i32⟩ : BufTy).Contents (Elt F) :=
  (broadcastInDim S64000000 ![] bcast_S_S64000000 : (⟨S_, .i32⟩ : BufTy).Contents (Elt F) → (⟨S64000000, .i32⟩ : BufTy).Contents (Elt F)) (t_main_c_0 mf D)
noncomputable def t_main_v10 (mf : (⟨S64000000, .i1⟩ : BufTy).Contents (Elt F)) (D : (⟨S64000000, .f32⟩ : BufTy).Contents (Elt F)) : (⟨S64000000, .i32⟩ : BufTy).Contents (Elt F) :=
  (subi : (⟨S64000000, .i32⟩ : BufTy).Contents (Elt F) → (⟨S64000000, .i32⟩ : BufTy).Contents (Elt F) → (⟨S64000000, .i32⟩ : BufTy).Contents (Elt F)) (t_main_v8 mf D) (t_main_v9 mf D)
noncomputable def t_main_c_1 (mf : (⟨S64000000, .i1⟩ : BufTy).Contents (Elt F)) (D : (⟨S64000000, .f32⟩ : BufTy).Contents (Elt F)) : (⟨S_, .i32⟩ : BufTy).Contents (Elt F) :=
  (constantI S_ 32 2200000#32)
noncomputable def t_main_call1_v0 (mf : (⟨S64000000, .i1⟩ : BufTy).Contents (Elt F)) (D : (⟨S64000000, .f32⟩ : BufTy).Contents (Elt F)) : (⟨S_, .i32⟩ : BufTy).Contents (Elt F) :=
  id (t_main_c_1 mf D)
noncomputable def t_main_call1_v1 (mf : (⟨S64000000, .i1⟩ : BufTy).Contents (Elt F)) (D : (⟨S64000000, .f32⟩ : BufTy).Contents (Elt F)) : (⟨S64000000, .i32⟩ : BufTy).Contents (Elt F) :=
  (broadcastInDim S64000000 ![] bcast_S_S64000000) (t_main_call1_v0 mf D)
noncomputable def t_main_v11 (mf : (⟨S64000000, .i1⟩ : BufTy).Contents (Elt F)) (D : (⟨S64000000, .f32⟩ : BufTy).Contents (Elt F)) : (⟨S64000000, .i32⟩ : BufTy).Contents (Elt F) :=
  select mf (t_main_v10 mf D) (t_main_call1_v1 mf D)
noncomputable def t_main_v12 (mf : (⟨S64000000, .i1⟩ : BufTy).Contents (Elt F)) (D : (⟨S64000000, .f32⟩ : BufTy).Contents (Elt F)) : (⟨S64000000, .i32⟩ : BufTy).Contents (Elt F) :=
  (iotaInDim S64000000 32 0)
noncomputable def t_main_c_2 (mf : (⟨S64000000, .i1⟩ : BufTy).Contents (Elt F)) (D : (⟨S64000000, .f32⟩ : BufTy).Contents (Elt F)) : (⟨S_, .i32⟩ : BufTy).Contents (Elt F) :=
  (constantI S_ 32 4294967295#32)
noncomputable def t_main_v13 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_2 mf D)
noncomputable def t_main_c_3 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v14 (mf : (⟨S64000000, .i1⟩ : BufTy).Contents (Elt F)) (D : (⟨S64000000, .f32⟩ : BufTy).Contents (Elt F)) : (⟨S64000000, .i32⟩ : BufTy).Contents (Elt F) :=
  (broadcastInDim S64000000 ![] bcast_S_S64000000 : (⟨S_, .i32⟩ : BufTy).Contents (Elt F) → (⟨S64000000, .i32⟩ : BufTy).Contents (Elt F)) (t_main_c_3 mf D)
noncomputable def t_main_v15 (mf : (⟨S64000000, .i1⟩ : BufTy).Contents (Elt F)) (D : (⟨S64000000, .f32⟩ : BufTy).Contents (Elt F)) : (⟨S64000000, .i1⟩ : BufTy).Contents (Elt F) :=
  (cmpi .slt : (⟨S64000000, .i32⟩ : BufTy).Contents (Elt F) → (⟨S64000000, .i32⟩ : BufTy).Contents (Elt F) → (⟨S64000000, .i1⟩ : BufTy).Contents (Elt F)) (t_main_v11 mf D) (t_main_v14 mf D)
noncomputable def t_main_c_4 (mf : (⟨S64000000, .i1⟩ : BufTy).Contents (Elt F)) (D : (⟨S64000000, .f32⟩ : BufTy).Contents (Elt F)) : (⟨S_, .i32⟩ : BufTy).Contents (Elt F) :=
  (constantI S_ 32 2200000#32)
noncomputable def t_main_v16 (mf : (⟨S64000000, .i1⟩ : BufTy).Contents (Elt F)) (D : (⟨S64000000, .f32⟩ : BufTy).Contents (Elt F)) : (⟨S64000000, .i32⟩ : BufTy).Contents (Elt F) :=
  (broadcastInDim S64000000 ![] bcast_S_S64000000 : (⟨S_, .i32⟩ : BufTy).Contents (Elt F) → (⟨S64000000, .i32⟩ : BufTy).Contents (Elt F)) (t_main_c_4 mf D)
noncomputable def t_main_v17 (mf : (⟨S64000000, .i1⟩ : BufTy).Contents (Elt F)) (D : (⟨S64000000, .f32⟩ : BufTy).Contents (Elt F)) : (⟨S64000000, .i32⟩ : BufTy).Contents (Elt F) :=
  (addi : (⟨S64000000, .i32⟩ : BufTy).Contents (Elt F) → (⟨S64000000, .i32⟩ : BufTy).Contents (Elt F) → (⟨S64000000, .i32⟩ : BufTy).Contents (Elt F)) (t_main_v11 mf D) (t_main_v16 mf D)
noncomputable def t_main_v18 (mf : (⟨S64000000, .i1⟩ : BufTy).Contents (Elt F)) (D : (⟨S64000000, .f32⟩ : BufTy).Contents (Elt F)) : (⟨S64000000, .i32⟩ : BufTy).Contents (Elt F) :=
  (select : (⟨S64000000, .i1⟩ : BufTy).Contents (Elt F) → (⟨S64000000, .i32⟩ : BufTy).Contents (Elt F) → (⟨S64000000, .i32⟩ : BufTy).Contents (Elt F) → (⟨S64000000, .i32⟩ : BufTy).Contents (Elt F)) (t_main_v15 mf D) (t_main_v17 mf D) (t_main_v11 mf D)
noncomputable def t_main_v19 (mf : (⟨S64000000, .i1⟩ : BufTy).Contents (Elt F)) (D : (⟨S64000000, .f32⟩ : BufTy).Contents (Elt F)) : (⟨S64000000x1, .i32⟩ : BufTy).Contents (Elt F) :=
  (broadcastInDim S64000000x1 ![0] bcast_S64000000_S64000000x1_0 : (⟨S64000000, .i32⟩ : BufTy).Contents (Elt F) → (⟨S64000000x1, .i32⟩ : BufTy).Contents (Elt F)) (t_main_v18 mf D)
noncomputable def t_main_v20 (mf : (⟨S64000000, .i1⟩ : BufTy).Contents (Elt F)) (D : (⟨S64000000, .f32⟩ : BufTy).Contents (Elt F)) : (⟨S2200000, .i32⟩ : BufTy).Contents (Elt F) :=
  ((fun x i u => Host.scatter scatter_S2200000_S64000000x1_S64000000_n_0_0_1 (fun _ b => b) x i u) : (⟨S2200000, .i32⟩ : BufTy).Contents (Elt F) → (⟨S64000000x1, .i32⟩ : BufTy).Contents (Elt F) → (⟨S64000000, .i32⟩ : BufTy).Contents (Elt F) → (⟨S2200000, .i32⟩ : BufTy).Contents (Elt F)) (t_main_v13 mf D) (t_main_v19 mf D) (t_main_v12 mf D)
noncomputable def t_main_c_5 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v21 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_5 mf D)
noncomputable def t_main_v22 (mf : (⟨S64000000, .i1⟩ : BufTy).Contents (Elt F)) (D : (⟨S64000000, .f32⟩ : BufTy).Contents (Elt F)) : (⟨S2200000, .i1⟩ : BufTy).Contents (Elt F) :=
  (cmpi .sge : (⟨S2200000, .i32⟩ : BufTy).Contents (Elt F) → (⟨S2200000, .i32⟩ : BufTy).Contents (Elt F) → (⟨S2200000, .i1⟩ : BufTy).Contents (Elt F)) (t_main_v20 mf D) (t_main_v21 mf D)
noncomputable def t_main_c_6 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v23 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_6 mf D)
noncomputable def t_main_v24 (mf : (⟨S64000000, .i1⟩ : BufTy).Contents (Elt F)) (D : (⟨S64000000, .f32⟩ : BufTy).Contents (Elt F)) : (⟨S2200000, .i32⟩ : BufTy).Contents (Elt F) :=
  (maxsi : (⟨S2200000, .i32⟩ : BufTy).Contents (Elt F) → (⟨S2200000, .i32⟩ : BufTy).Contents (Elt F) → (⟨S2200000, .i32⟩ : BufTy).Contents (Elt F)) (t_main_v20 mf D) (t_main_v23 mf D)
noncomputable def t_main_c_7 (mf : (⟨S64000000, .i1⟩ : BufTy).Contents (Elt F)) (D : (⟨S64000000, .f32⟩ : BufTy).Contents (Elt F)) : (⟨S_, .i32⟩ : BufTy).Contents (Elt F) :=
  (constantI S_ 32 1000000#32)
noncomputable def t_main_call2_v0 (mf : (⟨S64000000, .i1⟩ : BufTy).Contents (Elt F)) (D : (⟨S64000000, .f32⟩ : BufTy).Contents (Elt F)) : (⟨S_, .i32⟩ : BufTy).Contents (Elt F) :=
  id (t_main_c_7 mf D)
noncomputable def t_main_call2_v1 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call2_v0 mf D)
noncomputable def t_main_call2_v2 (mf : (⟨S64000000, .i1⟩ : BufTy).Contents (Elt F)) (D : (⟨S64000000, .f32⟩ : BufTy).Contents (Elt F)) : (⟨S2200000, .i32⟩ : BufTy).Contents (Elt F) :=
  Host.divsi (t_main_v24 mf D) (t_main_call2_v1 mf D)
noncomputable def t_main_call2_v3 (mf : (⟨S64000000, .i1⟩ : BufTy).Contents (Elt F)) (D : (⟨S64000000, .f32⟩ : BufTy).Contents (Elt F)) : (⟨S2200000, .i32⟩ : BufTy).Contents (Elt F) :=
  signi (t_main_v24 mf D)
noncomputable def t_main_call2_v4 (mf : (⟨S64000000, .i1⟩ : BufTy).Contents (Elt F)) (D : (⟨S64000000, .f32⟩ : BufTy).Contents (Elt F)) : (⟨S_, .i32⟩ : BufTy).Contents (Elt F) :=
  signi (t_main_call2_v0 mf D)
noncomputable def t_main_call2_v5 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call2_v4 mf D)
noncomputable def t_main_call2_v6 (mf : (⟨S64000000, .i1⟩ : BufTy).Contents (Elt F)) (D : (⟨S64000000, .f32⟩ : BufTy).Contents (Elt F)) : (⟨S2200000, .i1⟩ : BufTy).Contents (Elt F) :=
  (cmpi .ne) (t_main_call2_v3 mf D) (t_main_call2_v5 mf D)
noncomputable def t_main_call2_v7 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call2_v0 mf D)
noncomputable def t_main_call2_v8 (mf : (⟨S64000000, .i1⟩ : BufTy).Contents (Elt F)) (D : (⟨S64000000, .f32⟩ : BufTy).Contents (Elt F)) : (⟨S2200000, .i32⟩ : BufTy).Contents (Elt F) :=
  Host.remsi (t_main_v24 mf D) (t_main_call2_v7 mf D)
noncomputable def t_main_call2_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call2_v9 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call2_c mf D)
noncomputable def t_main_call2_v10 (mf : (⟨S64000000, .i1⟩ : BufTy).Contents (Elt F)) (D : (⟨S64000000, .f32⟩ : BufTy).Contents (Elt F)) : (⟨S2200000, .i1⟩ : BufTy).Contents (Elt F) :=
  (cmpi .ne) (t_main_call2_v8 mf D) (t_main_call2_v9 mf D)
noncomputable def t_main_call2_v11 (mf : (⟨S64000000, .i1⟩ : BufTy).Contents (Elt F)) (D : (⟨S64000000, .f32⟩ : BufTy).Contents (Elt F)) : (⟨S2200000, .i1⟩ : BufTy).Contents (Elt F) :=
  andi (t_main_call2_v6 mf D) (t_main_call2_v10 mf D)
noncomputable def t_main_call2_c_0 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_call2_v12 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call2_c_0 mf D)
noncomputable def t_main_call2_v13 (mf : (⟨S64000000, .i1⟩ : BufTy).Contents (Elt F)) (D : (⟨S64000000, .f32⟩ : BufTy).Contents (Elt F)) : (⟨S2200000, .i32⟩ : BufTy).Contents (Elt F) :=
  subi (t_main_call2_v2 mf D) (t_main_call2_v12 mf D)
noncomputable def t_main_v25 (mf : (⟨S64000000, .i1⟩ : BufTy).Contents (Elt F)) (D : (⟨S64000000, .f32⟩ : BufTy).Contents (Elt F)) : (⟨S2200000, .i32⟩ : BufTy).Contents (Elt F) :=
  select (t_main_call2_v11 mf D) (t_main_call2_v13 mf D) (t_main_call2_v2 mf D)
noncomputable def t_main_c_8 (mf : (⟨S64000000, .i1⟩ : BufTy).Contents (Elt F)) (D : (⟨S64000000, .f32⟩ : BufTy).Contents (Elt F)) : (⟨S_, .i32⟩ : BufTy).Contents (Elt F) :=
  (constantI S_ 32 1000000#32)
noncomputable def t_main_call3_v0 (mf : (⟨S64000000, .i1⟩ : BufTy).Contents (Elt F)) (D : (⟨S64000000, .f32⟩ : BufTy).Contents (Elt F)) : (⟨S_, .i32⟩ : BufTy).Contents (Elt F) :=
  id (t_main_c_8 mf D)
noncomputable def t_main_call3_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call3_v1 (mf : (⟨S64000000, .i1⟩ : BufTy).Contents (Elt F)) (D : (⟨S64000000, .f32⟩ : BufTy).Contents (Elt F)) : (⟨S_, .i1⟩ : BufTy).Contents (Elt F) :=
  (cmpi .eq) (t_main_call3_v0 mf D) (t_main_call3_c mf D)
noncomputable def t_main_call3_c_0 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_call3_v2 (mf : (⟨S64000000, .i1⟩ : BufTy).Contents (Elt F)) (D : (⟨S64000000, .f32⟩ : BufTy).Contents (Elt F)) : (⟨S_, .i32⟩ : BufTy).Contents (Elt F) :=
  select (t_main_call3_v1 mf D) (t_main_call3_c_0 mf D) (t_main_call3_v0 mf D)
noncomputable def t_main_call3_v3 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call3_v2 mf D)
noncomputable def t_main_call3_v4 (mf : (⟨S64000000, .i1⟩ : BufTy).Contents (Elt F)) (D : (⟨S64000000, .f32⟩ : BufTy).Contents (Elt F)) : (⟨S2200000, .i32⟩ : BufTy).Contents (Elt F) :=
  Host.remsi (t_main_v24 mf D) (t_main_call3_v3 mf D)
noncomputable def t_main_call3_c_1 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call3_v5 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call3_c_1 mf D)
noncomputable def t_main_call3_v6 (mf : (⟨S64000000, .i1⟩ : BufTy).Contents (Elt F)) (D : (⟨S64000000, .f32⟩ : BufTy).Contents (Elt F)) : (⟨S2200000, .i1⟩ : BufTy).Contents (Elt F) :=
  (cmpi .ne) (t_main_call3_v4 mf D) (t_main_call3_v5 mf D)
noncomputable def t_main_call3_c_2 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call3_v7 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call3_c_2 mf D)
noncomputable def t_main_call3_v8 (mf : (⟨S64000000, .i1⟩ : BufTy).Contents (Elt F)) (D : (⟨S64000000, .f32⟩ : BufTy).Contents (Elt F)) : (⟨S2200000, .i1⟩ : BufTy).Contents (Elt F) :=
  (cmpi .slt) (t_main_call3_v4 mf D) (t_main_call3_v7 mf D)
noncomputable def t_main_call3_c_3 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call3_v9 (mf : (⟨S64000000, .i1⟩ : BufTy).Contents (Elt F)) (D : (⟨S64000000, .f32⟩ : BufTy).Contents (Elt F)) : (⟨S_, .i1⟩ : BufTy).Contents (Elt F) :=
  (cmpi .slt) (t_main_call3_v2 mf D) (t_main_call3_c_3 mf D)
noncomputable def t_main_call3_v10 (mf : (⟨S64000000, .i1⟩ : BufTy).Contents (Elt F)) (D : (⟨S64000000, .f32⟩ : BufTy).Contents (Elt F)) : (⟨S2200000, .i1⟩ : BufTy).Contents (Elt F) :=
  (broadcastInDim S2200000 ![] bcast_S_S2200000) (t_main_call3_v9 mf D)
noncomputable def t_main_call3_v11 (mf : (⟨S64000000, .i1⟩ : BufTy).Contents (Elt F)) (D : (⟨S64000000, .f32⟩ : BufTy).Contents (Elt F)) : (⟨S2200000, .i1⟩ : BufTy).Contents (Elt F) :=
  (cmpi .ne) (t_main_call3_v8 mf D) (t_main_call3_v10 mf D)
noncomputable def t_main_call3_v12 (mf : (⟨S64000000, .i1⟩ : BufTy).Contents (Elt F)) (D : (⟨S64000000, .f32⟩ : BufTy).Contents (Elt F)) : (⟨S2200000, .i1⟩ : BufTy).Contents (Elt F) :=
  andi (t_main_call3_v11 mf D) (t_main_call3_v6 mf D)
noncomputable def t_main_call3_v13 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call3_v2 mf D)
noncomputable def t_main_call3_v14 (mf : (⟨S64000000, .i1⟩ : BufTy).Contents (Elt F)) (D : (⟨S64000000, .f32⟩ : BufTy).Contents (Elt F)) : (⟨S2200000, .i32⟩ : BufTy).Contents (Elt F) :=
  addi (t_main_call3_v4 mf D) (t_main_call3_v13 mf D)
noncomputable def t_main_v26 (mf : (⟨S64000000, .i1⟩ : BufTy).Contents (Elt F)) (D : (⟨S64000000, .f32⟩ : BufTy).Contents (Elt F)) : (⟨S2200000, .i32⟩ : BufTy).Contents (Elt F) :=
  select (t_main_call3_v12 mf D) (t_main_call3_v14 mf D) (t_main_call3_v4 mf D)
noncomputable def t_main_c_9 (mf : (⟨S64000000, .i1⟩ : BufTy).Contents (Elt F)) (D : (⟨S64000000, .f32⟩ : BufTy).Contents (Elt F)) : (⟨S_, .i32⟩ : BufTy).Contents (Elt F) :=
  (constantI S_ 32 1000#32)
noncomputable def t_main_call4_v0 (mf : (⟨S64000000, .i1⟩ : BufTy).Contents (Elt F)) (D : (⟨S64000000, .f32⟩ : BufTy).Contents (Elt F)) : (⟨S_, .i32⟩ : BufTy).Contents (Elt F) :=
  id (t_main_c_9 mf D)
noncomputable def t_main_call4_v1 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call4_v0 mf D)
noncomputable def t_main_call4_v2 (mf : (⟨S64000000, .i1⟩ : BufTy).Contents (Elt F)) (D : (⟨S64000000, .f32⟩ : BufTy).Contents (Elt F)) : (⟨S2200000, .i32⟩ : BufTy).Contents (Elt F) :=
  Host.divsi (t_main_v26 mf D) (t_main_call4_v1 mf D)
noncomputable def t_main_call4_v3 (mf : (⟨S64000000, .i1⟩ : BufTy).Contents (Elt F)) (D : (⟨S64000000, .f32⟩ : BufTy).Contents (Elt F)) : (⟨S2200000, .i32⟩ : BufTy).Contents (Elt F) :=
  signi (t_main_v26 mf D)
noncomputable def t_main_call4_v4 (mf : (⟨S64000000, .i1⟩ : BufTy).Contents (Elt F)) (D : (⟨S64000000, .f32⟩ : BufTy).Contents (Elt F)) : (⟨S_, .i32⟩ : BufTy).Contents (Elt F) :=
  signi (t_main_call4_v0 mf D)
noncomputable def t_main_call4_v5 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call4_v4 mf D)
noncomputable def t_main_call4_v6 (mf : (⟨S64000000, .i1⟩ : BufTy).Contents (Elt F)) (D : (⟨S64000000, .f32⟩ : BufTy).Contents (Elt F)) : (⟨S2200000, .i1⟩ : BufTy).Contents (Elt F) :=
  (cmpi .ne) (t_main_call4_v3 mf D) (t_main_call4_v5 mf D)
noncomputable def t_main_call4_v7 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call4_v0 mf D)
noncomputable def t_main_call4_v8 (mf : (⟨S64000000, .i1⟩ : BufTy).Contents (Elt F)) (D : (⟨S64000000, .f32⟩ : BufTy).Contents (Elt F)) : (⟨S2200000, .i32⟩ : BufTy).Contents (Elt F) :=
  Host.remsi (t_main_v26 mf D) (t_main_call4_v7 mf D)
noncomputable def t_main_call4_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call4_v9 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call4_c mf D)
noncomputable def t_main_call4_v10 (mf : (⟨S64000000, .i1⟩ : BufTy).Contents (Elt F)) (D : (⟨S64000000, .f32⟩ : BufTy).Contents (Elt F)) : (⟨S2200000, .i1⟩ : BufTy).Contents (Elt F) :=
  (cmpi .ne) (t_main_call4_v8 mf D) (t_main_call4_v9 mf D)
noncomputable def t_main_call4_v11 (mf : (⟨S64000000, .i1⟩ : BufTy).Contents (Elt F)) (D : (⟨S64000000, .f32⟩ : BufTy).Contents (Elt F)) : (⟨S2200000, .i1⟩ : BufTy).Contents (Elt F) :=
  andi (t_main_call4_v6 mf D) (t_main_call4_v10 mf D)
noncomputable def t_main_call4_c_0 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_call4_v12 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call4_c_0 mf D)
noncomputable def t_main_call4_v13 (mf : (⟨S64000000, .i1⟩ : BufTy).Contents (Elt F)) (D : (⟨S64000000, .f32⟩ : BufTy).Contents (Elt F)) : (⟨S2200000, .i32⟩ : BufTy).Contents (Elt F) :=
  subi (t_main_call4_v2 mf D) (t_main_call4_v12 mf D)
noncomputable def t_main_v27 (mf : (⟨S64000000, .i1⟩ : BufTy).Contents (Elt F)) (D : (⟨S64000000, .f32⟩ : BufTy).Contents (Elt F)) : (⟨S2200000, .i32⟩ : BufTy).Contents (Elt F) :=
  select (t_main_call4_v11 mf D) (t_main_call4_v13 mf D) (t_main_call4_v2 mf D)
noncomputable def t_main_c_10 (mf : (⟨S64000000, .i1⟩ : BufTy).Contents (Elt F)) (D : (⟨S64000000, .f32⟩ : BufTy).Contents (Elt F)) : (⟨S_, .i32⟩ : BufTy).Contents (Elt F) :=
  (constantI S_ 32 1000#32)
noncomputable def t_main_call5_v0 (mf : (⟨S64000000, .i1⟩ : BufTy).Contents (Elt F)) (D : (⟨S64000000, .f32⟩ : BufTy).Contents (Elt F)) : (⟨S_, .i32⟩ : BufTy).Contents (Elt F) :=
  id (t_main_c_10 mf D)
noncomputable def t_main_call5_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call5_v1 (mf : (⟨S64000000, .i1⟩ : BufTy).Contents (Elt F)) (D : (⟨S64000000, .f32⟩ : BufTy).Contents (Elt F)) : (⟨S_, .i1⟩ : BufTy).Contents (Elt F) :=
  (cmpi .eq) (t_main_call5_v0 mf D) (t_main_call5_c mf D)
noncomputable def t_main_call5_c_0 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_call5_v2 (mf : (⟨S64000000, .i1⟩ : BufTy).Contents (Elt F)) (D : (⟨S64000000, .f32⟩ : BufTy).Contents (Elt F)) : (⟨S_, .i32⟩ : BufTy).Contents (Elt F) :=
  select (t_main_call5_v1 mf D) (t_main_call5_c_0 mf D) (t_main_call5_v0 mf D)
noncomputable def t_main_call5_v3 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call5_v2 mf D)
noncomputable def t_main_call5_v4 (mf : (⟨S64000000, .i1⟩ : BufTy).Contents (Elt F)) (D : (⟨S64000000, .f32⟩ : BufTy).Contents (Elt F)) : (⟨S2200000, .i32⟩ : BufTy).Contents (Elt F) :=
  Host.remsi (t_main_v26 mf D) (t_main_call5_v3 mf D)
noncomputable def t_main_call5_c_1 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call5_v5 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call5_c_1 mf D)
noncomputable def t_main_call5_v6 (mf : (⟨S64000000, .i1⟩ : BufTy).Contents (Elt F)) (D : (⟨S64000000, .f32⟩ : BufTy).Contents (Elt F)) : (⟨S2200000, .i1⟩ : BufTy).Contents (Elt F) :=
  (cmpi .ne) (t_main_call5_v4 mf D) (t_main_call5_v5 mf D)
noncomputable def t_main_call5_c_2 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call5_v7 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call5_c_2 mf D)
noncomputable def t_main_call5_v8 (mf : (⟨S64000000, .i1⟩ : BufTy).Contents (Elt F)) (D : (⟨S64000000, .f32⟩ : BufTy).Contents (Elt F)) : (⟨S2200000, .i1⟩ : BufTy).Contents (Elt F) :=
  (cmpi .slt) (t_main_call5_v4 mf D) (t_main_call5_v7 mf D)
noncomputable def t_main_call5_c_3 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call5_v9 (mf : (⟨S64000000, .i1⟩ : BufTy).Contents (Elt F)) (D : (⟨S64000000, .f32⟩ : BufTy).Contents (Elt F)) : (⟨S_, .i1⟩ : BufTy).Contents (Elt F) :=
  (cmpi .slt) (t_main_call5_v2 mf D) (t_main_call5_c_3 mf D)
noncomputable def t_main_call5_v10 (mf : (⟨S64000000, .i1⟩ : BufTy).Contents (Elt F)) (D : (⟨S64000000, .f32⟩ : BufTy).Contents (Elt F)) : (⟨S2200000, .i1⟩ : BufTy).Contents (Elt F) :=
  (broadcastInDim S2200000 ![] bcast_S_S2200000) (t_main_call5_v9 mf D)
noncomputable def t_main_call5_v11 (mf : (⟨S64000000, .i1⟩ : BufTy).Contents (Elt F)) (D : (⟨S64000000, .f32⟩ : BufTy).Contents (Elt F)) : (⟨S2200000, .i1⟩ : BufTy).Contents (Elt F) :=
  (cmpi .ne) (t_main_call5_v8 mf D) (t_main_call5_v10 mf D)
noncomputable def t_main_call5_v12 (mf : (⟨S64000000, .i1⟩ : BufTy).Contents (Elt F)) (D : (⟨S64000000, .f32⟩ : BufTy).Contents (Elt F)) : (⟨S2200000, .i1⟩ : BufTy).Contents (Elt F) :=
  andi (t_main_call5_v11 mf D) (t_main_call5_v6 mf D)
noncomputable def t_main_call5_v13 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call5_v2 mf D)
noncomputable def t_main_call5_v14 (mf : (⟨S64000000, .i1⟩ : BufTy).Contents (Elt F)) (D : (⟨S64000000, .f32⟩ : BufTy).Contents (Elt F)) : (⟨S2200000, .i32⟩ : BufTy).Contents (Elt F) :=
  addi (t_main_call5_v4 mf D) (t_main_call5_v13 mf D)
noncomputable def t_main_v28 (mf : (⟨S64000000, .i1⟩ : BufTy).Contents (Elt F)) (D : (⟨S64000000, .f32⟩ : BufTy).Contents (Elt F)) : (⟨S2200000, .i32⟩ : BufTy).Contents (Elt F) :=
  select (t_main_call5_v12 mf D) (t_main_call5_v14 mf D) (t_main_call5_v4 mf D)
noncomputable def t_main_c_11 (mf : (⟨S64000000, .i1⟩ : BufTy).Contents (Elt F)) (D : (⟨S64000000, .f32⟩ : BufTy).Contents (Elt F)) : (⟨S_, .i32⟩ : BufTy).Contents (Elt F) :=
  (constantI S_ 32 1000#32)
noncomputable def t_main_v29 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_11 mf D)
noncomputable def t_main_v30 (mf : (⟨S64000000, .i1⟩ : BufTy).Contents (Elt F)) (D : (⟨S64000000, .f32⟩ : BufTy).Contents (Elt F)) : (⟨S2200000, .i32⟩ : BufTy).Contents (Elt F) :=
  (muli : (⟨S2200000, .i32⟩ : BufTy).Contents (Elt F) → (⟨S2200000, .i32⟩ : BufTy).Contents (Elt F) → (⟨S2200000, .i32⟩ : BufTy).Contents (Elt F)) (t_main_v25 mf D) (t_main_v29 mf D)
noncomputable def t_main_v31 (mf : (⟨S64000000, .i1⟩ : BufTy).Contents (Elt F)) (D : (⟨S64000000, .f32⟩ : BufTy).Contents (Elt F)) : (⟨S2200000, .i32⟩ : BufTy).Contents (Elt F) :=
  (addi : (⟨S2200000, .i32⟩ : BufTy).Contents (Elt F) → (⟨S2200000, .i32⟩ : BufTy).Contents (Elt F) → (⟨S2200000, .i32⟩ : BufTy).Contents (Elt F)) (t_main_v30 mf D) (t_main_v27 mf D)
noncomputable def t_main_c_12 (mf : (⟨S64000000, .i1⟩ : BufTy).Contents (Elt F)) (D : (⟨S64000000, .f32⟩ : BufTy).Contents (Elt F)) : (⟨S_, .i32⟩ : BufTy).Contents (Elt F) :=
  (constantI S_ 32 64000#32)
noncomputable def t_main_call6_v0 (mf : (⟨S64000000, .i1⟩ : BufTy).Contents (Elt F)) (D : (⟨S64000000, .f32⟩ : BufTy).Contents (Elt F)) : (⟨S_, .i32⟩ : BufTy).Contents (Elt F) :=
  id (t_main_c_12 mf D)
noncomputable def t_main_call6_v1 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call6_v0 mf D)
noncomputable def t_main_v32 (mf : (⟨S64000000, .i1⟩ : BufTy).Contents (Elt F)) (D : (⟨S64000000, .f32⟩ : BufTy).Contents (Elt F)) : (⟨S2200000, .i32⟩ : BufTy).Contents (Elt F) :=
  select (t_main_v22 mf D) (t_main_v31 mf D) (t_main_call6_v1 mf D)
noncomputable def t_main_c_13 (mf : (⟨S64000000, .i1⟩ : BufTy).Contents (Elt F)) (D : (⟨S64000000, .f32⟩ : BufTy).Contents (Elt F)) : (⟨S_, .i32⟩ : BufTy).Contents (Elt F) :=
  (constantI S_ 32 1000#32)
noncomputable def t_main_v33 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_13 mf D)
noncomputable def t_main_v34 (mf : (⟨S64000000, .i1⟩ : BufTy).Contents (Elt F)) (D : (⟨S64000000, .f32⟩ : BufTy).Contents (Elt F)) : (⟨S2200000, .i32⟩ : BufTy).Contents (Elt F) :=
  (muli : (⟨S2200000, .i32⟩ : BufTy).Contents (Elt F) → (⟨S2200000, .i32⟩ : BufTy).Contents (Elt F) → (⟨S2200000, .i32⟩ : BufTy).Contents (Elt F)) (t_main_v25 mf D) (t_main_v33 mf D)
noncomputable def t_main_v35 (mf : (⟨S64000000, .i1⟩ : BufTy).Contents (Elt F)) (D : (⟨S64000000, .f32⟩ : BufTy).Contents (Elt F)) : (⟨S2200000, .i32⟩ : BufTy).Contents (Elt F) :=
  (addi : (⟨S2200000, .i32⟩ : BufTy).Contents (Elt F) → (⟨S2200000, .i32⟩ : BufTy).Contents (Elt F) → (⟨S2200000, .i32⟩ : BufTy).Contents (Elt F)) (t_main_v34 mf D) (t_main_v28 mf D)
noncomputable def t_main_c_14 (mf : (⟨S64000000, .i1⟩ : BufTy).Contents (Elt F)) (D : (⟨S64000000, .f32⟩ : BufTy).Contents (Elt F)) : (⟨S_, .i32⟩ : BufTy).Contents (Elt F) :=
  (constantI S_ 32 64000#32)
noncomputable def t_main_call7_v0 (mf : (⟨S64000000, .i1⟩ : BufTy).Contents (Elt F)) (D : (⟨S64000000, .f32⟩ : BufTy).Contents (Elt F)) : (⟨S_, .i32⟩ : BufTy).Contents (Elt F) :=
  id (t_main_c_14 mf D)
noncomputable def t_main_call7_v1 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call7_v0 mf D)
noncomputable def t_main_v36 (mf : (⟨S64000000, .i1⟩ : BufTy).Contents (Elt F)) (D : (⟨S64000000, .f32⟩ : BufTy).Contents (Elt F)) : (⟨S2200000, .i32⟩ : BufTy).Contents (Elt F) :=
  select (t_main_v22 mf D) (t_main_v35 mf D) (t_main_call7_v1 mf D)
noncomputable def t_main_c_15 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v37 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_15 mf D)
noncomputable def t_main_v38 (mf : (⟨S64000000, .i1⟩ : BufTy).Contents (Elt F)) (D : (⟨S64000000, .f32⟩ : BufTy).Contents (Elt F)) : (⟨S2200000, .i1⟩ : BufTy).Contents (Elt F) :=
  (cmpi .slt : (⟨S2200000, .i32⟩ : BufTy).Contents (Elt F) → (⟨S2200000, .i32⟩ : BufTy).Contents (Elt F) → (⟨S2200000, .i1⟩ : BufTy).Contents (Elt F)) (t_main_v24 mf D) (t_main_v37 mf D)
noncomputable def t_main_c_16 (mf : (⟨S64000000, .i1⟩ : BufTy).Contents (Elt F)) (D : (⟨S64000000, .f32⟩ : BufTy).Contents (Elt F)) : (⟨S_, .i32⟩ : BufTy).Contents (Elt F) :=
  (constantI S_ 32 64000000#32)
noncomputable def t_main_v39 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_16 mf D)
noncomputable def t_main_v40 (mf : (⟨S64000000, .i1⟩ : BufTy).Contents (Elt F)) (D : (⟨S64000000, .f32⟩ : BufTy).Contents (Elt F)) : (⟨S2200000, .i32⟩ : BufTy).Contents (Elt F) :=
  (addi : (⟨S2200000, .i32⟩ : BufTy).Contents (Elt F) → (⟨S2200000, .i32⟩ : BufTy).Contents (Elt F) → (⟨S2200000, .i32⟩ : BufTy).Contents (Elt F)) (t_main_v24 mf D) (t_main_v39 mf D)
noncomputable def t_main_v41 (mf : (⟨S64000000, .i1⟩ : BufTy).Contents (Elt F)) (D : (⟨S64000000, .f32⟩ : BufTy).Contents (Elt F)) : (⟨S2200000, .i32⟩ : BufTy).Contents (Elt F) :=
  (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) (t_main_v38 mf D) (t_main_v40 mf D) (t_main_v24 mf D)
noncomputable def t_main_v42 (mf : (⟨S64000000, .i1⟩ : BufTy).Contents (Elt F)) (D : (⟨S64000000, .f32⟩ : BufTy).Contents (Elt F)) : (⟨S2200000x1, .i32⟩ : BufTy).Contents (Elt F) :=
  (broadcastInDim S2200000x1 ![0] bcast_S2200000_S2200000x1_0 : (⟨S2200000, .i32⟩ : BufTy).Contents (Elt F) → (⟨S2200000x1, .i32⟩ : BufTy).Contents (Elt F)) (t_main_v41 mf D)
noncomputable def t_main_v43 (mf : (⟨S64000000, .i1⟩ : BufTy).Contents (Elt F)) (D : (⟨S64000000, .f32⟩ : BufTy).Contents (Elt F)) : (⟨S2200000, .f32⟩ : BufTy).Contents (Elt F) :=
  ((fun x i => Host.gather gather_S64000000_S2200000x1_S2200000_n_0_n_n_0_1_1 x i) : (⟨S64000000, .f32⟩ : BufTy).Contents (Elt F) → (⟨S2200000x1, .i32⟩ : BufTy).Contents (Elt F) → (⟨S2200000, .f32⟩ : BufTy).Contents (Elt F)) D (t_main_v42 mf D)
noncomputable def t_main_cst_17 (mf : (⟨S64000000, .i1⟩ : BufTy).Contents (Elt F)) (D : (⟨S64000000, .f32⟩ : BufTy).Contents (Elt F)) : (⟨S_, .f32⟩ : BufTy).Contents (Elt F) :=
  (constant S_ .f32 0x41C80000#32)
noncomputable def t_main_call8_v0 (mf : (⟨S64000000, .i1⟩ : BufTy).Contents (Elt F)) (D : (⟨S64000000, .f32⟩ : BufTy).Contents (Elt F)) : (⟨S_, .f32⟩ : BufTy).Contents (Elt F) :=
  id (t_main_cst_17 mf D)
noncomputable def t_main_call8_v1 (mf : (⟨S64000000, .i1⟩ : BufTy).Contents (Elt F)) (D : (⟨S64000000, .f32⟩ : BufTy).Contents (Elt F)) : (⟨S2200000, .f32⟩ : BufTy).Contents (Elt F) :=
  (broadcastInDim S2200000 ![] bcast_S_S2200000) (t_main_call8_v0 mf D)
noncomputable def t_main_v44 (mf : (⟨S64000000, .i1⟩ : BufTy).Contents (Elt F)) (D : (⟨S64000000, .f32⟩ : BufTy).Contents (Elt F)) : (⟨S2200000, .f32⟩ : BufTy).Contents (Elt F) :=
  select (t_main_v22 mf D) (t_main_v43 mf D) (t_main_call8_v1 mf D)
noncomputable def t_main_v45 (mf : (⟨S64000000, .i1⟩ : BufTy).Contents (Elt F)) (D : (⟨S64000000, .f32⟩ : BufTy).Contents (Elt F)) : (⟨S4400000, .i32⟩ : BufTy).Contents (Elt F) :=
  ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)) (t_main_v32 mf D) (t_main_v36 mf D)
noncomputable def t_main_v46 (mf : (⟨S64000000, .i1⟩ : BufTy).Contents (Elt F)) (D : (⟨S64000000, .f32⟩ : BufTy).Contents (Elt F)) : (⟨S4400000, .i32⟩ : BufTy).Contents (Elt F) :=
  ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)) (t_main_v36 mf D) (t_main_v32 mf D)
noncomputable def t_main_v47 (mf : (⟨S64000000, .i1⟩ : BufTy).Contents (Elt F)) (D : (⟨S64000000, .f32⟩ : BufTy).Contents (Elt F)) : (⟨S4400000, .f32⟩ : BufTy).Contents (Elt F) :=
  ((fun a b => concatenate S4400000 0 [⟨S2200000, a⟩, ⟨S2200000, b⟩] concatenates_S2200000_S2200000_S4400000_d0) : (⟨S2200000, .f32⟩ : BufTy).Contents (Elt F) → (⟨S2200000, .f32⟩ : BufTy).Contents (Elt F) → (⟨S4400000, .f32⟩ : BufTy).Contents (Elt F)) (t_main_v44 mf D) (t_main_v44 mf D)

/-- The region's output read as a vector of 64000000 entries. -/
def flat (A : (⟨S64x1000x1000, .f32⟩ : BufTy).Contents (Elt F)) : (⟨S64000000, .f32⟩ : BufTy).Contents (Elt F) :=
  fun i => shapeCast S64000000 A shapeCasts_S64x1000x1000_S64000000 i

/-- Where a vector of distances is below the cutoff 25. -/
def below (D : (⟨S64000000, .f32⟩ : BufTy).Contents (Elt F)) : (⟨S64000000, .i1⟩ : BufTy).Contents (Elt F) :=
  (cmpf .olt : (⟨S64000000, .f32⟩ : BufTy).Contents (Elt F) → (⟨S64000000, .f32⟩ : BufTy).Contents (Elt F) → (⟨S64000000, .i1⟩ : BufTy).Contents (Elt F)) D
    ((broadcastInDim S64000000 ![] bcast_S_S64000000 : (⟨S_, .f32⟩ : BufTy).Contents (Elt F) → (⟨S64000000, .f32⟩ : BufTy).Contents (Elt F)) (constant S_ .f32 0x41C80000#32))

end Cert.KernelIdeal.Tail

end
-- ==== Proof.KernelIdealTail.lean ====
/-
  The kernel's later lines read stretch by stretch.  Each stretch is first written with the plain builders (a called
  function's operation carries its operands to the value's type and back; at these buffers both carryings are the
  identity).  Then, stretch after stretch, the buffers still needed later are shown to hold the later lines' definitions at
  the region's output array `A`: its flattened entries, the flags "below 25", and what each line makes of them.  After the
  last stretch that is the four results.
-/
import proofs.«164187_j65910568124749_1_alg».proof.Proof.KernelIdealFrame
import proofs.«164187_j65910568124749_1_alg».proof.Proof.KernelIdealTailDefs
import Idealize.ShloMosaic.Lib.StableHlo.Run
import Idealize.ShloMosaic.Lib.Pipeline.Frame

set_option maxRecDepth 16384

noncomputable section

namespace Cert.KernelIdeal.Tail

open Cert.KernelIdeal Cert.KernelIdeal.Gen Cert.KernelIdeal.GenP Cert.KernelIdeal.FrameH
open Idealize.ShloMosaic Idealize.ShloMosaic.TcCoe Idealize.SL.Sem Idealize.ShloMosaic.StableHlo

variable {F : FTy → Type} [FloatOps F]

abbrev hostOps1_p : List (HloOp τ sig (Elt F)) :=
  [ StableHlo.reshape main_v1 main_v2 rfl shapeCasts_S64x1000x1000_S64000000,
    StableHlo.nullary main_cst (constant S_ .f32 0x41C80000#32),
    StableHlo.unary main_cst main_v3 (broadcastInDim S64000000 ![] bcast_S_S64000000 : (⟨S_, .f32⟩ : BufTy).Contents (Elt F) → (⟨S64000000, .f32⟩ : BufTy).Contents (Elt F)),
    StableHlo.binary main_v2 main_v3 main_v4 (cmpf .olt : (⟨S64000000, .f32⟩ : BufTy).Contents (Elt F) → (⟨S64000000, .f32⟩ : BufTy).Contents (Elt F) → (⟨S64000000, .i1⟩ : BufTy).Contents (Elt F)),
    StableHlo.unary main_v4 main_v5 ((extui 32 · natLt_1_32) : (⟨S64000000, .i1⟩ : BufTy).Contents (Elt F) → (⟨S64000000, .i32⟩ : BufTy).Contents (Elt F)),
    StableHlo.nullary main_c (constantI S_ 32 0#32),
    StableHlo.binary main_v5 main_c main_v6 ((fun x v => Host.reduce IntOp.addi x v reducesTo_S64000000_S_d0 h_S_) : (⟨S64000000, .i32⟩ : BufTy).Contents (Elt F) → (⟨S_, .i32⟩ : BufTy).Contents (Elt F) → (⟨S_, .i32⟩ : BufTy).Contents (Elt F)),
    StableHlo.unary main_v4 main_v7 ((extui 32 · natLt_1_32) : (⟨S64000000, .i1⟩ : BufTy).Contents (Elt F) → (⟨S64000000, .i32⟩ : BufTy).Contents (Elt F)) ]
attribute [local irreducible] Host.reduce Host.reduceWindow Host.gather Host.scatter in
theorem hostOps1_eq : (hostOps1 : List (HloOp τ sig (Elt F))) = hostOps1_p := rfl
abbrev hostOps1_1_p : List (HloOp τ sig (Elt F)) :=
  [ StableHlo.nullary main_call0_call0_c ((constantI S_ 32 0#32) : (⟨S_, .i32⟩ : BufTy).Contents (Elt F)),
    StableHlo.unary main_call0_call0_c main_call0_call0_v0 ((broadcastInDim S_ ![] bcast_S_S_) : (⟨S_, .i32⟩ : BufTy).Contents (Elt F) → (⟨S_, .i32⟩ : BufTy).Contents (Elt F)),
    StableHlo.binary main_v7 main_call0_call0_v0 main_v8 ((fun x v => Host.reduceWindow IntOp.addi ![64000000] ![1] ![63999999] ![0] x v reduceWindows_S64000000_S64000000_w64000000s1p63999999_0 h_S_) : (⟨S64000000, .i32⟩ : BufTy).Contents (Elt F) → (⟨S_, .i32⟩ : BufTy).Contents (Elt F) → (⟨S64000000, .i32⟩ : BufTy).Contents (Elt F)) ]
attribute [local irreducible] Host.reduce Host.reduceWindow Host.gather Host.scatter in
theorem hostOps1_1_eq : (hostOps1_1 : List (HloOp τ sig (Elt F))) = hostOps1_1_p := rfl
abbrev hostOps1_2_p : List (HloOp τ sig (Elt F)) :=
  [ StableHlo.nullary main_c_0 (constantI S_ 32 1#32),
    StableHlo.unary main_c_0 main_v9 (broadcastInDim S64000000 ![] bcast_S_S64000000 : (⟨S_, .i32⟩ : BufTy).Contents (Elt F) → (⟨S64000000, .i32⟩ : BufTy).Contents (Elt F)),
    StableHlo.binary main_v8 main_v9 main_v10 (subi : (⟨S64000000, .i32⟩ : BufTy).Contents (Elt F) → (⟨S64000000, .i32⟩ : BufTy).Contents (Elt F) → (⟨S64000000, .i32⟩ : BufTy).Contents (Elt F)),
    StableHlo.nullary main_c_1 (constantI S_ 32 2200000#32) ]
attribute [local irreducible] Host.reduce Host.reduceWindow Host.gather Host.scatter in
theorem hostOps1_2_eq : (hostOps1_2 : List (HloOp τ sig (Elt F))) = hostOps1_2_p := rfl
abbrev hostOps1_3_p : List (HloOp τ sig (Elt F)) :=
  [ StableHlo.unary main_c_1 main_call1_v0 (id : (⟨S_, .i32⟩ : BufTy).Contents (Elt F) → (⟨S_, .i32⟩ : BufTy).Contents (Elt F)),
    StableHlo.unary main_call1_v0 main_call1_v1 ((broadcastInDim S64000000 ![] bcast_S_S64000000) : (⟨S_, .i32⟩ : BufTy).Contents (Elt F) → (⟨S64000000, .i32⟩ : BufTy).Contents (Elt F)),
    StableHlo.ternary main_v4 main_v10 main_call1_v1 main_v11 (select : (⟨S64000000, .i1⟩ : BufTy).Contents (Elt F) → (⟨S64000000, .i32⟩ : BufTy).Contents (Elt F) → (⟨S64000000, .i32⟩ : BufTy).Contents (Elt F) → (⟨S64000000, .i32⟩ : BufTy).Contents (Elt F)) ]
attribute [local irreducible] Host.reduce Host.reduceWindow Host.gather Host.scatter in
theorem hostOps1_3_eq : (hostOps1_3 : List (HloOp τ sig (Elt F))) = hostOps1_3_p := rfl
abbrev hostOps1_4_p : List (HloOp τ sig (Elt F)) :=
  [ StableHlo.nullary main_v12 (iotaInDim S64000000 32 0),
    StableHlo.nullary main_c_2 (constantI S_ 32 4294967295#32),
    StableHlo.unary main_c_2 main_v13 (broadcastInDim S2200000 ![] bcast_S_S2200000 : (⟨S_, .i32⟩ : BufTy).Contents (Elt F) → (⟨S2200000, .i32⟩ : BufTy).Contents (Elt F)),
    StableHlo.nullary main_c_3 (constantI S_ 32 0#32),
    StableHlo.unary main_c_3 main_v14 (broadcastInDim S64000000 ![] bcast_S_S64000000 : (⟨S_, .i32⟩ : BufTy).Contents (Elt F) → (⟨S64000000, .i32⟩ : BufTy).Contents (Elt F)),
    StableHlo.binary main_v11 main_v14 main_v15 (cmpi .slt : (⟨S64000000, .i32⟩ : BufTy).Contents (Elt F) → (⟨S64000000, .i32⟩ : BufTy).Contents (Elt F) → (⟨S64000000, .i1⟩ : BufTy).Contents (Elt F)),
    StableHlo.nullary main_c_4 (constantI S_ 32 2200000#32),
    StableHlo.unary main_c_4 main_v16 (broadcastInDim S64000000 ![] bcast_S_S64000000 : (⟨S_, .i32⟩ : BufTy).Contents (Elt F) → (⟨S64000000, .i32⟩ : BufTy).Contents (Elt F)),
    StableHlo.binary main_v11 main_v16 main_v17 (addi : (⟨S64000000, .i32⟩ : BufTy).Contents (Elt F) → (⟨S64000000, .i32⟩ : BufTy).Contents (Elt F) → (⟨S64000000, .i32⟩ : BufTy).Contents (Elt F)),
    StableHlo.ternary main_v15 main_v17 main_v11 main_v18 (select : (⟨S64000000, .i1⟩ : BufTy).Contents (Elt F) → (⟨S64000000, .i32⟩ : BufTy).Contents (Elt F) → (⟨S64000000, .i32⟩ : BufTy).Contents (Elt F) → (⟨S64000000, .i32⟩ : BufTy).Contents (Elt F)),
    StableHlo.unary main_v18 main_v19 (broadcastInDim S64000000x1 ![0] bcast_S64000000_S64000000x1_0 : (⟨S64000000, .i32⟩ : BufTy).Contents (Elt F) → (⟨S64000000x1, .i32⟩ : BufTy).Contents (Elt F)),
    StableHlo.ternary main_v13 main_v19 main_v12 main_v20 ((fun x i u => Host.scatter scatter_S2200000_S64000000x1_S64000000_n_0_0_1 (fun _ b => b) x i u) : (⟨S2200000, .i32⟩ : BufTy).Contents (Elt F) → (⟨S64000000x1, .i32⟩ : BufTy).Contents (Elt F) → (⟨S64000000, .i32⟩ : BufTy).Contents (Elt F) → (⟨S2200000, .i32⟩ : BufTy).Contents (Elt F)),
    StableHlo.nullary main_c_5 (constantI S_ 32 0#32),
    StableHlo.unary main_c_5 main_v21 (broadcastInDim S2200000 ![] bcast_S_S2200000 : (⟨S_, .i32⟩ : BufTy).Contents (Elt F) → (⟨S2200000, .i32⟩ : BufTy).Contents (Elt F)),
    StableHlo.binary main_v20 main_v21 main_v22 (cmpi .sge : (⟨S2200000, .i32⟩ : BufTy).Contents (Elt F) → (⟨S2200000, .i32⟩ : BufTy).Contents (Elt F) → (⟨S2200000, .i1⟩ : BufTy).Contents (Elt F)),
    StableHlo.nullary main_c_6 (constantI S_ 32 0#32),
    StableHlo.unary main_c_6 main_v23 (broadcastInDim S2200000 ![] bcast_S_S2200000 : (⟨S_, .i32⟩ : BufTy).Contents (Elt F) → (⟨S2200000, .i32⟩ : BufTy).Contents (Elt F)),
    StableHlo.binary main_v20 main_v23 main_v24 (maxsi : (⟨S2200000, .i32⟩ : BufTy).Contents (Elt F) → (⟨S2200000, .i32⟩ : BufTy).Contents (Elt F) → (⟨S2200000, .i32⟩ : BufTy).Contents (Elt F)),
    StableHlo.nullary main_c_7 (constantI S_ 32 1000000#32) ]
attribute [local irreducible] Host.reduce Host.reduceWindow Host.gather Host.scatter in
theorem hostOps1_4_eq : (hostOps1_4 : List (HloOp τ sig (Elt F))) = hostOps1_4_p := rfl
abbrev hostOps1_5_p : List (HloOp τ sig (Elt F)) :=
  [ StableHlo.unary main_c_7 main_call2_v0 (id : (⟨S_, .i32⟩ : BufTy).Contents (Elt F) → (⟨S_, .i32⟩ : BufTy).Contents (Elt F)),
    StableHlo.unary main_call2_v0 main_call2_v1 ((broadcastInDim S2200000 ![] bcast_S_S2200000) : (⟨S_, .i32⟩ : BufTy).Contents (Elt F) → (⟨S2200000, .i32⟩ : BufTy).Contents (Elt F)),
    StableHlo.binary main_v24 main_call2_v1 main_call2_v2 (Host.divsi : (⟨S2200000, .i32⟩ : BufTy).Contents (Elt F) → (⟨S2200000, .i32⟩ : BufTy).Contents (Elt F) → (⟨S2200000, .i32⟩ : BufTy).Contents (Elt F)),
    StableHlo.unary main_v24 main_call2_v3 (signi : (⟨S2200000, .i32⟩ : BufTy).Contents (Elt F) → (⟨S2200000, .i32⟩ : BufTy).Contents (Elt F)),
    StableHlo.unary main_call2_v0 main_call2_v4 (signi : (⟨S_, .i32⟩ : BufTy).Contents (Elt F) → (⟨S_, .i32⟩ : BufTy).Contents (Elt F)),
    StableHlo.unary main_call2_v4 main_call2_v5 ((broadcastInDim S2200000 ![] bcast_S_S2200000) : (⟨S_, .i32⟩ : BufTy).Contents (Elt F) → (⟨S2200000, .i32⟩ : BufTy).Contents (Elt F)),
    StableHlo.binary main_call2_v3 main_call2_v5 main_call2_v6 ((cmpi .ne) : (⟨S2200000, .i32⟩ : BufTy).Contents (Elt F) → (⟨S2200000, .i32⟩ : BufTy).Contents (Elt F) → (⟨S2200000, .i1⟩ : BufTy).Contents (Elt F)),
    StableHlo.unary main_call2_v0 main_call2_v7 ((broadcastInDim S2200000 ![] bcast_S_S2200000) : (⟨S_, .i32⟩ : BufTy).Contents (Elt F) → (⟨S2200000, .i32⟩ : BufTy).Contents (Elt F)),
    StableHlo.binary main_v24 main_call2_v7 main_call2_v8 (Host.remsi : (⟨S2200000, .i32⟩ : BufTy).Contents (Elt F) → (⟨S2200000, .i32⟩ : BufTy).Contents (Elt F) → (⟨S2200000, .i32⟩ : BufTy).Contents (Elt F)),
    StableHlo.nullary main_call2_c ((constantI S_ 32 0#32) : (⟨S_, .i32⟩ : BufTy).Contents (Elt F)),
    StableHlo.unary main_call2_c main_call2_v9 ((broadcastInDim S2200000 ![] bcast_S_S2200000) : (⟨S_, .i32⟩ : BufTy).Contents (Elt F) → (⟨S2200000, .i32⟩ : BufTy).Contents (Elt F)),
    StableHlo.binary main_call2_v8 main_call2_v9 main_call2_v10 ((cmpi .ne) : (⟨S2200000, .i32⟩ : BufTy).Contents (Elt F) → (⟨S2200000, .i32⟩ : BufTy).Contents (Elt F) → (⟨S2200000, .i1⟩ : BufTy).Contents (Elt F)),
    StableHlo.binary main_call2_v6 main_call2_v10 main_call2_v11 (andi : (⟨S2200000, .i1⟩ : BufTy).Contents (Elt F) → (⟨S2200000, .i1⟩ : BufTy).Contents (Elt F) → (⟨S2200000, .i1⟩ : BufTy).Contents (Elt F)),
    StableHlo.nullary main_call2_c_0 ((constantI S_ 32 1#32) : (⟨S_, .i32⟩ : BufTy).Contents (Elt F)),
    StableHlo.unary main_call2_c_0 main_call2_v12 ((broadcastInDim S2200000 ![] bcast_S_S2200000) : (⟨S_, .i32⟩ : BufTy).Contents (Elt F) → (⟨S2200000, .i32⟩ : BufTy).Contents (Elt F)),
    StableHlo.binary main_call2_v2 main_call2_v12 main_call2_v13 (subi : (⟨S2200000, .i32⟩ : BufTy).Contents (Elt F) → (⟨S2200000, .i32⟩ : BufTy).Contents (Elt F) → (⟨S2200000, .i32⟩ : BufTy).Contents (Elt F)),
    StableHlo.ternary main_call2_v11 main_call2_v13 main_call2_v2 main_v25 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) ]
attribute [local irreducible] Host.reduce Host.reduceWindow Host.gather Host.scatter in
theorem hostOps1_5_eq : (hostOps1_5 : List (HloOp τ sig (Elt F))) = hostOps1_5_p := rfl
abbrev hostOps1_6_p : List (HloOp τ sig (Elt F)) :=
  [ StableHlo.nullary main_c_8 (constantI S_ 32 1000000#32) ]
attribute [local irreducible] Host.reduce Host.reduceWindow Host.gather Host.scatter in
theorem hostOps1_6_eq : (hostOps1_6 : List (HloOp τ sig (Elt F))) = hostOps1_6_p := rfl
abbrev hostOps1_7_p : List (HloOp τ sig (Elt F)) :=
  [ StableHlo.unary main_c_8 main_call3_v0 (id : (⟨S_, .i32⟩ : BufTy).Contents (Elt F) → (⟨S_, .i32⟩ : BufTy).Contents (Elt F)),
    StableHlo.nullary main_call3_c ((constantI S_ 32 0#32) : (⟨S_, .i32⟩ : BufTy).Contents (Elt F)),
    StableHlo.binary main_call3_v0 main_call3_c main_call3_v1 ((cmpi .eq) : (⟨S_, .i32⟩ : BufTy).Contents (Elt F) → (⟨S_, .i32⟩ : BufTy).Contents (Elt F) → (⟨S_, .i1⟩ : BufTy).Contents (Elt F)),
    StableHlo.nullary main_call3_c_0 ((constantI S_ 32 1#32) : (⟨S_, .i32⟩ : BufTy).Contents (Elt F)),
    StableHlo.ternary main_call3_v1 main_call3_c_0 main_call3_v0 main_call3_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call3_v2 main_call3_v3 ((broadcastInDim S2200000 ![] bcast_S_S2200000) : (⟨S_, .i32⟩ : BufTy).Contents (Elt F) → (⟨S2200000, .i32⟩ : BufTy).Contents (Elt F)),
    StableHlo.binary main_v24 main_call3_v3 main_call3_v4 (Host.remsi : (⟨S2200000, .i32⟩ : BufTy).Contents (Elt F) → (⟨S2200000, .i32⟩ : BufTy).Contents (Elt F) → (⟨S2200000, .i32⟩ : BufTy).Contents (Elt F)),
    StableHlo.nullary main_call3_c_1 ((constantI S_ 32 0#32) : (⟨S_, .i32⟩ : BufTy).Contents (Elt F)),
    StableHlo.unary main_call3_c_1 main_call3_v5 ((broadcastInDim S2200000 ![] bcast_S_S2200000) : (⟨S_, .i32⟩ : BufTy).Contents (Elt F) → (⟨S2200000, .i32⟩ : BufTy).Contents (Elt F)),
    StableHlo.binary main_call3_v4 main_call3_v5 main_call3_v6 ((cmpi .ne) : (⟨S2200000, .i32⟩ : BufTy).Contents (Elt F) → (⟨S2200000, .i32⟩ : BufTy).Contents (Elt F) → (⟨S2200000, .i1⟩ : BufTy).Contents (Elt F)),
    StableHlo.nullary main_call3_c_2 ((constantI S_ 32 0#32) : (⟨S_, .i32⟩ : BufTy).Contents (Elt F)),
    StableHlo.unary main_call3_c_2 main_call3_v7 ((broadcastInDim S2200000 ![] bcast_S_S2200000) : (⟨S_, .i32⟩ : BufTy).Contents (Elt F) → (⟨S2200000, .i32⟩ : BufTy).Contents (Elt F)),
    StableHlo.binary main_call3_v4 main_call3_v7 main_call3_v8 ((cmpi .slt) : (⟨S2200000, .i32⟩ : BufTy).Contents (Elt F) → (⟨S2200000, .i32⟩ : BufTy).Contents (Elt F) → (⟨S2200000, .i1⟩ : BufTy).Contents (Elt F)),
    StableHlo.nullary main_call3_c_3 ((constantI S_ 32 0#32) : (⟨S_, .i32⟩ : BufTy).Contents (Elt F)),
    StableHlo.binary main_call3_v2 main_call3_c_3 main_call3_v9 ((cmpi .slt) : (⟨S_, .i32⟩ : BufTy).Contents (Elt F) → (⟨S_, .i32⟩ : BufTy).Contents (Elt F) → (⟨S_, .i1⟩ : BufTy).Contents (Elt F)),
    StableHlo.unary main_call3_v9 main_call3_v10 ((broadcastInDim S2200000 ![] bcast_S_S2200000) : (⟨S_, .i1⟩ : BufTy).Contents (Elt F) → (⟨S2200000, .i1⟩ : BufTy).Contents (Elt F)),
    StableHlo.binary main_call3_v8 main_call3_v10 main_call3_v11 ((cmpi .ne) : (⟨S2200000, .i1⟩ : BufTy).Contents (Elt F) → (⟨S2200000, .i1⟩ : BufTy).Contents (Elt F) → (⟨S2200000, .i1⟩ : BufTy).Contents (Elt F)),
    StableHlo.binary main_call3_v11 main_call3_v6 main_call3_v12 (andi : (⟨S2200000, .i1⟩ : BufTy).Contents (Elt F) → (⟨S2200000, .i1⟩ : BufTy).Contents (Elt F) → (⟨S2200000, .i1⟩ : BufTy).Contents (Elt F)),
    StableHlo.unary main_call3_v2 main_call3_v13 ((broadcastInDim S2200000 ![] bcast_S_S2200000) : (⟨S_, .i32⟩ : BufTy).Contents (Elt F) → (⟨S2200000, .i32⟩ : BufTy).Contents (Elt F)),
    StableHlo.binary main_call3_v4 main_call3_v13 main_call3_v14 (addi : (⟨S2200000, .i32⟩ : BufTy).Contents (Elt F) → (⟨S2200000, .i32⟩ : BufTy).Contents (Elt F) → (⟨S2200000, .i32⟩ : BufTy).Contents (Elt F)),
    StableHlo.ternary main_call3_v12 main_call3_v14 main_call3_v4 main_v26 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) ]
attribute [local irreducible] Host.reduce Host.reduceWindow Host.gather Host.scatter in
theorem hostOps1_7_eq : (hostOps1_7 : List (HloOp τ sig (Elt F))) = hostOps1_7_p := rfl
abbrev hostOps1_8_p : List (HloOp τ sig (Elt F)) :=
  [ StableHlo.nullary main_c_9 (constantI S_ 32 1000#32) ]
attribute [local irreducible] Host.reduce Host.reduceWindow Host.gather Host.scatter in
theorem hostOps1_8_eq : (hostOps1_8 : List (HloOp τ sig (Elt F))) = hostOps1_8_p := rfl
abbrev hostOps1_9_p : List (HloOp τ sig (Elt F)) :=
  [ StableHlo.unary main_c_9 main_call4_v0 (id : (⟨S_, .i32⟩ : BufTy).Contents (Elt F) → (⟨S_, .i32⟩ : BufTy).Contents (Elt F)),
    StableHlo.unary main_call4_v0 main_call4_v1 ((broadcastInDim S2200000 ![] bcast_S_S2200000) : (⟨S_, .i32⟩ : BufTy).Contents (Elt F) → (⟨S2200000, .i32⟩ : BufTy).Contents (Elt F)),
    StableHlo.binary main_v26 main_call4_v1 main_call4_v2 (Host.divsi : (⟨S2200000, .i32⟩ : BufTy).Contents (Elt F) → (⟨S2200000, .i32⟩ : BufTy).Contents (Elt F) → (⟨S2200000, .i32⟩ : BufTy).Contents (Elt F)),
    StableHlo.unary main_v26 main_call4_v3 (signi : (⟨S2200000, .i32⟩ : BufTy).Contents (Elt F) → (⟨S2200000, .i32⟩ : BufTy).Contents (Elt F)),
    StableHlo.unary main_call4_v0 main_call4_v4 (signi : (⟨S_, .i32⟩ : BufTy).Contents (Elt F) → (⟨S_, .i32⟩ : BufTy).Contents (Elt F)),
    StableHlo.unary main_call4_v4 main_call4_v5 ((broadcastInDim S2200000 ![] bcast_S_S2200000) : (⟨S_, .i32⟩ : BufTy).Contents (Elt F) → (⟨S2200000, .i32⟩ : BufTy).Contents (Elt F)),
    StableHlo.binary main_call4_v3 main_call4_v5 main_call4_v6 ((cmpi .ne) : (⟨S2200000, .i32⟩ : BufTy).Contents (Elt F) → (⟨S2200000, .i32⟩ : BufTy).Contents (Elt F) → (⟨S2200000, .i1⟩ : BufTy).Contents (Elt F)),
    StableHlo.unary main_call4_v0 main_call4_v7 ((broadcastInDim S2200000 ![] bcast_S_S2200000) : (⟨S_, .i32⟩ : BufTy).Contents (Elt F) → (⟨S2200000, .i32⟩ : BufTy).Contents (Elt F)),
    StableHlo.binary main_v26 main_call4_v7 main_call4_v8 (Host.remsi : (⟨S2200000, .i32⟩ : BufTy).Contents (Elt F) → (⟨S2200000, .i32⟩ : BufTy).Contents (Elt F) → (⟨S2200000, .i32⟩ : BufTy).Contents (Elt F)),
    StableHlo.nullary main_call4_c ((constantI S_ 32 0#32) : (⟨S_, .i32⟩ : BufTy).Contents (Elt F)),
    StableHlo.unary main_call4_c main_call4_v9 ((broadcastInDim S2200000 ![] bcast_S_S2200000) : (⟨S_, .i32⟩ : BufTy).Contents (Elt F) → (⟨S2200000, .i32⟩ : BufTy).Contents (Elt F)),
    StableHlo.binary main_call4_v8 main_call4_v9 main_call4_v10 ((cmpi .ne) : (⟨S2200000, .i32⟩ : BufTy).Contents (Elt F) → (⟨S2200000, .i32⟩ : BufTy).Contents (Elt F) → (⟨S2200000, .i1⟩ : BufTy).Contents (Elt F)),
    StableHlo.binary main_call4_v6 main_call4_v10 main_call4_v11 (andi : (⟨S2200000, .i1⟩ : BufTy).Contents (Elt F) → (⟨S2200000, .i1⟩ : BufTy).Contents (Elt F) → (⟨S2200000, .i1⟩ : BufTy).Contents (Elt F)),
    StableHlo.nullary main_call4_c_0 ((constantI S_ 32 1#32) : (⟨S_, .i32⟩ : BufTy).Contents (Elt F)),
    StableHlo.unary main_call4_c_0 main_call4_v12 ((broadcastInDim S2200000 ![] bcast_S_S2200000) : (⟨S_, .i32⟩ : BufTy).Contents (Elt F) → (⟨S2200000, .i32⟩ : BufTy).Contents (Elt F)),
    StableHlo.binary main_call4_v2 main_call4_v12 main_call4_v13 (subi : (⟨S2200000, .i32⟩ : BufTy).Contents (Elt F) → (⟨S2200000, .i32⟩ : BufTy).Contents (Elt F) → (⟨S2200000, .i32⟩ : BufTy).Contents (Elt F)),
    StableHlo.ternary main_call4_v11 main_call4_v13 main_call4_v2 main_v27 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) ]
attribute [local irreducible] Host.reduce Host.reduceWindow Host.gather Host.scatter in
theorem hostOps1_9_eq : (hostOps1_9 : List (HloOp τ sig (Elt F))) = hostOps1_9_p := rfl
abbrev hostOps1_10_p : List (HloOp τ sig (Elt F)) :=
  [ StableHlo.nullary main_c_10 (constantI S_ 32 1000#32) ]
attribute [local irreducible] Host.reduce Host.reduceWindow Host.gather Host.scatter in
theorem hostOps1_10_eq : (hostOps1_10 : List (HloOp τ sig (Elt F))) = hostOps1_10_p := rfl
abbrev hostOps1_11_p : List (HloOp τ sig (Elt F)) :=
  [ StableHlo.unary main_c_10 main_call5_v0 (id : (⟨S_, .i32⟩ : BufTy).Contents (Elt F) → (⟨S_, .i32⟩ : BufTy).Contents (Elt F)),
    StableHlo.nullary main_call5_c ((constantI S_ 32 0#32) : (⟨S_, .i32⟩ : BufTy).Contents (Elt F)),
    StableHlo.binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    StableHlo.nullary main_call5_c_0 ((constantI S_ 32 1#32) : (⟨S_, .i32⟩ : BufTy).Contents (Elt F)),
    StableHlo.ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call5_v2 main_call5_v3 ((broadcastInDim S2200000 ![] bcast_S_S2200000) : (⟨S_, .i32⟩ : BufTy).Contents (Elt F) → (⟨S2200000, .i32⟩ : BufTy).Contents (Elt F)),
    StableHlo.binary main_v26 main_call5_v3 main_call5_v4 (Host.remsi : (⟨S2200000, .i32⟩ : BufTy).Contents (Elt F) → (⟨S2200000, .i32⟩ : BufTy).Contents (Elt F) → (⟨S2200000, .i32⟩ : BufTy).Contents (Elt F)),
    StableHlo.nullary main_call5_c_1 ((constantI S_ 32 0#32) : (⟨S_, .i32⟩ : BufTy).Contents (Elt F)),
    StableHlo.unary main_call5_c_1 main_call5_v5 ((broadcastInDim S2200000 ![] bcast_S_S2200000) : (⟨S_, .i32⟩ : BufTy).Contents (Elt F) → (⟨S2200000, .i32⟩ : BufTy).Contents (Elt F)),
    StableHlo.binary main_call5_v4 main_call5_v5 main_call5_v6 ((cmpi .ne) : (⟨S2200000, .i32⟩ : BufTy).Contents (Elt F) → (⟨S2200000, .i32⟩ : BufTy).Contents (Elt F) → (⟨S2200000, .i1⟩ : BufTy).Contents (Elt F)),
    StableHlo.nullary main_call5_c_2 ((constantI S_ 32 0#32) : (⟨S_, .i32⟩ : BufTy).Contents (Elt F)),
    StableHlo.unary main_call5_c_2 main_call5_v7 ((broadcastInDim S2200000 ![] bcast_S_S2200000) : (⟨S_, .i32⟩ : BufTy).Contents (Elt F) → (⟨S2200000, .i32⟩ : BufTy).Contents (Elt F)),
    StableHlo.binary main_call5_v4 main_call5_v7 main_call5_v8 ((cmpi .slt) : (⟨S2200000, .i32⟩ : BufTy).Contents (Elt F) → (⟨S2200000, .i32⟩ : BufTy).Contents (Elt F) → (⟨S2200000, .i1⟩ : BufTy).Contents (Elt F)),
    StableHlo.nullary main_call5_c_3 ((constantI S_ 32 0#32) : (⟨S_, .i32⟩ : BufTy).Contents (Elt F)),
    StableHlo.binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    StableHlo.unary main_call5_v9 main_call5_v10 ((broadcastInDim S2200000 ![] bcast_S_S2200000) : (⟨S_, .i1⟩ : BufTy).Contents (Elt F) → (⟨S2200000, .i1⟩ : BufTy).Contents (Elt F)),
    StableHlo.binary main_call5_v8 main_call5_v10 main_call5_v11 ((cmpi .ne) : (⟨S2200000, .i1⟩ : BufTy).Contents (Elt F) → (⟨S2200000, .i1⟩ : BufTy).Contents (Elt F) → (⟨S2200000, .i1⟩ : BufTy).Contents (Elt F)),
    StableHlo.binary main_call5_v11 main_call5_v6 main_call5_v12 (andi : (⟨S2200000, .i1⟩ : BufTy).Contents (Elt F) → (⟨S2200000, .i1⟩ : BufTy).Contents (Elt F) → (⟨S2200000, .i1⟩ : BufTy).Contents (Elt F)),
    StableHlo.unary main_call5_v2 main_call5_v13 ((broadcastInDim S2200000 ![] bcast_S_S2200000) : (⟨S_, .i32⟩ : BufTy).Contents (Elt F) → (⟨S2200000, .i32⟩ : BufTy).Contents (Elt F)),
    StableHlo.binary main_call5_v4 main_call5_v13 main_call5_v14 (addi : (⟨S2200000, .i32⟩ : BufTy).Contents (Elt F) → (⟨S2200000, .i32⟩ : BufTy).Contents (Elt F) → (⟨S2200000, .i32⟩ : BufTy).Contents (Elt F)),
    StableHlo.ternary main_call5_v12 main_call5_v14 main_call5_v4 main_v28 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) ]
attribute [local irreducible] Host.reduce Host.reduceWindow Host.gather Host.scatter in
theorem hostOps1_11_eq : (hostOps1_11 : List (HloOp τ sig (Elt F))) = hostOps1_11_p := rfl
abbrev hostOps1_12_p : List (HloOp τ sig (Elt F)) :=
  [ StableHlo.nullary main_c_11 (constantI S_ 32 1000#32),
    StableHlo.unary main_c_11 main_v29 (broadcastInDim S2200000 ![] bcast_S_S2200000 : (⟨S_, .i32⟩ : BufTy).Contents (Elt F) → (⟨S2200000, .i32⟩ : BufTy).Contents (Elt F)),
    StableHlo.binary main_v25 main_v29 main_v30 (muli : (⟨S2200000, .i32⟩ : BufTy).Contents (Elt F) → (⟨S2200000, .i32⟩ : BufTy).Contents (Elt F) → (⟨S2200000, .i32⟩ : BufTy).Contents (Elt F)),
    StableHlo.binary main_v30 main_v27 main_v31 (addi : (⟨S2200000, .i32⟩ : BufTy).Contents (Elt F) → (⟨S2200000, .i32⟩ : BufTy).Contents (Elt F) → (⟨S2200000, .i32⟩ : BufTy).Contents (Elt F)),
    StableHlo.nullary main_c_12 (constantI S_ 32 64000#32) ]
attribute [local irreducible] Host.reduce Host.reduceWindow Host.gather Host.scatter in
theorem hostOps1_12_eq : (hostOps1_12 : List (HloOp τ sig (Elt F))) = hostOps1_12_p := rfl
abbrev hostOps1_13_p : List (HloOp τ sig (Elt F)) :=
  [ StableHlo.unary main_c_12 main_call6_v0 (id : (⟨S_, .i32⟩ : BufTy).Contents (Elt F) → (⟨S_, .i32⟩ : BufTy).Contents (Elt F)),
    StableHlo.unary main_call6_v0 main_call6_v1 ((broadcastInDim S2200000 ![] bcast_S_S2200000) : (⟨S_, .i32⟩ : BufTy).Contents (Elt F) → (⟨S2200000, .i32⟩ : BufTy).Contents (Elt F)),
    StableHlo.ternary main_v22 main_v31 main_call6_v1 main_v32 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) ]
attribute [local irreducible] Host.reduce Host.reduceWindow Host.gather Host.scatter in
theorem hostOps1_13_eq : (hostOps1_13 : List (HloOp τ sig (Elt F))) = hostOps1_13_p := rfl
abbrev hostOps1_14_p : List (HloOp τ sig (Elt F)) :=
  [ StableHlo.nullary main_c_13 (constantI S_ 32 1000#32),
    StableHlo.unary main_c_13 main_v33 (broadcastInDim S2200000 ![] bcast_S_S2200000 : (⟨S_, .i32⟩ : BufTy).Contents (Elt F) → (⟨S2200000, .i32⟩ : BufTy).Contents (Elt F)),
    StableHlo.binary main_v25 main_v33 main_v34 (muli : (⟨S2200000, .i32⟩ : BufTy).Contents (Elt F) → (⟨S2200000, .i32⟩ : BufTy).Contents (Elt F) → (⟨S2200000, .i32⟩ : BufTy).Contents (Elt F)),
    StableHlo.binary main_v34 main_v28 main_v35 (addi : (⟨S2200000, .i32⟩ : BufTy).Contents (Elt F) → (⟨S2200000, .i32⟩ : BufTy).Contents (Elt F) → (⟨S2200000, .i32⟩ : BufTy).Contents (Elt F)),
    StableHlo.nullary main_c_14 (constantI S_ 32 64000#32) ]
attribute [local irreducible] Host.reduce Host.reduceWindow Host.gather Host.scatter in
theorem hostOps1_14_eq : (hostOps1_14 : List (HloOp τ sig (Elt F))) = hostOps1_14_p := rfl
abbrev hostOps1_15_p : List (HloOp τ sig (Elt F)) :=
  [ StableHlo.unary main_c_14 main_call7_v0 (id : (⟨S_, .i32⟩ : BufTy).Contents (Elt F) → (⟨S_, .i32⟩ : BufTy).Contents (Elt F)),
    StableHlo.unary main_call7_v0 main_call7_v1 ((broadcastInDim S2200000 ![] bcast_S_S2200000) : (⟨S_, .i32⟩ : BufTy).Contents (Elt F) → (⟨S2200000, .i32⟩ : BufTy).Contents (Elt F)),
    StableHlo.ternary main_v22 main_v35 main_call7_v1 main_v36 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) ]
attribute [local irreducible] Host.reduce Host.reduceWindow Host.gather Host.scatter in
theorem hostOps1_15_eq : (hostOps1_15 : List (HloOp τ sig (Elt F))) = hostOps1_15_p := rfl
abbrev hostOps1_16_p : List (HloOp τ sig (Elt F)) :=
  [ StableHlo.nullary main_c_15 (constantI S_ 32 0#32),
    StableHlo.unary main_c_15 main_v37 (broadcastInDim S2200000 ![] bcast_S_S2200000 : (⟨S_, .i32⟩ : BufTy).Contents (Elt F) → (⟨S2200000, .i32⟩ : BufTy).Contents (Elt F)),
    StableHlo.binary main_v24 main_v37 main_v38 (cmpi .slt : (⟨S2200000, .i32⟩ : BufTy).Contents (Elt F) → (⟨S2200000, .i32⟩ : BufTy).Contents (Elt F) → (⟨S2200000, .i1⟩ : BufTy).Contents (Elt F)),
    StableHlo.nullary main_c_16 (constantI S_ 32 64000000#32),
    StableHlo.unary main_c_16 main_v39 (broadcastInDim S2200000 ![] bcast_S_S2200000 : (⟨S_, .i32⟩ : BufTy).Contents (Elt F) → (⟨S2200000, .i32⟩ : BufTy).Contents (Elt F)),
    StableHlo.binary main_v24 main_v39 main_v40 (addi : (⟨S2200000, .i32⟩ : BufTy).Contents (Elt F) → (⟨S2200000, .i32⟩ : BufTy).Contents (Elt F) → (⟨S2200000, .i32⟩ : BufTy).Contents (Elt F)),
    StableHlo.ternary main_v38 main_v40 main_v24 main_v41 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)),
    StableHlo.unary main_v41 main_v42 (broadcastInDim S2200000x1 ![0] bcast_S2200000_S2200000x1_0 : (⟨S2200000, .i32⟩ : BufTy).Contents (Elt F) → (⟨S2200000x1, .i32⟩ : BufTy).Contents (Elt F)),
    StableHlo.binary main_v2 main_v42 main_v43 ((fun x i => Host.gather gather_S64000000_S2200000x1_S2200000_n_0_n_n_0_1_1 x i) : (⟨S64000000, .f32⟩ : BufTy).Contents (Elt F) → (⟨S2200000x1, .i32⟩ : BufTy).Contents (Elt F) → (⟨S2200000, .f32⟩ : BufTy).Contents (Elt F)),
    StableHlo.nullary main_cst_17 (constant S_ .f32 0x41C80000#32) ]
attribute [local irreducible] Host.reduce Host.reduceWindow Host.gather Host.scatter in
theorem hostOps1_16_eq : (hostOps1_16 : List (HloOp τ sig (Elt F))) = hostOps1_16_p := rfl
abbrev hostOps1_17_p : List (HloOp τ sig (Elt F)) :=
  [ StableHlo.unary main_cst_17 main_call8_v0 (id : (⟨S_, .f32⟩ : BufTy).Contents (Elt F) → (⟨S_, .f32⟩ : BufTy).Contents (Elt F)),
    StableHlo.unary main_call8_v0 main_call8_v1 ((broadcastInDim S2200000 ![] bcast_S_S2200000) : (⟨S_, .f32⟩ : BufTy).Contents (Elt F) → (⟨S2200000, .f32⟩ : BufTy).Contents (Elt F)),
    StableHlo.ternary main_v22 main_v43 main_call8_v1 main_v44 (select : (⟨S2200000, .i1⟩ : BufTy).Contents (Elt F) → (⟨S2200000, .f32⟩ : BufTy).Contents (Elt F) → (⟨S2200000, .f32⟩ : BufTy).Contents (Elt F) → (⟨S2200000, .f32⟩ : BufTy).Contents (Elt F)) ]
attribute [local irreducible] Host.reduce Host.reduceWindow Host.gather Host.scatter in
theorem hostOps1_17_eq : (hostOps1_17 : List (HloOp τ sig (Elt F))) = hostOps1_17_p := rfl
abbrev hostOps1_18_p : List (HloOp τ sig (Elt F)) :=
  [ StableHlo.binary main_v32 main_v36 main_v45 ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)),
    StableHlo.binary main_v36 main_v32 main_v46 ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)),
    StableHlo.binary main_v44 main_v44 main_v47 ((fun a b => concatenate S4400000 0 [⟨S2200000, a⟩, ⟨S2200000, b⟩] concatenates_S2200000_S2200000_S4400000_d0) : (⟨S2200000, .f32⟩ : BufTy).Contents (Elt F) → (⟨S2200000, .f32⟩ : BufTy).Contents (Elt F) → (⟨S4400000, .f32⟩ : BufTy).Contents (Elt F)) ]
attribute [local irreducible] Host.reduce Host.reduceWindow Host.gather Host.scatter in
theorem hostOps1_18_eq : (hostOps1_18 : List (HloOp τ sig (Elt F))) = hostOps1_18_p := rfl

/-- What the buffers still needed hold before the first stretch. -/
def Inv0 (A : (⟨S64x1000x1000, .f32⟩ : BufTy).Contents (Elt F)) (V : Valuation τ sig (Elt F)) : Prop :=
  V (Proc.devRef .tc main_v1) = A
/-- What the buffers still needed hold after stretch 1. -/
def Inv1 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v2) = (flat A) ∧ V (Proc.devRef .tc main_v4) = (below (flat A)) ∧ V (Proc.devRef .tc main_v7) = (t_main_v7 (below (flat A)) (flat A))
/-- What the buffers still needed hold after stretch 2. -/
def Inv2 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v2) = (flat A) ∧ V (Proc.devRef .tc main_v4) = (below (flat A)) ∧ V (Proc.devRef .tc main_v8) = (t_main_v8 (below (flat A)) (flat A))
/-- What the buffers still needed hold after stretch 3. -/
def Inv3 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v2) = (flat A) ∧ V (Proc.devRef .tc main_v4) = (below (flat A)) ∧ V (Proc.devRef .tc main_v10) = (t_main_v10 (below (flat A)) (flat A)) ∧ V (Proc.devRef .tc main_c_1) = (t_main_c_1 (below (flat A)) (flat A))
/-- What the buffers still needed hold after stretch 4. -/
def Inv4 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v2) = (flat A) ∧ V (Proc.devRef .tc main_v11) = (t_main_v11 (below (flat A)) (flat A))
/-- What the buffers still needed hold after stretch 5. -/
def Inv5 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_c_7) = (t_main_c_7 (below (flat A)) (flat A))
/-- What the buffers still needed hold after stretch 6. -/
def Inv6 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v25) = (t_main_v25 (below (flat A)) (flat A))
/-- What the buffers still needed hold after stretch 7. -/
def Inv7 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v25) = (t_main_v25 (below (flat A)) (flat A)) ∧ V (Proc.devRef .tc main_c_8) = (t_main_c_8 (below (flat A)) (flat A))
/-- What the buffers still needed hold after stretch 8. -/
def Inv8 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v25) = (t_main_v25 (below (flat A)) (flat A)) ∧ V (Proc.devRef .tc main_v26) = (t_main_v26 (below (flat A)) (flat A))
/-- What the buffers still needed hold after stretch 9. -/
def Inv9 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v25) = (t_main_v25 (below (flat A)) (flat A)) ∧ V (Proc.devRef .tc main_v26) = (t_main_v26 (below (flat A)) (flat A)) ∧ V (Proc.devRef .tc main_c_9) = (t_main_c_9 (below (flat A)) (flat A))
/-- What the buffers still needed hold after stretch 10. -/
def Inv10 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v25) = (t_main_v25 (below (flat A)) (flat A)) ∧ V (Proc.devRef .tc main_v27) = (t_main_v27 (below (flat A)) (flat A)) ∧ V (Proc.devRef .tc main_v26) = (t_main_v26 (below (flat A)) (flat A))
/-- What the buffers still needed hold after stretch 11. -/
def Inv11 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v25) = (t_main_v25 (below (flat A)) (flat A)) ∧ V (Proc.devRef .tc main_v27) = (t_main_v27 (below (flat A)) (flat A)) ∧ V (Proc.devRef .tc main_v26) = (t_main_v26 (below (flat A)) (flat A)) ∧ V (Proc.devRef .tc main_c_10) = (t_main_c_10 (below (flat A)) (flat A))
/-- What the buffers still needed hold after stretch 12. -/
def Inv12 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v28) = (t_main_v28 (below (flat A)) (flat A)) ∧ V (Proc.devRef .tc main_v25) = (t_main_v25 (below (flat A)) (flat A)) ∧ V (Proc.devRef .tc main_v27) = (t_main_v27 (below (flat A)) (flat A))
/-- What the buffers still needed hold after stretch 13. -/
def Inv13 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v28) = (t_main_v28 (below (flat A)) (flat A)) ∧ V (Proc.devRef .tc main_v25) = (t_main_v25 (below (flat A)) (flat A)) ∧ V (Proc.devRef .tc main_v31) = (t_main_v31 (below (flat A)) (flat A)) ∧ V (Proc.devRef .tc main_c_12) = (t_main_c_12 (below (flat A)) (flat A))
/-- What the buffers still needed hold after stretch 14. -/
def Inv14 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v32) = (t_main_v32 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v28) = (t_main_v28 (below (flat A)) (flat A)) ∧ V (Proc.devRef .tc main_v25) = (t_main_v25 (below (flat A)) (flat A))
/-- What the buffers still needed hold after stretch 15. -/
def Inv15 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v32) = (t_main_v32 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A)) ∧ V (Proc.devRef .tc main_v35) = (t_main_v35 (below (flat A)) (flat A)) ∧ V (Proc.devRef .tc main_c_14) = (t_main_c_14 (below (flat A)) (flat A))
/-- What the buffers still needed hold after stretch 16. -/
def Inv16 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v36) = (t_main_v36 (below (flat A)) (flat A)) ∧ V (Proc.devRef .tc main_v32) = (t_main_v32 (below (flat A)) (flat A)) ∧ V (Proc.devRef .tc main_v22) = (t_main_v22 (below (flat A)) (flat A)) ∧ V (Proc.devRef .tc main_v2) = (flat A) ∧ V (Proc.devRef .tc main_v24) = (t_main_v24 (below (flat A)) (flat A))
/-- What the buffers still needed hold after stretch 17. -/
def Inv17 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v36) = (t_main_v36 (below (flat A)) (flat A)) ∧ V (Proc.devRef .tc main_v32) = (t_main_v32 (below (flat A)) (flat A)) ∧ V (Proc.devRef .tc main_v22) = (t_main_v22 (below (flat A)) (flat A)) ∧ V (Proc.devRef .tc main_v43) = (t_main_v43 (below (flat A)) (flat A)) ∧ V (Proc.devRef .tc main_cst_17) = (t_main_cst_17 (below (flat A)) (flat A))
/-- What the buffers still needed hold after stretch 18. -/
def Inv18 (A : (⟨S64x1000x1000, .f32⟩ : BufTy).Contents (Elt F)) (V : Valuation τ sig (Elt F)) : Prop :=
  V (Proc.devRef .tc main_v6) = (t_main_v6 (below (flat A)) (flat A)) ∧ V (Proc.devRef .tc main_v44) = (t_main_v44 (below (flat A)) (flat A)) ∧ V (Proc.devRef .tc main_v36) = (t_main_v36 (below (flat A)) (flat A)) ∧ V (Proc.devRef .tc main_v32) = (t_main_v32 (below (flat A)) (flat A))
/-- What the buffers still needed hold after stretch 19. -/
def Inv19 (A : (⟨S64x1000x1000, .f32⟩ : BufTy).Contents (Elt F)) (V : Valuation τ sig (Elt F)) : Prop :=
  V (Proc.devRef .tc main_v45) = (t_main_v45 (below (flat A)) (flat A)) ∧ V (Proc.devRef .tc main_v46) = (t_main_v46 (below (flat A)) (flat A)) ∧ V (Proc.devRef .tc main_v47) = (t_main_v47 (below (flat A)) (flat A)) ∧ V (Proc.devRef .tc main_v6) = (t_main_v6 (below (flat A)) (flat A))
set_option maxHeartbeats 4000000 in
attribute [local irreducible] Host.reduce Host.reduceWindow Host.gather Host.scatter in
theorem step1 (A : (⟨S64x1000x1000, .f32⟩ : BufTy).Contents (Elt F)) (V : Valuation τ sig (Elt F)) (h : Inv0 A V) : Inv1 A (StableHlo.after (hostOps1_p (F := F)) V) := by
  unfold Inv0 at h; unfold Inv1
  have h0 := h
  refine ⟨?_, ?_, ?_, ?_⟩
  all_goals (simp only [hostOps1_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0]); (try rw [h0]); first | rfl | skip)
set_option maxHeartbeats 4000000 in
attribute [local irreducible] Host.reduce Host.reduceWindow Host.gather Host.scatter in
theorem step2 (A : (⟨S64x1000x1000, .f32⟩ : BufTy).Contents (Elt F)) (V : Valuation τ sig (Elt F)) (h : Inv1 A V) : Inv2 A (StableHlo.after (hostOps1_1_p (F := F)) V) := by
  unfold Inv1 at h; unfold Inv2
  obtain ⟨h0, h1, h2, h3⟩ := h
  refine ⟨?_, ?_, ?_, ?_⟩
  all_goals (simp only [hostOps1_1_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3]); (try rw [h0]); (try rw [h1]); (try rw [h2]); (try rw [h3]); first | rfl | skip)
set_option maxHeartbeats 4000000 in
attribute [local irreducible] Host.reduce Host.reduceWindow Host.gather Host.scatter in
theorem step3 (A : (⟨S64x1000x1000, .f32⟩ : BufTy).Contents (Elt F)) (V : Valuation τ sig (Elt F)) (h : Inv2 A V) : Inv3 A (StableHlo.after (hostOps1_2_p (F := F)) V) := by
  unfold Inv2 at h; unfold Inv3
  obtain ⟨h0, h1, h2, h3⟩ := h
  refine ⟨?_, ?_, ?_, ?_, ?_⟩
  all_goals (simp only [hostOps1_2_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3]); (try rw [h0]); (try rw [h1]); (try rw [h2]); (try rw [h3]); first | rfl | skip)
set_option maxHeartbeats 4000000 in
attribute [local irreducible] Host.reduce Host.reduceWindow Host.gather Host.scatter in
theorem step4 (A : (⟨S64x1000x1000, .f32⟩ : BufTy).Contents (Elt F)) (V : Valuation τ sig (Elt F)) (h : Inv3 A V) : Inv4 A (StableHlo.after (hostOps1_3_p (F := F)) V) := by
  unfold Inv3 at h; unfold Inv4
  obtain ⟨h0, h1, h2, h3, h4⟩ := h
  refine ⟨?_, ?_, ?_⟩
  all_goals (simp only [hostOps1_3_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4]); (try rw [h0]); (try rw [h1]); (try rw [h2]); (try rw [h3]); (try rw [h4]); first | rfl | skip)
set_option maxHeartbeats 4000000 in
attribute [local irreducible] Host.reduce Host.reduceWindow Host.gather Host.scatter in
theorem step5 (A : (⟨S64x1000x1000, .f32⟩ : BufTy).Contents (Elt F)) (V : Valuation τ sig (Elt F)) (h : Inv4 A V) : Inv5 A (StableHlo.after (hostOps1_4_p (F := F)) V) := by
  unfold Inv4 at h; unfold Inv5
  obtain ⟨h0, h1, h2⟩ := h
  refine ⟨?_, ?_, ?_, ?_, ?_⟩
  all_goals (simp only [hostOps1_4_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2]); (try rw [h0]); (try rw [h1]); (try rw [h2]); first | rfl | skip)
set_option maxHeartbeats 4000000 in
attribute [local irreducible] Host.reduce Host.reduceWindow Host.gather Host.scatter in
theorem step6 (A : (⟨S64x1000x1000, .f32⟩ : BufTy).Contents (Elt F)) (V : Valuation τ sig (Elt F)) (h : Inv5 A V) : Inv6 A (StableHlo.after (hostOps1_5_p (F := F)) V) := by
  unfold Inv5 at h; unfold Inv6
  obtain ⟨h0, h1, h2, h3, h4⟩ := h
  refine ⟨?_, ?_, ?_, ?_, ?_⟩
  all_goals (simp only [hostOps1_5_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4]); (try rw [h0]); (try rw [h1]); (try rw [h2]); (try rw [h3]); (try rw [h4]); first | rfl | skip)
set_option maxHeartbeats 4000000 in
attribute [local irreducible] Host.reduce Host.reduceWindow Host.gather Host.scatter in
theorem step7 (A : (⟨S64x1000x1000, .f32⟩ : BufTy).Contents (Elt F)) (V : Valuation τ sig (Elt F)) (h : Inv6 A V) : Inv7 A (StableHlo.after (hostOps1_6_p (F := F)) V) := by
  unfold Inv6 at h; unfold Inv7
  obtain ⟨h0, h1, h2, h3, h4⟩ := h
  refine ⟨?_, ?_, ?_, ?_, ?_, ?_⟩
  all_goals (simp only [hostOps1_6_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4]); (try rw [h0]); (try rw [h1]); (try rw [h2]); (try rw [h3]); (try rw [h4]); first | rfl | skip)
set_option maxHeartbeats 4000000 in
attribute [local irreducible] Host.reduce Host.reduceWindow Host.gather Host.scatter in
theorem step8 (A : (⟨S64x1000x1000, .f32⟩ : BufTy).Contents (Elt F)) (V : Valuation τ sig (Elt F)) (h : Inv7 A V) : Inv8 A (StableHlo.after (hostOps1_7_p (F := F)) V) := by
  unfold Inv7 at h; unfold Inv8
  obtain ⟨h0, h1, h2, h3, h4, h5⟩ := h
  refine ⟨?_, ?_, ?_, ?_, ?_, ?_⟩
  all_goals (simp only [hostOps1_7_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5]); (try rw [h0]); (try rw [h1]); (try rw [h2]); (try rw [h3]); (try rw [h4]); (try rw [h5]); first | rfl | skip)
set_option maxHeartbeats 4000000 in
attribute [local irreducible] Host.reduce Host.reduceWindow Host.gather Host.scatter in
theorem step9 (A : (⟨S64x1000x1000, .f32⟩ : BufTy).Contents (Elt F)) (V : Valuation τ sig (Elt F)) (h : Inv8 A V) : Inv9 A (StableHlo.after (hostOps1_8_p (F := F)) V) := by
  unfold Inv8 at h; unfold Inv9
  obtain ⟨h0, h1, h2, h3, h4, h5⟩ := h
  refine ⟨?_, ?_, ?_, ?_, ?_, ?_, ?_⟩
  all_goals (simp only [hostOps1_8_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5]); (try rw [h0]); (try rw [h1]); (try rw [h2]); (try rw [h3]); (try rw [h4]); (try rw [h5]); first | rfl | skip)
set_option maxHeartbeats 4000000 in
attribute [local irreducible] Host.reduce Host.reduceWindow Host.gather Host.scatter in
theorem step10 (A : (⟨S64x1000x1000, .f32⟩ : BufTy).Contents (Elt F)) (V : Valuation τ sig (Elt F)) (h : Inv9 A V) : Inv10 A (StableHlo.after (hostOps1_9_p (F := F)) V) := by
  unfold Inv9 at h; unfold Inv10
  obtain ⟨h0, h1, h2, h3, h4, h5, h6⟩ := h
  refine ⟨?_, ?_, ?_, ?_, ?_, ?_, ?_⟩
  all_goals (simp only [hostOps1_9_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5, h6]); (try rw [h0]); (try rw [h1]); (try rw [h2]); (try rw [h3]); (try rw [h4]); (try rw [h5]); (try rw [h6]); first | rfl | skip)
set_option maxHeartbeats 4000000 in
attribute [local irreducible] Host.reduce Host.reduceWindow Host.gather Host.scatter in
theorem step11 (A : (⟨S64x1000x1000, .f32⟩ : BufTy).Contents (Elt F)) (V : Valuation τ sig (Elt F)) (h : Inv10 A V) : Inv11 A (StableHlo.after (hostOps1_10_p (F := F)) V) := by
  unfold Inv10 at h; unfold Inv11
  obtain ⟨h0, h1, h2, h3, h4, h5, h6⟩ := h
  refine ⟨?_, ?_, ?_, ?_, ?_, ?_, ?_, ?_⟩
  all_goals (simp only [hostOps1_10_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5, h6]); (try rw [h0]); (try rw [h1]); (try rw [h2]); (try rw [h3]); (try rw [h4]); (try rw [h5]); (try rw [h6]); first | rfl | skip)
set_option maxHeartbeats 4000000 in
attribute [local irreducible] Host.reduce Host.reduceWindow Host.gather Host.scatter in
theorem step12 (A : (⟨S64x1000x1000, .f32⟩ : BufTy).Contents (Elt F)) (V : Valuation τ sig (Elt F)) (h : Inv11 A V) : Inv12 A (StableHlo.after (hostOps1_11_p (F := F)) V) := by
  unfold Inv11 at h; unfold Inv12
  obtain ⟨h0, h1, h2, h3, h4, h5, h6, h7⟩ := h
  refine ⟨?_, ?_, ?_, ?_, ?_, ?_, ?_⟩
  all_goals (simp only [hostOps1_11_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5, h6, h7]); (try rw [h0]); (try rw [h1]); (try rw [h2]); (try rw [h3]); (try rw [h4]); (try rw [h5]); (try rw [h6]); (try rw [h7]); first | rfl | skip)
set_option maxHeartbeats 4000000 in
attribute [local irreducible] Host.reduce Host.reduceWindow Host.gather Host.scatter in
theorem step13 (A : (⟨S64x1000x1000, .f32⟩ : BufTy).Contents (Elt F)) (V : Valuation τ sig (Elt F)) (h : Inv12 A V) : Inv13 A (StableHlo.after (hostOps1_12_p (F := F)) V) := by
  unfold Inv12 at h; unfold Inv13
  obtain ⟨h0, h1, h2, h3, h4, h5, h6⟩ := h
  refine ⟨?_, ?_, ?_, ?_, ?_, ?_, ?_, ?_⟩
  all_goals (simp only [hostOps1_12_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5, h6]); (try rw [h0]); (try rw [h1]); (try rw [h2]); (try rw [h3]); (try rw [h4]); (try rw [h5]); (try rw [h6]); first | rfl | skip)
set_option maxHeartbeats 4000000 in
attribute [local irreducible] Host.reduce Host.reduceWindow Host.gather Host.scatter in
theorem step14 (A : (⟨S64x1000x1000, .f32⟩ : BufTy).Contents (Elt F)) (V : Valuation τ sig (Elt F)) (h : Inv13 A V) : Inv14 A (StableHlo.after (hostOps1_13_p (F := F)) V) := by
  unfold Inv13 at h; unfold Inv14
  obtain ⟨h0, h1, h2, h3, h4, h5, h6, h7⟩ := h
  refine ⟨?_, ?_, ?_, ?_, ?_, ?_, ?_⟩
  all_goals (simp only [hostOps1_13_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5, h6, h7]); (try rw [h0]); (try rw [h1]); (try rw [h2]); (try rw [h3]); (try rw [h4]); (try rw [h5]); (try rw [h6]); (try rw [h7]); first | rfl | skip)
set_option maxHeartbeats 4000000 in
attribute [local irreducible] Host.reduce Host.reduceWindow Host.gather Host.scatter in
theorem step15 (A : (⟨S64x1000x1000, .f32⟩ : BufTy).Contents (Elt F)) (V : Valuation τ sig (Elt F)) (h : Inv14 A V) : Inv15 A (StableHlo.after (hostOps1_14_p (F := F)) V) := by
  unfold Inv14 at h; unfold Inv15
  obtain ⟨h0, h1, h2, h3, h4, h5, h6⟩ := h
  refine ⟨?_, ?_, ?_, ?_, ?_, ?_, ?_⟩
  all_goals (simp only [hostOps1_14_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5, h6]); (try rw [h0]); (try rw [h1]); (try rw [h2]); (try rw [h3]); (try rw [h4]); (try rw [h5]); (try rw [h6]); first | rfl | skip)
set_option maxHeartbeats 4000000 in
attribute [local irreducible] Host.reduce Host.reduceWindow Host.gather Host.scatter in
theorem step16 (A : (⟨S64x1000x1000, .f32⟩ : BufTy).Contents (Elt F)) (V : Valuation τ sig (Elt F)) (h : Inv15 A V) : Inv16 A (StableHlo.after (hostOps1_15_p (F := F)) V) := by
  unfold Inv15 at h; unfold Inv16
  obtain ⟨h0, h1, h2, h3, h4, h5, h6⟩ := h
  refine ⟨?_, ?_, ?_, ?_, ?_, ?_⟩
  all_goals (simp only [hostOps1_15_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5, h6]); (try rw [h0]); (try rw [h1]); (try rw [h2]); (try rw [h3]); (try rw [h4]); (try rw [h5]); (try rw [h6]); first | rfl | skip)
set_option maxHeartbeats 4000000 in
attribute [local irreducible] Host.reduce Host.reduceWindow Host.gather Host.scatter in
theorem step17 (A : (⟨S64x1000x1000, .f32⟩ : BufTy).Contents (Elt F)) (V : Valuation τ sig (Elt F)) (h : Inv16 A V) : Inv17 A (StableHlo.after (hostOps1_16_p (F := F)) V) := by
  unfold Inv16 at h; unfold Inv17
  obtain ⟨h0, h1, h2, h3, h4, h5⟩ := h
  refine ⟨?_, ?_, ?_, ?_, ?_, ?_⟩
  all_goals (simp only [hostOps1_16_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5]); (try rw [h0]); (try rw [h1]); (try rw [h2]); (try rw [h3]); (try rw [h4]); (try rw [h5]); first | rfl | skip)
set_option maxHeartbeats 4000000 in
attribute [local irreducible] Host.reduce Host.reduceWindow Host.gather Host.scatter in
theorem step18 (A : (⟨S64x1000x1000, .f32⟩ : BufTy).Contents (Elt F)) (V : Valuation τ sig (Elt F)) (h : Inv17 A V) : Inv18 A (StableHlo.after (hostOps1_17_p (F := F)) V) := by
  unfold Inv17 at h; unfold Inv18
  obtain ⟨h0, h1, h2, h3, h4, h5⟩ := h
  refine ⟨?_, ?_, ?_, ?_⟩
  all_goals (simp only [hostOps1_17_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3, h4, h5]); (try rw [h0]); (try rw [h1]); (try rw [h2]); (try rw [h3]); (try rw [h4]); (try rw [h5]); first | rfl | skip)
set_option maxHeartbeats 4000000 in
attribute [local irreducible] Host.reduce Host.reduceWindow Host.gather Host.scatter in
theorem step19 (A : (⟨S64x1000x1000, .f32⟩ : BufTy).Contents (Elt F)) (V : Valuation τ sig (Elt F)) (h : Inv18 A V) : Inv19 A (StableHlo.after (hostOps1_18_p (F := F)) V) := by
  unfold Inv18 at h; unfold Inv19
  obtain ⟨h0, h1, h2, h3⟩ := h
  refine ⟨?_, ?_, ?_, ?_⟩
  all_goals (simp only [hostOps1_18_p, List.cons_append, List.nil_append]; after_results_simp; (try (repeat (first | (rw [binary_result_ne]; rotate_left; decide) | (rw [ternary_result_ne]; rotate_left; decide) | (rw [unary_result_ne]; rotate_left; decide) | (rw [nullary_result_ne]; rotate_left; decide)))); (try simp only [h0, h1, h2, h3]); (try rw [h0]); (try rw [h1]); (try rw [h2]); (try rw [h3]); first | rfl | skip)

/-- The later lines are the plain stretches one after the other. -/
theorem tail_split : (tailOps (F := F)).flatten = hostOps1_p ++ (hostOps1_1_p ++ (hostOps1_2_p ++ (hostOps1_3_p ++ (hostOps1_4_p ++ (hostOps1_5_p ++ (hostOps1_6_p ++ (hostOps1_7_p ++ (hostOps1_8_p ++ (hostOps1_9_p ++ (hostOps1_10_p ++ (hostOps1_11_p ++ (hostOps1_12_p ++ (hostOps1_13_p ++ (hostOps1_14_p ++ (hostOps1_15_p ++ (hostOps1_16_p ++ (hostOps1_17_p ++ (hostOps1_18_p)))))))))))))))))) := by
  simp only [tailOps, hostOps1_eq, hostOps1_1_eq, hostOps1_2_eq, hostOps1_3_eq, hostOps1_4_eq, hostOps1_5_eq, hostOps1_6_eq, hostOps1_7_eq, hostOps1_8_eq, hostOps1_9_eq, hostOps1_10_eq, hostOps1_11_eq, hostOps1_12_eq, hostOps1_13_eq, hostOps1_14_eq, hostOps1_15_eq, hostOps1_16_eq, hostOps1_17_eq, hostOps1_18_eq, List.flatten_cons, List.flatten_nil, List.append_nil]

/-- After all the later lines, from any contents `W`: the four results at the definitions. -/
theorem tail_inv (W : Valuation τ sig (Elt F)) :
    Inv19 (W (Proc.devRef .tc main_v1)) (StableHlo.after (tailOps (F := F)).flatten W) := by
  rw [tail_split]
  simp only [StableHlo.after_append]
  generalize hA : W (Proc.devRef .tc main_v1) = A
  exact (step19 A _ (step18 A _ (step17 A _ (step16 A _ (step15 A _ (step14 A _ (step13 A _ (step12 A _ (step11 A _ (step10 A _ (step9 A _ (step8 A _ (step7 A _ (step6 A _ (step5 A _ (step4 A _ (step3 A _ (step2 A _ (step1 A W hA)))))))))))))))))))

theorem tail_v45 (W : Valuation τ sig (Elt F)) : StableHlo.after (tailOps (F := F)).flatten W (Proc.devRef .tc main_v45)
    = t_main_v45 (below (flat (W (Proc.devRef .tc main_v1)))) (flat (W (Proc.devRef .tc main_v1))) := (tail_inv W).1
theorem tail_v46 (W : Valuation τ sig (Elt F)) : StableHlo.after (tailOps (F := F)).flatten W (Proc.devRef .tc main_v46)
    = t_main_v46 (below (flat (W (Proc.devRef .tc main_v1)))) (flat (W (Proc.devRef .tc main_v1))) := (tail_inv W).2.1
theorem tail_v47 (W : Valuation τ sig (Elt F)) : StableHlo.after (tailOps (F := F)).flatten W (Proc.devRef .tc main_v47)
    = t_main_v47 (below (flat (W (Proc.devRef .tc main_v1)))) (flat (W (Proc.devRef .tc main_v1))) := (tail_inv W).2.2.1
theorem tail_v6 (W : Valuation τ sig (Elt F)) : StableHlo.after (tailOps (F := F)).flatten W (Proc.devRef .tc main_v6)
    = t_main_v6 (below (flat (W (Proc.devRef .tc main_v1)))) (flat (W (Proc.devRef .tc main_v1))) := (tail_inv W).2.2.2

end Cert.KernelIdeal.Tail

end
-- ==== Proof.DistSpec.lean ====
/-
  The mathematics both programs compute per system, on the extended reals.  A system is 1000 atoms with 3 coordinates,
  `X i d`.  The squared distance of atoms `i` and `j` is taken in the expanded form
  |x_i|² + |x_j|² − 2·⟨x_i, x_j⟩, the two squared norms added first, then twice the inner product subtracted; a pair is
  kept when that value is below the cutoff 25 and `i < j` (each unordered pair once).  The literals are kept as the
  words the programs print: the same word on both sides is never evaluated.
-/
import Idealize.ShloMosaic.PureOps.Ideal

noncomputable section

namespace Cert.DistSpec

open Idealize.ShloMosaic

/-- The squared norm of atom `i`: the sum of its three squared coordinates. -/
def sq (X : Fin 1000 → Fin 3 → EReal) (i : Fin 1000) : EReal := ∑ d : Fin 3, X i d * X i d

/-- The inner product of atoms `i` and `j`. -/
def gram (X : Fin 1000 → Fin 3 → EReal) (i j : Fin 1000) : EReal := ∑ d : Fin 3, X i d * X j d

/-- The literal 2 and the cutoff 25 (five squared), as the words printed. -/
def two : EReal := Ideal.ofBits .f32 0x40000000#32
def cut : EReal := Ideal.ofBits .f32 0x41C80000#32

/-- The squared distance in the expanded form, grouped as the programs group it. -/
def dist (X : Fin 1000 → Fin 3 → EReal) (i j : Fin 1000) : EReal := (sq X i + sq X j) - two * gram X i j

/-- The pair `(i, j)` is kept: under the cutoff, and `i` before `j`. -/
def keep (X : Fin 1000 → Fin 3 → EReal) (i j : Fin 1000) : Prop := dist X i j < cut ∧ i.val < j.val

end Cert.DistSpec

end
-- ==== Proof.KernelPay.lean ====
/-
  The kernel body's arithmetic read at one entry, on the extended reals.

  The body takes a block of 1000 atoms with 3 coordinates, `X i d`, and forms: the squared norms |x_i|² as row sums
  of the squared coordinates, once as a column and once (transposed) as a row; the inner products ⟨x_i, x_j⟩ as the
  product of the 1000 × 3 matrix with its transpose; the matrix (|x_i|² + |x_j|²) − 2·⟨x_i, x_j⟩; and, entry by entry,
  the select between that value and the cutoff on the bit "the value is below the cutoff, and i < j". Read at the
  entry `(0, i, j)` this is `dist X i j` where the pair is kept and the cutoff where it is not. A sum of finitely many
  extended reals from zero is the plain sum, and nothing here is distributed or cancelled, so no finiteness is used.
  The literals 2 and 25 stay the words printed: the same word stands on both sides and is never evaluated.
-/
import proofs.«164187_j65910568124749_1_alg».proof.Proof.Gen.KernelIdeal.Skeleton
import proofs.«164187_j65910568124749_1_alg».proof.Proof.DistSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine

noncomputable section

namespace Cert.KernelIdeal.Pay

open Idealize.ShloMosaic Idealize.ShloMosaic.ValueIdx Cert.KernelIdeal Cert.KernelIdeal.Gen

/-! ## Layout operations at explicit coordinates -/

section Layout
variable {α : Type}

/-- A vector `[a]` cast to a column `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the rows of an `[a, b]` matrix from the zero word, read at row `i`, is `∑ k, src (i, k)`. -/
theorem rowsum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  match ax with
  | ⟨0, _⟩ => exact Fin.ext rfl
  | ⟨1, _⟩ => exact Fin.ext rfl

/-! ## Words: the comparison bit, a small coordinate read signed, and a select on a decided bit -/

/-- The ordered "less than" of two extended reals is the bit `1` exactly when the first is below the second. -/
theorem cmp_olt_eq_one (x y : EReal) : Ideal.cmp .olt x y = 1#1 ↔ x < y := by
  unfold Ideal.cmp
  by_cases h : x < y
  · simp [h]
  · simp [h]

/-- A coordinate below 1000, written as a 32-bit word and read signed, is itself. -/
theorem toInt_ofNat_small (n : ℕ) (h : n < 1000) : (BitVec.ofNat 32 n).toInt = (n : Int) := by
  have hm : n % 2 ^ 32 = n := Nat.mod_eq_of_lt (by omega)
  rw [BitVec.toInt_eq_toNat_cond, BitVec.toNat_ofNat, hm]
  split <;> omega

/-- A select on a bit that is `1` is its first operand … -/
theorem select_of_one {α : Type} (c : BitVec 1) (x y : α) (h : c = 1#1) : Scalar.select c x y = x := by
  rw [h]; exact select_one x y

/-- … and on a bit that is not `1`, its second. -/
theorem select_of_ne_one {α : Type} (c : BitVec 1) (x y : α) (h : ¬c = 1#1) : Scalar.select c x y = y := by
  rw [eq_zero_of_ne_one h]; exact select_zero x y

/-! ## The body's intermediate matrices, each read at an entry -/

/-- The atoms' coordinates: entry `(0, i, d)` of the block. -/
def atoms (v0 : Vec Ideal S1x1000x3 .f32) : Fin 1000 → Fin 3 → EReal := fun i d => v0 (ValueIdx.ix3 (0 : Fin 1) i d)

/-- The block as a 1000 × 3 matrix. -/
def rows (v0 : Vec Ideal S1x1000x3 .f32) : FVec Ideal S1000x3 .f32 :=
  shapeCast S1000x3 v0 shapeCasts_S1x1000x3_S1000x3

theorem rows_apply (v0 : Vec Ideal S1x1000x3 .f32) (i : Fin 1000) (d : Fin 3) : rows v0 (ix2 i d) = atoms v0 i d :=
  shapeCast_1ab_ab_apply v0 shapeCasts_S1x1000x3_S1000x3 i d

/-- The squared norms as a column: the row sums of the squared coordinates. -/
def norms (v0 : Vec Ideal S1x1000x3 .f32) : FVec Ideal S1000x1 .f32 :=
  shapeCast S1000x1
    (multiReduction (F := Ideal) .add [1] S1000 (mulf (rows v0) (rows v0)) 0x00000000#32 reduces_S1000x3_S1000 (.inl rfl) rfl)
    shapeCasts_S1000_S1000x1

theorem norms_apply (v0 : Vec Ideal S1x1000x3 .f32) (i : Fin 1000) (u : Fin 1) :
    norms v0 (ix2 i u) = Cert.DistSpec.sq (atoms v0) i := by
  unfold norms
  refine (shapeCast_a_a1_apply _ shapeCasts_S1000_S1000x1 i u).trans ?_
  refine (rowsum_apply (mulf (rows v0) (rows v0)) reduces_S1000x3_S1000 (.inl rfl) rfl i).trans ?_
  exact Finset.sum_congr rfl fun k _ => congrArg₂ (· * ·) (rows_apply v0 i k) (rows_apply v0 i k)

/-- The matrix of inner products: the 1000 × 3 matrix times its transpose, accumulated from zero. -/
def prods (v0 : Vec Ideal S1x1000x3 .f32) : FVec Ideal S1000x1000 .f32 :=
  matmul dot_S1000x3_S3x1000_S1000x1000_1_0_0_1_n_n (some .fp32) (rows v0)
    (transpose S3x1000 [1, 0] (rows v0) transposes_S1000x3_p1_0_S3x1000)
    (constant (F := Ideal) S1000x1000 .f32 0x00000000#32)

/-- At `(i, j)` the product is the sum over the one contracted axis, re-indexed by its coordinate `c : Fin 3`: the left
    factor at `(i, c)`, the right one — the transpose at `(c, j)` — the matrix at `(j, c)`. -/
theorem prods_apply (v0 : Vec Ideal S1x1000x3 .f32) (i j : Fin 1000) :
    prods v0 (ix2 i j) = Cert.DistSpec.gram (atoms v0) i j := by
  unfold prods
  refine (Ideal.matmul_constant_zero_apply dot_S1000x3_S3x1000_S1000x1000_1_0_0_1_n_n (some .fp32) (rows v0)
    (transpose S3x1000 [1, 0] (rows v0) transposes_S1000x3_p1_0_S3x1000) (ix2 i j)).trans ?_
  rw [← Equiv.sum_comp (contrEquiv1 dot_S1000x3_S3x1000_S1000x1000_1_0_0_1_n_n 3 rfl rfl).symm]
  refine Finset.sum_congr rfl fun c _ => ?_
  have hl : dot_S1000x3_S3x1000_S1000x1000_1_0_0_1_n_n.lhsIdx (ix2 i j)
      ((contrEquiv1 dot_S1000x3_S3x1000_S1000x1000_1_0_0_1_n_n 3 rfl rfl).symm c) = ix2 i c := by
    funext ax
    match ax with
    | ⟨0, _⟩ => exact Fin.ext rfl
    | ⟨1, _⟩ =>
      exact Fin.ext ((DotDims.lhsIdx_val_of_single _ rfl (ix2 i j) _).trans
        (contrEquiv1_symm_val dot_S1000x3_S3x1000_S1000x1000_1_0_0_1_n_n 3 rfl rfl c))
  have hr : dot_S1000x3_S3x1000_S1000x1000_1_0_0_1_n_n.rhsIdx (ix2 i j)
      ((contrEquiv1 dot_S1000x3_S3x1000_S1000x1000_1_0_0_1_n_n 3 rfl rfl).symm c) = ix2 c j := by
    funext ax
    match ax with
    | ⟨0, _⟩ =>
      exact Fin.ext ((DotDims.rhsIdx_val_of_single _ rfl (ix2 i j) _).trans
        (contrEquiv1_symm_val dot_S1000x3_S3x1000_S1000x1000_1_0_0_1_n_n 3 rfl rfl c))
    | ⟨1, _⟩ => exact Fin.ext rfl
  rw [hl, hr, transpose_ix2_apply (rows v0) transposes_S1000x3_p1_0_S3x1000 c j, rows_apply, rows_apply]

/-- The matrix of squared distances in the expanded form: the column of norms plus the row of norms, minus twice the
    inner products. -/
def d2 (v0 : Vec Ideal S1x1000x3 .f32) : FVec Ideal S1000x1000 .f32 :=
  subf
    (addf (broadcastTo S1000x1000 (norms v0) broadcasts_S1000x1_S1000x1000)
      (broadcastTo S1000x1000 (transpose S1x1000 [1, 0] (norms v0) transposes_S1000x1_p1_0_S1x1000)
        broadcasts_S1x1000_S1000x1000))
    (mulf (broadcast S1000x1000 (Scalar.ofBits (F := Ideal) .f32 0x40000000#32)) (prods v0))

/-- At `(i, j)`: the column gives |x_i|², the transposed row |x_j|², and the product term is the word of 2 times ⟨x_i, x_j⟩. -/
theorem d2_apply (v0 : Vec Ideal S1x1000x3 .f32) (i j : Fin 1000) :
    d2 v0 (ix2 i j) = Cert.DistSpec.dist (atoms v0) i j := by
  have hcol : broadcastTo S1000x1000 (norms v0) broadcasts_S1000x1_S1000x1000 (ix2 i j)
      = Cert.DistSpec.sq (atoms v0) i :=
    (broadcastTo_a1_ab_apply (norms v0) broadcasts_S1000x1_S1000x1000 i j).trans (norms_apply v0 i 0)
  have hrow : broadcastTo S1000x1000 (transpose S1x1000 [1, 0] (norms v0) transposes_S1000x1_p1_0_S1x1000)
      broadcasts_S1x1000_S1000x1000 (ix2 i j) = Cert.DistSpec.sq (atoms v0) j :=
    ((broadcastTo_1b_ab_apply _ broadcasts_S1x1000_S1000x1000 i j).trans
      (transpose_ix2_apply (norms v0) transposes_S1000x1_p1_0_S1x1000 (0 : Fin 1) j)).trans (norms_apply v0 j 0)
  show (broadcastTo S1000x1000 (norms v0) broadcasts_S1000x1_S1000x1000 (ix2 i j)
      + broadcastTo S1000x1000 (transpose S1x1000 [1, 0] (norms v0) transposes_S1000x1_p1_0_S1x1000)
          broadcasts_S1x1000_S1000x1000 (ix2 i j))
      - Ideal.ofBits .f32 0x40000000#32 * prods v0 (ix2 i j) = _
  rw [hcol, hrow, prods_apply]
  rfl

/-! ## The select, and the body's value at an entry -/

/-- The body's value is the select, entry by entry, between the squared distance and the cutoff, on the bit "below the
    cutoff, and row before column", carried to a leading unit axis. -/
theorem pay_unfold (v0 : Vec Ideal S1x1000x3 .f32) :
    k0_pay1 (F := Ideal) v0
      = shapeCast S1x1000x1000
          (select
            (andi (cmpf .olt (d2 v0) (broadcast S1000x1000 (Scalar.ofBits (F := Ideal) .f32 0x41C80000#32)))
              (cmpi .slt (iota .tc S1000x1000 32 [0] iota_S1000x1000_d0_w32) (iota .tc S1000x1000 32 [1] iota_S1000x1000_d1_w32)))
            (d2 v0) (broadcast S1000x1000 (Scalar.ofBits (F := Ideal) .f32 0x41C80000#32)))
          shapeCasts_S1000x1000_S1x1000x1000 := rfl

/-- The bit the select reads at `(i, j)` is set exactly when the pair is kept: the value is below the cutoff, and the
    row coordinate, read signed, is below the column coordinate. -/
theorem bit_iff (v0 : Vec Ideal S1x1000x3 .f32) (i j : Fin 1000) :
    andi (cmpf .olt (d2 v0) (broadcast S1000x1000 (Scalar.ofBits (F := Ideal) .f32 0x41C80000#32)))
        (cmpi .slt (iota .tc S1000x1000 32 [0] iota_S1000x1000_d0_w32) (iota .tc S1000x1000 32 [1] iota_S1000x1000_d1_w32))
        (ix2 i j) = 1#1
      ↔ Cert.DistSpec.keep (atoms v0) i j := by
  show IntOp.andi (Ideal.cmp .olt (d2 v0 (ix2 i j)) (Ideal.ofBits .f32 0x41C80000#32))
      (IntOp.cmpi .slt (iota .tc S1000x1000 32 [0] iota_S1000x1000_d0_w32 (ix2 i j))
        (iota .tc S1000x1000 32 [1] iota_S1000x1000_d1_w32 (ix2 i j))) = 1#1 ↔ _
  rw [IntOp.andi_eq_one, IntOp.cmpi_slt, d2_apply,
    iota_single_apply .tc S1000x1000 32 0 iota_S1000x1000_d0_w32 (ix2 i j),
    iota_single_apply .tc S1000x1000 32 1 iota_S1000x1000_d1_w32 (ix2 i j), cmp_olt_eq_one]
  show _ ∧ (BitVec.ofNat 32 i.val).toInt < (BitVec.ofNat 32 j.val).toInt ↔ _ ∧ i.val < j.val
  rw [toInt_ofNat_small i.val i.isLt, toInt_ofNat_small j.val j.isLt, Int.ofNat_lt]
  exact Iff.rfl

/-- Where the pair is kept the body's entry `(0, i, j)` is the squared distance. -/
theorem pay_keep (v0 : Vec Ideal S1x1000x3 .f32) (i j : Fin 1000) (h : Cert.DistSpec.keep (atoms v0) i j) :
    k0_pay1 (F := Ideal) v0 (ValueIdx.ix3 (0 : Fin 1) i j) = Cert.DistSpec.dist (atoms v0) i j := by
  refine (congrFun (pay_unfold v0) (ix3 (0 : Fin 1) i j)).trans ?_
  refine (shapeCast_ab_1ab_apply _ shapeCasts_S1000x1000_S1x1000x1000 (0 : Fin 1) i j).trans ?_
  refine (select_apply _ _ _ (ix2 i j)).trans ?_
  exact (select_of_one _ _ _ ((bit_iff v0 i j).mpr h)).trans (d2_apply v0 i j)

/-- Where it is not, the entry is the cutoff. -/
theorem pay_drop (v0 : Vec Ideal S1x1000x3 .f32) (i j : Fin 1000) (h : ¬Cert.DistSpec.keep (atoms v0) i j) :
    k0_pay1 (F := Ideal) v0 (ValueIdx.ix3 (0 : Fin 1) i j) = Cert.DistSpec.cut := by
  refine (congrFun (pay_unfold v0) (ix3 (0 : Fin 1) i j)).trans ?_
  refine (shapeCast_ab_1ab_apply _ shapeCasts_S1000x1000_S1x1000x1000 (0 : Fin 1) i j).trans ?_
  refine (select_apply _ _ _ (ix2 i j)).trans ?_
  exact select_of_ne_one _ _ _ (mt (bit_iff v0 i j).mp h)

end Cert.KernelIdeal.Pay

end
-- ==== Proof.KernelIdealBlocks.lean ====
/-
  Where the region's output array ends, entry by entry.  Grid point `t` handles system `t`: its input block is rows
  (t, ·, ·) of the coordinates read as 64 systems, and the block it writes back is rows (t, ·, ·) of the output; no two
  points write the same rows.  So the output array at (s, i, j) is the body's stored value at (0, i, j) computed from
  system `s`'s block: the squared distance of atoms `i`, `j` of system `s` where the pair is kept, the cutoff elsewhere.
-/
import proofs.«164187_j65910568124749_1_alg».proof.Proof.KernelIdealFrame
import proofs.«164187_j65910568124749_1_alg».proof.Proof.KernelPay
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.KernelIdeal.GenP Cert.KernelIdeal.FrameH
open Idealize.ShloMosaic Idealize.ShloMosaic.TcCoe Idealize.SL.Sem Idealize.ShloMosaic.ValueIdx
open Idealize.ShloMosaic.Pipeline (Dat Cfg Window)
open Idealize.ShloMosaic.StableHlo (after_cons after_nil)

variable (m : (ℓ : Loc nD τ sig) → Buf (Elt Ideal) ℓ) (ρ : Dev nD → PrngReg)

/-- The index maps over the 64 grid points: both windows sit at block (t, 0, 0). -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Distinct points write distinct blocks. -/
theorem idx_inj1 : ∀ t t' : Fin cfg0.N, win0_1.index t = win0_1.index t' → t = t' := fun t t' h => by
  have e := congrFun h (0 : Fin 3)
  rw [(idx_facts t).2.2.2.1, (idx_facts t').2.2.2.1] at e
  exact Fin.ext e

theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

theorem hz3 : (![0, 0, 0] : Fin 3 → Nat) = fun _ => 0 := funext fun a => by fin_cases a <;> rfl

/-- What the body leaves in the output block is its stored value of the input block. -/
theorem out_eq (x0 : Vec Ideal S1x1000x3 .f32) : out0_1 x0 = k0_pay1 x0 := by
  unfold out0_1
  rw [View.canon_unit_zero hz3, View.ld_unit_zero (S := S1x1000x3) hz3]

/-- What point `t` writes back. -/
theorem flushed1 (c : Dev nD) (t : Fin cfg0.N) :
    (dats m 0 c).flushed 1 t = (cfg0.win 1).cut (grid0.coords t) (k0_pay1 (iblk m c 0 t)) := by
  show (cfg0.win 1).cut (grid0.coords t) ((dats m 0 c).after 1 t) = _
  rw [after0_1, out_eq]

/-- The output array under point `t`'s block is that point's stored value. -/
theorem arr_elem (c : Dev nD) (t : Fin cfg0.N) (y : ((cfg0.win 1).xblock (cfg0.grid.coords t)).Idx) :
    (dats m 0 c).arrAt 1 cfg0.N (((cfg0.win 1).blk t).view.emb y)
      = k0_pay1 (iblk m c 0 t) ((cfg0.win 1).xinj (cfg0.grid.coords t) y) := by
  have h := (dats m 0 c).arrAt_emb_eq_flushed 1 disjoint1 t (flush0_1 t) y
  refine h.trans ?_
  rw [flushed1]
  generalize hP : k0_pay1 (iblk m c 0 t) = P
  show cast _ (P ((cfg0.win 1).xinj (grid0.coords t) y)) = P ((cfg0.win 1).xinj (grid0.coords t) y)
  generalize P ((cfg0.win 1).xinj (grid0.coords t) y) = v
  exact cast_eq _ v

/-- The grid point of system `s`. -/
def pt (s : Fin 64) : Fin cfg0.N := ⟨s.val, lt_of_lt_of_eq s.isLt N_0.symm⟩

/-- Entry (0, i, j) of point `s`'s output block sits at (s, i, j) of the output array. -/
theorem emb1 (s : Fin 64) (i j : Fin 1000) :
    ((cfg0.win 1).blk (pt s)).view.emb (ix3 (0 : Fin 1) i j) = (ix3 s i j : S64x1000x1000.Idx) := by
  obtain ⟨-, -, -, e0, e1, e2⟩ := idx_facts (pt s)
  funext a; apply Fin.ext
  match a with
  | ⟨0, _⟩ => show win0_1.index (pt s) (0 : Fin 3) * 1 + 1 * (0 : ℕ) = s.val; rw [e0]; show s.val * 1 + 1 * 0 = s.val; omega
  | ⟨1, _⟩ => show win0_1.index (pt s) (1 : Fin 3) * 1000 + 1 * i.val = i.val; rw [e1]; omega
  | ⟨2, _⟩ => show win0_1.index (pt s) (2 : Fin 3) * 1000 + 1 * j.val = j.val; rw [e2]; omega

/-- Entry (0, i, d) of point `s`'s input block sits at (s, i, d) of the coordinates read as 64 systems. -/
theorem emb0 (s : Fin 64) (i : Fin 1000) (d : Fin 3) :
    ((cfg0.win 0).blk (pt s)).view.emb (ix3 (0 : Fin 1) i d) = (ix3 s i d : S64x1000x3.Idx) := by
  obtain ⟨e0, e1, e2, -, -, -⟩ := idx_facts (pt s)
  funext a; apply Fin.ext
  match a with
  | ⟨0, _⟩ => show win0_0.index (pt s) (0 : Fin 3) * 1 + 1 * (0 : ℕ) = s.val; rw [e0]; show s.val * 1 + 1 * 0 = s.val; omega
  | ⟨1, _⟩ => show win0_0.index (pt s) (1 : Fin 3) * 1000 + 1 * i.val = i.val; rw [e1]; omega
  | ⟨2, _⟩ => show win0_0.index (pt s) (2 : Fin 3) * 3 + 1 * d.val = d.val; rw [e2]; omega

/-- The full block's index of an index of the block's moved part is the same triple. -/
theorem xinj1 (s : Fin 64) (i j : Fin 1000) :
    (cfg0.win 1).xinj (cfg0.grid.coords (pt s)) (ix3 (0 : Fin 1) i j) = (ix3 (0 : Fin 1) i j : S1x1000x1000.Idx) := by
  funext a; apply Fin.ext
  match a with
  | ⟨0, _⟩ => rfl
  | ⟨1, _⟩ => rfl
  | ⟨2, _⟩ => rfl

/-- System `s`'s input block is rows (s, ·, ·) of the coordinates as the region finds them. -/
theorem iblk_at (c : Dev nD) (s : Fin 64) (i : Fin 1000) (d : Fin 3) :
    iblk m c 0 (pt s) (ix3 (0 : Fin 1) i d) = V m c main_v0 (ix3 s i d) := by
  unfold iblk
  rw [View.read_apply, emb0]
  show cast _ (V m c main_v0 (ix3 s i d)) = V m c main_v0 (ix3 s i d)
  generalize V m c main_v0 (ix3 s i d) = v
  exact cast_eq _ v

/-- The atoms of system `s`, as the region finds the coordinates. -/
def sysAtoms (c : Dev nD) (s : Fin 64) : Fin 1000 → Fin 3 → EReal := fun i d => V m c main_v0 (ix3 s i d)

theorem atoms_eq (c : Dev nD) (s : Fin 64) : Cert.KernelIdeal.Pay.atoms (iblk m c 0 (pt s)) = sysAtoms m c s := by
  funext i d; exact iblk_at m c s i d

/-- The output array at a kept pair is the pair's squared distance, -/
theorem arr_keep (c : Dev nD) (s : Fin 64) (i j : Fin 1000) (h : Cert.DistSpec.keep (sysAtoms m c s) i j) :
    (dats m 0 c).arrAt 1 cfg0.N (ix3 s i j) = Cert.DistSpec.dist (sysAtoms m c s) i j := by
  have e := arr_elem m c (pt s) (ix3 (0 : Fin 1) i j)
  rw [emb1, xinj1] at e
  rw [e, ← atoms_eq m c s]
  exact Cert.KernelIdeal.Pay.pay_keep _ i j (by rw [atoms_eq]; exact h)

/-- and at any other pair the cutoff. -/
theorem arr_drop (c : Dev nD) (s : Fin 64) (i j : Fin 1000) (h : ¬ Cert.DistSpec.keep (sysAtoms m c s) i j) :
    (dats m 0 c).arrAt 1 cfg0.N (ix3 s i j) = Cert.DistSpec.cut := by
  have e := arr_elem m c (pt s) (ix3 (0 : Fin 1) i j)
  rw [emb1, xinj1] at e
  rw [e]
  exact Cert.KernelIdeal.Pay.pay_drop _ i j (by rw [atoms_eq]; exact h)

/-- The coordinates as the region finds them: the launch contents read as 64 systems of 1000 atoms. -/
theorem V_main_v0 (c : Dev nD) :
    (V m c main_v0 : S64x1000x3.Idx → EReal)
      = fun i => shapeCast S64x1000x3 (m ((c : Thread nD τ).loc main_arg0)) shapeCasts_S64000x3_S64x1000x3 i := by
  show StableHlo.after hostOps0 (fun b => m (c, b)) (Proc.devRef .tc main_v0) = _
  after_results
  rfl

end Cert.KernelIdeal.Blocks

end
-- ==== Proof.ReferenceIdealTailDefs.lean ====
/-
  The host lines after the distances are known, one definition per buffer: what each line computes from the flag array `mf`
  (which of the 64·1000·1000 ordered pairs are kept, flattened) and the flattened array `D` of distances the kept pairs' values
  are taken from.  Positions of kept pairs are numbered by a running count, scattered into a list of 2200000 slots that
  starts at −1, and the slots' pair numbers are decoded back into atom numbers and used to fetch the distances.
-/
import proofs.«164187_j65910568124749_1_alg».proof.Proof.Gen.ReferenceIdeal
import Idealize.ShloMosaic.Lib.StableHlo

noncomputable section

namespace Cert.ReferenceIdeal.Tail

open Cert.ReferenceIdeal Cert.ReferenceIdeal.Gen
open Idealize.ShloMosaic Idealize.ShloMosaic.StableHlo

variable {F : FTy → Type} [FloatOps F]

/-! The distances and the flags, from the coordinates as 64 systems. -/

noncomputable def h_main_v1 (x : (⟨S64x1000x3, .f32⟩ : BufTy).Contents (Elt F)) : (⟨S64x1000x3, .f32⟩ : BufTy).Contents (Elt F) :=
  (mulf : (⟨S64x1000x3, .f32⟩ : BufTy).Contents (Elt F) → (⟨S64x1000x3, .f32⟩ : BufTy).Contents (Elt F) → (⟨S64x1000x3, .f32⟩ : BufTy).Contents (Elt F)) x x
noncomputable def h_main_cst (x : (⟨S64x1000x3, .f32⟩ : BufTy).Contents (Elt F)) : (⟨S_, .f32⟩ : BufTy).Contents (Elt F) :=
  (constant S_ .f32 0x00000000#32)
noncomputable def h_main_v2 (x : (⟨S64x1000x3, .f32⟩ : BufTy).Contents (Elt F)) : (⟨S64x1000, .f32⟩ : BufTy).Contents (Elt F) :=
  ((fun x v => Host.reduceAdd x v reducesTo_S64x1000x3_S64x1000_d2 h_S_) : (⟨S64x1000x3, .f32⟩ : BufTy).Contents (Elt F) → (⟨S_, .f32⟩ : BufTy).Contents (Elt F) → (⟨S64x1000, .f32⟩ : BufTy).Contents (Elt F)) (h_main_v1 x) (h_main_cst x)
noncomputable def h_main_v3 (x : (⟨S64x1000x3, .f32⟩ : BufTy).Contents (Elt F)) : (⟨S64x1000x1000, .f32⟩ : BufTy).Contents (Elt F) :=
  ((fun l r => Host.dotGeneral dot_S64x1000x3_S64x1000x3_S64x1000x1000_2_2_1_1_0_0 none l r) : (⟨S64x1000x3, .f32⟩ : BufTy).Contents (Elt F) → (⟨S64x1000x3, .f32⟩ : BufTy).Contents (Elt F) → (⟨S64x1000x1000, .f32⟩ : BufTy).Contents (Elt F)) x x
noncomputable def h_main_v4 (x : (⟨S64x1000x3, .f32⟩ : BufTy).Contents (Elt F)) : (⟨S64x1000x1, .f32⟩ : BufTy).Contents (Elt F) :=
  (broadcastInDim S64x1000x1 ![0, 1] bcast_S64x1000_S64x1000x1_0_1 : (⟨S64x1000, .f32⟩ : BufTy).Contents (Elt F) → (⟨S64x1000x1, .f32⟩ : BufTy).Contents (Elt F)) (h_main_v2 x)
noncomputable def h_main_v5 (x : (⟨S64x1000x3, .f32⟩ : BufTy).Contents (Elt F)) : (⟨S64x1x1000, .f32⟩ : BufTy).Contents (Elt F) :=
  (broadcastInDim S64x1x1000 ![0, 2] bcast_S64x1000_S64x1x1000_0_2 : (⟨S64x1000, .f32⟩ : BufTy).Contents (Elt F) → (⟨S64x1x1000, .f32⟩ : BufTy).Contents (Elt F)) (h_main_v2 x)
noncomputable def h_main_v6 (x : (⟨S64x1000x3, .f32⟩ : BufTy).Contents (Elt F)) : (⟨S64x1000x1000, .f32⟩ : BufTy).Contents (Elt F) :=
  (broadcastInDim S64x1000x1000 ![0, 1, 2] bcast_S64x1000x1_S64x1000x1000_0_1_2 : (⟨S64x1000x1, .f32⟩ : BufTy).Contents (Elt F) → (⟨S64x1000x1000, .f32⟩ : BufTy).Contents (Elt F)) (h_main_v4 x)
noncomputable def h_main_v7 (x : (⟨S64x1000x3, .f32⟩ : BufTy).Contents (Elt F)) : (⟨S64x1000x1000, .f32⟩ : BufTy).Contents (Elt F) :=
  (broadcastInDim S64x1000x1000 ![0, 1, 2] bcast_S64x1x1000_S64x1000x1000_0_1_2 : (⟨S64x1x1000, .f32⟩ : BufTy).Contents (Elt F) → (⟨S64x1000x1000, .f32⟩ : BufTy).Contents (Elt F)) (h_main_v5 x)
noncomputable def h_main_v8 (x : (⟨S64x1000x3, .f32⟩ : BufTy).Contents (Elt F)) : (⟨S64x1000x1000, .f32⟩ : BufTy).Contents (Elt F) :=
  (addf : (⟨S64x1000x1000, .f32⟩ : BufTy).Contents (Elt F) → (⟨S64x1000x1000, .f32⟩ : BufTy).Contents (Elt F) → (⟨S64x1000x1000, .f32⟩ : BufTy).Contents (Elt F)) (h_main_v6 x) (h_main_v7 x)
noncomputable def h_main_cst_0 (x : (⟨S64x1000x3, .f32⟩ : BufTy).Contents (Elt F)) : (⟨S_, .f32⟩ : BufTy).Contents (Elt F) :=
  (constant S_ .f32 0x40000000#32)
noncomputable def h_main_v9 (x : (⟨S64x1000x3, .f32⟩ : BufTy).Contents (Elt F)) : (⟨S64x1000x1000, .f32⟩ : BufTy).Contents (Elt F) :=
  (broadcastInDim S64x1000x1000 ![] bcast_S_S64x1000x1000 : (⟨S_, .f32⟩ : BufTy).Contents (Elt F) → (⟨S64x1000x1000, .f32⟩ : BufTy).Contents (Elt F)) (h_main_cst_0 x)
noncomputable def h_main_v10 (x : (⟨S64x1000x3, .f32⟩ : BufTy).Contents (Elt F)) : (⟨S64x1000x1000, .f32⟩ : BufTy).Contents (Elt F) :=
  (mulf : (⟨S64x1000x1000, .f32⟩ : BufTy).Contents (Elt F) → (⟨S64x1000x1000, .f32⟩ : BufTy).Contents (Elt F) → (⟨S64x1000x1000, .f32⟩ : BufTy).Contents (Elt F)) (h_main_v9 x) (h_main_v3 x)
noncomputable def h_main_v11 (x : (⟨S64x1000x3, .f32⟩ : BufTy).Contents (Elt F)) : (⟨S64x1000x1000, .f32⟩ : BufTy).Contents (Elt F) :=
  (subf : (⟨S64x1000x1000, .f32⟩ : BufTy).Contents (Elt F) → (⟨S64x1000x1000, .f32⟩ : BufTy).Contents (Elt F) → (⟨S64x1000x1000, .f32⟩ : BufTy).Contents (Elt F)) (h_main_v8 x) (h_main_v10 x)
noncomputable def h_main_c (x : (⟨S64x1000x3, .f32⟩ : BufTy).Contents (Elt F)) : (⟨S_, .i1⟩ : BufTy).Contents (Elt F) :=
  (constantI S_ 1 1#1)
noncomputable def h_main_v12 (x : (⟨S64x1000x3, .f32⟩ : BufTy).Contents (Elt F)) : (⟨S1000x1000, .i1⟩ : BufTy).Contents (Elt F) :=
  (broadcastInDim S1000x1000 ![] bcast_S_S1000x1000 : (⟨S_, .i1⟩ : BufTy).Contents (Elt F) → (⟨S1000x1000, .i1⟩ : BufTy).Contents (Elt F)) (h_main_c x)
noncomputable def h_main_call0_v0 (x : (⟨S64x1000x3, .f32⟩ : BufTy).Contents (Elt F)) : (⟨S1000x1000, .i32⟩ : BufTy).Contents (Elt F) :=
  (iotaInDim S1000x1000 32 0)
noncomputable def h_main_call0_c (x : (⟨S64x1000x3, .f32⟩ : BufTy).Contents (Elt F)) : (⟨S_, .i32⟩ : BufTy).Contents (Elt F) :=
  (constantI S_ 32 0#32)
noncomputable def h_main_call0_v1 (x : (⟨S64x1000x3, .f32⟩ : BufTy).Contents (Elt F)) : (⟨S1000x1000, .i32⟩ : BufTy).Contents (Elt F) :=
  (broadcastInDim S1000x1000 ![] bcast_S_S1000x1000) (h_main_call0_c x)
noncomputable def h_main_call0_v2 (x : (⟨S64x1000x3, .f32⟩ : BufTy).Contents (Elt F)) : (⟨S1000x1000, .i32⟩ : BufTy).Contents (Elt F) :=
  addi (h_main_call0_v0 x) (h_main_call0_v1 x)
noncomputable def h_main_call0_v3 (x : (⟨S64x1000x3, .f32⟩ : BufTy).Contents (Elt F)) : (⟨S1000x1000, .i32⟩ : BufTy).Contents (Elt F) :=
  (iotaInDim S1000x1000 32 1)
noncomputable def h_main_call0_v4 (x : (⟨S64x1000x3, .f32⟩ : BufTy).Contents (Elt F)) : (⟨S1000x1000, .i1⟩ : BufTy).Contents (Elt F) :=
  (cmpi .sge) (h_main_call0_v2 x) (h_main_call0_v3 x)
noncomputable def h_main_call0_c_0 (x : (⟨S64x1000x3, .f32⟩ : BufTy).Contents (Elt F)) : (⟨S_, .i1⟩ : BufTy).Contents (Elt F) :=
  (constantI S_ 1 0#1)
noncomputable def h_main_call0_v5 (x : (⟨S64x1000x3, .f32⟩ : BufTy).Contents (Elt F)) : (⟨S1000x1000, .i1⟩ : BufTy).Contents (Elt F) :=
  (broadcastInDim S1000x1000 ![] bcast_S_S1000x1000) (h_main_call0_c_0 x)
noncomputable def h_main_v13 (x : (⟨S64x1000x3, .f32⟩ : BufTy).Contents (Elt F)) : (⟨S1000x1000, .i1⟩ : BufTy).Contents (Elt F) :=
  select (h_main_call0_v4 x) (h_main_call0_v5 x) (h_main_v12 x)
noncomputable def h_main_cst_1 (x : (⟨S64x1000x3, .f32⟩ : BufTy).Contents (Elt F)) : (⟨S_, .f32⟩ : BufTy).Contents (Elt F) :=
  (constant S_ .f32 0x41C80000#32)
noncomputable def h_main_v14 (x : (⟨S64x1000x3, .f32⟩ : BufTy).Contents (Elt F)) : (⟨S64x1000x1000, .f32⟩ : BufTy).Contents (Elt F) :=
  (broadcastInDim S64x1000x1000 ![] bcast_S_S64x1000x1000 : (⟨S_, .f32⟩ : BufTy).Contents (Elt F) → (⟨S64x1000x1000, .f32⟩ : BufTy).Contents (Elt F)) (h_main_cst_1 x)
noncomputable def h_main_v15 (x : (⟨S64x1000x3, .f32⟩ : BufTy).Contents (Elt F)) : (⟨S64x1000x1000, .i1⟩ : BufTy).Contents (Elt F) :=
  (cmpf .olt : (⟨S64x1000x1000, .f32⟩ : BufTy).Contents (Elt F) → (⟨S64x1000x1000, .f32⟩ : BufTy).Contents (Elt F) → (⟨S64x1000x1000, .i1⟩ : BufTy).Contents (Elt F)) (h_main_v11 x) (h_main_v14 x)
noncomputable def h_main_v16 (x : (⟨S64x1000x3, .f32⟩ : BufTy).Contents (Elt F)) : (⟨S1x1000x1000, .i1⟩ : BufTy).Contents (Elt F) :=
  (broadcastInDim S1x1000x1000 ![1, 2] bcast_S1000x1000_S1x1000x1000_1_2 : (⟨S1000x1000, .i1⟩ : BufTy).Contents (Elt F) → (⟨S1x1000x1000, .i1⟩ : BufTy).Contents (Elt F)) (h_main_v13 x)
noncomputable def h_main_v17 (x : (⟨S64x1000x3, .f32⟩ : BufTy).Contents (Elt F)) : (⟨S64x1000x1000, .i1⟩ : BufTy).Contents (Elt F) :=
  (broadcastInDim S64x1000x1000 ![0, 1, 2] bcast_S1x1000x1000_S64x1000x1000_0_1_2 : (⟨S1x1000x1000, .i1⟩ : BufTy).Contents (Elt F) → (⟨S64x1000x1000, .i1⟩ : BufTy).Contents (Elt F)) (h_main_v16 x)
noncomputable def h_main_v18 (x : (⟨S64x1000x3, .f32⟩ : BufTy).Contents (Elt F)) : (⟨S64x1000x1000, .i1⟩ : BufTy).Contents (Elt F) :=
  (andi : (⟨S64x1000x1000, .i1⟩ : BufTy).Contents (Elt F) → (⟨S64x1000x1000, .i1⟩ : BufTy).Contents (Elt F) → (⟨S64x1000x1000, .i1⟩ : BufTy).Contents (Elt F)) (h_main_v15 x) (h_main_v17 x)

/-! The lines after them. -/

noncomputable def t_main_v20 (mf : (⟨S64000000, .i1⟩ : BufTy).Contents (Elt F)) (D : (⟨S64000000, .f32⟩ : BufTy).Contents (Elt F)) : (⟨S64000000, .i32⟩ : BufTy).Contents (Elt F) :=
  ((extui 32 · natLt_1_32) : (⟨S64000000, .i1⟩ : BufTy).Contents (Elt F) → (⟨S64000000, .i32⟩ : BufTy).Contents (Elt F)) mf
noncomputable def t_main_c_2 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v21 (mf : (⟨S64000000, .i1⟩ : BufTy).Contents (Elt F)) (D : (⟨S64000000, .f32⟩ : BufTy).Contents (Elt F)) : (⟨S_, .i32⟩ : BufTy).Contents (Elt F) :=
  ((fun x v => Host.reduce IntOp.addi x v reducesTo_S64000000_S_d0 h_S_) : (⟨S64000000, .i32⟩ : BufTy).Contents (Elt F) → (⟨S_, .i32⟩ : BufTy).Contents (Elt F) → (⟨S_, .i32⟩ : BufTy).Contents (Elt F)) (t_main_v20 mf D) (t_main_c_2 mf D)
noncomputable def t_main_v22 (mf : (⟨S64000000, .i1⟩ : BufTy).Contents (Elt F)) (D : (⟨S64000000, .f32⟩ : BufTy).Contents (Elt F)) : (⟨S64000000, .i32⟩ : BufTy).Contents (Elt F) :=
  ((extui 32 · natLt_1_32) : (⟨S64000000, .i1⟩ : BufTy).Contents (Elt F) → (⟨S64000000, .i32⟩ : BufTy).Contents (Elt F)) mf
noncomputable def t_main_call1_call0_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call1_call0_v0 (mf : (⟨S64000000, .i1⟩ : BufTy).Contents (Elt F)) (D : (⟨S64000000, .f32⟩ : BufTy).Contents (Elt F)) : (⟨S_, .i32⟩ : BufTy).Contents (Elt F) :=
  (broadcastInDim S_ ![] bcast_S_S_) (t_main_call1_call0_c mf D)
noncomputable def t_main_v23 (mf : (⟨S64000000, .i1⟩ : BufTy).Contents (Elt F)) (D : (⟨S64000000, .f32⟩ : BufTy).Contents (Elt F)) : (⟨S64000000, .i32⟩ : BufTy).Contents (Elt F) :=
  (fun x v => Host.reduceWindow IntOp.addi ![64000000] ![1] ![63999999] ![0] x v reduceWindows_S64000000_S64000000_w64000000s1p63999999_0 h_S_) (t_main_v22 mf D) (t_main_call1_call0_v0 mf D)
noncomputable def t_main_c_3 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_v24 (mf : (⟨S64000000, .i1⟩ : BufTy).Contents (Elt F)) (D : (⟨S64000000, .f32⟩ : BufTy).Contents (Elt F)) : (⟨S64000000, .i32⟩ : BufTy).Contents (Elt F) :=
  (broadcastInDim S64000000 ![] bcast_S_S64000000 : (⟨S_, .i32⟩ : BufTy).Contents (Elt F) → (⟨S64000000, .i32⟩ : BufTy).Contents (Elt F)) (t_main_c_3 mf D)
noncomputable def t_main_v25 (mf : (⟨S64000000, .i1⟩ : BufTy).Contents (Elt F)) (D : (⟨S64000000, .f32⟩ : BufTy).Contents (Elt F)) : (⟨S64000000, .i32⟩ : BufTy).Contents (Elt F) :=
  (subi : (⟨S64000000, .i32⟩ : BufTy).Contents (Elt F) → (⟨S64000000, .i32⟩ : BufTy).Contents (Elt F) → (⟨S64000000, .i32⟩ : BufTy).Contents (Elt F)) (t_main_v23 mf D) (t_main_v24 mf D)
noncomputable def t_main_c_4 (mf : (⟨S64000000, .i1⟩ : BufTy).Contents (Elt F)) (D : (⟨S64000000, .f32⟩ : BufTy).Contents (Elt F)) : (⟨S_, .i32⟩ : BufTy).Contents (Elt F) :=
  (constantI S_ 32 2200000#32)
noncomputable def t_main_call2_v0 (mf : (⟨S64000000, .i1⟩ : BufTy).Contents (Elt F)) (D : (⟨S64000000, .f32⟩ : BufTy).Contents (Elt F)) : (⟨S_, .i32⟩ : BufTy).Contents (Elt F) :=
  id (t_main_c_4 mf D)
noncomputable def t_main_call2_v1 (mf : (⟨S64000000, .i1⟩ : BufTy).Contents (Elt F)) (D : (⟨S64000000, .f32⟩ : BufTy).Contents (Elt F)) : (⟨S64000000, .i32⟩ : BufTy).Contents (Elt F) :=
  (broadcastInDim S64000000 ![] bcast_S_S64000000) (t_main_call2_v0 mf D)
noncomputable def t_main_v26 (mf : (⟨S64000000, .i1⟩ : BufTy).Contents (Elt F)) (D : (⟨S64000000, .f32⟩ : BufTy).Contents (Elt F)) : (⟨S64000000, .i32⟩ : BufTy).Contents (Elt F) :=
  select mf (t_main_v25 mf D) (t_main_call2_v1 mf D)
noncomputable def t_main_v27 (mf : (⟨S64000000, .i1⟩ : BufTy).Contents (Elt F)) (D : (⟨S64000000, .f32⟩ : BufTy).Contents (Elt F)) : (⟨S64000000, .i32⟩ : BufTy).Contents (Elt F) :=
  (iotaInDim S64000000 32 0)
noncomputable def t_main_c_5 (mf : (⟨S64000000, .i1⟩ : BufTy).Contents (Elt F)) (D : (⟨S64000000, .f32⟩ : BufTy).Contents (Elt F)) : (⟨S_, .i32⟩ : BufTy).Contents (Elt F) :=
  (constantI S_ 32 4294967295#32)
noncomputable def t_main_v28 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_5 mf D)
noncomputable def t_main_c_6 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v29 (mf : (⟨S64000000, .i1⟩ : BufTy).Contents (Elt F)) (D : (⟨S64000000, .f32⟩ : BufTy).Contents (Elt F)) : (⟨S64000000, .i32⟩ : BufTy).Contents (Elt F) :=
  (broadcastInDim S64000000 ![] bcast_S_S64000000 : (⟨S_, .i32⟩ : BufTy).Contents (Elt F) → (⟨S64000000, .i32⟩ : BufTy).Contents (Elt F)) (t_main_c_6 mf D)
noncomputable def t_main_v30 (mf : (⟨S64000000, .i1⟩ : BufTy).Contents (Elt F)) (D : (⟨S64000000, .f32⟩ : BufTy).Contents (Elt F)) : (⟨S64000000, .i1⟩ : BufTy).Contents (Elt F) :=
  (cmpi .slt : (⟨S64000000, .i32⟩ : BufTy).Contents (Elt F) → (⟨S64000000, .i32⟩ : BufTy).Contents (Elt F) → (⟨S64000000, .i1⟩ : BufTy).Contents (Elt F)) (t_main_v26 mf D) (t_main_v29 mf D)
noncomputable def t_main_c_7 (mf : (⟨S64000000, .i1⟩ : BufTy).Contents (Elt F)) (D : (⟨S64000000, .f32⟩ : BufTy).Contents (Elt F)) : (⟨S_, .i32⟩ : BufTy).Contents (Elt F) :=
  (constantI S_ 32 2200000#32)
noncomputable def t_main_v31 (mf : (⟨S64000000, .i1⟩ : BufTy).Contents (Elt F)) (D : (⟨S64000000, .f32⟩ : BufTy).Contents (Elt F)) : (⟨S64000000, .i32⟩ : BufTy).Contents (Elt F) :=
  (broadcastInDim S64000000 ![] bcast_S_S64000000 : (⟨S_, .i32⟩ : BufTy).Contents (Elt F) → (⟨S64000000, .i32⟩ : BufTy).Contents (Elt F)) (t_main_c_7 mf D)
noncomputable def t_main_v32 (mf : (⟨S64000000, .i1⟩ : BufTy).Contents (Elt F)) (D : (⟨S64000000, .f32⟩ : BufTy).Contents (Elt F)) : (⟨S64000000, .i32⟩ : BufTy).Contents (Elt F) :=
  (addi : (⟨S64000000, .i32⟩ : BufTy).Contents (Elt F) → (⟨S64000000, .i32⟩ : BufTy).Contents (Elt F) → (⟨S64000000, .i32⟩ : BufTy).Contents (Elt F)) (t_main_v26 mf D) (t_main_v31 mf D)
noncomputable def t_main_v33 (mf : (⟨S64000000, .i1⟩ : BufTy).Contents (Elt F)) (D : (⟨S64000000, .f32⟩ : BufTy).Contents (Elt F)) : (⟨S64000000, .i32⟩ : BufTy).Contents (Elt F) :=
  (select : (⟨S64000000, .i1⟩ : BufTy).Contents (Elt F) → (⟨S64000000, .i32⟩ : BufTy).Contents (Elt F) → (⟨S64000000, .i32⟩ : BufTy).Contents (Elt F) → (⟨S64000000, .i32⟩ : BufTy).Contents (Elt F)) (t_main_v30 mf D) (t_main_v32 mf D) (t_main_v26 mf D)
noncomputable def t_main_v34 (mf : (⟨S64000000, .i1⟩ : BufTy).Contents (Elt F)) (D : (⟨S64000000, .f32⟩ : BufTy).Contents (Elt F)) : (⟨S64000000x1, .i32⟩ : BufTy).Contents (Elt F) :=
  (broadcastInDim S64000000x1 ![0] bcast_S64000000_S64000000x1_0 : (⟨S64000000, .i32⟩ : BufTy).Contents (Elt F) → (⟨S64000000x1, .i32⟩ : BufTy).Contents (Elt F)) (t_main_v33 mf D)
noncomputable def t_main_v35 (mf : (⟨S64000000, .i1⟩ : BufTy).Contents (Elt F)) (D : (⟨S64000000, .f32⟩ : BufTy).Contents (Elt F)) : (⟨S2200000, .i32⟩ : BufTy).Contents (Elt F) :=
  ((fun x i u => Host.scatter scatter_S2200000_S64000000x1_S64000000_n_0_0_1 (fun _ b => b) x i u) : (⟨S2200000, .i32⟩ : BufTy).Contents (Elt F) → (⟨S64000000x1, .i32⟩ : BufTy).Contents (Elt F) → (⟨S64000000, .i32⟩ : BufTy).Contents (Elt F) → (⟨S2200000, .i32⟩ : BufTy).Contents (Elt F)) (t_main_v28 mf D) (t_main_v34 mf D) (t_main_v27 mf D)
noncomputable def t_main_c_8 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v36 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_8 mf D)
noncomputable def t_main_v37 (mf : (⟨S64000000, .i1⟩ : BufTy).Contents (Elt F)) (D : (⟨S64000000, .f32⟩ : BufTy).Contents (Elt F)) : (⟨S2200000, .i1⟩ : BufTy).Contents (Elt F) :=
  (cmpi .sge : (⟨S2200000, .i32⟩ : BufTy).Contents (Elt F) → (⟨S2200000, .i32⟩ : BufTy).Contents (Elt F) → (⟨S2200000, .i1⟩ : BufTy).Contents (Elt F)) (t_main_v35 mf D) (t_main_v36 mf D)
noncomputable def t_main_c_9 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v38 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_9 mf D)
noncomputable def t_main_v39 (mf : (⟨S64000000, .i1⟩ : BufTy).Contents (Elt F)) (D : (⟨S64000000, .f32⟩ : BufTy).Contents (Elt F)) : (⟨S2200000, .i32⟩ : BufTy).Contents (Elt F) :=
  (maxsi : (⟨S2200000, .i32⟩ : BufTy).Contents (Elt F) → (⟨S2200000, .i32⟩ : BufTy).Contents (Elt F) → (⟨S2200000, .i32⟩ : BufTy).Contents (Elt F)) (t_main_v35 mf D) (t_main_v38 mf D)
noncomputable def t_main_c_10 (mf : (⟨S64000000, .i1⟩ : BufTy).Contents (Elt F)) (D : (⟨S64000000, .f32⟩ : BufTy).Contents (Elt F)) : (⟨S_, .i32⟩ : BufTy).Contents (Elt F) :=
  (constantI S_ 32 1000000#32)
noncomputable def t_main_call3_v0 (mf : (⟨S64000000, .i1⟩ : BufTy).Contents (Elt F)) (D : (⟨S64000000, .f32⟩ : BufTy).Contents (Elt F)) : (⟨S_, .i32⟩ : BufTy).Contents (Elt F) :=
  id (t_main_c_10 mf D)
noncomputable def t_main_call3_v1 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call3_v0 mf D)
noncomputable def t_main_call3_v2 (mf : (⟨S64000000, .i1⟩ : BufTy).Contents (Elt F)) (D : (⟨S64000000, .f32⟩ : BufTy).Contents (Elt F)) : (⟨S2200000, .i32⟩ : BufTy).Contents (Elt F) :=
  Host.divsi (t_main_v39 mf D) (t_main_call3_v1 mf D)
noncomputable def t_main_call3_v3 (mf : (⟨S64000000, .i1⟩ : BufTy).Contents (Elt F)) (D : (⟨S64000000, .f32⟩ : BufTy).Contents (Elt F)) : (⟨S2200000, .i32⟩ : BufTy).Contents (Elt F) :=
  signi (t_main_v39 mf D)
noncomputable def t_main_call3_v4 (mf : (⟨S64000000, .i1⟩ : BufTy).Contents (Elt F)) (D : (⟨S64000000, .f32⟩ : BufTy).Contents (Elt F)) : (⟨S_, .i32⟩ : BufTy).Contents (Elt F) :=
  signi (t_main_call3_v0 mf D)
noncomputable def t_main_call3_v5 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call3_v4 mf D)
noncomputable def t_main_call3_v6 (mf : (⟨S64000000, .i1⟩ : BufTy).Contents (Elt F)) (D : (⟨S64000000, .f32⟩ : BufTy).Contents (Elt F)) : (⟨S2200000, .i1⟩ : BufTy).Contents (Elt F) :=
  (cmpi .ne) (t_main_call3_v3 mf D) (t_main_call3_v5 mf D)
noncomputable def t_main_call3_v7 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call3_v0 mf D)
noncomputable def t_main_call3_v8 (mf : (⟨S64000000, .i1⟩ : BufTy).Contents (Elt F)) (D : (⟨S64000000, .f32⟩ : BufTy).Contents (Elt F)) : (⟨S2200000, .i32⟩ : BufTy).Contents (Elt F) :=
  Host.remsi (t_main_v39 mf D) (t_main_call3_v7 mf D)
noncomputable def t_main_call3_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call3_v9 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call3_c mf D)
noncomputable def t_main_call3_v10 (mf : (⟨S64000000, .i1⟩ : BufTy).Contents (Elt F)) (D : (⟨S64000000, .f32⟩ : BufTy).Contents (Elt F)) : (⟨S2200000, .i1⟩ : BufTy).Contents (Elt F) :=
  (cmpi .ne) (t_main_call3_v8 mf D) (t_main_call3_v9 mf D)
noncomputable def t_main_call3_v11 (mf : (⟨S64000000, .i1⟩ : BufTy).Contents (Elt F)) (D : (⟨S64000000, .f32⟩ : BufTy).Contents (Elt F)) : (⟨S2200000, .i1⟩ : BufTy).Contents (Elt F) :=
  andi (t_main_call3_v6 mf D) (t_main_call3_v10 mf D)
noncomputable def t_main_call3_c_0 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_call3_v12 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call3_c_0 mf D)
noncomputable def t_main_call3_v13 (mf : (⟨S64000000, .i1⟩ : BufTy).Contents (Elt F)) (D : (⟨S64000000, .f32⟩ : BufTy).Contents (Elt F)) : (⟨S2200000, .i32⟩ : BufTy).Contents (Elt F) :=
  subi (t_main_call3_v2 mf D) (t_main_call3_v12 mf D)
noncomputable def t_main_v40 (mf : (⟨S64000000, .i1⟩ : BufTy).Contents (Elt F)) (D : (⟨S64000000, .f32⟩ : BufTy).Contents (Elt F)) : (⟨S2200000, .i32⟩ : BufTy).Contents (Elt F) :=
  select (t_main_call3_v11 mf D) (t_main_call3_v13 mf D) (t_main_call3_v2 mf D)
noncomputable def t_main_c_11 (mf : (⟨S64000000, .i1⟩ : BufTy).Contents (Elt F)) (D : (⟨S64000000, .f32⟩ : BufTy).Contents (Elt F)) : (⟨S_, .i32⟩ : BufTy).Contents (Elt F) :=
  (constantI S_ 32 1000000#32)
noncomputable def t_main_call4_v0 (mf : (⟨S64000000, .i1⟩ : BufTy).Contents (Elt F)) (D : (⟨S64000000, .f32⟩ : BufTy).Contents (Elt F)) : (⟨S_, .i32⟩ : BufTy).Contents (Elt F) :=
  id (t_main_c_11 mf D)
noncomputable def t_main_call4_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call4_v1 (mf : (⟨S64000000, .i1⟩ : BufTy).Contents (Elt F)) (D : (⟨S64000000, .f32⟩ : BufTy).Contents (Elt F)) : (⟨S_, .i1⟩ : BufTy).Contents (Elt F) :=
  (cmpi .eq) (t_main_call4_v0 mf D) (t_main_call4_c mf D)
noncomputable def t_main_call4_c_0 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_call4_v2 (mf : (⟨S64000000, .i1⟩ : BufTy).Contents (Elt F)) (D : (⟨S64000000, .f32⟩ : BufTy).Contents (Elt F)) : (⟨S_, .i32⟩ : BufTy).Contents (Elt F) :=
  select (t_main_call4_v1 mf D) (t_main_call4_c_0 mf D) (t_main_call4_v0 mf D)
noncomputable def t_main_call4_v3 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call4_v2 mf D)
noncomputable def t_main_call4_v4 (mf : (⟨S64000000, .i1⟩ : BufTy).Contents (Elt F)) (D : (⟨S64000000, .f32⟩ : BufTy).Contents (Elt F)) : (⟨S2200000, .i32⟩ : BufTy).Contents (Elt F) :=
  Host.remsi (t_main_v39 mf D) (t_main_call4_v3 mf D)
noncomputable def t_main_call4_c_1 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call4_v5 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call4_c_1 mf D)
noncomputable def t_main_call4_v6 (mf : (⟨S64000000, .i1⟩ : BufTy).Contents (Elt F)) (D : (⟨S64000000, .f32⟩ : BufTy).Contents (Elt F)) : (⟨S2200000, .i1⟩ : BufTy).Contents (Elt F) :=
  (cmpi .ne) (t_main_call4_v4 mf D) (t_main_call4_v5 mf D)
noncomputable def t_main_call4_c_2 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call4_v7 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call4_c_2 mf D)
noncomputable def t_main_call4_v8 (mf : (⟨S64000000, .i1⟩ : BufTy).Contents (Elt F)) (D : (⟨S64000000, .f32⟩ : BufTy).Contents (Elt F)) : (⟨S2200000, .i1⟩ : BufTy).Contents (Elt F) :=
  (cmpi .slt) (t_main_call4_v4 mf D) (t_main_call4_v7 mf D)
noncomputable def t_main_call4_c_3 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call4_v9 (mf : (⟨S64000000, .i1⟩ : BufTy).Contents (Elt F)) (D : (⟨S64000000, .f32⟩ : BufTy).Contents (Elt F)) : (⟨S_, .i1⟩ : BufTy).Contents (Elt F) :=
  (cmpi .slt) (t_main_call4_v2 mf D) (t_main_call4_c_3 mf D)
noncomputable def t_main_call4_v10 (mf : (⟨S64000000, .i1⟩ : BufTy).Contents (Elt F)) (D : (⟨S64000000, .f32⟩ : BufTy).Contents (Elt F)) : (⟨S2200000, .i1⟩ : BufTy).Contents (Elt F) :=
  (broadcastInDim S2200000 ![] bcast_S_S2200000) (t_main_call4_v9 mf D)
noncomputable def t_main_call4_v11 (mf : (⟨S64000000, .i1⟩ : BufTy).Contents (Elt F)) (D : (⟨S64000000, .f32⟩ : BufTy).Contents (Elt F)) : (⟨S2200000, .i1⟩ : BufTy).Contents (Elt F) :=
  (cmpi .ne) (t_main_call4_v8 mf D) (t_main_call4_v10 mf D)
noncomputable def t_main_call4_v12 (mf : (⟨S64000000, .i1⟩ : BufTy).Contents (Elt F)) (D : (⟨S64000000, .f32⟩ : BufTy).Contents (Elt F)) : (⟨S2200000, .i1⟩ : BufTy).Contents (Elt F) :=
  andi (t_main_call4_v11 mf D) (t_main_call4_v6 mf D)
noncomputable def t_main_call4_v13 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call4_v2 mf D)
noncomputable def t_main_call4_v14 (mf : (⟨S64000000, .i1⟩ : BufTy).Contents (Elt F)) (D : (⟨S64000000, .f32⟩ : BufTy).Contents (Elt F)) : (⟨S2200000, .i32⟩ : BufTy).Contents (Elt F) :=
  addi (t_main_call4_v4 mf D) (t_main_call4_v13 mf D)
noncomputable def t_main_v41 (mf : (⟨S64000000, .i1⟩ : BufTy).Contents (Elt F)) (D : (⟨S64000000, .f32⟩ : BufTy).Contents (Elt F)) : (⟨S2200000, .i32⟩ : BufTy).Contents (Elt F) :=
  select (t_main_call4_v12 mf D) (t_main_call4_v14 mf D) (t_main_call4_v4 mf D)
noncomputable def t_main_c_12 (mf : (⟨S64000000, .i1⟩ : BufTy).Contents (Elt F)) (D : (⟨S64000000, .f32⟩ : BufTy).Contents (Elt F)) : (⟨S_, .i32⟩ : BufTy).Contents (Elt F) :=
  (constantI S_ 32 1000#32)
noncomputable def t_main_call5_v0 (mf : (⟨S64000000, .i1⟩ : BufTy).Contents (Elt F)) (D : (⟨S64000000, .f32⟩ : BufTy).Contents (Elt F)) : (⟨S_, .i32⟩ : BufTy).Contents (Elt F) :=
  id (t_main_c_12 mf D)
noncomputable def t_main_call5_v1 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call5_v0 mf D)
noncomputable def t_main_call5_v2 (mf : (⟨S64000000, .i1⟩ : BufTy).Contents (Elt F)) (D : (⟨S64000000, .f32⟩ : BufTy).Contents (Elt F)) : (⟨S2200000, .i32⟩ : BufTy).Contents (Elt F) :=
  Host.divsi (t_main_v41 mf D) (t_main_call5_v1 mf D)
noncomputable def t_main_call5_v3 (mf : (⟨S64000000, .i1⟩ : BufTy).Contents (Elt F)) (D : (⟨S64000000, .f32⟩ : BufTy).Contents (Elt F)) : (⟨S2200000, .i32⟩ : BufTy).Contents (Elt F) :=
  signi (t_main_v41 mf D)
noncomputable def t_main_call5_v4 (mf : (⟨S64000000, .i1⟩ : BufTy).Contents (Elt F)) (D : (⟨S64000000, .f32⟩ : BufTy).Contents (Elt F)) : (⟨S_, .i32⟩ : BufTy).Contents (Elt F) :=
  signi (t_main_call5_v0 mf D)
noncomputable def t_main_call5_v5 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call5_v4 mf D)
noncomputable def t_main_call5_v6 (mf : (⟨S64000000, .i1⟩ : BufTy).Contents (Elt F)) (D : (⟨S64000000, .f32⟩ : BufTy).Contents (Elt F)) : (⟨S2200000, .i1⟩ : BufTy).Contents (Elt F) :=
  (cmpi .ne) (t_main_call5_v3 mf D) (t_main_call5_v5 mf D)
noncomputable def t_main_call5_v7 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call5_v0 mf D)
noncomputable def t_main_call5_v8 (mf : (⟨S64000000, .i1⟩ : BufTy).Contents (Elt F)) (D : (⟨S64000000, .f32⟩ : BufTy).Contents (Elt F)) : (⟨S2200000, .i32⟩ : BufTy).Contents (Elt F) :=
  Host.remsi (t_main_v41 mf D) (t_main_call5_v7 mf D)
noncomputable def t_main_call5_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call5_v9 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call5_c mf D)
noncomputable def t_main_call5_v10 (mf : (⟨S64000000, .i1⟩ : BufTy).Contents (Elt F)) (D : (⟨S64000000, .f32⟩ : BufTy).Contents (Elt F)) : (⟨S2200000, .i1⟩ : BufTy).Contents (Elt F) :=
  (cmpi .ne) (t_main_call5_v8 mf D) (t_main_call5_v9 mf D)
noncomputable def t_main_call5_v11 (mf : (⟨S64000000, .i1⟩ : BufTy).Contents (Elt F)) (D : (⟨S64000000, .f32⟩ : BufTy).Contents (Elt F)) : (⟨S2200000, .i1⟩ : BufTy).Contents (Elt F) :=
  andi (t_main_call5_v6 mf D) (t_main_call5_v10 mf D)
noncomputable def t_main_call5_c_0 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_call5_v12 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call5_c_0 mf D)
noncomputable def t_main_call5_v13 (mf : (⟨S64000000, .i1⟩ : BufTy).Contents (Elt F)) (D : (⟨S64000000, .f32⟩ : BufTy).Contents (Elt F)) : (⟨S2200000, .i32⟩ : BufTy).Contents (Elt F) :=
  subi (t_main_call5_v2 mf D) (t_main_call5_v12 mf D)
noncomputable def t_main_v42 (mf : (⟨S64000000, .i1⟩ : BufTy).Contents (Elt F)) (D : (⟨S64000000, .f32⟩ : BufTy).Contents (Elt F)) : (⟨S2200000, .i32⟩ : BufTy).Contents (Elt F) :=
  select (t_main_call5_v11 mf D) (t_main_call5_v13 mf D) (t_main_call5_v2 mf D)
noncomputable def t_main_c_13 (mf : (⟨S64000000, .i1⟩ : BufTy).Contents (Elt F)) (D : (⟨S64000000, .f32⟩ : BufTy).Contents (Elt F)) : (⟨S_, .i32⟩ : BufTy).Contents (Elt F) :=
  (constantI S_ 32 1000#32)
noncomputable def t_main_call6_v0 (mf : (⟨S64000000, .i1⟩ : BufTy).Contents (Elt F)) (D : (⟨S64000000, .f32⟩ : BufTy).Contents (Elt F)) : (⟨S_, .i32⟩ : BufTy).Contents (Elt F) :=
  id (t_main_c_13 mf D)
noncomputable def t_main_call6_c (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call6_v1 (mf : (⟨S64000000, .i1⟩ : BufTy).Contents (Elt F)) (D : (⟨S64000000, .f32⟩ : BufTy).Contents (Elt F)) : (⟨S_, .i1⟩ : BufTy).Contents (Elt F) :=
  (cmpi .eq) (t_main_call6_v0 mf D) (t_main_call6_c mf D)
noncomputable def t_main_call6_c_0 (mf : (⟨S64000000, .i1⟩ : BufTy).Contents (Elt F)) (D : (⟨S64000000, .f32⟩ : BufTy).Contents (Elt F)) : (⟨S_, .i32⟩ : BufTy).Contents (Elt F) :=
  (constantI S_ 32 1#32)
noncomputable def t_main_call6_v2 (mf : (⟨S64000000, .i1⟩ : BufTy).Contents (Elt F)) (D : (⟨S64000000, .f32⟩ : BufTy).Contents (Elt F)) : (⟨S_, .i32⟩ : BufTy).Contents (Elt F) :=
  select (t_main_call6_v1 mf D) (t_main_call6_c_0 mf D) (t_main_call6_v0 mf D)
noncomputable def t_main_call6_v3 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call6_v2 mf D)
noncomputable def t_main_call6_v4 (mf : (⟨S64000000, .i1⟩ : BufTy).Contents (Elt F)) (D : (⟨S64000000, .f32⟩ : BufTy).Contents (Elt F)) : (⟨S2200000, .i32⟩ : BufTy).Contents (Elt F) :=
  Host.remsi (t_main_v41 mf D) (t_main_call6_v3 mf D)
noncomputable def t_main_call6_c_1 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call6_v5 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call6_c_1 mf D)
noncomputable def t_main_call6_v6 (mf : (⟨S64000000, .i1⟩ : BufTy).Contents (Elt F)) (D : (⟨S64000000, .f32⟩ : BufTy).Contents (Elt F)) : (⟨S2200000, .i1⟩ : BufTy).Contents (Elt F) :=
  (cmpi .ne) (t_main_call6_v4 mf D) (t_main_call6_v5 mf D)
noncomputable def t_main_call6_c_2 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call6_v7 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call6_c_2 mf D)
noncomputable def t_main_call6_v8 (mf : (⟨S64000000, .i1⟩ : BufTy).Contents (Elt F)) (D : (⟨S64000000, .f32⟩ : BufTy).Contents (Elt F)) : (⟨S2200000, .i1⟩ : BufTy).Contents (Elt F) :=
  (cmpi .slt) (t_main_call6_v4 mf D) (t_main_call6_v7 mf D)
noncomputable def t_main_call6_c_3 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_call6_v9 (mf : (⟨S64000000, .i1⟩ : BufTy).Contents (Elt F)) (D : (⟨S64000000, .f32⟩ : BufTy).Contents (Elt F)) : (⟨S_, .i1⟩ : BufTy).Contents (Elt F) :=
  (cmpi .slt) (t_main_call6_v2 mf D) (t_main_call6_c_3 mf D)
noncomputable def t_main_call6_v10 (mf : (⟨S64000000, .i1⟩ : BufTy).Contents (Elt F)) (D : (⟨S64000000, .f32⟩ : BufTy).Contents (Elt F)) : (⟨S2200000, .i1⟩ : BufTy).Contents (Elt F) :=
  (broadcastInDim S2200000 ![] bcast_S_S2200000) (t_main_call6_v9 mf D)
noncomputable def t_main_call6_v11 (mf : (⟨S64000000, .i1⟩ : BufTy).Contents (Elt F)) (D : (⟨S64000000, .f32⟩ : BufTy).Contents (Elt F)) : (⟨S2200000, .i1⟩ : BufTy).Contents (Elt F) :=
  (cmpi .ne) (t_main_call6_v8 mf D) (t_main_call6_v10 mf D)
noncomputable def t_main_call6_v12 (mf : (⟨S64000000, .i1⟩ : BufTy).Contents (Elt F)) (D : (⟨S64000000, .f32⟩ : BufTy).Contents (Elt F)) : (⟨S2200000, .i1⟩ : BufTy).Contents (Elt F) :=
  andi (t_main_call6_v11 mf D) (t_main_call6_v6 mf D)
noncomputable def t_main_call6_v13 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call6_v2 mf D)
noncomputable def t_main_call6_v14 (mf : (⟨S64000000, .i1⟩ : BufTy).Contents (Elt F)) (D : (⟨S64000000, .f32⟩ : BufTy).Contents (Elt F)) : (⟨S2200000, .i32⟩ : BufTy).Contents (Elt F) :=
  addi (t_main_call6_v4 mf D) (t_main_call6_v13 mf D)
noncomputable def t_main_v43 (mf : (⟨S64000000, .i1⟩ : BufTy).Contents (Elt F)) (D : (⟨S64000000, .f32⟩ : BufTy).Contents (Elt F)) : (⟨S2200000, .i32⟩ : BufTy).Contents (Elt F) :=
  select (t_main_call6_v12 mf D) (t_main_call6_v14 mf D) (t_main_call6_v4 mf D)
noncomputable def t_main_c_14 (mf : (⟨S64000000, .i1⟩ : BufTy).Contents (Elt F)) (D : (⟨S64000000, .f32⟩ : BufTy).Contents (Elt F)) : (⟨S_, .i32⟩ : BufTy).Contents (Elt F) :=
  (constantI S_ 32 1000#32)
noncomputable def t_main_v44 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_14 mf D)
noncomputable def t_main_v45 (mf : (⟨S64000000, .i1⟩ : BufTy).Contents (Elt F)) (D : (⟨S64000000, .f32⟩ : BufTy).Contents (Elt F)) : (⟨S2200000, .i32⟩ : BufTy).Contents (Elt F) :=
  (muli : (⟨S2200000, .i32⟩ : BufTy).Contents (Elt F) → (⟨S2200000, .i32⟩ : BufTy).Contents (Elt F) → (⟨S2200000, .i32⟩ : BufTy).Contents (Elt F)) (t_main_v40 mf D) (t_main_v44 mf D)
noncomputable def t_main_v46 (mf : (⟨S64000000, .i1⟩ : BufTy).Contents (Elt F)) (D : (⟨S64000000, .f32⟩ : BufTy).Contents (Elt F)) : (⟨S2200000, .i32⟩ : BufTy).Contents (Elt F) :=
  (addi : (⟨S2200000, .i32⟩ : BufTy).Contents (Elt F) → (⟨S2200000, .i32⟩ : BufTy).Contents (Elt F) → (⟨S2200000, .i32⟩ : BufTy).Contents (Elt F)) (t_main_v45 mf D) (t_main_v42 mf D)
noncomputable def t_main_c_15 (mf : (⟨S64000000, .i1⟩ : BufTy).Contents (Elt F)) (D : (⟨S64000000, .f32⟩ : BufTy).Contents (Elt F)) : (⟨S_, .i32⟩ : BufTy).Contents (Elt F) :=
  (constantI S_ 32 64000#32)
noncomputable def t_main_call7_v0 (mf : (⟨S64000000, .i1⟩ : BufTy).Contents (Elt F)) (D : (⟨S64000000, .f32⟩ : BufTy).Contents (Elt F)) : (⟨S_, .i32⟩ : BufTy).Contents (Elt F) :=
  id (t_main_c_15 mf D)
noncomputable def t_main_call7_v1 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call7_v0 mf D)
noncomputable def t_main_v47 (mf : (⟨S64000000, .i1⟩ : BufTy).Contents (Elt F)) (D : (⟨S64000000, .f32⟩ : BufTy).Contents (Elt F)) : (⟨S2200000, .i32⟩ : BufTy).Contents (Elt F) :=
  select (t_main_v37 mf D) (t_main_v46 mf D) (t_main_call7_v1 mf D)
noncomputable def t_main_c_16 (mf : (⟨S64000000, .i1⟩ : BufTy).Contents (Elt F)) (D : (⟨S64000000, .f32⟩ : BufTy).Contents (Elt F)) : (⟨S_, .i32⟩ : BufTy).Contents (Elt F) :=
  (constantI S_ 32 1000#32)
noncomputable def t_main_v48 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_16 mf D)
noncomputable def t_main_v49 (mf : (⟨S64000000, .i1⟩ : BufTy).Contents (Elt F)) (D : (⟨S64000000, .f32⟩ : BufTy).Contents (Elt F)) : (⟨S2200000, .i32⟩ : BufTy).Contents (Elt F) :=
  (muli : (⟨S2200000, .i32⟩ : BufTy).Contents (Elt F) → (⟨S2200000, .i32⟩ : BufTy).Contents (Elt F) → (⟨S2200000, .i32⟩ : BufTy).Contents (Elt F)) (t_main_v40 mf D) (t_main_v48 mf D)
noncomputable def t_main_v50 (mf : (⟨S64000000, .i1⟩ : BufTy).Contents (Elt F)) (D : (⟨S64000000, .f32⟩ : BufTy).Contents (Elt F)) : (⟨S2200000, .i32⟩ : BufTy).Contents (Elt F) :=
  (addi : (⟨S2200000, .i32⟩ : BufTy).Contents (Elt F) → (⟨S2200000, .i32⟩ : BufTy).Contents (Elt F) → (⟨S2200000, .i32⟩ : BufTy).Contents (Elt F)) (t_main_v49 mf D) (t_main_v43 mf D)
noncomputable def t_main_c_17 (mf : (⟨S64000000, .i1⟩ : BufTy).Contents (Elt F)) (D : (⟨S64000000, .f32⟩ : BufTy).Contents (Elt F)) : (⟨S_, .i32⟩ : BufTy).Contents (Elt F) :=
  (constantI S_ 32 64000#32)
noncomputable def t_main_call8_v0 (mf : (⟨S64000000, .i1⟩ : BufTy).Contents (Elt F)) (D : (⟨S64000000, .f32⟩ : BufTy).Contents (Elt F)) : (⟨S_, .i32⟩ : BufTy).Contents (Elt F) :=
  id (t_main_c_17 mf D)
noncomputable def t_main_call8_v1 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000) (t_main_call8_v0 mf D)
noncomputable def t_main_v51 (mf : (⟨S64000000, .i1⟩ : BufTy).Contents (Elt F)) (D : (⟨S64000000, .f32⟩ : BufTy).Contents (Elt F)) : (⟨S2200000, .i32⟩ : BufTy).Contents (Elt F) :=
  select (t_main_v37 mf D) (t_main_v50 mf D) (t_main_call8_v1 mf D)
noncomputable def t_main_c_18 (mf : (⟨S64000000, .i1⟩ : BufTy).Contents (Elt F)) (D : (⟨S64000000, .f32⟩ : BufTy).Contents (Elt F)) : (⟨S_, .i32⟩ : BufTy).Contents (Elt F) :=
  (constantI S_ 32 0#32)
noncomputable def t_main_v53 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_18 mf D)
noncomputable def t_main_v54 (mf : (⟨S64000000, .i1⟩ : BufTy).Contents (Elt F)) (D : (⟨S64000000, .f32⟩ : BufTy).Contents (Elt F)) : (⟨S2200000, .i1⟩ : BufTy).Contents (Elt F) :=
  (cmpi .slt : (⟨S2200000, .i32⟩ : BufTy).Contents (Elt F) → (⟨S2200000, .i32⟩ : BufTy).Contents (Elt F) → (⟨S2200000, .i1⟩ : BufTy).Contents (Elt F)) (t_main_v39 mf D) (t_main_v53 mf D)
noncomputable def t_main_c_19 (mf : (⟨S64000000, .i1⟩ : BufTy).Contents (Elt F)) (D : (⟨S64000000, .f32⟩ : BufTy).Contents (Elt F)) : (⟨S_, .i32⟩ : BufTy).Contents (Elt F) :=
  (constantI S_ 32 64000000#32)
noncomputable def t_main_v55 (mf : (⟨S64000000, .i1⟩ : BufTy).Contents (Elt F)) (D : (⟨S64000000, .f32⟩ : BufTy).Contents (Elt F)) : (⟨S2200000, .i32⟩ : BufTy).Contents (Elt F) :=
  (broadcastInDim S2200000 ![] bcast_S_S2200000 : (⟨S_, .i32⟩ : BufTy).Contents (Elt F) → (⟨S2200000, .i32⟩ : BufTy).Contents (Elt F)) (t_main_c_19 mf D)
noncomputable def t_main_v56 (mf : (⟨S64000000, .i1⟩ : BufTy).Contents (Elt F)) (D : (⟨S64000000, .f32⟩ : BufTy).Contents (Elt F)) : (⟨S2200000, .i32⟩ : BufTy).Contents (Elt F) :=
  (addi : (⟨S2200000, .i32⟩ : BufTy).Contents (Elt F) → (⟨S2200000, .i32⟩ : BufTy).Contents (Elt F) → (⟨S2200000, .i32⟩ : BufTy).Contents (Elt F)) (t_main_v39 mf D) (t_main_v55 mf D)
noncomputable def t_main_v57 (mf : (⟨S64000000, .i1⟩ : BufTy).Contents (Elt F)) (D : (⟨S64000000, .f32⟩ : BufTy).Contents (Elt F)) : (⟨S2200000, .i32⟩ : BufTy).Contents (Elt F) :=
  (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) (t_main_v54 mf D) (t_main_v56 mf D) (t_main_v39 mf D)
noncomputable def t_main_v58 (mf : (⟨S64000000, .i1⟩ : BufTy).Contents (Elt F)) (D : (⟨S64000000, .f32⟩ : BufTy).Contents (Elt F)) : (⟨S2200000x1, .i32⟩ : BufTy).Contents (Elt F) :=
  (broadcastInDim S2200000x1 ![0] bcast_S2200000_S2200000x1_0 : (⟨S2200000, .i32⟩ : BufTy).Contents (Elt F) → (⟨S2200000x1, .i32⟩ : BufTy).Contents (Elt F)) (t_main_v57 mf D)
noncomputable def t_main_v59 (mf : (⟨S64000000, .i1⟩ : BufTy).Contents (Elt F)) (D : (⟨S64000000, .f32⟩ : BufTy).Contents (Elt F)) : (⟨S2200000, .f32⟩ : BufTy).Contents (Elt F) :=
  ((fun x i => Host.gather gather_S64000000_S2200000x1_S2200000_n_0_n_n_0_1_1 x i) : (⟨S64000000, .f32⟩ : BufTy).Contents (Elt F) → (⟨S2200000x1, .i32⟩ : BufTy).Contents (Elt F) → (⟨S2200000, .f32⟩ : BufTy).Contents (Elt F)) D (t_main_v58 mf D)
noncomputable def t_main_cst_20 (mf : (⟨S64000000, .i1⟩ : BufTy).Contents (Elt F)) (D : (⟨S64000000, .f32⟩ : BufTy).Contents (Elt F)) : (⟨S_, .f32⟩ : BufTy).Contents (Elt F) :=
  (constant S_ .f32 0x41C80000#32)
noncomputable def t_main_call9_v0 (mf : (⟨S64000000, .i1⟩ : BufTy).Contents (Elt F)) (D : (⟨S64000000, .f32⟩ : BufTy).Contents (Elt F)) : (⟨S2200000, .f32⟩ : BufTy).Contents (Elt F) :=
  (broadcastInDim S2200000 ![] bcast_S_S2200000) (t_main_cst_20 mf D)
noncomputable def t_main_v60 (mf : (⟨S64000000, .i1⟩ : BufTy).Contents (Elt F)) (D : (⟨S64000000, .f32⟩ : BufTy).Contents (Elt F)) : (⟨S2200000, .f32⟩ : BufTy).Contents (Elt F) :=
  select (t_main_v37 mf D) (t_main_v59 mf D) (t_main_call9_v0 mf D)
noncomputable def t_main_v61 (mf : (⟨S64000000, .i1⟩ : BufTy).Contents (Elt F)) (D : (⟨S64000000, .f32⟩ : BufTy).Contents (Elt F)) : (⟨S4400000, .i32⟩ : BufTy).Contents (Elt F) :=
  ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)) (t_main_v47 mf D) (t_main_v51 mf D)
noncomputable def t_main_v62 (mf : (⟨S64000000, .i1⟩ : BufTy).Contents (Elt F)) (D : (⟨S64000000, .f32⟩ : BufTy).Contents (Elt F)) : (⟨S4400000, .i32⟩ : BufTy).Contents (Elt F) :=
  ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)) (t_main_v51 mf D) (t_main_v47 mf D)
noncomputable def t_main_v63 (mf : (⟨S64000000, .i1⟩ : BufTy).Contents (Elt F)) (D : (⟨S64000000, .f32⟩ : BufTy).Contents (Elt F)) : (⟨S4400000, .f32⟩ : BufTy).Contents (Elt F) :=
  ((fun a b => concatenate S4400000 0 [⟨S2200000, a⟩, ⟨S2200000, b⟩] concatenates_S2200000_S2200000_S4400000_d0) : (⟨S2200000, .f32⟩ : BufTy).Contents (Elt F) → (⟨S2200000, .f32⟩ : BufTy).Contents (Elt F) → (⟨S4400000, .f32⟩ : BufTy).Contents (Elt F)) (t_main_v60 mf D) (t_main_v60 mf D)

/-- The coordinates read as 64 systems of 1000 atoms. -/
def sysOf (a : (⟨S64000x3, .f32⟩ : BufTy).Contents (Elt F)) : (⟨S64x1000x3, .f32⟩ : BufTy).Contents (Elt F) :=
  fun i => shapeCast S64x1000x3 a shapeCasts_S64000x3_S64x1000x3 i

/-- A [64, 1000, 1000] array of distances read as a vector of 64000000 entries, -/
def flat (A : (⟨S64x1000x1000, .f32⟩ : BufTy).Contents (Elt F)) : (⟨S64000000, .f32⟩ : BufTy).Contents (Elt F) :=
  fun i => shapeCast S64000000 A shapeCasts_S64x1000x1000_S64000000 i

/-- and an array of flags likewise. -/
def flatB (B : (⟨S64x1000x1000, .i1⟩ : BufTy).Contents (Elt F)) : (⟨S64000000, .i1⟩ : BufTy).Contents (Elt F) :=
  fun i => shapeCast S64000000 B shapeCasts_S64x1000x1000_S64000000 i

end Cert.ReferenceIdeal.Tail

end
-- ==== Proof.RefTail.lean ====
/-
  The reference's run read piece by piece.  Its 176 lines are cut into pieces of at most sixteen, each written with the
  plain builders; piece after piece the buffers still needed later are shown to hold the definitions at the launch
  coordinates `A`: the coordinates as 64 systems, the squared distances and the kept-pair flags its first lines make, and
  what each later line makes of the flattened flags and distances.  After the last piece that is the four results.
-/
import proofs.«164187_j65910568124749_1_alg».proof.Proof.RefRun
import proofs.«164187_j65910568124749_1_alg».proof.Proof.ReferenceIdealTailDefs
import Idealize.ShloMosaic.Lib.Pipeline.Frame

set_option maxRecDepth 16384

noncomputable section

namespace Cert.ReferenceIdeal.RefTail

open Cert.ReferenceIdeal Cert.ReferenceIdeal.Gen Cert.ReferenceIdeal.RefRun Cert.ReferenceIdeal.Tail
open Idealize.ShloMosaic Idealize.ShloMosaic.TcCoe Idealize.SL.Sem Idealize.ShloMosaic.StableHlo

variable {F : FTy → Type} [FloatOps F]

abbrev rseg1 : List (HloOp τ sig (Elt F)) :=
  [ StableHlo.reshape main_arg0 main_v0 rfl shapeCasts_S64000x3_S64x1000x3,
    StableHlo.binary main_v0 main_v0 main_v1 (mulf : (⟨S64x1000x3, .f32⟩ : BufTy).Contents (Elt F) → (⟨S64x1000x3, .f32⟩ : BufTy).Contents (Elt F) → (⟨S64x1000x3, .f32⟩ : BufTy).Contents (Elt F)),
    StableHlo.nullary main_cst (constant S_ .f32 0x00000000#32),
    StableHlo.binary main_v1 main_cst main_v2 ((fun x v => Host.reduceAdd x v reducesTo_S64x1000x3_S64x1000_d2 h_S_) : (⟨S64x1000x3, .f32⟩ : BufTy).Contents (Elt F) → (⟨S_, .f32⟩ : BufTy).Contents (Elt F) → (⟨S64x1000, .f32⟩ : BufTy).Contents (Elt F)),
    StableHlo.binary main_v0 main_v0 main_v3 ((fun l r => Host.dotGeneral dot_S64x1000x3_S64x1000x3_S64x1000x1000_2_2_1_1_0_0 none l r) : (⟨S64x1000x3, .f32⟩ : BufTy).Contents (Elt F) → (⟨S64x1000x3, .f32⟩ : BufTy).Contents (Elt F) → (⟨S64x1000x1000, .f32⟩ : BufTy).Contents (Elt F)),
    StableHlo.unary main_v2 main_v4 (broadcastInDim S64x1000x1 ![0, 1] bcast_S64x1000_S64x1000x1_0_1 : (⟨S64x1000, .f32⟩ : BufTy).Contents (Elt F) → (⟨S64x1000x1, .f32⟩ : BufTy).Contents (Elt F)),
    StableHlo.unary main_v2 main_v5 (broadcastInDim S64x1x1000 ![0, 2] bcast_S64x1000_S64x1x1000_0_2 : (⟨S64x1000, .f32⟩ : BufTy).Contents (Elt F) → (⟨S64x1x1000, .f32⟩ : BufTy).Contents (Elt F)),
    StableHlo.unary main_v4 main_v6 (broadcastInDim S64x1000x1000 ![0, 1, 2] bcast_S64x1000x1_S64x1000x1000_0_1_2 : (⟨S64x1000x1, .f32⟩ : BufTy).Contents (Elt F) → (⟨S64x1000x1000, .f32⟩ : BufTy).Contents (Elt F)),
    StableHlo.unary main_v5 main_v7 (broadcastInDim S64x1000x1000 ![0, 1, 2] bcast_S64x1x1000_S64x1000x1000_0_1_2 : (⟨S64x1x1000, .f32⟩ : BufTy).Contents (Elt F) → (⟨S64x1000x1000, .f32⟩ : BufTy).Contents (Elt F)),
    StableHlo.binary main_v6 main_v7 main_v8 (addf : (⟨S64x1000x1000, .f32⟩ : BufTy).Contents (Elt F) → (⟨S64x1000x1000, .f32⟩ : BufTy).Contents (Elt F) → (⟨S64x1000x1000, .f32⟩ : BufTy).Contents (Elt F)),
    StableHlo.nullary main_cst_0 (constant S_ .f32 0x40000000#32),
    StableHlo.unary main_cst_0 main_v9 (broadcastInDim S64x1000x1000 ![] bcast_S_S64x1000x1000 : (⟨S_, .f32⟩ : BufTy).Contents (Elt F) → (⟨S64x1000x1000, .f32⟩ : BufTy).Contents (Elt F)),
    StableHlo.binary main_v9 main_v3 main_v10 (mulf : (⟨S64x1000x1000, .f32⟩ : BufTy).Contents (Elt F) → (⟨S64x1000x1000, .f32⟩ : BufTy).Contents (Elt F) → (⟨S64x1000x1000, .f32⟩ : BufTy).Contents (Elt F)),
    StableHlo.binary main_v8 main_v10 main_v11 (subf : (⟨S64x1000x1000, .f32⟩ : BufTy).Contents (Elt F) → (⟨S64x1000x1000, .f32⟩ : BufTy).Contents (Elt F) → (⟨S64x1000x1000, .f32⟩ : BufTy).Contents (Elt F)),
    StableHlo.nullary main_c (constantI S_ 1 1#1),
    StableHlo.unary main_c main_v12 (broadcastInDim S1000x1000 ![] bcast_S_S1000x1000 : (⟨S_, .i1⟩ : BufTy).Contents (Elt F) → (⟨S1000x1000, .i1⟩ : BufTy).Contents (Elt F)) ]
abbrev rseg2 : List (HloOp τ sig (Elt F)) :=
  [ StableHlo.nullary main_call0_v0 ((iotaInDim S1000x1000 32 0) : (⟨S1000x1000, .i32⟩ : BufTy).Contents (Elt F)),
    StableHlo.nullary main_call0_c ((constantI S_ 32 0#32) : (⟨S_, .i32⟩ : BufTy).Contents (Elt F)),
    StableHlo.unary main_call0_c main_call0_v1 ((broadcastInDim S1000x1000 ![] bcast_S_S1000x1000) : (⟨S_, .i32⟩ : BufTy).Contents (Elt F) → (⟨S1000x1000, .i32⟩ : BufTy).Contents (Elt F)),
    StableHlo.binary main_call0_v0 main_call0_v1 main_call0_v2 (addi : (⟨S1000x1000, .i32⟩ : BufTy).Contents (Elt F) → (⟨S1000x1000, .i32⟩ : BufTy).Contents (Elt F) → (⟨S1000x1000, .i32⟩ : BufTy).Contents (Elt F)),
    StableHlo.nullary main_call0_v3 ((iotaInDim S1000x1000 32 1) : (⟨S1000x1000, .i32⟩ : BufTy).Contents (Elt F)),
    StableHlo.binary main_call0_v2 main_call0_v3 main_call0_v4 ((cmpi .sge) : (⟨S1000x1000, .i32⟩ : BufTy).Contents (Elt F) → (⟨S1000x1000, .i32⟩ : BufTy).Contents (Elt F) → (⟨S1000x1000, .i1⟩ : BufTy).Contents (Elt F)),
    StableHlo.nullary main_call0_c_0 ((constantI S_ 1 0#1) : (⟨S_, .i1⟩ : BufTy).Contents (Elt F)),
    StableHlo.unary main_call0_c_0 main_call0_v5 ((broadcastInDim S1000x1000 ![] bcast_S_S1000x1000) : (⟨S_, .i1⟩ : BufTy).Contents (Elt F) → (⟨S1000x1000, .i1⟩ : BufTy).Contents (Elt F)),
    StableHlo.ternary main_call0_v4 main_call0_v5 main_v12 main_v13 (select : (⟨S1000x1000, .i1⟩ : BufTy).Contents (Elt F) → (⟨S1000x1000, .i1⟩ : BufTy).Contents (Elt F) → (⟨S1000x1000, .i1⟩ : BufTy).Contents (Elt F) → (⟨S1000x1000, .i1⟩ : BufTy).Contents (Elt F)),
    StableHlo.nullary main_cst_1 (constant S_ .f32 0x41C80000#32),
    StableHlo.unary main_cst_1 main_v14 (broadcastInDim S64x1000x1000 ![] bcast_S_S64x1000x1000 : (⟨S_, .f32⟩ : BufTy).Contents (Elt F) → (⟨S64x1000x1000, .f32⟩ : BufTy).Contents (Elt F)),
    StableHlo.binary main_v11 main_v14 main_v15 (cmpf .olt : (⟨S64x1000x1000, .f32⟩ : BufTy).Contents (Elt F) → (⟨S64x1000x1000, .f32⟩ : BufTy).Contents (Elt F) → (⟨S64x1000x1000, .i1⟩ : BufTy).Contents (Elt F)),
    StableHlo.unary main_v13 main_v16 (broadcastInDim S1x1000x1000 ![1, 2] bcast_S1000x1000_S1x1000x1000_1_2 : (⟨S1000x1000, .i1⟩ : BufTy).Contents (Elt F) → (⟨S1x1000x1000, .i1⟩ : BufTy).Contents (Elt F)),
    StableHlo.unary main_v16 main_v17 (broadcastInDim S64x1000x1000 ![0, 1, 2] bcast_S1x1000x1000_S64x1000x1000_0_1_2 : (⟨S1x1000x1000, .i1⟩ : BufTy).Contents (Elt F) → (⟨S64x1000x1000, .i1⟩ : BufTy).Contents (Elt F)),
    StableHlo.binary main_v15 main_v17 main_v18 (andi : (⟨S64x1000x1000, .i1⟩ : BufTy).Contents (Elt F) → (⟨S64x1000x1000, .i1⟩ : BufTy).Contents (Elt F) → (⟨S64x1000x1000, .i1⟩ : BufTy).Contents (Elt F)),
    StableHlo.reshape main_v18 main_v19 rfl shapeCasts_S64x1000x1000_S64000000 ]
abbrev rseg3 : List (HloOp τ sig (Elt F)) :=
  [ StableHlo.unary main_v19 main_v20 ((extui 32 · natLt_1_32) : (⟨S64000000, .i1⟩ : BufTy).Contents (Elt F) → (⟨S64000000, .i32⟩ : BufTy).Contents (Elt F)),
    StableHlo.nullary main_c_2 (constantI S_ 32 0#32),
    StableHlo.binary main_v20 main_c_2 main_v21 ((fun x v => Host.reduce IntOp.addi x v reducesTo_S64000000_S_d0 h_S_) : (⟨S64000000, .i32⟩ : BufTy).Contents (Elt F) → (⟨S_, .i32⟩ : BufTy).Contents (Elt F) → (⟨S_, .i32⟩ : BufTy).Contents (Elt F)),
    StableHlo.unary main_v19 main_v22 ((extui 32 · natLt_1_32) : (⟨S64000000, .i1⟩ : BufTy).Contents (Elt F) → (⟨S64000000, .i32⟩ : BufTy).Contents (Elt F)),
    StableHlo.nullary main_call1_call0_c ((constantI S_ 32 0#32) : (⟨S_, .i32⟩ : BufTy).Contents (Elt F)),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_v22 main_call1_call0_v0 main_v23 ((fun x v => Host.reduceWindow IntOp.addi ![64000000] ![1] ![63999999] ![0] x v reduceWindows_S64000000_S64000000_w64000000s1p63999999_0 h_S_) : (⟨S64000000, .i32⟩ : BufTy).Contents (Elt F) → (⟨S_, .i32⟩ : BufTy).Contents (Elt F) → (⟨S64000000, .i32⟩ : BufTy).Contents (Elt F)),
    StableHlo.nullary main_c_3 (constantI S_ 32 1#32),
    StableHlo.unary main_c_3 main_v24 (broadcastInDim S64000000 ![] bcast_S_S64000000 : (⟨S_, .i32⟩ : BufTy).Contents (Elt F) → (⟨S64000000, .i32⟩ : BufTy).Contents (Elt F)),
    StableHlo.binary main_v23 main_v24 main_v25 (subi : (⟨S64000000, .i32⟩ : BufTy).Contents (Elt F) → (⟨S64000000, .i32⟩ : BufTy).Contents (Elt F) → (⟨S64000000, .i32⟩ : BufTy).Contents (Elt F)),
    StableHlo.nullary main_c_4 (constantI S_ 32 2200000#32),
    StableHlo.unary main_c_4 main_call2_v0 (id : (⟨S_, .i32⟩ : BufTy).Contents (Elt F) → (⟨S_, .i32⟩ : BufTy).Contents (Elt F)),
    StableHlo.unary main_call2_v0 main_call2_v1 ((broadcastInDim S64000000 ![] bcast_S_S64000000) : (⟨S_, .i32⟩ : BufTy).Contents (Elt F) → (⟨S64000000, .i32⟩ : BufTy).Contents (Elt F)),
    StableHlo.ternary main_v19 main_v25 main_call2_v1 main_v26 (select : (⟨S64000000, .i1⟩ : BufTy).Contents (Elt F) → (⟨S64000000, .i32⟩ : BufTy).Contents (Elt F) → (⟨S64000000, .i32⟩ : BufTy).Contents (Elt F) → (⟨S64000000, .i32⟩ : BufTy).Contents (Elt F)),
    StableHlo.nullary main_v27 (iotaInDim S64000000 32 0),
    StableHlo.nullary main_c_5 (constantI S_ 32 4294967295#32) ]
abbrev rseg4 : List (HloOp τ sig (Elt F)) :=
  [ StableHlo.unary main_c_5 main_v28 (broadcastInDim S2200000 ![] bcast_S_S2200000 : (⟨S_, .i32⟩ : BufTy).Contents (Elt F) → (⟨S2200000, .i32⟩ : BufTy).Contents (Elt F)),
    StableHlo.nullary main_c_6 (constantI S_ 32 0#32),
    StableHlo.unary main_c_6 main_v29 (broadcastInDim S64000000 ![] bcast_S_S64000000 : (⟨S_, .i32⟩ : BufTy).Contents (Elt F) → (⟨S64000000, .i32⟩ : BufTy).Contents (Elt F)),
    StableHlo.binary main_v26 main_v29 main_v30 (cmpi .slt : (⟨S64000000, .i32⟩ : BufTy).Contents (Elt F) → (⟨S64000000, .i32⟩ : BufTy).Contents (Elt F) → (⟨S64000000, .i1⟩ : BufTy).Contents (Elt F)),
    StableHlo.nullary main_c_7 (constantI S_ 32 2200000#32),
    StableHlo.unary main_c_7 main_v31 (broadcastInDim S64000000 ![] bcast_S_S64000000 : (⟨S_, .i32⟩ : BufTy).Contents (Elt F) → (⟨S64000000, .i32⟩ : BufTy).Contents (Elt F)),
    StableHlo.binary main_v26 main_v31 main_v32 (addi : (⟨S64000000, .i32⟩ : BufTy).Contents (Elt F) → (⟨S64000000, .i32⟩ : BufTy).Contents (Elt F) → (⟨S64000000, .i32⟩ : BufTy).Contents (Elt F)),
    StableHlo.ternary main_v30 main_v32 main_v26 main_v33 (select : (⟨S64000000, .i1⟩ : BufTy).Contents (Elt F) → (⟨S64000000, .i32⟩ : BufTy).Contents (Elt F) → (⟨S64000000, .i32⟩ : BufTy).Contents (Elt F) → (⟨S64000000, .i32⟩ : BufTy).Contents (Elt F)),
    StableHlo.unary main_v33 main_v34 (broadcastInDim S64000000x1 ![0] bcast_S64000000_S64000000x1_0 : (⟨S64000000, .i32⟩ : BufTy).Contents (Elt F) → (⟨S64000000x1, .i32⟩ : BufTy).Contents (Elt F)),
    StableHlo.ternary main_v28 main_v34 main_v27 main_v35 ((fun x i u => Host.scatter scatter_S2200000_S64000000x1_S64000000_n_0_0_1 (fun _ b => b) x i u) : (⟨S2200000, .i32⟩ : BufTy).Contents (Elt F) → (⟨S64000000x1, .i32⟩ : BufTy).Contents (Elt F) → (⟨S64000000, .i32⟩ : BufTy).Contents (Elt F) → (⟨S2200000, .i32⟩ : BufTy).Contents (Elt F)),
    StableHlo.nullary main_c_8 (constantI S_ 32 0#32),
    StableHlo.unary main_c_8 main_v36 (broadcastInDim S2200000 ![] bcast_S_S2200000 : (⟨S_, .i32⟩ : BufTy).Contents (Elt F) → (⟨S2200000, .i32⟩ : BufTy).Contents (Elt F)),
    StableHlo.binary main_v35 main_v36 main_v37 (cmpi .sge : (⟨S2200000, .i32⟩ : BufTy).Contents (Elt F) → (⟨S2200000, .i32⟩ : BufTy).Contents (Elt F) → (⟨S2200000, .i1⟩ : BufTy).Contents (Elt F)),
    StableHlo.nullary main_c_9 (constantI S_ 32 0#32),
    StableHlo.unary main_c_9 main_v38 (broadcastInDim S2200000 ![] bcast_S_S2200000 : (⟨S_, .i32⟩ : BufTy).Contents (Elt F) → (⟨S2200000, .i32⟩ : BufTy).Contents (Elt F)),
    StableHlo.binary main_v35 main_v38 main_v39 (maxsi : (⟨S2200000, .i32⟩ : BufTy).Contents (Elt F) → (⟨S2200000, .i32⟩ : BufTy).Contents (Elt F) → (⟨S2200000, .i32⟩ : BufTy).Contents (Elt F)) ]
abbrev rseg5 : List (HloOp τ sig (Elt F)) :=
  [ StableHlo.nullary main_c_10 (constantI S_ 32 1000000#32),
    StableHlo.unary main_c_10 main_call3_v0 (id : (⟨S_, .i32⟩ : BufTy).Contents (Elt F) → (⟨S_, .i32⟩ : BufTy).Contents (Elt F)),
    StableHlo.unary main_call3_v0 main_call3_v1 ((broadcastInDim S2200000 ![] bcast_S_S2200000) : (⟨S_, .i32⟩ : BufTy).Contents (Elt F) → (⟨S2200000, .i32⟩ : BufTy).Contents (Elt F)),
    StableHlo.binary main_v39 main_call3_v1 main_call3_v2 (Host.divsi : (⟨S2200000, .i32⟩ : BufTy).Contents (Elt F) → (⟨S2200000, .i32⟩ : BufTy).Contents (Elt F) → (⟨S2200000, .i32⟩ : BufTy).Contents (Elt F)),
    StableHlo.unary main_v39 main_call3_v3 (signi : (⟨S2200000, .i32⟩ : BufTy).Contents (Elt F) → (⟨S2200000, .i32⟩ : BufTy).Contents (Elt F)),
    StableHlo.unary main_call3_v0 main_call3_v4 (signi : (⟨S_, .i32⟩ : BufTy).Contents (Elt F) → (⟨S_, .i32⟩ : BufTy).Contents (Elt F)),
    StableHlo.unary main_call3_v4 main_call3_v5 ((broadcastInDim S2200000 ![] bcast_S_S2200000) : (⟨S_, .i32⟩ : BufTy).Contents (Elt F) → (⟨S2200000, .i32⟩ : BufTy).Contents (Elt F)),
    StableHlo.binary main_call3_v3 main_call3_v5 main_call3_v6 ((cmpi .ne) : (⟨S2200000, .i32⟩ : BufTy).Contents (Elt F) → (⟨S2200000, .i32⟩ : BufTy).Contents (Elt F) → (⟨S2200000, .i1⟩ : BufTy).Contents (Elt F)),
    StableHlo.unary main_call3_v0 main_call3_v7 ((broadcastInDim S2200000 ![] bcast_S_S2200000) : (⟨S_, .i32⟩ : BufTy).Contents (Elt F) → (⟨S2200000, .i32⟩ : BufTy).Contents (Elt F)),
    StableHlo.binary main_v39 main_call3_v7 main_call3_v8 (Host.remsi : (⟨S2200000, .i32⟩ : BufTy).Contents (Elt F) → (⟨S2200000, .i32⟩ : BufTy).Contents (Elt F) → (⟨S2200000, .i32⟩ : BufTy).Contents (Elt F)),
    StableHlo.nullary main_call3_c ((constantI S_ 32 0#32) : (⟨S_, .i32⟩ : BufTy).Contents (Elt F)),
    StableHlo.unary main_call3_c main_call3_v9 ((broadcastInDim S2200000 ![] bcast_S_S2200000) : (⟨S_, .i32⟩ : BufTy).Contents (Elt F) → (⟨S2200000, .i32⟩ : BufTy).Contents (Elt F)),
    StableHlo.binary main_call3_v8 main_call3_v9 main_call3_v10 ((cmpi .ne) : (⟨S2200000, .i32⟩ : BufTy).Contents (Elt F) → (⟨S2200000, .i32⟩ : BufTy).Contents (Elt F) → (⟨S2200000, .i1⟩ : BufTy).Contents (Elt F)),
    StableHlo.binary main_call3_v6 main_call3_v10 main_call3_v11 (andi : (⟨S2200000, .i1⟩ : BufTy).Contents (Elt F) → (⟨S2200000, .i1⟩ : BufTy).Contents (Elt F) → (⟨S2200000, .i1⟩ : BufTy).Contents (Elt F)),
    StableHlo.nullary main_call3_c_0 ((constantI S_ 32 1#32) : (⟨S_, .i32⟩ : BufTy).Contents (Elt F)),
    StableHlo.unary main_call3_c_0 main_call3_v12 ((broadcastInDim S2200000 ![] bcast_S_S2200000) : (⟨S_, .i32⟩ : BufTy).Contents (Elt F) → (⟨S2200000, .i32⟩ : BufTy).Contents (Elt F)) ]
abbrev rseg6 : List (HloOp τ sig (Elt F)) :=
  [ StableHlo.binary main_call3_v2 main_call3_v12 main_call3_v13 (subi : (⟨S2200000, .i32⟩ : BufTy).Contents (Elt F) → (⟨S2200000, .i32⟩ : BufTy).Contents (Elt F) → (⟨S2200000, .i32⟩ : BufTy).Contents (Elt F)),
    StableHlo.ternary main_call3_v11 main_call3_v13 main_call3_v2 main_v40 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)),
    StableHlo.nullary main_c_11 (constantI S_ 32 1000000#32),
    StableHlo.unary main_c_11 main_call4_v0 (id : (⟨S_, .i32⟩ : BufTy).Contents (Elt F) → (⟨S_, .i32⟩ : BufTy).Contents (Elt F)),
    StableHlo.nullary main_call4_c ((constantI S_ 32 0#32) : (⟨S_, .i32⟩ : BufTy).Contents (Elt F)),
    StableHlo.binary main_call4_v0 main_call4_c main_call4_v1 ((cmpi .eq) : (⟨S_, .i32⟩ : BufTy).Contents (Elt F) → (⟨S_, .i32⟩ : BufTy).Contents (Elt F) → (⟨S_, .i1⟩ : BufTy).Contents (Elt F)),
    StableHlo.nullary main_call4_c_0 ((constantI S_ 32 1#32) : (⟨S_, .i32⟩ : BufTy).Contents (Elt F)),
    StableHlo.ternary main_call4_v1 main_call4_c_0 main_call4_v0 main_call4_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call4_v2 main_call4_v3 ((broadcastInDim S2200000 ![] bcast_S_S2200000) : (⟨S_, .i32⟩ : BufTy).Contents (Elt F) → (⟨S2200000, .i32⟩ : BufTy).Contents (Elt F)),
    StableHlo.binary main_v39 main_call4_v3 main_call4_v4 (Host.remsi : (⟨S2200000, .i32⟩ : BufTy).Contents (Elt F) → (⟨S2200000, .i32⟩ : BufTy).Contents (Elt F) → (⟨S2200000, .i32⟩ : BufTy).Contents (Elt F)),
    StableHlo.nullary main_call4_c_1 ((constantI S_ 32 0#32) : (⟨S_, .i32⟩ : BufTy).Contents (Elt F)),
    StableHlo.unary main_call4_c_1 main_call4_v5 ((broadcastInDim S2200000 ![] bcast_S_S2200000) : (⟨S_, .i32⟩ : BufTy).Contents (Elt F) → (⟨S2200000, .i32⟩ : BufTy).Contents (Elt F)),
    StableHlo.binary main_call4_v4 main_call4_v5 main_call4_v6 ((cmpi .ne) : (⟨S2200000, .i32⟩ : BufTy).Contents (Elt F) → (⟨S2200000, .i32⟩ : BufTy).Contents (Elt F) → (⟨S2200000, .i1⟩ : BufTy).Contents (Elt F)),
    StableHlo.nullary main_call4_c_2 ((constantI S_ 32 0#32) : (⟨S_, .i32⟩ : BufTy).Contents (Elt F)),
    StableHlo.unary main_call4_c_2 main_call4_v7 ((broadcastInDim S2200000 ![] bcast_S_S2200000) : (⟨S_, .i32⟩ : BufTy).Contents (Elt F) → (⟨S2200000, .i32⟩ : BufTy).Contents (Elt F)),
    StableHlo.binary main_call4_v4 main_call4_v7 main_call4_v8 ((cmpi .slt) : (⟨S2200000, .i32⟩ : BufTy).Contents (Elt F) → (⟨S2200000, .i32⟩ : BufTy).Contents (Elt F) → (⟨S2200000, .i1⟩ : BufTy).Contents (Elt F)) ]
abbrev rseg7 : List (HloOp τ sig (Elt F)) :=
  [ StableHlo.nullary main_call4_c_3 ((constantI S_ 32 0#32) : (⟨S_, .i32⟩ : BufTy).Contents (Elt F)),
    StableHlo.binary main_call4_v2 main_call4_c_3 main_call4_v9 ((cmpi .slt) : (⟨S_, .i32⟩ : BufTy).Contents (Elt F) → (⟨S_, .i32⟩ : BufTy).Contents (Elt F) → (⟨S_, .i1⟩ : BufTy).Contents (Elt F)),
    StableHlo.unary main_call4_v9 main_call4_v10 ((broadcastInDim S2200000 ![] bcast_S_S2200000) : (⟨S_, .i1⟩ : BufTy).Contents (Elt F) → (⟨S2200000, .i1⟩ : BufTy).Contents (Elt F)),
    StableHlo.binary main_call4_v8 main_call4_v10 main_call4_v11 ((cmpi .ne) : (⟨S2200000, .i1⟩ : BufTy).Contents (Elt F) → (⟨S2200000, .i1⟩ : BufTy).Contents (Elt F) → (⟨S2200000, .i1⟩ : BufTy).Contents (Elt F)),
    StableHlo.binary main_call4_v11 main_call4_v6 main_call4_v12 (andi : (⟨S2200000, .i1⟩ : BufTy).Contents (Elt F) → (⟨S2200000, .i1⟩ : BufTy).Contents (Elt F) → (⟨S2200000, .i1⟩ : BufTy).Contents (Elt F)),
    StableHlo.unary main_call4_v2 main_call4_v13 ((broadcastInDim S2200000 ![] bcast_S_S2200000) : (⟨S_, .i32⟩ : BufTy).Contents (Elt F) → (⟨S2200000, .i32⟩ : BufTy).Contents (Elt F)),
    StableHlo.binary main_call4_v4 main_call4_v13 main_call4_v14 (addi : (⟨S2200000, .i32⟩ : BufTy).Contents (Elt F) → (⟨S2200000, .i32⟩ : BufTy).Contents (Elt F) → (⟨S2200000, .i32⟩ : BufTy).Contents (Elt F)),
    StableHlo.ternary main_call4_v12 main_call4_v14 main_call4_v4 main_v41 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)),
    StableHlo.nullary main_c_12 (constantI S_ 32 1000#32),
    StableHlo.unary main_c_12 main_call5_v0 (id : (⟨S_, .i32⟩ : BufTy).Contents (Elt F) → (⟨S_, .i32⟩ : BufTy).Contents (Elt F)),
    StableHlo.unary main_call5_v0 main_call5_v1 ((broadcastInDim S2200000 ![] bcast_S_S2200000) : (⟨S_, .i32⟩ : BufTy).Contents (Elt F) → (⟨S2200000, .i32⟩ : BufTy).Contents (Elt F)),
    StableHlo.binary main_v41 main_call5_v1 main_call5_v2 (Host.divsi : (⟨S2200000, .i32⟩ : BufTy).Contents (Elt F) → (⟨S2200000, .i32⟩ : BufTy).Contents (Elt F) → (⟨S2200000, .i32⟩ : BufTy).Contents (Elt F)),
    StableHlo.unary main_v41 main_call5_v3 (signi : (⟨S2200000, .i32⟩ : BufTy).Contents (Elt F) → (⟨S2200000, .i32⟩ : BufTy).Contents (Elt F)),
    StableHlo.unary main_call5_v0 main_call5_v4 (signi : (⟨S_, .i32⟩ : BufTy).Contents (Elt F) → (⟨S_, .i32⟩ : BufTy).Contents (Elt F)),
    StableHlo.unary main_call5_v4 main_call5_v5 ((broadcastInDim S2200000 ![] bcast_S_S2200000) : (⟨S_, .i32⟩ : BufTy).Contents (Elt F) → (⟨S2200000, .i32⟩ : BufTy).Contents (Elt F)),
    StableHlo.binary main_call5_v3 main_call5_v5 main_call5_v6 ((cmpi .ne) : (⟨S2200000, .i32⟩ : BufTy).Contents (Elt F) → (⟨S2200000, .i32⟩ : BufTy).Contents (Elt F) → (⟨S2200000, .i1⟩ : BufTy).Contents (Elt F)) ]
abbrev rseg8 : List (HloOp τ sig (Elt F)) :=
  [ StableHlo.unary main_call5_v0 main_call5_v7 ((broadcastInDim S2200000 ![] bcast_S_S2200000) : (⟨S_, .i32⟩ : BufTy).Contents (Elt F) → (⟨S2200000, .i32⟩ : BufTy).Contents (Elt F)),
    StableHlo.binary main_v41 main_call5_v7 main_call5_v8 (Host.remsi : (⟨S2200000, .i32⟩ : BufTy).Contents (Elt F) → (⟨S2200000, .i32⟩ : BufTy).Contents (Elt F) → (⟨S2200000, .i32⟩ : BufTy).Contents (Elt F)),
    StableHlo.nullary main_call5_c ((constantI S_ 32 0#32) : (⟨S_, .i32⟩ : BufTy).Contents (Elt F)),
    StableHlo.unary main_call5_c main_call5_v9 ((broadcastInDim S2200000 ![] bcast_S_S2200000) : (⟨S_, .i32⟩ : BufTy).Contents (Elt F) → (⟨S2200000, .i32⟩ : BufTy).Contents (Elt F)),
    StableHlo.binary main_call5_v8 main_call5_v9 main_call5_v10 ((cmpi .ne) : (⟨S2200000, .i32⟩ : BufTy).Contents (Elt F) → (⟨S2200000, .i32⟩ : BufTy).Contents (Elt F) → (⟨S2200000, .i1⟩ : BufTy).Contents (Elt F)),
    StableHlo.binary main_call5_v6 main_call5_v10 main_call5_v11 (andi : (⟨S2200000, .i1⟩ : BufTy).Contents (Elt F) → (⟨S2200000, .i1⟩ : BufTy).Contents (Elt F) → (⟨S2200000, .i1⟩ : BufTy).Contents (Elt F)),
    StableHlo.nullary main_call5_c_0 ((constantI S_ 32 1#32) : (⟨S_, .i32⟩ : BufTy).Contents (Elt F)),
    StableHlo.unary main_call5_c_0 main_call5_v12 ((broadcastInDim S2200000 ![] bcast_S_S2200000) : (⟨S_, .i32⟩ : BufTy).Contents (Elt F) → (⟨S2200000, .i32⟩ : BufTy).Contents (Elt F)),
    StableHlo.binary main_call5_v2 main_call5_v12 main_call5_v13 (subi : (⟨S2200000, .i32⟩ : BufTy).Contents (Elt F) → (⟨S2200000, .i32⟩ : BufTy).Contents (Elt F) → (⟨S2200000, .i32⟩ : BufTy).Contents (Elt F)),
    StableHlo.ternary main_call5_v11 main_call5_v13 main_call5_v2 main_v42 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)),
    StableHlo.nullary main_c_13 (constantI S_ 32 1000#32),
    StableHlo.unary main_c_13 main_call6_v0 (id : (⟨S_, .i32⟩ : BufTy).Contents (Elt F) → (⟨S_, .i32⟩ : BufTy).Contents (Elt F)),
    StableHlo.nullary main_call6_c ((constantI S_ 32 0#32) : (⟨S_, .i32⟩ : BufTy).Contents (Elt F)),
    StableHlo.binary main_call6_v0 main_call6_c main_call6_v1 ((cmpi .eq) : (⟨S_, .i32⟩ : BufTy).Contents (Elt F) → (⟨S_, .i32⟩ : BufTy).Contents (Elt F) → (⟨S_, .i1⟩ : BufTy).Contents (Elt F)),
    StableHlo.nullary main_call6_c_0 ((constantI S_ 32 1#32) : (⟨S_, .i32⟩ : BufTy).Contents (Elt F)),
    StableHlo.ternary main_call6_v1 main_call6_c_0 main_call6_v0 main_call6_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
abbrev rseg9 : List (HloOp τ sig (Elt F)) :=
  [ StableHlo.unary main_call6_v2 main_call6_v3 ((broadcastInDim S2200000 ![] bcast_S_S2200000) : (⟨S_, .i32⟩ : BufTy).Contents (Elt F) → (⟨S2200000, .i32⟩ : BufTy).Contents (Elt F)),
    StableHlo.binary main_v41 main_call6_v3 main_call6_v4 (Host.remsi : (⟨S2200000, .i32⟩ : BufTy).Contents (Elt F) → (⟨S2200000, .i32⟩ : BufTy).Contents (Elt F) → (⟨S2200000, .i32⟩ : BufTy).Contents (Elt F)),
    StableHlo.nullary main_call6_c_1 ((constantI S_ 32 0#32) : (⟨S_, .i32⟩ : BufTy).Contents (Elt F)),
    StableHlo.unary main_call6_c_1 main_call6_v5 ((broadcastInDim S2200000 ![] bcast_S_S2200000) : (⟨S_, .i32⟩ : BufTy).Contents (Elt F) → (⟨S2200000, .i32⟩ : BufTy).Contents (Elt F)),
    StableHlo.binary main_call6_v4 main_call6_v5 main_call6_v6 ((cmpi .ne) : (⟨S2200000, .i32⟩ : BufTy).Contents (Elt F) → (⟨S2200000, .i32⟩ : BufTy).Contents (Elt F) → (⟨S2200000, .i1⟩ : BufTy).Contents (Elt F)),
    StableHlo.nullary main_call6_c_2 ((constantI S_ 32 0#32) : (⟨S_, .i32⟩ : BufTy).Contents (Elt F)),
    StableHlo.unary main_call6_c_2 main_call6_v7 ((broadcastInDim S2200000 ![] bcast_S_S2200000) : (⟨S_, .i32⟩ : BufTy).Contents (Elt F) → (⟨S2200000, .i32⟩ : BufTy).Contents (Elt F)),
    StableHlo.binary main_call6_v4 main_call6_v7 main_call6_v8 ((cmpi .slt) : (⟨S2200000, .i32⟩ : BufTy).Contents (Elt F) → (⟨S2200000, .i32⟩ : BufTy).Contents (Elt F) → (⟨S2200000, .i1⟩ : BufTy).Contents (Elt F)),
    StableHlo.nullary main_call6_c_3 ((constantI S_ 32 0#32) : (⟨S_, .i32⟩ : BufTy).Contents (Elt F)),
    StableHlo.binary main_call6_v2 main_call6_c_3 main_call6_v9 ((cmpi .slt) : (⟨S_, .i32⟩ : BufTy).Contents (Elt F) → (⟨S_, .i32⟩ : BufTy).Contents (Elt F) → (⟨S_, .i1⟩ : BufTy).Contents (Elt F)),
    StableHlo.unary main_call6_v9 main_call6_v10 ((broadcastInDim S2200000 ![] bcast_S_S2200000) : (⟨S_, .i1⟩ : BufTy).Contents (Elt F) → (⟨S2200000, .i1⟩ : BufTy).Contents (Elt F)),
    StableHlo.binary main_call6_v8 main_call6_v10 main_call6_v11 ((cmpi .ne) : (⟨S2200000, .i1⟩ : BufTy).Contents (Elt F) → (⟨S2200000, .i1⟩ : BufTy).Contents (Elt F) → (⟨S2200000, .i1⟩ : BufTy).Contents (Elt F)),
    StableHlo.binary main_call6_v11 main_call6_v6 main_call6_v12 (andi : (⟨S2200000, .i1⟩ : BufTy).Contents (Elt F) → (⟨S2200000, .i1⟩ : BufTy).Contents (Elt F) → (⟨S2200000, .i1⟩ : BufTy).Contents (Elt F)),
    StableHlo.unary main_call6_v2 main_call6_v13 ((broadcastInDim S2200000 ![] bcast_S_S2200000) : (⟨S_, .i32⟩ : BufTy).Contents (Elt F) → (⟨S2200000, .i32⟩ : BufTy).Contents (Elt F)),
    StableHlo.binary main_call6_v4 main_call6_v13 main_call6_v14 (addi : (⟨S2200000, .i32⟩ : BufTy).Contents (Elt F) → (⟨S2200000, .i32⟩ : BufTy).Contents (Elt F) → (⟨S2200000, .i32⟩ : BufTy).Contents (Elt F)),
    StableHlo.ternary main_call6_v12 main_call6_v14 main_call6_v4 main_v43 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) ]
abbrev rseg10 : List (HloOp τ sig (Elt F)) :=
  [ StableHlo.nullary main_c_14 (constantI S_ 32 1000#32),
    StableHlo.unary main_c_14 main_v44 (broadcastInDim S2200000 ![] bcast_S_S2200000 : (⟨S_, .i32⟩ : BufTy).Contents (Elt F) → (⟨S2200000, .i32⟩ : BufTy).Contents (Elt F)),
    StableHlo.binary main_v40 main_v44 main_v45 (muli : (⟨S2200000, .i32⟩ : BufTy).Contents (Elt F) → (⟨S2200000, .i32⟩ : BufTy).Contents (Elt F) → (⟨S2200000, .i32⟩ : BufTy).Contents (Elt F)),
    StableHlo.binary main_v45 main_v42 main_v46 (addi : (⟨S2200000, .i32⟩ : BufTy).Contents (Elt F) → (⟨S2200000, .i32⟩ : BufTy).Contents (Elt F) → (⟨S2200000, .i32⟩ : BufTy).Contents (Elt F)),
    StableHlo.nullary main_c_15 (constantI S_ 32 64000#32),
    StableHlo.unary main_c_15 main_call7_v0 (id : (⟨S_, .i32⟩ : BufTy).Contents (Elt F) → (⟨S_, .i32⟩ : BufTy).Contents (Elt F)),
    StableHlo.unary main_call7_v0 main_call7_v1 ((broadcastInDim S2200000 ![] bcast_S_S2200000) : (⟨S_, .i32⟩ : BufTy).Contents (Elt F) → (⟨S2200000, .i32⟩ : BufTy).Contents (Elt F)),
    StableHlo.ternary main_v37 main_v46 main_call7_v1 main_v47 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)),
    StableHlo.nullary main_c_16 (constantI S_ 32 1000#32),
    StableHlo.unary main_c_16 main_v48 (broadcastInDim S2200000 ![] bcast_S_S2200000 : (⟨S_, .i32⟩ : BufTy).Contents (Elt F) → (⟨S2200000, .i32⟩ : BufTy).Contents (Elt F)),
    StableHlo.binary main_v40 main_v48 main_v49 (muli : (⟨S2200000, .i32⟩ : BufTy).Contents (Elt F) → (⟨S2200000, .i32⟩ : BufTy).Contents (Elt F) → (⟨S2200000, .i32⟩ : BufTy).Contents (Elt F)),
    StableHlo.binary main_v49 main_v43 main_v50 (addi : (⟨S2200000, .i32⟩ : BufTy).Contents (Elt F) → (⟨S2200000, .i32⟩ : BufTy).Contents (Elt F) → (⟨S2200000, .i32⟩ : BufTy).Contents (Elt F)),
    StableHlo.nullary main_c_17 (constantI S_ 32 64000#32),
    StableHlo.unary main_c_17 main_call8_v0 (id : (⟨S_, .i32⟩ : BufTy).Contents (Elt F) → (⟨S_, .i32⟩ : BufTy).Contents (Elt F)),
    StableHlo.unary main_call8_v0 main_call8_v1 ((broadcastInDim S2200000 ![] bcast_S_S2200000) : (⟨S_, .i32⟩ : BufTy).Contents (Elt F) → (⟨S2200000, .i32⟩ : BufTy).Contents (Elt F)),
    StableHlo.ternary main_v37 main_v50 main_call8_v1 main_v51 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)) ]
abbrev rseg11 : List (HloOp τ sig (Elt F)) :=
  [ StableHlo.reshape main_v11 main_v52 rfl shapeCasts_S64x1000x1000_S64000000,
    StableHlo.nullary main_c_18 (constantI S_ 32 0#32),
    StableHlo.unary main_c_18 main_v53 (broadcastInDim S2200000 ![] bcast_S_S2200000 : (⟨S_, .i32⟩ : BufTy).Contents (Elt F) → (⟨S2200000, .i32⟩ : BufTy).Contents (Elt F)),
    StableHlo.binary main_v39 main_v53 main_v54 (cmpi .slt : (⟨S2200000, .i32⟩ : BufTy).Contents (Elt F) → (⟨S2200000, .i32⟩ : BufTy).Contents (Elt F) → (⟨S2200000, .i1⟩ : BufTy).Contents (Elt F)),
    StableHlo.nullary main_c_19 (constantI S_ 32 64000000#32),
    StableHlo.unary main_c_19 main_v55 (broadcastInDim S2200000 ![] bcast_S_S2200000 : (⟨S_, .i32⟩ : BufTy).Contents (Elt F) → (⟨S2200000, .i32⟩ : BufTy).Contents (Elt F)),
    StableHlo.binary main_v39 main_v55 main_v56 (addi : (⟨S2200000, .i32⟩ : BufTy).Contents (Elt F) → (⟨S2200000, .i32⟩ : BufTy).Contents (Elt F) → (⟨S2200000, .i32⟩ : BufTy).Contents (Elt F)),
    StableHlo.ternary main_v54 main_v56 main_v39 main_v57 (select : (⟨S2200000, .i1⟩ : BufTy).Contents (Elt F) → (⟨S2200000, .i32⟩ : BufTy).Contents (Elt F) → (⟨S2200000, .i32⟩ : BufTy).Contents (Elt F) → (⟨S2200000, .i32⟩ : BufTy).Contents (Elt F)),
    StableHlo.unary main_v57 main_v58 (broadcastInDim S2200000x1 ![0] bcast_S2200000_S2200000x1_0 : (⟨S2200000, .i32⟩ : BufTy).Contents (Elt F) → (⟨S2200000x1, .i32⟩ : BufTy).Contents (Elt F)),
    StableHlo.binary main_v52 main_v58 main_v59 ((fun x i => Host.gather gather_S64000000_S2200000x1_S2200000_n_0_n_n_0_1_1 x i) : (⟨S64000000, .f32⟩ : BufTy).Contents (Elt F) → (⟨S2200000x1, .i32⟩ : BufTy).Contents (Elt F) → (⟨S2200000, .f32⟩ : BufTy).Contents (Elt F)),
    StableHlo.nullary main_cst_20 (constant S_ .f32 0x41C80000#32),
    StableHlo.unary main_cst_20 main_call9_v0 ((broadcastInDim S2200000 ![] bcast_S_S2200000) : (⟨S_, .f32⟩ : BufTy).Contents (Elt F) → (⟨S2200000, .f32⟩ : BufTy).Contents (Elt F)),
    StableHlo.ternary main_v37 main_v59 main_call9_v0 main_v60 (select : (⟨S2200000, .i1⟩ : BufTy).Contents (Elt F) → (⟨S2200000, .f32⟩ : BufTy).Contents (Elt F) → (⟨S2200000, .f32⟩ : BufTy).Contents (Elt F) → (⟨S2200000, .f32⟩ : BufTy).Contents (Elt F)) ]
abbrev rseg12 : List (HloOp τ sig (Elt F)) :=
  [ StableHlo.binary main_v47 main_v51 main_v61 ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)),
    StableHlo.binary main_v51 main_v47 main_v62 ((fun a b => concatenate S4400000 0 [⟨S2200000, a⟩, ⟨S2200000, b⟩] concatenates_S2200000_S2200000_S4400000_d0) : (⟨S2200000, .i32⟩ : BufTy).Contents (Elt F) → (⟨S2200000, .i32⟩ : BufTy).Contents (Elt F) → (⟨S4400000, .i32⟩ : BufTy).Contents (Elt F)),
    StableHlo.binary main_v60 main_v60 main_v63 ((fun a b => concatenate S4400000 0 [⟨S2200000, a⟩, ⟨S2200000, b⟩] concatenates_S2200000_S2200000_S4400000_d0) : (⟨S2200000, .f32⟩ : BufTy).Contents (Elt F) → (⟨S2200000, .f32⟩ : BufTy).Contents (Elt F) → (⟨S4400000, .f32⟩ : BufTy).Contents (Elt F)) ]

attribute [local irreducible] Host.reduce Host.reduceWindow Host.gather Host.scatter in
theorem ops0_split : (ops0 : List (HloOp τ sig (Elt F))) = rseg1 ++ rseg2 ++ rseg3 ++ rseg4 ++ rseg5 ++ rseg6 ++ rseg7 ++ rseg8 ++ rseg9 := rfl
attribute [local irreducible] Host.reduce Host.reduceWindow Host.gather Host.scatter in
theorem ops1_split : (ops1 : List (HloOp τ sig (Elt F))) = rseg10 ++ rseg11 ++ rseg12 := rfl

/-- What the buffers still needed hold before the first stretch. -/
def Inv0 (A : (⟨S64000x3, .f32⟩ : BufTy).Contents (Elt F)) (V : Valuation τ sig (Elt F)) : Prop :=
  V (Proc.devRef .tc main_arg0) = A
/-- What the buffers still needed hold after stretch 1. -/
def Inv1 (A : (⟨S64000x3, .f32⟩ : BufTy).Contents (Elt F)) (V : Valuation τ sig (Elt F)) : Prop :=
  V (Proc.devRef .tc main_v11) = (h_main_v11 (sysOf A)) ∧ V (Proc.devRef .tc main_v12) = (h_main_v12 (sysOf A))
/-- What the buffers still needed hold after stretch 2. -/
def Inv2 (A : (⟨S64000x3, .f32⟩ : BufTy).Contents (Elt F)) (V : Valuation τ sig (Elt F)) : Prop :=
  V (Proc.devRef .tc main_v11) = (h_main_v11 (sysOf A)) ∧ V (Proc.devRef .tc main_v19) = (flatB (h_main_v18 (sysOf A)))
/-- What the buffers still needed hold after stretch 3. -/
def Inv3 (A : (⟨S64000x3, .f32⟩ : BufTy).Contents (Elt F)) (V : Valuation τ sig (Elt F)) : Prop :=
  V (Proc.devRef .tc main_v21) = (t_main_v21 (flatB (h_main_v18 (sysOf A))) (flat (h_main_v11 (sysOf A)))) ∧ V (Proc.devRef .tc main_v11) = (h_main_v11 (sysOf A)) ∧ V (Proc.devRef .tc main_v27) = (t_main_v27 (flatB (h_main_v18 (sysOf A))) (flat (h_main_v11 (sysOf A)))) ∧ V (Proc.devRef .tc main_v26) = (t_main_v26 (flatB (h_main_v18 (sysOf A))) (flat (h_main_v11 (sysOf A)))) ∧ V (Proc.devRef .tc main_c_5) = (t_main_c_5 (flatB (h_main_v18 (sysOf A))) (flat (h_main_v11 (sysOf A))))
/-- What the buffers still needed hold after stretch 4. -/
def Inv4 (A : (⟨S64000x3, .f32⟩ : BufTy).Contents (Elt F)) (V : Valuation τ sig (Elt F)) : Prop :=
  V (Proc.devRef .tc main_v21) = (t_main_v21 (flatB (h_main_v18 (sysOf A))) (flat (h_main_v11 (sysOf A)))) ∧ V (Proc.devRef .tc main_v37) = (t_main_v37 (flatB (h_main_v18 (sysOf A))) (flat (h_main_v11 (sysOf A)))) ∧ V (Proc.devRef .tc main_v39) = (t_main_v39 (flatB (h_main_v18 (sysOf A))) (flat (h_main_v11 (sysOf A)))) ∧ V (Proc.devRef .tc main_v11) = (h_main_v11 (sysOf A))
/-- What the buffers still needed hold after stretch 5. -/
def Inv5 (A : (⟨S64000x3, .f32⟩ : BufTy).Contents (Elt F)) (V : Valuation τ sig (Elt F)) : Prop :=
  V (Proc.devRef .tc main_v21) = (t_main_v21 (flatB (h_main_v18 (sysOf A))) (flat (h_main_v11 (sysOf A)))) ∧ V (Proc.devRef .tc main_v37) = (t_main_v37 (flatB (h_main_v18 (sysOf A))) (flat (h_main_v11 (sysOf A)))) ∧ V (Proc.devRef .tc main_v39) = (t_main_v39 (flatB (h_main_v18 (sysOf A))) (flat (h_main_v11 (sysOf A)))) ∧ V (Proc.devRef .tc main_v11) = (h_main_v11 (sysOf A)) ∧ V (Proc.devRef .tc main_call3_v11) = (t_main_call3_v11 (flatB (h_main_v18 (sysOf A))) (flat (h_main_v11 (sysOf A)))) ∧ V (Proc.devRef .tc main_call3_v2) = (t_main_call3_v2 (flatB (h_main_v18 (sysOf A))) (flat (h_main_v11 (sysOf A)))) ∧ V (Proc.devRef .tc main_call3_v12) = (t_main_call3_v12 (flatB (h_main_v18 (sysOf A))) (flat (h_main_v11 (sysOf A))))
/-- What the buffers still needed hold after stretch 6. -/
def Inv6 (A : (⟨S64000x3, .f32⟩ : BufTy).Contents (Elt F)) (V : Valuation τ sig (Elt F)) : Prop :=
  V (Proc.devRef .tc main_v21) = (t_main_v21 (flatB (h_main_v18 (sysOf A))) (flat (h_main_v11 (sysOf A)))) ∧ V (Proc.devRef .tc main_v37) = (t_main_v37 (flatB (h_main_v18 (sysOf A))) (flat (h_main_v11 (sysOf A)))) ∧ V (Proc.devRef .tc main_v39) = (t_main_v39 (flatB (h_main_v18 (sysOf A))) (flat (h_main_v11 (sysOf A)))) ∧ V (Proc.devRef .tc main_v11) = (h_main_v11 (sysOf A)) ∧ V (Proc.devRef .tc main_v40) = (t_main_v40 (flatB (h_main_v18 (sysOf A))) (flat (h_main_v11 (sysOf A)))) ∧ V (Proc.devRef .tc main_call4_v4) = (t_main_call4_v4 (flatB (h_main_v18 (sysOf A))) (flat (h_main_v11 (sysOf A)))) ∧ V (Proc.devRef .tc main_call4_v2) = (t_main_call4_v2 (flatB (h_main_v18 (sysOf A))) (flat (h_main_v11 (sysOf A)))) ∧ V (Proc.devRef .tc main_call4_v6) = (t_main_call4_v6 (flatB (h_main_v18 (sysOf A))) (flat (h_main_v11 (sysOf A)))) ∧ V (Proc.devRef .tc main_call4_v8) = (t_main_call4_v8 (flatB (h_main_v18 (sysOf A))) (flat (h_main_v11 (sysOf A))))
/-- What the buffers still needed hold after stretch 7. -/
def Inv7 (A : (⟨S64000x3, .f32⟩ : BufTy).Contents (Elt F)) (V : Valuation τ sig (Elt F)) : Prop :=
  V (Proc.devRef .tc main_v21) = (t_main_v21 (flatB (h_main_v18 (sysOf A))) (flat (h_main_v11 (sysOf A)))) ∧ V (Proc.devRef .tc main_v37) = (t_main_v37 (flatB (h_main_v18 (sysOf A))) (flat (h_main_v11 (sysOf A)))) ∧ V (Proc.devRef .tc main_v39) = (t_main_v39 (flatB (h_main_v18 (sysOf A))) (flat (h_main_v11 (sysOf A)))) ∧ V (Proc.devRef .tc main_v11) = (h_main_v11 (sysOf A)) ∧ V (Proc.devRef .tc main_v40) = (t_main_v40 (flatB (h_main_v18 (sysOf A))) (flat (h_main_v11 (sysOf A)))) ∧ V (Proc.devRef .tc main_v41) = (t_main_v41 (flatB (h_main_v18 (sysOf A))) (flat (h_main_v11 (sysOf A)))) ∧ V (Proc.devRef .tc main_call5_v2) = (t_main_call5_v2 (flatB (h_main_v18 (sysOf A))) (flat (h_main_v11 (sysOf A)))) ∧ V (Proc.devRef .tc main_call5_v6) = (t_main_call5_v6 (flatB (h_main_v18 (sysOf A))) (flat (h_main_v11 (sysOf A)))) ∧ V (Proc.devRef .tc main_call5_v0) = (t_main_call5_v0 (flatB (h_main_v18 (sysOf A))) (flat (h_main_v11 (sysOf A))))
/-- What the buffers still needed hold after stretch 8. -/
def Inv8 (A : (⟨S64000x3, .f32⟩ : BufTy).Contents (Elt F)) (V : Valuation τ sig (Elt F)) : Prop :=
  V (Proc.devRef .tc main_v21) = (t_main_v21 (flatB (h_main_v18 (sysOf A))) (flat (h_main_v11 (sysOf A)))) ∧ V (Proc.devRef .tc main_v37) = (t_main_v37 (flatB (h_main_v18 (sysOf A))) (flat (h_main_v11 (sysOf A)))) ∧ V (Proc.devRef .tc main_v39) = (t_main_v39 (flatB (h_main_v18 (sysOf A))) (flat (h_main_v11 (sysOf A)))) ∧ V (Proc.devRef .tc main_v11) = (h_main_v11 (sysOf A)) ∧ V (Proc.devRef .tc main_v40) = (t_main_v40 (flatB (h_main_v18 (sysOf A))) (flat (h_main_v11 (sysOf A)))) ∧ V (Proc.devRef .tc main_v42) = (t_main_v42 (flatB (h_main_v18 (sysOf A))) (flat (h_main_v11 (sysOf A)))) ∧ V (Proc.devRef .tc main_call6_v2) = (t_main_call6_v2 (flatB (h_main_v18 (sysOf A))) (flat (h_main_v11 (sysOf A)))) ∧ V (Proc.devRef .tc main_v41) = (t_main_v41 (flatB (h_main_v18 (sysOf A))) (flat (h_main_v11 (sysOf A))))
/-- What the buffers still needed hold after stretch 9. -/
def Inv9 (A : (⟨S64000x3, .f32⟩ : BufTy).Contents (Elt F)) (V : Valuation τ sig (Elt F)) : Prop :=
  V (Proc.devRef .tc main_v21) = (t_main_v21 (flatB (h_main_v18 (sysOf A))) (flat (h_main_v11 (sysOf A)))) ∧ V (Proc.devRef .tc main_v37) = (t_main_v37 (flatB (h_main_v18 (sysOf A))) (flat (h_main_v11 (sysOf A)))) ∧ V (Proc.devRef .tc main_v39) = (t_main_v39 (flatB (h_main_v18 (sysOf A))) (flat (h_main_v11 (sysOf A)))) ∧ V (Proc.devRef .tc main_v11) = (h_main_v11 (sysOf A)) ∧ V (Proc.devRef .tc main_v43) = (t_main_v43 (flatB (h_main_v18 (sysOf A))) (flat (h_main_v11 (sysOf A)))) ∧ V (Proc.devRef .tc main_v40) = (t_main_v40 (flatB (h_main_v18 (sysOf A))) (flat (h_main_v11 (sysOf A)))) ∧ V (Proc.devRef .tc main_v42) = (t_main_v42 (flatB (h_main_v18 (sysOf A))) (flat (h_main_v11 (sysOf A))))
/-- What the buffers still needed hold after stretch 10. -/
def Inv10 (A : (⟨S64000x3, .f32⟩ : BufTy).Contents (Elt F)) (V : Valuation τ sig (Elt F)) : Prop :=
  V (Proc.devRef .tc main_v21) = (t_main_v21 (flatB (h_main_v18 (sysOf A))) (flat (h_main_v11 (sysOf A)))) ∧ V (Proc.devRef .tc main_v51) = (t_main_v51 (flatB (h_main_v18 (sysOf A))) (flat (h_main_v11 (sysOf A)))) ∧ V (Proc.devRef .tc main_v47) = (t_main_v47 (flatB (h_main_v18 (sysOf A))) (flat (h_main_v11 (sysOf A)))) ∧ V (Proc.devRef .tc main_v37) = (t_main_v37 (flatB (h_main_v18 (sysOf A))) (flat (h_main_v11 (sysOf A)))) ∧ V (Proc.devRef .tc main_v39) = (t_main_v39 (flatB (h_main_v18 (sysOf A))) (flat (h_main_v11 (sysOf A)))) ∧ V (Proc.devRef .tc main_v11) = (h_main_v11 (sysOf A))
/-- What the buffers still needed hold after stretch 11. -/
def Inv11 (A : (⟨S64000x3, .f32⟩ : BufTy).Contents (Elt F)) (V : Valuation τ sig (Elt F)) : Prop :=
  V (Proc.devRef .tc main_v21) = (t_main_v21 (flatB (h_main_v18 (sysOf A))) (flat (h_main_v11 (sysOf A)))) ∧ V (Proc.devRef .tc main_v60) = (t_main_v60 (flatB (h_main_v18 (sysOf A))) (flat (h_main_v11 (sysOf A)))) ∧ V (Proc.devRef .tc main_v51) = (t_main_v51 (flatB (h_main_v18 (sysOf A))) (flat (h_main_v11 (sysOf A)))) ∧ V (Proc.devRef .tc main_v47) = (t_main_v47 (flatB (h_main_v18 (sysOf A))) (flat (h_main_v11 (sysOf A))))
/-- What the buffers still needed hold after stretch 12. -/
def Inv12 (A : (⟨S64000x3, .f32⟩ : BufTy).Contents (Elt F)) (V : Valuation τ sig (Elt F)) : Prop :=
  V (Proc.devRef .tc main_v61) = (t_main_v61 (flatB (h_main_v18 (sysOf A))) (flat (h_main_v11 (sysOf A)))) ∧ V (Proc.devRef .tc main_v62) = (t_main_v62 (flatB (h_main_v18 (sysOf A))) (flat (h_main_v11 (sysOf A)))) ∧ V (Proc.devRef .tc main_v63) = (t_main_v63 (flatB (h_main_v18 (sysOf A))) (flat (h_main_v11 (sysOf A)))) ∧ V (Proc.devRef .tc main_v21) = (t_main_v21 (flatB (h_main_v18 (sysOf A))) (flat (h_main_v11 (sysOf A))))
set_option maxHeartbeats 4000000 in
attribute [local irreducible] Host.reduce Host.reduceWindow Host.gather Host.scatter in
theorem step1 (A : (⟨S64000x3, .f32⟩ : BufTy).Contents (Elt F)) (V : Valuation τ sig (Elt F)) (h : Inv0 A V) : Inv1 A (StableHlo.after (rseg1 (F := F)) V) := by
  unfold Inv0 at h; unfold Inv1
  have h0 := h
  refine ⟨?_, ?_⟩
  all_goals (simp only [rseg1, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0]); (try rw [h0]); first | rfl | skip)
set_option maxHeartbeats 4000000 in
attribute [local irreducible] Host.reduce Host.reduceWindow Host.gather Host.scatter in
theorem step2 (A : (⟨S64000x3, .f32⟩ : BufTy).Contents (Elt F)) (V : Valuation τ sig (Elt F)) (h : Inv1 A V) : Inv2 A (StableHlo.after (rseg2 (F := F)) V) := by
  unfold Inv1 at h; unfold Inv2
  obtain ⟨h0, h1⟩ := h
  refine ⟨?_, ?_⟩
  all_goals (simp only [rseg2, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1]); (try rw [h0]); (try rw [h1]); first | rfl | skip)
set_option maxHeartbeats 4000000 in
attribute [local irreducible] Host.reduce Host.reduceWindow Host.gather Host.scatter in
theorem step3 (A : (⟨S64000x3, .f32⟩ : BufTy).Contents (Elt F)) (V : Valuation τ sig (Elt F)) (h : Inv2 A V) : Inv3 A (StableHlo.after (rseg3 (F := F)) V) := by
  unfold Inv2 at h; unfold Inv3
  obtain ⟨h0, h1⟩ := h
  refine ⟨?_, ?_, ?_, ?_, ?_⟩
  all_goals (simp only [rseg3, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1]); (try rw [h0]); (try rw [h1]); first | rfl | skip)
set_option maxHeartbeats 4000000 in
attribute [local irreducible] Host.reduce Host.reduceWindow Host.gather Host.scatter in
theorem step4 (A : (⟨S64000x3, .f32⟩ : BufTy).Contents (Elt F)) (V : Valuation τ sig (Elt F)) (h : Inv3 A V) : Inv4 A (StableHlo.after (rseg4 (F := F)) V) := by
  unfold Inv3 at h; unfold Inv4
  obtain ⟨h0, h1, h2, h3, h4⟩ := h
  refine ⟨?_, ?_, ?_, ?_⟩
  all_goals (simp only [rseg4, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1, h2, h3, h4]); (try rw [h0]); (try rw [h1]); (try rw [h2]); (try rw [h3]); (try rw [h4]); first | rfl | skip)
set_option maxHeartbeats 4000000 in
attribute [local irreducible] Host.reduce Host.reduceWindow Host.gather Host.scatter in
theorem step5 (A : (⟨S64000x3, .f32⟩ : BufTy).Contents (Elt F)) (V : Valuation τ sig (Elt F)) (h : Inv4 A V) : Inv5 A (StableHlo.after (rseg5 (F := F)) V) := by
  unfold Inv4 at h; unfold Inv5
  obtain ⟨h0, h1, h2, h3⟩ := h
  refine ⟨?_, ?_, ?_, ?_, ?_, ?_, ?_⟩
  all_goals (simp only [rseg5, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1, h2, h3]); (try rw [h0]); (try rw [h1]); (try rw [h2]); (try rw [h3]); first | rfl | skip)
set_option maxHeartbeats 4000000 in
attribute [local irreducible] Host.reduce Host.reduceWindow Host.gather Host.scatter in
theorem step6 (A : (⟨S64000x3, .f32⟩ : BufTy).Contents (Elt F)) (V : Valuation τ sig (Elt F)) (h : Inv5 A V) : Inv6 A (StableHlo.after (rseg6 (F := F)) V) := by
  unfold Inv5 at h; unfold Inv6
  obtain ⟨h0, h1, h2, h3, h4, h5, h6⟩ := h
  refine ⟨?_, ?_, ?_, ?_, ?_, ?_, ?_, ?_, ?_⟩
  all_goals (simp only [rseg6, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1, h2, h3, h4, h5, h6]); (try rw [h0]); (try rw [h1]); (try rw [h2]); (try rw [h3]); (try rw [h4]); (try rw [h5]); (try rw [h6]); first | rfl | skip)
set_option maxHeartbeats 4000000 in
attribute [local irreducible] Host.reduce Host.reduceWindow Host.gather Host.scatter in
theorem step7 (A : (⟨S64000x3, .f32⟩ : BufTy).Contents (Elt F)) (V : Valuation τ sig (Elt F)) (h : Inv6 A V) : Inv7 A (StableHlo.after (rseg7 (F := F)) V) := by
  unfold Inv6 at h; unfold Inv7
  obtain ⟨h0, h1, h2, h3, h4, h5, h6, h7, h8⟩ := h
  refine ⟨?_, ?_, ?_, ?_, ?_, ?_, ?_, ?_, ?_⟩
  all_goals (simp only [rseg7, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1, h2, h3, h4, h5, h6, h7, h8]); (try rw [h0]); (try rw [h1]); (try rw [h2]); (try rw [h3]); (try rw [h4]); (try rw [h5]); (try rw [h6]); (try rw [h7]); (try rw [h8]); first | rfl | skip)
set_option maxHeartbeats 4000000 in
attribute [local irreducible] Host.reduce Host.reduceWindow Host.gather Host.scatter in
theorem step8 (A : (⟨S64000x3, .f32⟩ : BufTy).Contents (Elt F)) (V : Valuation τ sig (Elt F)) (h : Inv7 A V) : Inv8 A (StableHlo.after (rseg8 (F := F)) V) := by
  unfold Inv7 at h; unfold Inv8
  obtain ⟨h0, h1, h2, h3, h4, h5, h6, h7, h8⟩ := h
  refine ⟨?_, ?_, ?_, ?_, ?_, ?_, ?_, ?_⟩
  all_goals (simp only [rseg8, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1, h2, h3, h4, h5, h6, h7, h8]); (try rw [h0]); (try rw [h1]); (try rw [h2]); (try rw [h3]); (try rw [h4]); (try rw [h5]); (try rw [h6]); (try rw [h7]); (try rw [h8]); first | rfl | skip)
set_option maxHeartbeats 4000000 in
attribute [local irreducible] Host.reduce Host.reduceWindow Host.gather Host.scatter in
theorem step9 (A : (⟨S64000x3, .f32⟩ : BufTy).Contents (Elt F)) (V : Valuation τ sig (Elt F)) (h : Inv8 A V) : Inv9 A (StableHlo.after (rseg9 (F := F)) V) := by
  unfold Inv8 at h; unfold Inv9
  obtain ⟨h0, h1, h2, h3, h4, h5, h6, h7⟩ := h
  refine ⟨?_, ?_, ?_, ?_, ?_, ?_, ?_⟩
  all_goals (simp only [rseg9, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1, h2, h3, h4, h5, h6, h7]); (try rw [h0]); (try rw [h1]); (try rw [h2]); (try rw [h3]); (try rw [h4]); (try rw [h5]); (try rw [h6]); (try rw [h7]); first | rfl | skip)
set_option maxHeartbeats 4000000 in
attribute [local irreducible] Host.reduce Host.reduceWindow Host.gather Host.scatter in
theorem step10 (A : (⟨S64000x3, .f32⟩ : BufTy).Contents (Elt F)) (V : Valuation τ sig (Elt F)) (h : Inv9 A V) : Inv10 A (StableHlo.after (rseg10 (F := F)) V) := by
  unfold Inv9 at h; unfold Inv10
  obtain ⟨h0, h1, h2, h3, h4, h5, h6⟩ := h
  refine ⟨?_, ?_, ?_, ?_, ?_, ?_⟩
  all_goals (simp only [rseg10, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1, h2, h3, h4, h5, h6]); (try rw [h0]); (try rw [h1]); (try rw [h2]); (try rw [h3]); (try rw [h4]); (try rw [h5]); (try rw [h6]); first | rfl | skip)
set_option maxHeartbeats 4000000 in
attribute [local irreducible] Host.reduce Host.reduceWindow Host.gather Host.scatter in
theorem step11 (A : (⟨S64000x3, .f32⟩ : BufTy).Contents (Elt F)) (V : Valuation τ sig (Elt F)) (h : Inv10 A V) : Inv11 A (StableHlo.after (rseg11 (F := F)) V) := by
  unfold Inv10 at h; unfold Inv11
  obtain ⟨h0, h1, h2, h3, h4, h5⟩ := h
  refine ⟨?_, ?_, ?_, ?_⟩
  all_goals (simp only [rseg11, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1, h2, h3, h4, h5]); (try rw [h0]); (try rw [h1]); (try rw [h2]); (try rw [h3]); (try rw [h4]); (try rw [h5]); first | rfl | skip)
set_option maxHeartbeats 4000000 in
attribute [local irreducible] Host.reduce Host.reduceWindow Host.gather Host.scatter in
theorem step12 (A : (⟨S64000x3, .f32⟩ : BufTy).Contents (Elt F)) (V : Valuation τ sig (Elt F)) (h : Inv11 A V) : Inv12 A (StableHlo.after (rseg12 (F := F)) V) := by
  unfold Inv11 at h; unfold Inv12
  obtain ⟨h0, h1, h2, h3⟩ := h
  refine ⟨?_, ?_, ?_, ?_⟩
  all_goals (simp only [rseg12, List.cons_append, List.nil_append]; after_results_simp; (try (repeat (first | (rw [binary_result_ne]; rotate_left; decide) | (rw [ternary_result_ne]; rotate_left; decide) | (rw [unary_result_ne]; rotate_left; decide) | (rw [nullary_result_ne]; rotate_left; decide) | (rw [reshape_result_ne]; rotate_left; decide)))); (try simp only [h0, h1, h2, h3]); (try rw [h0]); (try rw [h1]); (try rw [h2]); (try rw [h3]); first | rfl | skip)

theorem ops_split : (ops : List (HloOp τ sig (Elt F))) = rseg1 ++ (rseg2 ++ (rseg3 ++ (rseg4 ++ (rseg5 ++ (rseg6 ++ (rseg7 ++ (rseg8 ++ (rseg9 ++ (rseg10 ++ (rseg11 ++ (rseg12))))))))))) := by
  show ops0 ++ ops1 = _
  rw [ops0_split, ops1_split]
  simp only [List.append_assoc]

theorem ref_inv (W : Valuation τ sig (Elt F)) :
    Inv12 (W (Proc.devRef .tc main_arg0)) (StableHlo.after (ops (F := F)) W) := by
  rw [ops_split]
  simp only [StableHlo.after_append]
  generalize hA : W (Proc.devRef .tc main_arg0) = A
  exact (step12 A _ (step11 A _ (step10 A _ (step9 A _ (step8 A _ (step7 A _ (step6 A _ (step5 A _ (step4 A _ (step3 A _ (step2 A _ (step1 A W hA))))))))))))

theorem ref_v61 (W : Valuation τ sig (Elt F)) : StableHlo.after (ops (F := F)) W (Proc.devRef .tc main_v61)
    = t_main_v61 (flatB (h_main_v18 (sysOf (W (Proc.devRef .tc main_arg0))))) (flat (h_main_v11 (sysOf (W (Proc.devRef .tc main_arg0))))) := (ref_inv W).1
theorem ref_v62 (W : Valuation τ sig (Elt F)) : StableHlo.after (ops (F := F)) W (Proc.devRef .tc main_v62)
    = t_main_v62 (flatB (h_main_v18 (sysOf (W (Proc.devRef .tc main_arg0))))) (flat (h_main_v11 (sysOf (W (Proc.devRef .tc main_arg0))))) := (ref_inv W).2.1
theorem ref_v63 (W : Valuation τ sig (Elt F)) : StableHlo.after (ops (F := F)) W (Proc.devRef .tc main_v63)
    = t_main_v63 (flatB (h_main_v18 (sysOf (W (Proc.devRef .tc main_arg0))))) (flat (h_main_v11 (sysOf (W (Proc.devRef .tc main_arg0))))) := (ref_inv W).2.2.1
theorem ref_v21 (W : Valuation τ sig (Elt F)) : StableHlo.after (ops (F := F)) W (Proc.devRef .tc main_v21)
    = t_main_v21 (flatB (h_main_v18 (sysOf (W (Proc.devRef .tc main_arg0))))) (flat (h_main_v11 (sysOf (W (Proc.devRef .tc main_arg0))))) := (ref_inv W).2.2.2

end Cert.ReferenceIdeal.RefTail

end
-- ==== Proof.TailSame.lean ====
/-
  The lines after the distances are the same lines in both programs: read as functions of the flags and of the flattened
  distances, each of the reference's four results is the kernel's.
-/
import proofs.«164187_j65910568124749_1_alg».proof.Proof.KernelIdealTailDefs
import proofs.«164187_j65910568124749_1_alg».proof.Proof.ReferenceIdealTailDefs

set_option maxRecDepth 16384

noncomputable section

namespace Cert.TailSame

open Idealize.ShloMosaic Idealize.ShloMosaic.StableHlo

variable {F : FTy → Type} [FloatOps F]

abbrev MF (F : FTy → Type) [FloatOps F] := (⟨Cert.KernelIdeal.S64000000, .i1⟩ : BufTy).Contents (Elt F)
abbrev DT (F : FTy → Type) [FloatOps F] := (⟨Cert.KernelIdeal.S64000000, .f32⟩ : BufTy).Contents (Elt F)

set_option maxHeartbeats 4000000 in
attribute [local irreducible] Host.reduce Host.reduceWindow Host.gather Host.scatter in
theorem same_main_v45 (mf : MF F) (D : DT F) : Cert.ReferenceIdeal.Tail.t_main_v61 mf D = Cert.KernelIdeal.Tail.t_main_v45 mf D := rfl

set_option maxHeartbeats 4000000 in
attribute [local irreducible] Host.reduce Host.reduceWindow Host.gather Host.scatter in
theorem same_main_v46 (mf : MF F) (D : DT F) : Cert.ReferenceIdeal.Tail.t_main_v62 mf D = Cert.KernelIdeal.Tail.t_main_v46 mf D := rfl

set_option maxHeartbeats 4000000 in
attribute [local irreducible] Host.reduce Host.reduceWindow Host.gather Host.scatter in
theorem same_main_v47 (mf : MF F) (D : DT F) : Cert.ReferenceIdeal.Tail.t_main_v63 mf D = Cert.KernelIdeal.Tail.t_main_v47 mf D := rfl

set_option maxHeartbeats 4000000 in
attribute [local irreducible] Host.reduce Host.reduceWindow Host.gather Host.scatter in
theorem same_main_v6 (mf : MF F) (D : DT F) : Cert.ReferenceIdeal.Tail.t_main_v21 mf D = Cert.KernelIdeal.Tail.t_main_v6 mf D := rfl

end Cert.TailSame

end
-- ==== Proof.LibScatterKeep.lean ====
/-
  A scatter whose body returns the update (`x.at[idx].set(u)`): what its result holds at every position.

  The scatter is the left fold, over the update indices in row-major order, of the step "write update `j`'s value at
  the position `j` lands at, when it lands inside the operand; drop it otherwise". Every entry of the result is
  therefore either the operand's entry at that position (no update landed there) or the value of an update that
  lands there (the last one in the order, but which one is not needed here). Two forms of that fact:

  * `scatter_set_inv`: a predicate on entries that holds of every operand entry and of every landing update's value
    holds of every entry of the result (`scatter_set_inv_at` lets the predicate depend on the position);
  * `scatter_set_cases`: the result at `p` is `x p`, or `u j` for some update `j` that lands at `p`.

  Second part, the rank-1 instance `x.at[idx].set(u)` of a flat array: operand of extent `N`, one index per update
  (indices of shape `[M, 1]`, the index vector on axis 1), updates of shape `[M]`, the operand's one axis inserted and
  named by the index. There update `j` lands at `p` exactly when its index word, read signed, is `p`'s coordinate —
  in particular it is then nonnegative and below `N` (`landing_word`).
-/
import Idealize.ShloMosaic.Lib.ValueIdx

namespace Cert.Lib.ScatterKeep

open Idealize.ShloMosaic Idealize.ShloMosaic.ValueIdx

section General

variable {s si u : Shape} {α : Type} {w : Nat}

/-- The fold behind a setting scatter, over ANY list of update numbers and from ANY starting array `r`: if a
    position-dependent predicate `P p` holds of `r p` at every position `p`, and of the value of every update that
    lands at `p`, then it holds of the folded array at every position. One step either leaves the array alone (the
    update is dropped), or changes it at the landing position only, to that update's value. -/
theorem foldl_set_inv_at (d : ScatterDims s si u) (i : IVec si w) (upd : u.Idx → α)
    (P : s.Idx → α → Prop) (hu : ∀ j p, d.resultIdx? j i = some p → P p (upd j))
    (l : List (Fin u.numel)) (r : s.Idx → α) (hr : ∀ p, P p (r p)) :
    ∀ p, P p (l.foldl (fun r n =>
      match d.resultIdx? (u.rowMajor.symm n) i with
      | some q => fun q' => if q' = q then (fun _ b => b) (r q) (upd (u.rowMajor.symm n)) else r q'
      | none => r) r p) := by
  induction l generalizing r with
  | nil => exact hr
  | cons n l ih =>
    rw [List.foldl_cons]
    apply ih
    intro p
    cases hq : d.resultIdx? (u.rowMajor.symm n) i with
    | none => exact hr p
    | some q =>
      show P p (if p = q then upd (u.rowMajor.symm n) else r p)
      by_cases hpq : p = q
      · rw [if_pos hpq]; exact hu _ p (by rw [hq, hpq])
      · rw [if_neg hpq]; exact hr p

/-- INVARIANT, position-dependent form: if `P p` holds of the operand's entry `x p` at every position, and of the
    value `u j` of every update `j` that lands at `p`, then `P p` holds of the scatter's result at `p`. -/
theorem scatter_set_inv_at (d : ScatterDims s si u) (x : s.Idx → α) (i : IVec si w) (upd : u.Idx → α)
    (P : s.Idx → α → Prop) (hx : ∀ p, P p (x p))
    (hu : ∀ j p, d.resultIdx? j i = some p → P p (upd j)) :
    ∀ p, P p (Host.scatter d (fun _ b => b) x i upd p) :=
  foldl_set_inv_at d i upd P hu _ x hx

/-- INVARIANT of every entry: if every entry of the operand `x` satisfies `P`, and every update that lands inside
    the operand (update `j` landing at position `p`) carries a value satisfying `P`, then every entry of the
    result of the setting scatter satisfies `P`. -/
theorem scatter_set_inv (d : ScatterDims s si u) (x : s.Idx → α) (i : IVec si w) (upd : u.Idx → α)
    (P : α → Prop) (hx : ∀ p, P (x p))
    (hu : ∀ j p, d.resultIdx? j i = some p → P (upd j)) :
    ∀ p, P (Host.scatter d (fun _ b => b) x i upd p) :=
  scatter_set_inv_at d x i upd (fun _ a => P a) hx hu

/-- POINTWISE form: at every position `p` the result of the setting scatter is either the operand's entry `x p`,
    or the value `u j` of an update `j` that lands at `p`. -/
theorem scatter_set_cases (d : ScatterDims s si u) (x : s.Idx → α) (i : IVec si w) (upd : u.Idx → α)
    (p : s.Idx) :
    Host.scatter d (fun _ b => b) x i upd p = x p ∨
      ∃ j, d.resultIdx? j i = some p ∧ Host.scatter d (fun _ b => b) x i upd p = upd j :=
  scatter_set_inv_at d x i upd
    (fun p a => a = x p ∨ ∃ j, d.resultIdx? j i = some p ∧ a = upd j)
    (fun _ => Or.inl rfl) (fun j _ h => Or.inr ⟨j, h, rfl⟩) p

end General

section Flat

variable {N M w : Nat}

/-- The kept axes of a rank-1 shape whose one axis is removed: none. -/
theorem kept_flat : (⟨1, ![N]⟩ : Shape).kept [0] = [] := by
  unfold Shape.kept
  rfl

/-- An axis of a rank-1 shape is axis `0`. -/
theorem axis_flat (x : Fin (⟨1, ![M]⟩ : Shape).rank) : x = 0 := by
  have h : x.val < 1 := x.isLt
  exact Fin.ext (by show x.val = 0; omega)

/-- In the flat instance the operand's one axis is an inserted axis, so an update's window coordinate on it is `0`. -/
theorem window_flat (wf) (j : (⟨1, ![M]⟩ : Shape).Idx) :
    ScatterDims.window (s := ⟨1, ![N]⟩) (si := ⟨2, ![M, 1]⟩) (u := ⟨1, ![M]⟩) ⟨[], [0], [0], 1, wf⟩ j 0 = 0 := by
  unfold ScatterDims.window
  rw [dif_neg]
  show ¬ (0 ∈ (⟨1, ![N]⟩ : Shape).kept [0])
  rw [kept_flat]; exact List.not_mem_nil

/-- In the flat instance the start of update `j`'s window on the operand's axis is `j`'s own index word — the entry
    of the indices at row `j 0`, column `0` — read as a signed integer. -/
theorem start_flat (wf) (i : IVec ⟨2, ![M, 1]⟩ w) (j : (⟨1, ![M]⟩ : Shape).Idx) :
    ScatterDims.start (s := ⟨1, ![N]⟩) (si := ⟨2, ![M, 1]⟩) (u := ⟨1, ![M]⟩) ⟨[], [0], [0], 1, wf⟩ j i 0
      = (i (ix2 (j 0) 0)).toInt := by
  unfold ScatterDims.start
  rw [dif_pos (by simp)]
  congr 2
  funext b
  match b with
  | ⟨0, _⟩ =>
    unfold ScatterDims.siIdx
    rw [dif_neg (by show ¬ (0 : Nat) = 1; decide)]
    unfold ScatterDims.siCoord
    apply Fin.ext
    show (j _).val = (j 0).val
    exact congrArg (fun x => (j x).val) (axis_flat _)
  | ⟨1, _⟩ =>
    unfold ScatterDims.siIdx
    rw [dif_pos (by rfl)]
    apply Fin.ext
    show List.idxOf (0 : Fin 1) [0] = 0
    rfl

/-- LANDING in the flat instance (`x.at[idx].set(u)` of a rank-1 operand of extent `N`, indices of shape `[M, 1]`
    with the index vector on axis 1, updates of shape `[M]`, the operand's axis inserted and named by the index): if
    update `j` lands at position `p`, then `j`'s index word, read as a signed integer, is nonnegative, below `N`, and
    equal to `p`'s coordinate. -/
theorem landing_word (d : ScatterDims ⟨1, ![N]⟩ ⟨2, ![M, 1]⟩ ⟨1, ![M]⟩)
    (h1 : d.updateWindowDims = []) (h2 : d.insertedWindowDims = [0])
    (h3 : d.scatterDimsToOperandDims = [0]) (h4 : d.indexVectorDim = 1)
    (i : IVec ⟨2, ![M, 1]⟩ w) (j : (⟨1, ![M]⟩ : Shape).Idx) (p : (⟨1, ![N]⟩ : Shape).Idx)
    (h : d.resultIdx? j i = some p) :
    0 ≤ (i (ix2 (j 0) 0)).toInt ∧ (i (ix2 (j 0) 0)).toInt < (N : Int) ∧
      (i (ix2 (j 0) 0)).toInt = ((p 0).val : Int) := by
  obtain ⟨uw, iw, sd, iv, wf⟩ := d
  simp only at h1 h2 h3 h4
  subst h1 h2 h3 h4
  unfold ScatterDims.resultIdx? at h
  split at h
  · rename_i hc
    have h0 := hc 0
    rw [start_flat, window_flat] at h0
    have hp : p = _ := (Option.some.inj h).symm
    have hp0 : (p 0).val = _ := congrArg (fun q => (q 0).val) hp
    dsimp only at hp0
    rw [start_flat, window_flat] at hp0
    have hN : ((⟨1, ![N]⟩ : Shape).size 0) = N := rfl
    rw [hN] at h0
    simp only [Nat.cast_zero, add_zero] at h0 hp0
    refine ⟨h0.1, h0.2, ?_⟩
    rw [hp0, Int.toNat_of_nonneg h0.1]
  · exact absurd h (by simp)

/-- The converse: in the flat instance, an update `j` whose index word read signed is the coordinate of a position
    `p` of the operand lands at `p`. -/
theorem landing_of_word (d : ScatterDims ⟨1, ![N]⟩ ⟨2, ![M, 1]⟩ ⟨1, ![M]⟩)
    (h1 : d.updateWindowDims = []) (h2 : d.insertedWindowDims = [0])
    (h3 : d.scatterDimsToOperandDims = [0]) (h4 : d.indexVectorDim = 1)
    (i : IVec ⟨2, ![M, 1]⟩ w) (j : (⟨1, ![M]⟩ : Shape).Idx) (p : (⟨1, ![N]⟩ : Shape).Idx)
    (h : (i (ix2 (j 0) 0)).toInt = ((p 0).val : Int)) :
    d.resultIdx? j i = some p := by
  obtain ⟨uw, iw, sd, iv, wf⟩ := d
  simp only at h1 h2 h3 h4
  subst h1 h2 h3 h4
  have hN : ((⟨1, ![N]⟩ : Shape).size 0) = N := rfl
  have hpN : (p 0).val < N := (p 0).isLt
  unfold ScatterDims.resultIdx?
  have hc : ∀ a, 0 ≤ ScatterDims.start (s := ⟨1, ![N]⟩) (si := ⟨2, ![M, 1]⟩) (u := ⟨1, ![M]⟩) ⟨[], [0], [0], 1, wf⟩ j i a
        + (ScatterDims.window (s := ⟨1, ![N]⟩) (si := ⟨2, ![M, 1]⟩) (u := ⟨1, ![M]⟩) ⟨[], [0], [0], 1, wf⟩ j a : Nat) ∧
      ScatterDims.start (s := ⟨1, ![N]⟩) (si := ⟨2, ![M, 1]⟩) (u := ⟨1, ![M]⟩) ⟨[], [0], [0], 1, wf⟩ j i a
        + (ScatterDims.window (s := ⟨1, ![N]⟩) (si := ⟨2, ![M, 1]⟩) (u := ⟨1, ![M]⟩) ⟨[], [0], [0], 1, wf⟩ j a : Nat)
        < ((⟨1, ![N]⟩ : Shape).size a : Int) := by
    intro a
    obtain rfl : a = 0 := axis_flat (M := N) a
    rw [start_flat, window_flat, hN, h]
    simp only [Nat.cast_zero, add_zero]
    omega
  rw [dif_pos hc]
  congr 1
  funext a
  obtain rfl : a = 0 := axis_flat (M := N) a
  apply Fin.ext
  show (_ + _ : Int).toNat = (p 0).val
  rw [start_flat, window_flat, h]
  simp

end Flat

end Cert.Lib.ScatterKeep
-- ==== Proof.LibEdgeRows.lean ====
/-
  GATHERS OF ROWS AND OF ENTRIES BY A COLUMN OF INDICES, AND WHERE A ROW SCATTER LANDS.

  Three host shape operations with a column `[E, 1]` of integer indices, each read at one index:
  * a gather of ROWS of a table `[N, C]` (`rowGather`): row `e` of the result is the table's row at the `e`-th index
    word, read signed and clamped into `[0, N − 1]`; the column is kept (`rowGather_apply`);
  * a gather of ENTRIES of a vector `[N]` (`entryGather`): entry `e` of the result is the vector's entry at the `e`-th
    index word, read signed and clamped into `[0, N − 1]` (`entryGather_apply`);
  * a scatter of the ROWS of updates `[E, C]` into a table `[N, C]` (`rowScatter`): an update entry `(e, q)` that lands
    at table entry `i` has the `e`-th index word, read signed, equal to `i`'s row, and keeps its column
    (`rowScatter_lands`); so the clamped index of the matching gather is `i`'s row as well (`rowScatter_lands_clamp`).
  The dimension numbers are structure literals over the sizes with the well-formedness proof a parameter, so a
  program's record with the same lists equals them by `rfl`.
  Last, two facts about how such a column of indices is prepared: the wrap of a negative index (add `m` where the
  index is below zero) leaves an index that is nonnegative read signed as it is (`wrap_apply_of_nonneg`), and a vector
  `[E]` broadcast to the column `[E, 1]` reads the vector's entry `e` at row `e` (`column_apply`).
-/
import Idealize.ShloMosaic.Lib.ValueIdx

namespace Cert.Lib.EdgeRows

open Idealize.ShloMosaic Idealize.ShloMosaic.ValueIdx

/-! ## A gather of rows -/

section RowGather
variable {α : Type}

/-- The dimension numbers of a gather of rows: operand `[N, C]`, start indices `[E, 1]`, result `[E, C]`; axis 0 of
    the operand is indexed and collapsed, axis 1 is taken whole as the result's axis 1. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, q)`: the operand at the row named by the `e`-th index word, read signed and clamped
    into `[0, N − 1]`, and at column `q`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q)
      = x (ix2 ⟨min (idx (ix2 e (0 : Fin 1))).toInt.toNat (N - 1), by omega⟩ q) := by
  unfold Host.gather
  congr 1
  funext a
  refine Fin.ext ?_
  match a with
  | ⟨0, h0⟩ =>
    show (rowGather N E C wf).start (ix2 e q) idx ⟨0, h0⟩ + (rowGather N E C wf).batchCoord (ix2 e q) ⟨0, h0⟩
      + (rowGather N E C wf).offCoord (ix2 e q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N E C wf).startIndexMap from List.mem_singleton.mpr rfl)]
    have hsi : (rowGather N E C wf).siIdx (ix2 e q) ⟨List.idxOf (⟨0, h0⟩ : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show (rowGather N E C wf).start (ix2 e q) idx ⟨1, h1⟩ + (rowGather N E C wf).batchCoord (ix2 e q) ⟨1, h1⟩
      + (rowGather N E C wf).offCoord (ix2 e q) ⟨1, h1⟩ = q.val
    rw [GatherDims.batchCoord_eq_zero _ _ _ List.not_mem_nil]
    have hs : (rowGather N E C wf).start (ix2 e q) idx ⟨1, h1⟩ = 0 := by
      unfold GatherDims.start
      rw [dif_neg (fun h => Nat.one_ne_zero (congrArg Fin.val (List.mem_singleton.mp h)))]
    rw [hs]
    simp only [Nat.add_zero, Nat.zero_add]
    rfl

end RowGather

/-! ## A gather of entries -/

section EntryGather
variable {α : Type}

/-- The dimension numbers of a gather of entries: operand `[N]`, start indices `[E, 1]`, result `[E]`; the operand's
    one axis is indexed and collapsed. -/
abbrev entryGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries read at `e`: the operand at the `e`-th index word, read signed and clamped into
    `[0, N − 1]`. -/
theorem entryGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryGather N E wf).start (ix1 e) idx 0 + (entryGather N E wf).batchCoord (ix1 e) 0
    + (entryGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx (ix1 e) ⟨List.idxOf (0 : Fin 1) (entryGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EntryGather

/-! ## A scatter of rows -/

section RowScatter

/-- The dimension numbers of a scatter of rows: operand `[N, C]`, scatter indices `[E, 1]`, updates `[E, C]`; the
    index names the operand's axis 0, which the update window does not have, and the updates' axis 1 is the window
    over the operand's axis 1. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window starts at the `e`-th index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h0 : 0 < 2) :
    (rowScatter N E C wf).start (ix2 e q) idx ⟨0, h0⟩ = (idx (ix2 e (0 : Fin 1))).toInt := by
  unfold ScatterDims.start
  rw [dif_pos (show (⟨0, h0⟩ : Fin 2) ∈ (rowScatter N E C wf).scatterDimsToOperandDims from List.mem_singleton.mpr rfl)]
  have hsi : (rowScatter N E C wf).siIdx (ix2 e q)
      ⟨List.idxOf (⟨0, h0⟩ : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1 the window starts at 0. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h1 : 1 < 2) :
    (rowScatter N E C wf).start (ix2 e q) idx ⟨1, h1⟩ = 0 := by
  unfold ScatterDims.start
  rw [dif_neg (fun h => Nat.one_ne_zero (congrArg Fin.val (List.mem_singleton.mp h)))]

/-- The operand's axis 0 has no window coordinate. -/
theorem rowScatter_window_zero {N E C : Nat}
    (wf : ScatterDims.WF ⟨2, ![N, C]⟩ ⟨2, ![E, 1]⟩ ⟨2, ![E, C]⟩ [1] [0] [0] 1)
    (e : Fin E) (q : Fin C) (h0 : 0 < 2) :
    (rowScatter N E C wf).window (ix2 e q) ⟨0, h0⟩ = 0 := by
  have hn : (⟨0, h0⟩ : Fin 2) ∉ (rowScatter N E C wf).sKept :=
    fun h => of_decide_eq_true (List.mem_filter.1 h).2 (List.mem_singleton.mpr rfl)
  unfold ScatterDims.window
  rw [dif_neg hn]

/-- On the operand's axis 1 the window coordinate is the update's column. -/
theorem rowScatter_window_one {N E C : Nat}
    (wf : ScatterDims.WF ⟨2, ![N, C]⟩ ⟨2, ![E, 1]⟩ ⟨2, ![E, C]⟩ [1] [0] [0] 1)
    (e : Fin E) (q : Fin C) (h1 : 1 < 2) :
    (rowScatter N E C wf).window (ix2 e q) ⟨1, h1⟩ = q.val := by
  have hm : (⟨1, h1⟩ : Fin 2) ∈ (rowScatter N E C wf).sKept :=
    List.mem_filter.2 ⟨List.mem_finRange _,
      decide_eq_true (fun h => Nat.one_ne_zero (congrArg Fin.val (List.mem_singleton.mp h)))⟩
  unfold ScatterDims.window
  rw [dif_pos hm]
  rfl

/-- An update entry `(e, q)` that lands at operand entry `i` has the `e`-th index word, read signed, equal to `i`'s
    row, and keeps its column. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    (idx (ix2 e (0 : Fin 1))).toInt = ((i 0).val : Int) ∧ (i 1).val = q.val := by
  unfold ScatterDims.resultIdx? at h
  split at h
  · rename_i hb
    have hi := Option.some.inj h
    subst hi
    have h02 : 0 < 2 := Nat.zero_lt_two
    have h12 : 1 < 2 := Nat.one_lt_two
    constructor
    · have hb0 := (hb ⟨0, h02⟩).1
      show _ = (((rowScatter N E C wf).start (ix2 e q) idx ⟨0, h02⟩
        + ((rowScatter N E C wf).window (ix2 e q) ⟨0, h02⟩ : Nat) : Int).toNat : Int)
      rw [rowScatter_start_zero, rowScatter_window_zero] at hb0 ⊢
      omega
    · show ((rowScatter N E C wf).start (ix2 e q) idx ⟨1, h12⟩
        + ((rowScatter N E C wf).window (ix2 e q) ⟨1, h12⟩ : Nat) : Int).toNat = q.val
      rw [rowScatter_start_one, rowScatter_window_one]
      omega
  · exact absurd h (by simp)

/-- So the index word of a landing update, read signed and clamped into `[0, N − 1]` as the matching gather of rows
    reads it, is the row it lands at. -/
theorem rowScatter_lands_clamp {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    min (idx (ix2 e (0 : Fin 1))).toInt.toNat (N - 1) = (i 0).val := by
  have h0 := (rowScatter_lands wf idx e q i h).1
  have hlt : (i 0).val < N := idx2_lt0 i
  rw [h0]
  omega

end RowScatter

/-! ## The wrap of a negative index, at a nonnegative index; a vector of indices as a column -/

section Wrap

/-- A word that is nonnegative when read signed is not signed-less-than zero: the comparison's bit is `0`. -/
theorem cmpi_slt_zero_of_nonneg {w : Nat} (x : BitVec w) (h : 0 ≤ x.toInt) : IntOp.cmpi .slt x 0#w = 0#1 := by
  have hs : x.slt 0#w = false := by
    simp only [BitVec.slt, BitVec.toInt_zero, decide_eq_false_iff_not, not_lt]
    exact h
  show BitVec.ofBool (x.slt 0#w) = 0#1
  rw [hs]
  rfl

/-- The normalisation of a possibly negative index — where the index is signed-less-than a splat `0`, the index plus a
    splat `m`, elsewhere the index — is the index itself wherever the index is nonnegative read signed. -/
theorem wrap_apply_of_nonneg {s0 s : Shape} {w : Nat} (dims : Fin s0.rank → Fin s.rank) (hb : s0.BroadcastsInDim s dims)
    (m : BitVec w) (a : IVec s w) (k : s.Idx) (h : 0 ≤ (a k).toInt) :
    select (cmpi .slt a (broadcastInDim s dims hb (constantI s0 w 0#w)))
      (addi a (broadcastInDim s dims hb (constantI s0 w m))) a k = a k := by
  have hc : cmpi .slt a (broadcastInDim s dims hb (constantI s0 w 0#w)) k = 0#1 :=
    cmpi_slt_zero_of_nonneg (a k) h
  rw [select_apply, hc, select_zero]

/-- A vector `[E]` broadcast to the column `[E, 1]` along axis 0 reads, at row `e`, the vector's entry `e`. -/
theorem column_apply {α : Type} {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) := by
  unfold broadcastInDim
  congr 1
  funext a
  obtain rfl : a = 0 := Subsingleton.elim _ _
  refine Fin.ext ?_
  split
  · rename_i h1
    have hE : E = 1 := h1
    have := e.isLt
    show 0 = e.val
    omega
  · rfl

end Wrap

end Cert.Lib.EdgeRows
-- ==== Proof.TailCongr.lean ====
/-
  THE HOST LINES AFTER THE DISTANCES: the fetched values depend on the distances at the kept positions only.

  The lines number the kept positions (flag `mf = 1`) by a running count, send every other position to the out-of-range
  slot 2200000, and scatter each position's own number into a list of 2200000 slots that starts at −1. A slot is VALID
  when it holds a nonnegative word; the distances are then fetched at the valid slots' position numbers, and a
  constant is written at the other slots.

  A valid slot does not hold the initial −1, so it holds the number of a position `e` whose write landed there; a write
  lands only if its slot number, read signed, is in `[0, 2200000)`; a position that is not kept carries the slot number
  2200000, which is nonnegative — the wrap of a negative index leaves it alone — and is not below 2200000: so `e` is a
  kept position (`flag_of_valid`). The fetch at that slot reads the word of `e`: it is nonnegative, so the maximum with
  0 and the wrap of a negative index leave it alone, and it is below 64000000, so the clamp into `[0, 63999999]` does
  too: the fetch reads the distances at position `e`. Two arrays of distances that agree at every kept position
  therefore give the same fetched values (`v44_congr`), hence the same doubled list (`v47_congr`). The integer lists
  do not read the distances at all (`v45_indep`, `v46_indep`, `v6_indep`).
-/
import proofs.«164187_j65910568124749_1_alg».proof.Proof.KernelIdealTailDefs
import proofs.«164187_j65910568124749_1_alg».proof.Proof.LibScatterKeep
import proofs.«164187_j65910568124749_1_alg».proof.Proof.LibEdgeRows

noncomputable section

namespace Cert.KernelIdeal.TailCongr

open Cert.KernelIdeal Cert.KernelIdeal.Gen Cert.KernelIdeal.Tail
open Idealize.ShloMosaic Idealize.ShloMosaic.StableHlo Idealize.ShloMosaic.ValueIdx

variable {F : FTy → Type} [FloatOps F]

/-- The flags: one bit per position. -/
abbrev MF (F : FTy → Type) := (⟨S64000000, .i1⟩ : BufTy).Contents (Elt F)
/-- The distances: one value per position. -/
abbrev DT (F : FTy → Type) := (⟨S64000000, .f32⟩ : BufTy).Contents (Elt F)

/-! ## Words -/

/-- The 32-bit word of a natural number below 2³¹, read signed, is that number. -/
theorem toInt_ofNat_of_lt (n : Nat) (h : n < 2147483648) : (BitVec.ofNat 32 n).toInt = (n : Int) := by
  rw [BitVec.toInt_eq_toNat_cond, BitVec.toNat_ofNat]
  have hm : n % 2 ^ 32 = n := Nat.mod_eq_of_lt (by omega)
  rw [hm, if_pos (by omega)]

/-- A word whose signed comparison "at least zero" gives the bit 1 is nonnegative read signed. -/
theorem nonneg_of_cmpi_sge_zero {x : BitVec 32} (h : IntOp.cmpi .sge x 0#32 = 1#1) : 0 ≤ x.toInt := by
  by_contra hn
  have hs : (0#32).sle x = false := by
    simp only [BitVec.sle, BitVec.toInt_zero, decide_eq_false_iff_not]; exact hn
  have h0 : IntOp.cmpi .sge x 0#32 = 0#1 := by
    show BitVec.ofBool ((0#32).sle x) = 0#1
    rw [hs]; rfl
  rw [h0] at h; exact absurd h (by decide)

/-- The signed maximum of a nonnegative word and zero is the word. -/
theorem maxsi_zero_of_nonneg {x : BitVec 32} (h : 0 ≤ x.toInt) : IntOp.maxsi x 0#32 = x := by
  unfold IntOp.maxsi
  by_cases hs : (0#32).slt x = true
  · rw [if_pos hs]
  · rw [if_neg hs]
    have h0 : ¬ (0 : Int) < x.toInt := by
      intro hlt; apply hs
      simp only [BitVec.slt, BitVec.toInt_zero, decide_eq_true_eq]; exact hlt
    have hx : x.toInt = (0#32).toInt := by rw [BitVec.toInt_zero]; omega
    exact (BitVec.eq_of_toInt_eq hx).symm

/-! ## The chain read at an index -/

section Chain
variable (mf : MF F) (D : DT F)

/-- A slot is valid when its word is at least zero, read signed. -/
theorem v22_apply (k : S2200000.Idx) : t_main_v22 mf D k = IntOp.cmpi .sge (t_main_v20 mf D k) 0#32 := rfl
/-- The slot's word, or zero if that is larger. -/
theorem v24_apply (k : S2200000.Idx) : t_main_v24 mf D k = IntOp.maxsi (t_main_v20 mf D k) 0#32 := rfl
/-- The slot list starts at the word of −1 everywhere. -/
theorem v13_apply (k : S2200000.Idx) : t_main_v13 mf D k = 4294967295#32 := rfl
/-- The value written for position `j` is the word of `j`'s number. -/
theorem v12_apply (j : S64000000.Idx) : t_main_v12 mf D j = BitVec.ofNat 32 (j 0).val := rfl
/-- The slot number of position `j`: its running count where it is kept, else 2200000. -/
theorem v11_apply (j : S64000000.Idx) :
    t_main_v11 mf D j = Scalar.select (mf j) (t_main_v10 mf D j) 2200000#32 := rfl

/-- The wrap of a negative slot number leaves a nonnegative one alone. -/
theorem v18_of_nonneg (j : S64000000.Idx) (h : 0 ≤ (t_main_v11 mf D j).toInt) :
    t_main_v18 mf D j = t_main_v11 mf D j :=
  Cert.Lib.EdgeRows.wrap_apply_of_nonneg _ bcast_S_S64000000 2200000#32 (t_main_v11 mf D) j h

/-- The column of slot numbers reads, at row `e`, position `e`'s slot number. -/
theorem v19_apply (e : Fin 64000000) (z : Fin 1) : t_main_v19 mf D (ix2 e z) = t_main_v18 mf D (ix1 e) :=
  Cert.Lib.EdgeRows.column_apply bcast_S64000000_S64000000x1_0 (t_main_v18 mf D) e z

/-- The wrap of a negative position number leaves a nonnegative one alone. -/
theorem v41_of_nonneg (k : S2200000.Idx) (h : 0 ≤ (t_main_v24 mf D k).toInt) :
    t_main_v41 mf D k = t_main_v24 mf D k :=
  Cert.Lib.EdgeRows.wrap_apply_of_nonneg _ bcast_S_S2200000 64000000#32 (t_main_v24 mf D) k h

/-- The column of position numbers reads, at row `e`, slot `e`'s position number. -/
theorem v42_apply (e : Fin 2200000) (z : Fin 1) : t_main_v42 mf D (ix2 e z) = t_main_v41 mf D (ix1 e) :=
  Cert.Lib.EdgeRows.column_apply bcast_S2200000_S2200000x1_0 (t_main_v41 mf D) e z

/-- The fetch at slot `e` reads the distances at slot `e`'s position number, read signed and clamped into
    `[0, 63999999]`. -/
theorem v43_apply (e : Fin 2200000) :
    t_main_v43 mf D (ix1 e)
      = D (ix1 ⟨min (t_main_v42 mf D (ix2 e (0 : Fin 1))).toInt.toNat (64000000 - 1), by omega⟩) :=
  Cert.Lib.EdgeRows.entryGather_apply (by omega) gather_S64000000_S2200000x1_S2200000_n_0_n_n_0_1_1.wf D
    (t_main_v42 mf D) e

end Chain

/-! ## A valid slot holds the number of a kept position -/

/-- A VALID slot holds the number of a KEPT position: its word is nonnegative, so it is not the initial −1 but the
    number of a position `e` whose write landed at the slot; a landing write has its slot number in `[0, 2200000)`, and
    a position that is not kept has slot number 2200000. -/
theorem flag_of_valid (mf : MF F) (D : DT F) (k : S2200000.Idx) (hk : t_main_v22 mf D k = 1#1) :
    ∃ e : Fin 64000000, mf (ix1 e) = 1#1 ∧ t_main_v20 mf D k = BitVec.ofNat 32 e.val := by
  have hnn : 0 ≤ (t_main_v20 mf D k).toInt := nonneg_of_cmpi_sge_zero (by rw [← v22_apply]; exact hk)
  rcases Cert.Lib.ScatterKeep.scatter_set_cases scatter_S2200000_S64000000x1_S64000000_n_0_0_1
      (t_main_v13 mf D) (t_main_v19 mf D) (t_main_v12 mf D) k with h0 | ⟨j, hj, hv⟩
  · exfalso
    have h1 : t_main_v20 mf D k = 4294967295#32 := h0
    rw [h1] at hnn
    exact absurd hnn (by decide)
  · obtain ⟨e, rfl⟩ : ∃ e : Fin 64000000, j = ix1 e := ⟨j 0, eq_ix1 j⟩
    have hv1 : t_main_v20 mf D k = BitVec.ofNat 32 e.val := hv
    refine ⟨e, ?_, hv1⟩
    have hl := Cert.Lib.ScatterKeep.landing_word scatter_S2200000_S64000000x1_S64000000_n_0_0_1 rfl rfl rfl rfl
      (t_main_v19 mf D) (ix1 e) k hj
    have hl' : 0 ≤ (t_main_v19 mf D (ix2 e (0 : Fin 1))).toInt
        ∧ (t_main_v19 mf D (ix2 e (0 : Fin 1))).toInt < (2200000 : Int) := ⟨hl.1, hl.2.1⟩
    rw [v19_apply] at hl'
    by_contra hm
    have hm0 : mf (ix1 e) = 0#1 := eq_zero_of_ne_one hm
    have h11 : t_main_v11 mf D (ix1 e) = 2200000#32 := by rw [v11_apply, hm0, select_zero]
    have h22 : (2200000#32).toInt = 2200000 := by decide
    have hnn11 : 0 ≤ (t_main_v11 mf D (ix1 e)).toInt := by rw [h11, h22]; omega
    rw [v18_of_nonneg mf D (ix1 e) hnn11, h11, h22] at hl'
    omega

/-- Two arrays of distances that agree at every kept position give the same fetched values: at a slot that is not
    valid both are the constant; at a valid slot both fetches read the kept position whose number the slot holds. -/
theorem v44_congr (mf : MF F) (D D' : DT F) (h : ∀ p, mf p = 1#1 → D p = D' p) :
    t_main_v44 mf D = t_main_v44 mf D' := by
  funext k
  show Scalar.select (t_main_v22 mf D k) (t_main_v43 mf D k) (t_main_call8_v1 mf D k)
    = Scalar.select (t_main_v22 mf D' k) (t_main_v43 mf D' k) (t_main_call8_v1 mf D' k)
  have e22 : t_main_v22 mf D' k = t_main_v22 mf D k := rfl
  have ec : t_main_call8_v1 mf D' k = t_main_call8_v1 mf D k := rfl
  rw [e22, ec]
  by_cases hk : t_main_v22 mf D k = 1#1
  · rw [hk, select_one, select_one]
    obtain ⟨e, hme, hv⟩ := flag_of_valid mf D k hk
    have key : ∀ D₁ : DT F, t_main_v43 mf D₁ k = D₁ (ix1 e) := by
      intro D₁
      have hv1 : t_main_v20 mf D₁ k = BitVec.ofNat 32 e.val := hv
      have he : e.val < 64000000 := e.isLt
      have hti : (BitVec.ofNat 32 e.val).toInt = (e.val : Int) := toInt_ofNat_of_lt _ (by omega)
      have hnn : 0 ≤ (t_main_v20 mf D₁ k).toInt := by rw [hv1, hti]; omega
      have h24 : t_main_v24 mf D₁ k = t_main_v20 mf D₁ k := by rw [v24_apply]; exact maxsi_zero_of_nonneg hnn
      have h41 : t_main_v41 mf D₁ k = BitVec.ofNat 32 e.val := by
        rw [v41_of_nonneg mf D₁ k (by rw [h24]; exact hnn), h24, hv1]
      obtain ⟨c, rfl⟩ : ∃ c : Fin 2200000, k = ix1 c := ⟨k 0, eq_ix1 k⟩
      rw [v43_apply]
      refine congrArg D₁ (congrArg ix1 (Fin.ext ?_))
      show min (t_main_v42 mf D₁ (ix2 c (0 : Fin 1))).toInt.toNat (64000000 - 1) = e.val
      rw [v42_apply, h41, hti]
      omega
    rw [key D, key D']
    exact h (ix1 e) hme
  · rw [eq_zero_of_ne_one hk, select_zero, select_zero]

/-! ## The statements cited -/

/-- The doubled list of fetched values is the same for two arrays of distances that agree at every kept position. -/
theorem v47_congr (mf : (⟨S64000000, .i1⟩ : BufTy).Contents (Elt F)) (D D' : (⟨S64000000, .f32⟩ : BufTy).Contents (Elt F))
    (h : ∀ p, mf p = 1#1 → D p = D' p) : t_main_v47 mf D = t_main_v47 mf D' := by
  unfold t_main_v47
  rw [v44_congr mf D D' h]

/-- The first list of atom numbers does not read the distances. -/
theorem v45_indep (mf : (⟨S64000000, .i1⟩ : BufTy).Contents (Elt F)) (D D' : (⟨S64000000, .f32⟩ : BufTy).Contents (Elt F)) :
    t_main_v45 mf D = t_main_v45 mf D' := rfl
/-- The second list of atom numbers does not read the distances. -/
theorem v46_indep (mf : (⟨S64000000, .i1⟩ : BufTy).Contents (Elt F)) (D D' : (⟨S64000000, .f32⟩ : BufTy).Contents (Elt F)) :
    t_main_v46 mf D = t_main_v46 mf D' := rfl
/-- The count of kept positions does not read the distances. -/
theorem v6_indep (mf : (⟨S64000000, .i1⟩ : BufTy).Contents (Elt F)) (D D' : (⟨S64000000, .f32⟩ : BufTy).Contents (Elt F)) :
    t_main_v6 mf D = t_main_v6 mf D' := rfl

end Cert.KernelIdeal.TailCongr

end
-- ==== Proof.RefHead.lean ====
/-
  The head of the reference, read per system.  The coordinates are 64 systems of 1000 atoms with 3 coordinates.  The
  reference squares them and sums over the coordinate axis (the squared norms), contracts the coordinate axis of the
  array with itself system by system (the inner products), spreads the norms along rows and along columns, and forms
  |x_i|² + |x_j|² − 2⟨x_i, x_j⟩; it then compares that with the cutoff and masks with the strict upper triangle.  Read at
  the extended reals, entry (s, i, j) of the distance array is the specification's `dist` of system `s`'s atoms, and
  the flag array is 1 exactly on the specification's kept pairs.  Nothing is distributed or cancelled: each sum
  comes out over the three coordinates in their order, with the factors in the order the specification writes them.
-/
import proofs.«164187_j65910568124749_1_alg».proof.Proof.ReferenceIdealTailDefs
import proofs.«164187_j65910568124749_1_alg».proof.Proof.DistSpec
import Idealize.ShloMosaic.Lib.IdealHost
import Idealize.ShloMosaic.Lib.Pipeline.Value
import Idealize.ShloMosaic.Lib.Affine

noncomputable section

namespace Cert.ReferenceIdeal.Head

open Cert.ReferenceIdeal Cert.ReferenceIdeal.Gen Cert.ReferenceIdeal.Tail
open Idealize.ShloMosaic Idealize.ShloMosaic.ValueIdx

/-- System `s` of the coordinate array, as atoms by coordinates. -/
def atomsOf (x : (⟨S64x1000x3, .f32⟩ : BufTy).Contents (Elt Ideal)) (s : Fin 64) : Fin 1000 → Fin 3 → EReal :=
  fun i d => x (ValueIdx.ix3 s i d)

/-! ## The squared norms -/

/-- The reference reduces the squares over the coordinate axis. -/
theorem redFact : S64x1000x3.Reduces [2] S64x1000 := by decide

/-- The squared norms: the reduce-add of the squares over the three coordinates, from the zero word, is the sum
    of the three squared coordinates, in the coordinates' order. -/
theorem v2_apply (x : (⟨S64x1000x3, .f32⟩ : BufTy).Contents (Elt Ideal)) (s : Fin 64) (i : Fin 1000) :
    h_main_v2 (F := Ideal) x (ix2 s i) = ∑ d : Fin 3, x (ix3 s i d) * x (ix3 s i d) := by
  unfold h_main_v2
  refine (Ideal.hostReduceAdd_single reducesTo_S64x1000x3_S64x1000_d2 redFact (h_main_v1 x) _ (ix2 s i)).trans ?_
  rw [show h_main_cst (F := Ideal) x (Shape.Idx.first h_S_) = 0 from Ideal.ofBits_zero_f32, zero_add]
  show (∑ k : Fin 3, h_main_v1 (F := Ideal) x (redFact.lift (ix2 s i) k)) = _
  refine Finset.sum_congr rfl fun d _ => ?_
  have e : redFact.lift (ix2 s i) d = ix3 s i d := by
    funext a; match a with | ⟨0, _⟩ => exact Fin.ext rfl | ⟨1, _⟩ => exact Fin.ext rfl | ⟨2, _⟩ => exact Fin.ext rfl
  rw [e]; rfl

/-! ## The inner products -/

/-- The printed contraction record, under a short name: batch axis 0 of both operands, contracting axis 2 of both. -/
abbrev D := dot_S64x1000x3_S64x1000x3_S64x1000x1000_2_2_1_1_0_0

/-- One axis is contracted … -/
theorem D_rank : D.contr.rank = 1 := rfl
/-- … the three coordinates. -/
theorem D_size : D.contr.size ⟨0, by rw [D_rank]; exact Nat.one_pos⟩ = 3 := rfl

/-- The left operand is read at (system, row, coordinate). -/
theorem D_lhsIdx (s : Fin 64) (i j : Fin 1000) (d : Fin 3) :
    D.lhsIdx (ix3 s i j) ((contrEquiv1 D 3 D_rank D_size).symm d) = ix3 s i d := by
  funext a
  match a with
  | ⟨0, _⟩ => exact Fin.ext rfl
  | ⟨1, _⟩ => exact Fin.ext rfl
  | ⟨2, _⟩ => exact Fin.ext ((D.lhsIdx_val_of_single (cl := 2) rfl _ _).trans (contrEquiv1_symm_val D 3 D_rank D_size d))

/-- The right operand is read at (system, column, coordinate). -/
theorem D_rhsIdx (s : Fin 64) (i j : Fin 1000) (d : Fin 3) :
    D.rhsIdx (ix3 s i j) ((contrEquiv1 D 3 D_rank D_size).symm d) = ix3 s j d := by
  funext a
  match a with
  | ⟨0, _⟩ => exact Fin.ext rfl
  | ⟨1, _⟩ => exact Fin.ext rfl
  | ⟨2, _⟩ => exact Fin.ext ((D.rhsIdx_val_of_single (cr := 2) rfl _ _).trans (contrEquiv1_symm_val D 3 D_rank D_size d))

/-- The inner products: the batched contraction over the coordinate axis is, per system, the sum over the three
    coordinates of the products, row's factor first. -/
theorem v3_apply (x : (⟨S64x1000x3, .f32⟩ : BufTy).Contents (Elt Ideal)) (s : Fin 64) (i j : Fin 1000) :
    h_main_v3 (F := Ideal) x (ix3 s i j) = ∑ d : Fin 3, x (ix3 s i d) * x (ix3 s j d) := by
  unfold h_main_v3
  refine (Ideal.dotGeneral_apply D none .single x x (ix3 s i j)).trans ?_
  rw [← Equiv.sum_comp (contrEquiv1 D 3 D_rank D_size).symm]
  refine Finset.sum_congr rfl fun d _ => ?_
  rw [D_lhsIdx, D_rhsIdx]

/-! ## The broadcasts, read at an index

Each is stated for an arbitrary operand `f`: which entry of the operand a broadcast reads does not depend on what the
operand holds. -/

/-- [64,1000] → [64,1000,1] on axes (0,1): entry (s, i, ·) reads (s, i). -/
theorem bcast_col_apply {α : Type} (f : S64x1000.Idx → α) (s : Fin 64) (i : Fin 1000) (u : Fin 1) :
    broadcastInDim S64x1000x1 ![0, 1] bcast_S64x1000_S64x1000x1_0_1 f (ix3 s i u) = f (ix2 s i) := by
  refine broadcastInDim_apply ![0, 1] bcast_S64x1000_S64x1000x1_0_1 f (ix3 s i u) (ix2 s i) ?_
  intro a
  match a with
  | ⟨0, _⟩ => show s.val = if (64 : ℕ) = 1 then 0 else s.val; exact (if_neg (by decide)).symm
  | ⟨1, _⟩ => show i.val = if (1000 : ℕ) = 1 then 0 else i.val; exact (if_neg (by decide)).symm

/-- [64,1000] → [64,1,1000] on axes (0,2): entry (s, ·, j) reads (s, j). -/
theorem bcast_row_apply {α : Type} (f : S64x1000.Idx → α) (s : Fin 64) (u : Fin 1) (j : Fin 1000) :
    broadcastInDim S64x1x1000 ![0, 2] bcast_S64x1000_S64x1x1000_0_2 f (ix3 s u j) = f (ix2 s j) := by
  refine broadcastInDim_apply ![0, 2] bcast_S64x1000_S64x1x1000_0_2 f (ix3 s u j) (ix2 s j) ?_
  intro a
  match a with
  | ⟨0, _⟩ => show s.val = if (64 : ℕ) = 1 then 0 else s.val; exact (if_neg (by decide)).symm
  | ⟨1, _⟩ => show j.val = if (1000 : ℕ) = 1 then 0 else j.val; exact (if_neg (by decide)).symm

/-- [64,1000,1] → [64,1000,1000]: entry (s, i, j) reads (s, i, 0). -/
theorem bcast_cols_apply {α : Type} (f : S64x1000x1.Idx → α) (s : Fin 64) (i j : Fin 1000) :
    broadcastInDim S64x1000x1000 ![0, 1, 2] bcast_S64x1000x1_S64x1000x1000_0_1_2 f (ix3 s i j) = f (ix3 s i (0 : Fin 1)) := by
  refine broadcastInDim_apply ![0, 1, 2] bcast_S64x1000x1_S64x1000x1000_0_1_2 f (ix3 s i j) (ix3 s i (0 : Fin 1)) ?_
  intro a
  match a with
  | ⟨0, _⟩ => show s.val = if (64 : ℕ) = 1 then 0 else s.val; exact (if_neg (by decide)).symm
  | ⟨1, _⟩ => show i.val = if (1000 : ℕ) = 1 then 0 else i.val; exact (if_neg (by decide)).symm
  | ⟨2, _⟩ => show (0 : ℕ) = if (1 : ℕ) = 1 then 0 else j.val; exact (if_pos rfl).symm

/-- [64,1,1000] → [64,1000,1000]: entry (s, i, j) reads (s, 0, j). -/
theorem bcast_rows_apply {α : Type} (f : S64x1x1000.Idx → α) (s : Fin 64) (i j : Fin 1000) :
    broadcastInDim S64x1000x1000 ![0, 1, 2] bcast_S64x1x1000_S64x1000x1000_0_1_2 f (ix3 s i j) = f (ix3 s (0 : Fin 1) j) := by
  refine broadcastInDim_apply ![0, 1, 2] bcast_S64x1x1000_S64x1000x1000_0_1_2 f (ix3 s i j) (ix3 s (0 : Fin 1) j) ?_
  intro a
  match a with
  | ⟨0, _⟩ => show s.val = if (64 : ℕ) = 1 then 0 else s.val; exact (if_neg (by decide)).symm
  | ⟨1, _⟩ => show (0 : ℕ) = if (1 : ℕ) = 1 then 0 else i.val; exact (if_pos rfl).symm
  | ⟨2, _⟩ => show j.val = if (1000 : ℕ) = 1 then 0 else j.val; exact (if_neg (by decide)).symm

/-- Spread along the columns, entry (i, j) reads row i's norm. -/
theorem v6_apply (x : (⟨S64x1000x3, .f32⟩ : BufTy).Contents (Elt Ideal)) (s : Fin 64) (i j : Fin 1000) :
    h_main_v6 (F := Ideal) x (ix3 s i j) = h_main_v2 (F := Ideal) x (ix2 s i) := by
  unfold h_main_v6 h_main_v4
  exact (bcast_cols_apply _ s i j).trans (bcast_col_apply _ s i 0)

/-- Spread along the rows, entry (i, j) reads column j's norm. -/
theorem v7_apply (x : (⟨S64x1000x3, .f32⟩ : BufTy).Contents (Elt Ideal)) (s : Fin 64) (i j : Fin 1000) :
    h_main_v7 (F := Ideal) x (ix3 s i j) = h_main_v2 (F := Ideal) x (ix2 s j) := by
  unfold h_main_v7 h_main_v5
  exact (bcast_rows_apply _ s i j).trans (bcast_row_apply _ s 0 j)

/-! ## The literals -/

/-- The splat of the literal 2 reads that word everywhere. -/
theorem v9_apply (x : (⟨S64x1000x3, .f32⟩ : BufTy).Contents (Elt Ideal)) (k : S64x1000x1000.Idx) :
    h_main_v9 (F := Ideal) x k = Cert.DistSpec.two := by
  unfold h_main_v9
  exact broadcastInDim_scalar_apply bcast_S_S64x1000x1000 (h_main_cst_0 x) k

/-- The splat of the cutoff reads that word everywhere. -/
theorem v14_apply (x : (⟨S64x1000x3, .f32⟩ : BufTy).Contents (Elt Ideal)) (k : S64x1000x1000.Idx) :
    h_main_v14 (F := Ideal) x k = Cert.DistSpec.cut := by
  unfold h_main_v14
  exact broadcastInDim_scalar_apply bcast_S_S64x1000x1000 (h_main_cst_1 x) k

/-! ## The squared distances -/

/-- THE DISTANCES: the reference's squared-distance array at (system, i, j) is the expanded form |x_i|² + |x_j|² − 2⟨x_i, x_j⟩
    of that system's atoms, grouped and ordered as the specification writes it. -/
theorem head_dist (x : (⟨S64x1000x3, .f32⟩ : BufTy).Contents (Elt Ideal)) (s : Fin 64) (i j : Fin 1000) :
    h_main_v11 (F := Ideal) x (ValueIdx.ix3 s i j) = Cert.DistSpec.dist (atomsOf x s) i j := by
  unfold h_main_v11 h_main_v8 h_main_v10
  show (h_main_v6 (F := Ideal) x (ix3 s i j) + h_main_v7 (F := Ideal) x (ix3 s i j))
      - h_main_v9 (F := Ideal) x (ix3 s i j) * h_main_v3 (F := Ideal) x (ix3 s i j) = _
  rw [v6_apply, v7_apply, v9_apply, v3_apply, v2_apply, v2_apply]
  rfl

/-! ## The flags -/

/-- A one-bit word made from a truth value is 1 exactly when the value is true. -/
theorem ofBool_one_iff {b : Bool} : BitVec.ofBool b = 1#1 ↔ b = true := by cases b <;> decide

/-- An ordered less-than of extended reals, at an entry. -/
theorem cmpf_olt_iff {S : Shape} (a b : FVec Ideal S .f32) (k : S.Idx) : cmpf .olt a b k = 1#1 ↔ a k < b k := by
  show BitVec.ofBool (decide (a k < b k)) = 1#1 ↔ _
  rw [ofBool_one_iff, decide_eq_true_iff]

/-- A one-bit conjunction, at an entry. -/
theorem andi_one_iff {S : Shape} (a b : IVec S 1) (k : S.Idx) : andi a b k = 1#1 ↔ a k = 1#1 ∧ b k = 1#1 :=
  IntOp.andi_eq_one

/-- A 32-bit word made from a number below 1000 has that number as its signed value. -/
theorem toInt_ofNat_lt (n : ℕ) (h : n < 1000) : (BitVec.ofNat 32 n).toInt = (n : ℤ) := by
  have hm : n % 2 ^ 32 = n := Nat.mod_eq_of_lt (by omega)
  rw [BitVec.toInt_eq_toNat_cond, BitVec.toNat_ofNat, hm, if_pos (by omega)]

/-- The zero splat of the triangle's offset. -/
theorem call0_v1_apply (x : (⟨S64x1000x3, .f32⟩ : BufTy).Contents (Elt Ideal)) (k : S1000x1000.Idx) : h_main_call0_v1 (F := Ideal) x k = 0#32 := by
  unfold h_main_call0_v1
  exact broadcastInDim_scalar_apply bcast_S_S1000x1000 (h_main_call0_c x) k

/-- The false splat. -/
theorem call0_v5_apply (x : (⟨S64x1000x3, .f32⟩ : BufTy).Contents (Elt Ideal)) (k : S1000x1000.Idx) : h_main_call0_v5 (F := Ideal) x k = 0#1 := by
  unfold h_main_call0_v5
  exact broadcastInDim_scalar_apply bcast_S_S1000x1000 (h_main_call0_c_0 x) k

/-- The true splat. -/
theorem v12_apply (x : (⟨S64x1000x3, .f32⟩ : BufTy).Contents (Elt Ideal)) (k : S1000x1000.Idx) : h_main_v12 (F := Ideal) x k = 1#1 := by
  unfold h_main_v12
  exact broadcastInDim_scalar_apply bcast_S_S1000x1000 (h_main_c x) k

/-- The triangle's comparison: row index plus zero at least the column index, as signed words. -/
theorem call0_v4_iff (x : (⟨S64x1000x3, .f32⟩ : BufTy).Contents (Elt Ideal)) (i j : Fin 1000) : h_main_call0_v4 (F := Ideal) x (ix2 i j) = 1#1 ↔ j.val ≤ i.val := by
  unfold h_main_call0_v4 h_main_call0_v2
  show IntOp.cmpi .sge (IntOp.addi (h_main_call0_v0 (F := Ideal) x (ix2 i j)) (h_main_call0_v1 (F := Ideal) x (ix2 i j)))
      (h_main_call0_v3 (F := Ideal) x (ix2 i j)) = 1#1 ↔ _
  rw [call0_v1_apply, IntOp.cmpi_sge]
  show (BitVec.ofNat 32 j.val).toInt ≤ (IntOp.addi (BitVec.ofNat 32 i.val) 0#32).toInt ↔ _
  rw [show IntOp.addi (BitVec.ofNat 32 i.val) 0#32 = BitVec.ofNat 32 i.val from BitVec.add_zero _,
    toInt_ofNat_lt _ i.isLt, toInt_ofNat_lt _ j.isLt]
  exact Int.ofNat_le

/-- THE TRIANGLE: false where the row is at or past the column, true elsewhere: 1 exactly when i < j. -/
theorem v13_iff (x : (⟨S64x1000x3, .f32⟩ : BufTy).Contents (Elt Ideal)) (i j : Fin 1000) : h_main_v13 (F := Ideal) x (ix2 i j) = 1#1 ↔ i.val < j.val := by
  unfold h_main_v13
  rw [select_apply, call0_v5_apply, v12_apply]
  unfold Scalar.select
  by_cases hc : h_main_call0_v4 (F := Ideal) x (ix2 i j) = 1
  · rw [if_pos hc]
    have hji : j.val ≤ i.val := (call0_v4_iff x i j).1 hc
    exact ⟨fun h => absurd h (by decide), fun h => absurd hji (by omega)⟩
  · rw [if_neg hc]
    have hji : ¬ j.val ≤ i.val := fun h => hc ((call0_v4_iff x i j).2 h)
    exact ⟨fun _ => by omega, fun _ => rfl⟩

/-- [1000,1000] → [1,1000,1000] on axes (1,2): entry (·, i, j) reads (i, j). -/
theorem bcast_lead_apply {α : Type} (f : S1000x1000.Idx → α) (u : Fin 1) (i j : Fin 1000) :
    broadcastInDim S1x1000x1000 ![1, 2] bcast_S1000x1000_S1x1000x1000_1_2 f (ix3 u i j) = f (ix2 i j) := by
  refine broadcastInDim_apply ![1, 2] bcast_S1000x1000_S1x1000x1000_1_2 f (ix3 u i j) (ix2 i j) ?_
  intro a
  match a with
  | ⟨0, _⟩ => show i.val = if (1000 : ℕ) = 1 then 0 else i.val; exact (if_neg (by decide)).symm
  | ⟨1, _⟩ => show j.val = if (1000 : ℕ) = 1 then 0 else j.val; exact (if_neg (by decide)).symm

/-- [1,1000,1000] → [64,1000,1000]: entry (s, i, j) reads (0, i, j). -/
theorem bcast_systems_apply {α : Type} (f : S1x1000x1000.Idx → α) (s : Fin 64) (i j : Fin 1000) :
    broadcastInDim S64x1000x1000 ![0, 1, 2] bcast_S1x1000x1000_S64x1000x1000_0_1_2 f (ix3 s i j) = f (ix3 (0 : Fin 1) i j) := by
  refine broadcastInDim_apply ![0, 1, 2] bcast_S1x1000x1000_S64x1000x1000_0_1_2 f (ix3 s i j) (ix3 (0 : Fin 1) i j) ?_
  intro a
  match a with
  | ⟨0, _⟩ => show (0 : ℕ) = if (1 : ℕ) = 1 then 0 else s.val; exact (if_pos rfl).symm
  | ⟨1, _⟩ => show i.val = if (1000 : ℕ) = 1 then 0 else i.val; exact (if_neg (by decide)).symm
  | ⟨2, _⟩ => show j.val = if (1000 : ℕ) = 1 then 0 else j.val; exact (if_neg (by decide)).symm

/-- Every system reads the one triangle. -/
theorem v17_apply (x : (⟨S64x1000x3, .f32⟩ : BufTy).Contents (Elt Ideal)) (s : Fin 64) (i j : Fin 1000) :
    h_main_v17 (F := Ideal) x (ix3 s i j) = h_main_v13 (F := Ideal) x (ix2 i j) := by
  unfold h_main_v17 h_main_v16
  exact (bcast_systems_apply _ s i j).trans (bcast_lead_apply _ 0 i j)

/-- THE FLAGS: the reference's flag array is 1 at (system, i, j) exactly when the specification keeps the pair: the
    squared distance under the cutoff, and i before j. -/
theorem head_keep (x : (⟨S64x1000x3, .f32⟩ : BufTy).Contents (Elt Ideal)) (s : Fin 64) (i j : Fin 1000) :
    h_main_v18 (F := Ideal) x (ValueIdx.ix3 s i j) = 1#1 ↔ Cert.DistSpec.keep (atomsOf x s) i j := by
  unfold h_main_v18
  refine (andi_one_iff _ _ _).trans ?_
  show _ ↔ (Cert.DistSpec.dist (atomsOf x s) i j < Cert.DistSpec.cut ∧ i.val < j.val)
  refine and_congr ?_ ?_
  · unfold h_main_v15
    refine (cmpf_olt_iff _ _ _).trans ?_
    rw [head_dist, v14_apply]
  · rw [v17_apply]
    exact v13_iff x i j

end Cert.ReferenceIdeal.Head

end
-- ==== Proof.Glue.lean ====
/-
  The two programs' flag arrays are equal, and their distance arrays agree wherever a flag is set.
  Both flatten a [64, 1000, 1000] array in row-major order, so flat position `p` is some (s, i, j) in both.  The kernel's
  array holds the squared distance where the pair (i, j) of system `s` is kept and the cutoff 25 elsewhere, and its flag is
  "the entry is below 25": set exactly at the kept pairs (25 is not below 25).  The reference's flag is "kept" itself, and
  its array is the squared distance everywhere.
-/
import proofs.«164187_j65910568124749_1_alg».proof.Proof.KernelIdealTailDefs
import proofs.«164187_j65910568124749_1_alg».proof.Proof.RefHead
import Idealize.ShloMosaic.Lib.ValueIdx

set_option maxRecDepth 16384

noncomputable section

namespace Cert.Glue

open Idealize.ShloMosaic Idealize.ShloMosaic.ValueIdx
open Cert.ReferenceIdeal.Head (atomsOf head_dist head_keep cmpf_olt_iff)

/-- A one-bit word is determined by whether it is 1. -/
theorem bit_ext (a b : BitVec 1) (h : a = 1#1 ↔ b = 1#1) : a = b := by
  rcases BitVec.eq_zero_or_eq_one a with ha | ha <;> rcases BitVec.eq_zero_or_eq_one b with hb | hb
  · rw [ha, hb]
  · exact absurd (h.mpr hb) (by rw [ha]; decide)
  · exact absurd (h.mp ha) (by rw [hb]; decide)
  · rw [ha, hb]

variable (A : (⟨Cert.KernelIdeal.S64x1000x1000, .f32⟩ : BufTy).Contents (Elt Ideal))
  (x : (⟨Cert.ReferenceIdeal.S64x1000x3, .f32⟩ : BufTy).Contents (Elt Ideal))

/-- The kernel's flag at a flat position: its entry there is below the cutoff. -/
theorem below_iff (D : (⟨Cert.KernelIdeal.S64000000, .f32⟩ : BufTy).Contents (Elt Ideal)) (p : Cert.KernelIdeal.S64000000.Idx) :
    Cert.KernelIdeal.Tail.below (F := Ideal) D p = 1#1 ↔ D p < Cert.DistSpec.cut := by
  unfold Cert.KernelIdeal.Tail.below
  exact cmpf_olt_iff _ _ p

variable (hk : ∀ (s : Fin 64) (i j : Fin 1000), Cert.DistSpec.keep (atomsOf x s) i j → A (ix3 s i j) = Cert.DistSpec.dist (atomsOf x s) i j)
  (hd : ∀ (s : Fin 64) (i j : Fin 1000), ¬ Cert.DistSpec.keep (atomsOf x s) i j → A (ix3 s i j) = Cert.DistSpec.cut)

include hk hd in
/-- The flags agree. -/
theorem flags_eq : Cert.KernelIdeal.Tail.below (F := Ideal) (Cert.KernelIdeal.Tail.flat A)
    = Cert.ReferenceIdeal.Tail.flatB (Cert.ReferenceIdeal.Tail.h_main_v18 (F := Ideal) x) := by
  funext p
  refine bit_ext _ _ ?_
  rw [below_iff]
  unfold Cert.KernelIdeal.Tail.flat Cert.ReferenceIdeal.Tail.flatB shapeCast
  obtain ⟨s, i, j, hq⟩ : ∃ (s : Fin 64) (i j : Fin 1000), Shape.reshapeEquiv Cert.KernelIdeal.Gen.shapeCasts_S64x1000x1000_S64000000 p = ix3 s i j :=
    ⟨_, _, _, eq_ix3 _⟩
  show A (Shape.reshapeEquiv _ p) < _ ↔ Cert.ReferenceIdeal.Tail.h_main_v18 x (Shape.reshapeEquiv _ p) = 1#1
  rw [hq, head_keep]
  by_cases h : Cert.DistSpec.keep (atomsOf x s) i j
  · rw [hk s i j h]; exact ⟨fun _ => h, fun _ => h.1⟩
  · rw [hd s i j h]; exact ⟨fun hlt => absurd hlt (lt_irrefl _), fun hh => absurd hh h⟩

include hk in
/-- Where a flag is set the two distance arrays agree. -/
theorem dist_agree (p : Cert.KernelIdeal.S64000000.Idx)
    (hp : Cert.ReferenceIdeal.Tail.flatB (Cert.ReferenceIdeal.Tail.h_main_v18 (F := Ideal) x) p = 1#1) :
    Cert.ReferenceIdeal.Tail.flat (Cert.ReferenceIdeal.Tail.h_main_v11 (F := Ideal) x) p = Cert.KernelIdeal.Tail.flat A p := by
  unfold Cert.KernelIdeal.Tail.flat Cert.ReferenceIdeal.Tail.flat shapeCast
  unfold Cert.ReferenceIdeal.Tail.flatB shapeCast at hp
  obtain ⟨s, i, j, hq⟩ : ∃ (s : Fin 64) (i j : Fin 1000), Shape.reshapeEquiv Cert.KernelIdeal.Gen.shapeCasts_S64x1000x1000_S64000000 p = ix3 s i j :=
    ⟨_, _, _, eq_ix3 _⟩
  have hp' : Cert.ReferenceIdeal.Tail.h_main_v18 x (Shape.reshapeEquiv Cert.KernelIdeal.Gen.shapeCasts_S64x1000x1000_S64000000 p) = 1#1 := hp
  rw [hq, head_keep] at hp'
  show Cert.ReferenceIdeal.Tail.h_main_v11 x (Shape.reshapeEquiv _ p) = A (Shape.reshapeEquiv _ p)
  rw [hq, head_dist, hk s i j hp']

end Cert.Glue

end
-- ==== Proof.Bridge.lean ====
/-
  The two runs' results are equal.
  The kernel's run ends with the region's output array `A` (entry by entry: the squared distance at a kept pair, 25 elsewhere)
  and each result at the later lines' definition applied to `A`'s flags ("below 25") and flattened entries.  The reference's
  run ends with each result at the same lines' definition applied to its own flags ("kept") and flattened squared distances.
  The flags are equal; the three integer results depend on nothing else; the float result fetches distances only at slots a
  kept pair was written to, where the two arrays agree.
-/
import proofs.«164187_j65910568124749_1_alg».proof.Proof.KernelIdealTail
import proofs.«164187_j65910568124749_1_alg».proof.Proof.KernelIdealBlocks
import proofs.«164187_j65910568124749_1_alg».proof.Proof.RefTail
import proofs.«164187_j65910568124749_1_alg».proof.Proof.TailSame
import proofs.«164187_j65910568124749_1_alg».proof.Proof.TailCongr
import proofs.«164187_j65910568124749_1_alg».proof.Proof.Glue

set_option maxRecDepth 16384

noncomputable section

namespace Cert.Bridge

open Idealize.ShloMosaic Idealize.ShloMosaic.TcCoe Idealize.SL.Sem Idealize.ShloMosaic.ValueIdx

namespace K
open Cert.KernelIdeal Cert.KernelIdeal.Gen Cert.KernelIdeal.GenP Cert.KernelIdeal.FrameH Cert.KernelIdeal.Tail Cert.KernelIdeal.Blocks

variable (m : (ℓ : Loc nD τ sig) → Buf (Elt Ideal) ℓ) (ρ : Dev nD → PrngReg)

/-- The region's output array after the run, on core `c`. -/
def arr (c : Dev nD) : (⟨S64x1000x1000, .f32⟩ : BufTy).Contents (Elt Ideal) := (dats m 0 c).arrAt 1 cfg0.N

/-- The flags and the flattened entries of it. -/
def D (c : Dev nD) : (⟨S64000000, .f32⟩ : BufTy).Contents (Elt Ideal) := flat (arr m c)
def mf (c : Dev nD) : (⟨S64000000, .i1⟩ : BufTy).Contents (Elt Ideal) := below (D m c)

/-- What the later lines start from at the region's output buffer: the output array. -/
theorem start_v1 (c : Dev nD) :
    Pipeline.withArrays (cfgs 0).spec c (V0 m c) (fun w => (dats m 0 c).arrAt w (cfgs 0).N) (Proc.devRef .tc main_v1) = arr m c :=
  Pipeline.withArrays_arr spec0 launch0.win.arr_inj c (V0 m c) (fun w => (dats m 0 c).arrAt w cfg0.N) 1

/-- The kernel's run, read at its four results and its three arguments. -/
theorem run : θ_run (defs (F := Ideal)) (onTc (τ := τ) (main (F := Ideal))) ⟨m, fun _ => 0, ρ⟩ (fun r => ∀ c : Dev nD,
      r.2.mem ((c.tc : Thread nD τ).loc main_v45) = t_main_v45 (mf m c) (D m c)
      ∧ r.2.mem ((c.tc : Thread nD τ).loc main_v46) = t_main_v46 (mf m c) (D m c)
      ∧ r.2.mem ((c.tc : Thread nD τ).loc main_v47) = t_main_v47 (mf m c) (D m c)
      ∧ r.2.mem ((c.tc : Thread nD τ).loc main_v6) = t_main_v6 (mf m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main (F := Ideal) m ρ)
  have hr := fun b hb => (h c).2 b hb
  refine ⟨?_, ?_, ?_, ?_, ?_, ?_, ?_⟩
  · refine (hr main_v45 (Pipeline.mem_restRefs_of main_v45 (by decide) (by decide))).trans ?_
    unfold Pipeline.afterTail₀
    rw [tail_v45, start_v1]; rfl
  · refine (hr main_v46 (Pipeline.mem_restRefs_of main_v46 (by decide) (by decide))).trans ?_
    unfold Pipeline.afterTail₀
    rw [tail_v46, start_v1]; rfl
  · refine (hr main_v47 (Pipeline.mem_restRefs_of main_v47 (by decide) (by decide))).trans ?_
    unfold Pipeline.afterTail₀
    rw [tail_v47, start_v1]; rfl
  · refine (hr main_v6 (Pipeline.mem_restRefs_of main_v6 (by decide) (by decide))).trans ?_
    unfold Pipeline.afterTail₀
    rw [tail_v6, start_v1]; rfl
  · exact (hr main_arg0 (Pipeline.mem_restRefs_of main_arg0 (by decide) (by decide))).trans (W_main_arg0 m (dats m) c)
  · exact (hr main_arg1 (Pipeline.mem_restRefs_of main_arg1 (by decide) (by decide))).trans (W_main_arg1 m (dats m) c)
  · exact (hr main_arg2 (Pipeline.mem_restRefs_of main_arg2 (by decide) (by decide))).trans (W_main_arg2 m (dats m) c)

end K

namespace R
open Cert.ReferenceIdeal Cert.ReferenceIdeal.Gen Cert.ReferenceIdeal.RefRun Cert.ReferenceIdeal.Tail Cert.ReferenceIdeal.RefTail

variable (m : (ℓ : Loc nD τ sig) → Buf (Elt Ideal) ℓ) (ρ : Dev nD → PrngReg)

/-- The coordinates as 64 systems, the flags and the flattened squared distances, from the launch contents on core `c`. -/
def x (c : Dev nD) : (⟨S64x1000x3, .f32⟩ : BufTy).Contents (Elt Ideal) := sysOf (m ((c.tc : Thread nD τ).loc main_arg0))
def mf (c : Dev nD) : (⟨S64000000, .i1⟩ : BufTy).Contents (Elt Ideal) := flatB (h_main_v18 (x m c))
def D (c : Dev nD) : (⟨S64000000, .f32⟩ : BufTy).Contents (Elt Ideal) := flat (h_main_v11 (x m c))

/-- The reference's run, read at its four results and its three arguments. -/
theorem run : θ_run (defs (F := Ideal)) (onTc (τ := τ) (main (F := Ideal))) ⟨m, fun _ => 0, ρ⟩ (fun r => ∀ c : Dev nD,
      r.2.mem ((c.tc : Thread nD τ).loc main_v61) = t_main_v61 (mf m c) (D m c)
      ∧ r.2.mem ((c.tc : Thread nD τ).loc main_v62) = t_main_v62 (mf m c) (D m c)
      ∧ r.2.mem ((c.tc : Thread nD τ).loc main_v63) = t_main_v63 (mf m c) (D m c)
      ∧ r.2.mem ((c.tc : Thread nD τ).loc main_v21) = t_main_v21 (mf m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_ops (F := Ideal) m ρ)
  refine ⟨(h c main_v61).trans (ref_v61 _), (h c main_v62).trans (ref_v62 _), (h c main_v63).trans (ref_v63 _),
    (h c main_v21).trans (ref_v21 _), (h c main_arg0).trans (after_arg0 _), (h c main_arg1).trans (after_arg1 _),
    (h c main_arg2).trans (after_arg2 _)⟩

end R

/-! ## The results agree -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))

include h0

/-- The coordinates the kernel's region finds are the reference's 64 systems. -/
theorem x_eq : (Cert.KernelIdeal.FrameH.V m c Cert.KernelIdeal.main_v0 : Cert.KernelIdeal.S64x1000x3.Idx → EReal) = R.x m' c := by
  rw [Cert.KernelIdeal.Blocks.V_main_v0]; unfold R.x Cert.ReferenceIdeal.Tail.sysOf; rw [h0]

theorem atoms_eq (s : Fin 64) : Cert.KernelIdeal.Blocks.sysAtoms m c s = Cert.ReferenceIdeal.Head.atomsOf (R.x m' c) s := by
  unfold Cert.KernelIdeal.Blocks.sysAtoms Cert.ReferenceIdeal.Head.atomsOf
  rw [x_eq m m' c h0]

theorem hk (s : Fin 64) (i j : Fin 1000) (h : Cert.DistSpec.keep (Cert.ReferenceIdeal.Head.atomsOf (R.x m' c) s) i j) :
    K.arr m c (ix3 s i j) = Cert.DistSpec.dist (Cert.ReferenceIdeal.Head.atomsOf (R.x m' c) s) i j := by
  rw [← atoms_eq m m' c h0 s] at h ⊢
  exact Cert.KernelIdeal.Blocks.arr_keep m c s i j h

theorem hd (s : Fin 64) (i j : Fin 1000) (h : ¬ Cert.DistSpec.keep (Cert.ReferenceIdeal.Head.atomsOf (R.x m' c) s) i j) :
    K.arr m c (ix3 s i j) = Cert.DistSpec.cut := by
  rw [← atoms_eq m m' c h0 s] at h
  exact Cert.KernelIdeal.Blocks.arr_drop m c s i j h

/-- The flags are the same flags. -/
theorem mf_eq : K.mf m c = R.mf m' c :=
  Cert.Glue.flags_eq (K.arr m c) (R.x m' c) (hk m m' c h0) (hd m m' c h0)

/-- Where a flag is set the flattened arrays agree. -/
theorem D_agree (p : Cert.KernelIdeal.S64000000.Idx) (hp : R.mf m' c p = 1#1) : R.D m' c p = K.D m c p :=
  Cert.Glue.dist_agree (K.arr m c) (R.x m' c) (hk m m' c h0) p hp

theorem res_v45 : Cert.ReferenceIdeal.Tail.t_main_v61 (R.mf m' c) (R.D m' c) = Cert.KernelIdeal.Tail.t_main_v45 (K.mf m c) (K.D m c) := by
  rw [Cert.TailSame.same_main_v45, mf_eq m m' c h0]; exact Cert.KernelIdeal.TailCongr.v45_indep _ _ _

theorem res_v46 : Cert.ReferenceIdeal.Tail.t_main_v62 (R.mf m' c) (R.D m' c) = Cert.KernelIdeal.Tail.t_main_v46 (K.mf m c) (K.D m c) := by
  rw [Cert.TailSame.same_main_v46, mf_eq m m' c h0]; exact Cert.KernelIdeal.TailCongr.v46_indep _ _ _

theorem res_v6 : Cert.ReferenceIdeal.Tail.t_main_v21 (R.mf m' c) (R.D m' c) = Cert.KernelIdeal.Tail.t_main_v6 (K.mf m c) (K.D m c) := by
  rw [Cert.TailSame.same_main_v6, mf_eq m m' c h0]; exact Cert.KernelIdeal.TailCongr.v6_indep _ _ _

theorem res_v47 : Cert.ReferenceIdeal.Tail.t_main_v63 (R.mf m' c) (R.D m' c) = Cert.KernelIdeal.Tail.t_main_v47 (K.mf m c) (K.D m c) := by
  rw [Cert.TailSame.same_main_v47, mf_eq m m' c h0]
  exact Cert.KernelIdeal.TailCongr.v47_congr _ _ _ (D_agree m m' c h0)

end Agree

end Cert.Bridge

end
-- ==== Proof.lean ====
/-
  The kernel computes, per system of 1000 atoms, the squared distances |x_i|² + |x_j|² − 2⟨x_i, x_j⟩ of all ordered pairs,
  keeps a pair when the value is below 25 and i < j, and stores the value at kept pairs and 25 elsewhere; the host lines after
  it re-derive the kept pairs as "stored value below 25", number them by a running count, scatter their positions into a list
  of 2200000 slots, decode the positions into atom numbers and fetch the stored values.  The reference computes the same
  squared distances and the same kept pairs on the host and runs the same later lines on them, fetching from the unmasked
  distances.  On the extended reals the two are equal with no condition on the inputs: the flags agree (25 is not below 25),
  the integer results depend on the flags alone, and a slot that is filled was filled by a kept pair's position, where the
  masked and the unmasked distances are the same number.
  The three frames: each program runs to the end without fault and leaves its arguments as launched.  The idealization
  rewrote nothing, so there is nothing to preserve.
-/
import proofs.«164187_j65910568124749_1_alg».proof.Defs
import proofs.«164187_j65910568124749_1_alg».proof.Proof.Gen.Kernel
import proofs.«164187_j65910568124749_1_alg».proof.Proof.Gen.KernelIdeal
import proofs.«164187_j65910568124749_1_alg».proof.Proof.Gen.ReferenceIdeal
import proofs.«164187_j65910568124749_1_alg».proof.Proof.Gen.Pre_finite_inputs
import proofs.«164187_j65910568124749_1_alg».proof.Proof.KernelFrame
import proofs.«164187_j65910568124749_1_alg».proof.Proof.KernelIdealFrame
import proofs.«164187_j65910568124749_1_alg».proof.Proof.RefRun
import proofs.«164187_j65910568124749_1_alg».proof.Proof.Bridge

noncomputable section

namespace Cert.Proof

open Idealize.ShloMosaic Idealize.SL.Sem

theorem frame_k : Cert.frame_Kernel := fun m g _ => Cert.Kernel.FrameH.frame m g
theorem frame_ki : Cert.frame_KernelIdeal := fun m g _ => Cert.KernelIdeal.FrameH.frame m g
theorem frame_ri : Cert.frame_ReferenceIdeal := fun m g _ => Cert.ReferenceIdeal.RefRun.frame m g

/-- Both idealized programs run, and the reference's four results are the kernel's. -/
theorem algebraic : Cert.algebraic_KernelIdeal_ReferenceIdeal := by
  intro m g m' g' _ hagree
  refine ⟨fun c => Cert.KernelIdeal.Tail.t_main_v45 (Cert.Bridge.K.mf m c) (Cert.Bridge.K.D m c),
    fun c => Cert.KernelIdeal.Tail.t_main_v46 (Cert.Bridge.K.mf m c) (Cert.Bridge.K.D m c),
    fun c => Cert.KernelIdeal.Tail.t_main_v47 (Cert.Bridge.K.mf m c) (Cert.Bridge.K.D m c),
    fun c => Cert.KernelIdeal.Tail.t_main_v6 (Cert.Bridge.K.mf m c) (Cert.Bridge.K.D m c),
    Cert.Bridge.K.run m g, ?_⟩
  refine (θ_run Cert.ReferenceIdeal.defs _ _).mono (fun r h c => ?_) (Cert.Bridge.R.run m' g')
  obtain ⟨h61, h62, h63, h21, ha0, ha1, ha2⟩ := h c
  exact ⟨h61.trans (Cert.Bridge.res_v45 m m' c (hagree c).1), h62.trans (Cert.Bridge.res_v46 m m' c (hagree c).1),
    h63.trans (Cert.Bridge.res_v47 m m' c (hagree c).1), h21.trans (Cert.Bridge.res_v6 m m' c (hagree c).1), ha0, ha1, ha2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
